-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x600000 : Shape := ⟨2, ![2, 600000]⟩
abbrev S600000x16 : Shape := ⟨2, ![600000, 16]⟩
abbrev S50000 : Shape := ⟨1, ![50000]⟩
abbrev S64x128 : Shape := ⟨2, ![64, 128]⟩
abbrev S128 : Shape := ⟨1, ![128]⟩
abbrev S16x128 : Shape := ⟨2, ![16, 128]⟩
abbrev S3x128x128 : Shape := ⟨3, ![3, 128, 128]⟩
abbrev S3x128 : Shape := ⟨2, ![3, 128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S128x2 .f32) (main_arg17 : FVec F S2 .f32) (main_v63 : IVec S_ 1) (main_v67 : IVec S_ 1) : IVec S_ 1 :=
  let main_v68 : IVec S_ 1 := andi main_v63 main_v67
  let main_v69 : FVec F S128x2 .f32 := Host.absf main_arg16
  let main_cst_26 : FVec F S_ .f32 := constant S_ .f32 0x7F800000#32
  let main_v70 : FVec F S128x2 .f32 := broadcastInDim S128x2 ![] bcast_S_S128x2 main_cst_26
  let main_v71 : IVec S128x2 1 := cmpf .olt main_v69 main_v70
  let main_c_27 : IVec S_ 1 := constantI S_ 1 1#1
  let main_v72 : IVec S_ 1 := (fun x v => Host.reduce IntOp.andi x v reducesTo_S128x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg13 : FVec F S3x128 .f32) (main_arg14 : FVec F S128x128 .f32) (main_arg15 : FVec F S128 .f32) (main_arg16 : FVec F S128x2 .f32) (main_arg17 : FVec F S2 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S3x128 .f32) (main_arg10 : FVec F S3x128x128 .f32) (main_arg11 : FVec F S3x128 .f32) (main_arg12 : FVec F S3x128 .f32) (main_arg13 : FVec F S3x128 .f32) (main_arg14 : FVec F S128x128 .f32) (main_arg15 : FVec F S128 .f32) (main_arg16 : FVec F S128x2 .f32) (main_arg17 : FVec F S2 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg10
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg13 main_arg14 main_arg15 main_arg16 main_arg17 main_v48 main_v49 main_v50

def fn_part1 {F : FTy → Type} [FloatOps F] (main_arg6 : FVec F S16x128 .f32) (main_arg7 : FVec F S128 .f32) (main_arg8 : FVec F S3x128x128 .f32) (main_arg9 : FVec F S3x128 .f32) (main_arg10 : FVec F S3x128x128 .f32) (main_arg11 : FVec F S3x128 .f32) (main_arg12 : FVec F S3x128 .f32) (main_arg13 : FVec F S3x128 .f32) (main_arg14 : FVec F S128x128 .f32) (main_arg15 : FVec F S128 .f32) (main_arg16 : FVec F S128x2 .f32) (main_arg17 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg6
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x64 .f32) (main_arg1 : IVec S2x600000 32) (main_arg2 : FVec F S600000x16 .f32) (main_arg3 : IVec S50000 32) (main_arg4 : FVec F S64x128 .f32) (main_arg5 : FVec F S128 .f32) (main_arg6 : FVec F S16x128 .f32) (main_arg7 : FVec F S128 .f32) (main_arg8 : FVec F S3x128x128 .f32) (main_arg9 : FVec F S3x128 .f32) (main_arg10 : FVec F S3x128x128 .f32) (main_arg11 : FVec F S3x128 .f32) (main_arg12 : FVec F S3x128 .f32) (main_arg13 : FVec F S3x128 .f32) (main_arg14 : FVec F S128x128 .f32) (main_arg15 : FVec F S128 .f32) (main_arg16 : FVec F S128x2 .f32) (main_arg17 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S600000x16 .f32 := Host.absf main_arg2
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S2x600000 : Shape := ⟨2, ![2, 600000]⟩
abbrev S600000x16 : Shape := ⟨2, ![600000, 16]⟩
abbrev S50000 : Shape := ⟨1, ![50000]⟩
abbrev S64x128 : Shape := ⟨2, ![64, 128]⟩
abbrev S128 : Shape := ⟨1, ![128]⟩
abbrev S16x128 : Shape := ⟨2, ![16, 128]⟩
abbrev S3x128x128 : Shape := ⟨3, ![3, 128, 128]⟩
abbrev S3x128 : Shape := ⟨2, ![3, 128]⟩
abbrev S128x128 : Shape := ⟨2, ![128, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S1x128 : Shape := ⟨2, ![1, 128]⟩
abbrev S50000x128 : Shape := ⟨2, ![50000, 128]⟩
abbrev S10000x64 : Shape := ⟨2, ![10000, 64]⟩
abbrev S10000x128 : Shape := ⟨2, ![10000, 128]⟩
abbrev S600000x128 : Shape := ⟨2, ![600000, 128]⟩
abbrev S8000x16 : Shape := ⟨2, ![8000, 16]⟩
abbrev S8000x128 : Shape := ⟨2, ![8000, 128]⟩
abbrev S_ : Shape := ⟨0, ![]⟩
abbrev S600000x1 : Shape := ⟨2, ![600000, 1]⟩
abbrev S1x128x128 : Shape := ⟨3, ![1, 128, 128]⟩
abbrev S10x8x128 : Shape := ⟨3, ![10, 8, 128]⟩
abbrev S5000x128 : Shape := ⟨2, ![5000, 128]⟩
abbrev S1x8x128 : Shape := ⟨3, ![1, 8, 128]⟩
abbrev S8x128 : Shape := ⟨2, ![8, 128]⟩
abbrev S256x128 : Shape := ⟨2, ![256, 128]⟩
abbrev S50000x1 : Shape := ⟨2, ![50000, 1]⟩
abbrev S256x2 : Shape := ⟨2, ![256, 2]⟩
abbrev S1x2 : Shape := ⟨2, ![1, 2]⟩

abbrev nBuf : Space → Nat
  | .hbm => 206
  | .vmem => 78
  | .smem => 0
  | _ => 0

abbrev hbmTy0_0 (i : Nat) : BufTy := match i % 128 with
  | 0 => ⟨S50000x64, .f32⟩
  | 1 => ⟨S2x600000, .i32⟩
  | 2 => ⟨S600000x16, .f32⟩
  | 3 => ⟨S50000, .i32⟩
  | 4 => ⟨S64x128, .f32⟩
  | 5 => ⟨S128, .f32⟩
  | 6 => ⟨S16x128, .f32⟩
  | 7 => ⟨S128, .f32⟩
  | 8 => ⟨S3x128x128, .f32⟩
  | 9 => ⟨S3x128, .f32⟩
  | 10 => ⟨S3x128x128, .f32⟩
  | 11 => ⟨S3x128, .f32⟩
  | 12 => ⟨S3x128, .f32⟩
  | 13 => ⟨S3x128, .f32⟩
  | 14 => ⟨S128x128, .f32⟩
  | 15 => ⟨S128, .f32⟩
  | 16 => ⟨S128x2, .f32⟩
  | 17 => ⟨S2, .f32⟩
  | 18 => ⟨S1x600000, .i32⟩
  | 19 => ⟨S600000, .i32⟩
  | 20 => ⟨S1x600000, .i32⟩
  | 21 => ⟨S600000, .i32⟩
  | 22 => ⟨S1x128, .f32⟩
  | 23 => ⟨S50000x128, .f32⟩
  | 24 => ⟨S1x128, .f32⟩
  | 25 => ⟨S600000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S600000x128, .f32⟩
  | 36 => ⟨S_, .f32⟩
  | 37 => ⟨S600000x128, .f32⟩
  | 38 => ⟨S600000x128, .f32⟩
  | 39 => ⟨S_, .f32⟩
  | 40 => ⟨S50000x128, .f32⟩
  | 41 => ⟨S600000x1, .i32⟩
  | 42 => ⟨S50000x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S1x128x128, .f32⟩
  | 49 => ⟨S128x128, .f32⟩
  | 50 => ⟨S1x128, .f32⟩
  | 51 => ⟨S128, .f32⟩
  | 52 => ⟨S1x128, .f32⟩
  | 53 => ⟨S50000x128, .f32⟩
  | 54 => ⟨S10x8x128, .f32⟩
  | 55 => ⟨S10x8x128, .f32⟩
  | 56 => ⟨S_, .f32⟩
  | 57 => ⟨S128, .f32⟩
  | 58 => ⟨S_, .f32⟩
  | 59 => ⟨S128, .f32⟩
  | 60 => ⟨S_, .f32⟩
  | 61 => ⟨S128, .f32⟩
  | 62 => ⟨S128, .f32⟩
  | 63 => ⟨S_, .f32⟩
  | 64 => ⟨S128, .f32⟩
  | 65 => ⟨S128, .f32⟩
  | 66 => ⟨S128, .f32⟩
  | 67 => ⟨S128, .f32⟩
  | 68 => ⟨S_, .f32⟩
  | 69 => ⟨S128, .f32⟩
  | 70 => ⟨S128, .f32⟩
  | 71 => ⟨S128, .f32⟩
  | 72 => ⟨S1x128, .f32⟩
  | 73 => ⟨S1x128, .f32⟩
  | 74 => ⟨S1x128, .f32⟩
  | 75 => ⟨S128, .f32⟩
  | 76 => ⟨S1x128, .f32⟩
  | 77 => ⟨S1x128, .f32⟩
  | 78 => ⟨S128, .f32⟩
  | 79 => ⟨S1x128, .f32⟩
  | 80 => ⟨S50000x128, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S600000x128, .f32⟩
  | 91 => ⟨S_, .f32⟩
  | 92 => ⟨S600000x128, .f32⟩
  | 93 => ⟨S600000x128, .f32⟩
  | 94 => ⟨S_, .f32⟩
  | 95 => ⟨S50000x128, .f32⟩
  | 96 => ⟨S600000x1, .i32⟩
  | 97 => ⟨S50000x128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S1x128x128, .f32⟩
  | 104 => ⟨S128x128, .f32⟩
  | 105 => ⟨S1x128, .f32⟩
  | 106 => ⟨S128, .f32⟩
  | 107 => ⟨S1x128, .f32⟩
  | 108 => ⟨S50000x128, .f32⟩
  | 109 => ⟨S10x8x128, .f32⟩
  | 110 => ⟨S10x8x128, .f32⟩
  | 111 => ⟨S_, .f32⟩
  | 112 => ⟨S128, .f32⟩
  | 113 => ⟨S_, .f32⟩
  | 114 => ⟨S128, .f32⟩
  | 115 => ⟨S_, .f32⟩
  | 116 => ⟨S128, .f32⟩
  | 117 => ⟨S128, .f32⟩
  | 118 => ⟨S_, .f32⟩
  | 119 => ⟨S128, .f32⟩
  | 120 => ⟨S128, .f32⟩
  | 121 => ⟨S128, .f32⟩
  | 122 => ⟨S128, .f32⟩
  | 123 => ⟨S_, .f32⟩
  | 124 => ⟨S128, .f32⟩
  | 125 => ⟨S128, .f32⟩
  | 126 => ⟨S128, .f32⟩
  | 127 => ⟨S1x128, .f32⟩
  | _ => ⟨S50000x64, .f32⟩

abbrev hbmTy0_1 (i : Nat) : BufTy := match i % 128 with
  | 0 => ⟨S1x128, .f32⟩
  | 1 => ⟨S1x128, .f32⟩
  | 2 => ⟨S128, .f32⟩
  | 3 => ⟨S1x128, .f32⟩
  | 4 => ⟨S1x128, .f32⟩
  | 5 => ⟨S128, .f32⟩
  | 6 => ⟨S1x128, .f32⟩
  | 7 => ⟨S50000x128, .f32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000x128, .f32⟩
  | 17 => ⟨S600000x128, .f32⟩
  | 18 => ⟨S_, .f32⟩
  | 19 => ⟨S600000x128, .f32⟩
  | 20 => ⟨S600000x128, .f32⟩
  | 21 => ⟨S_, .f32⟩
  | 22 => ⟨S50000x128, .f32⟩
  | 23 => ⟨S600000x1, .i32⟩
  | 24 => ⟨S50000x128, .f32⟩
  | 25 => ⟨S1x128x128, .f32⟩
  | 26 => ⟨S128x128, .f32⟩
  | 27 => ⟨S1x128, .f32⟩
  | 28 => ⟨S128, .f32⟩
  | 29 => ⟨S1x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S50000x128, .f32⟩
  | 36 => ⟨S10x8x128, .f32⟩
  | 37 => ⟨S10x8x128, .f32⟩
  | 38 => ⟨S_, .f32⟩
  | 39 => ⟨S128, .f32⟩
  | 40 => ⟨S_, .f32⟩
  | 41 => ⟨S128, .f32⟩
  | 42 => ⟨S_, .f32⟩
  | 43 => ⟨S128, .f32⟩
  | 44 => ⟨S128, .f32⟩
  | 45 => ⟨S_, .f32⟩
  | 46 => ⟨S128, .f32⟩
  | 47 => ⟨S128, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S1x128, .f32⟩
  | 55 => ⟨S1x128, .f32⟩
  | 56 => ⟨S1x128, .f32⟩
  | 57 => ⟨S128, .f32⟩
  | 58 => ⟨S1x128, .f32⟩
  | 59 => ⟨S1x128, .f32⟩
  | 60 => ⟨S128, .f32⟩
  | 61 => ⟨S1x128, .f32⟩
  | 62 => ⟨S50000x128, .f32⟩
  | 63 => ⟨S_, .f32⟩
  | 64 => ⟨S256x128, .f32⟩
  | 65 => ⟨S50000x1, .i32⟩
  | 66 => ⟨S256x128, .f32⟩
  | 67 => ⟨S256x128, .f32⟩
  | 68 => ⟨S1x128, .f32⟩
  | 69 => ⟨S256x128, .f32⟩
  | 70 => ⟨S256x128, .f32⟩
  | 71 => ⟨S_, .f32⟩
  | 72 => ⟨S256x128, .f32⟩
  | 73 => ⟨S256x128, .f32⟩
  | 74 => ⟨S256x2, .f32⟩
  | 75 => ⟨S1x2, .f32⟩
  | 76 => ⟨S256x2, .f32⟩
  | 77 => ⟨S256x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S8000x16, .f32⟩
  | .local _ .vmem, ⟨7, _⟩ => ⟨S8000x16, .f32⟩
  | .local _ .vmem, ⟨8, _⟩ => ⟨S16x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1x8x128, .f32⟩
  | .local _ .vmem, ⟨23, _⟩ => ⟨S1x8x128, .f32⟩
  | .local _ .vmem, ⟨24, _⟩ => ⟨S1x8x128, .f32⟩
  | .local _ .vmem, ⟨25, _⟩ => ⟨S1x8x128, .f32⟩
  | .local _ .vmem, ⟨26, _⟩ => ⟨S10000x128, .f32⟩
  | .local _ .vmem, ⟨27, _⟩ => ⟨S10000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S10000x128, .f32⟩
  | .local _ .vmem, ⟨33, _⟩ => ⟨S10000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x8x128, .f32⟩
  | .local _ .vmem, ⟨45, _⟩ => ⟨S1x8x128, .f32⟩
  | .local _ .vmem, ⟨46, _⟩ => ⟨S1x8x128, .f32⟩
  | .local _ .vmem, ⟨47, _⟩ => ⟨S1x8x128, .f32⟩
  | .local _ .vmem, ⟨48, _⟩ => ⟨S10000x128, .f32⟩
  | .local _ .vmem, ⟨49, _⟩ => ⟨S10000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S10000x128, .f32⟩
  | .local _ .vmem, ⟨55, _⟩ => ⟨S10000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128x128, .f32⟩
  | .local _ .vmem, ⟨61, _⟩ => ⟨S1x128, .f32⟩
  | .local _ .vmem, ⟨62, _⟩ => ⟨S128x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S1x8x128, .f32⟩
  | .local _ .vmem, ⟨67, _⟩ => ⟨S1x8x128, .f32⟩
  | .local _ .vmem, ⟨68, _⟩ => ⟨S1x8x128, .f32⟩
  | .local _ .vmem, ⟨69, _⟩ => ⟨S1x8x128, .f32⟩
  | .local _ .vmem, ⟨70, _⟩ => ⟨S10000x128, .f32⟩
  | .local _ .vmem, ⟨71, _⟩ => ⟨S10000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S10000x128, .f32⟩
  | .local _ .vmem, ⟨77, _⟩ => ⟨S10000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30_0 : Ref sig .tc := ⟨.hbm, 53, rfl⟩
abbrev main_v30_1 : Ref sig .tc := ⟨.hbm, 54, rfl⟩
abbrev main_v30_2 : Ref sig .tc := ⟨.hbm, 55, rfl⟩
abbrev main_cst_1 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩
abbrev main_cst_3 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_6 : Ref sig .tc := ⟨.hbm, 81, rfl⟩
abbrev main_v51 : Ref sig .tc := ⟨.hbm, 82, rfl⟩
abbrev main_v52 : Ref sig .tc := ⟨.hbm, 83, rfl⟩
abbrev main_c_7 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call1_cst : Ref sig .tc := ⟨.hbm, 91, rfl⟩
abbrev main_call1_v0 : Ref sig .tc := ⟨.hbm, 92, rfl⟩
abbrev main_v59 : Ref sig .tc := ⟨.hbm, 93, rfl⟩
abbrev main_cst_8 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73_0 : Ref sig .tc := ⟨.hbm, 108, rfl⟩
abbrev main_v73_1 : Ref sig .tc := ⟨.hbm, 109, rfl⟩
abbrev main_v73_2 : Ref sig .tc := ⟨.hbm, 110, rfl⟩
abbrev main_cst_9 : Ref sig .tc := ⟨.hbm, 111, rfl⟩
abbrev main_v74 : Ref sig .tc := ⟨.hbm, 112, rfl⟩
abbrev main_cst_10 : Ref sig .tc := ⟨.hbm, 113, rfl⟩
abbrev main_v75 : Ref sig .tc := ⟨.hbm, 114, rfl⟩
abbrev main_cst_11 : Ref sig .tc := ⟨.hbm, 115, rfl⟩
abbrev main_v76 : Ref sig .tc := ⟨.hbm, 116, rfl⟩
abbrev main_v77 : Ref sig .tc := ⟨.hbm, 117, rfl⟩
abbrev main_cst_12 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_13 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_14 : Ref sig .tc := ⟨.hbm, 136, rfl⟩
abbrev main_v94 : Ref sig .tc := ⟨.hbm, 137, rfl⟩
abbrev main_v95 : Ref sig .tc := ⟨.hbm, 138, rfl⟩
abbrev main_c_15 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_call2_cst : Ref sig .tc := ⟨.hbm, 146, rfl⟩
abbrev main_call2_v0 : Ref sig .tc := ⟨.hbm, 147, rfl⟩
abbrev main_v102 : Ref sig .tc := ⟨.hbm, 148, rfl⟩
abbrev main_cst_16 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116_0 : Ref sig .tc := ⟨.hbm, 163, rfl⟩
abbrev main_v116_1 : Ref sig .tc := ⟨.hbm, 164, rfl⟩
abbrev main_v116_2 : Ref sig .tc := ⟨.hbm, 165, rfl⟩
abbrev main_cst_17 : Ref sig .tc := ⟨.hbm, 166, rfl⟩
abbrev main_v117 : Ref sig .tc := ⟨.hbm, 167, rfl⟩
abbrev main_cst_18 : Ref sig .tc := ⟨.hbm, 168, rfl⟩
abbrev main_v118 : Ref sig .tc := ⟨.hbm, 169, rfl⟩
abbrev main_cst_19 : Ref sig .tc := ⟨.hbm, 170, rfl⟩
abbrev main_v119 : Ref sig .tc := ⟨.hbm, 171, rfl⟩
abbrev main_v120 : Ref sig .tc := ⟨.hbm, 172, rfl⟩
abbrev main_cst_20 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_21 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_22 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_call3_cst : Ref sig .tc := ⟨.hbm, 199, rfl⟩
abbrev main_call3_v0 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg8_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc4_stg7_0 : Ref sig .tc := ⟨.vmem, 44, rfl⟩
abbrev cc4_stg7_1 : Ref sig .tc := ⟨.vmem, 45, rfl⟩
abbrev cc4_stg8_0 : Ref sig .tc := ⟨.vmem, 46, rfl⟩
abbrev cc4_stg8_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg6_0 : Ref sig .tc := ⟨.vmem, 64, rfl⟩
abbrev cc6_stg6_1 : Ref sig .tc := ⟨.vmem, 65, rfl⟩
abbrev cc6_stg7_0 : Ref sig .tc := ⟨.vmem, 66, rfl⟩
abbrev cc6_stg7_1 : Ref sig .tc := ⟨.vmem, 67, rfl⟩
abbrev cc6_stg8_0 : Ref sig .tc := ⟨.vmem, 68, rfl⟩
abbrev cc6_stg8_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg4_0 : Ref sig .tc := ⟨.vmem, 75, rfl⟩
abbrev cc7_stg5_0 : Ref sig .tc := ⟨.vmem, 76, rfl⟩
abbrev cc7_stg5_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc2_sem7_0 : DmaSem sig := 22
abbrev cc2_sem7_1 : DmaSem sig := 23
abbrev cc2_sem8_0 : DmaSem sig := 24
abbrev cc2_sem8_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem6_1 : DmaSem sig := 43
abbrev cc4_sem7_0 : DmaSem sig := 44
abbrev cc4_sem7_1 : DmaSem sig := 45
abbrev cc4_sem8_0 : DmaSem sig := 46
abbrev cc4_sem8_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem6_0 : DmaSem sig := 64
abbrev cc6_sem6_1 : DmaSem sig := 65
abbrev cc6_sem7_0 : DmaSem sig := 66
abbrev cc6_sem7_1 : DmaSem sig := 67
abbrev cc6_sem8_0 : DmaSem sig := 68
abbrev cc6_sem8_1 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem5_1 : DmaSem sig := 77

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x8x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1x8x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1x8x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  inb_S8000x16_S8000x16_0_0 : ∀ a, (![0, 0] : Fin 2 → Nat) a + S8000x16.size a ≤ S8000x16.size a
  h_S8000x16 : 0 < S8000x16.numel
  inb_S16x128_S16x128_0_0 : ∀ a, (![0, 0] : Fin 2 → Nat) a + S16x128.size a ≤ S16x128.size a
  h_S16x128 : 0 < S16x128.numel
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  iota_S8x128_d0_w32 : S8x128.Iotas .tc 32 [0]
  natLt_1_32 : 1 < 32
  broadcasts_S1x128_S8x128 : S1x128.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  reducesTo_S10x8x128_S128_d0_1 : S10x8x128.ReducesTo [0, 1] S128
  h_S_ : 0 < S_.numel
  bcast_S_S128 : S_.BroadcastsInDim S128 (![] : Fin 0 → Fin S128.rank)
  shapeCasts_S10000x128_S10000x128 : S10000x128.ShapeCasts S10000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  dot_S10000x64_S64x128_S10000x128_1_0_0_1_n_n_wf : DotDims.WF S10000x64 S64x128 S10000x128 [1] [0] [0] [1] [] []
  dot_S8000x16_S16x128_S8000x128_1_0_0_1_n_n_wf : DotDims.WF S8000x16 S16x128 S8000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S256x128_S50000x1_S50000x128_1_0_0_1_wf : ScatterDims.WF S256x128 S50000x1 S50000x128 [1] [0] [0] 1
  dot_S256x128_S128x128_S256x128_1_0_0_1_n_n_wf : DotDims.WF S256x128 S128x128 S256x128 [1] [0] [0] [1] [] []
  dot_S256x128_S128x2_S256x2_1_0_0_1_n_n_wf : DotDims.WF S256x128 S128x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S600000x16.size a
  hwx1_0 : ∀ i : grid1.Coords, EltTy.bits .f32 = 32 ∨ (Rect.block (s := S600000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S600000x128.size a
  hwx1_3 : ∀ i : grid1.Coords, EltTy.bits .f32 = 32 ∨ (Rect.block (s := S600000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x8x128.size a ≤ S10x8x128.size a
  hwx2_7 : ∀ i : grid2.Coords, EltTy.bits .f32 = 32 ∨ (Rect.block (s := S10x8x128) S1x8x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x8x128.size a ≤ S10x8x128.size a
  hwx2_8 : ∀ i : grid2.Coords, EltTy.bits .f32 = 32 ∨ (Rect.block (s := S10x8x128) S1x8x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x8x128.size a ≤ S10x8x128.size a
  hwx4_7 : ∀ i : grid4.Coords, EltTy.bits .f32 = 32 ∨ (Rect.block (s := S10x8x128) S1x8x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x8x128.size a ≤ S10x8x128.size a
  hwx4_8 : ∀ i : grid4.Coords, EltTy.bits .f32 = 32 ∨ (Rect.block (s := S10x8x128) S1x8x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S50000x128.size a
  hwx5_5 : ∀ i : grid5.Coords, EltTy.bits .f32 = 32 ∨ (Rect.block (s := S50000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1x8x128.size a ≤ S10x8x128.size a
  hwx6_7 : ∀ i : grid6.Coords, EltTy.bits .f32 = 32 ∨ (Rect.block (s := S10x8x128) S1x8x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1x8x128.size a ≤ S10x8x128.size a
  hwx6_8 : ∀ i : grid6.Coords, EltTy.bits .f32 = 32 ∨ (Rect.block (s := S10x8x128) S1x8x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x128.size a ≤ S50000x128.size a
  hwx7_5 : ∀ i : grid7.Coords, EltTy.bits .f32 = 32 ∨ (Rect.block (s := S50000x128) S10000x128.size (cc7_transform_5 i) (hinb7_5 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x2_S256x2_1_0_0_1_n_n : DotDims S256x128 S128x2 S256x2 where
  lhsContracting := [1]
  rhsContracting := [0]
  lhsNonContracting := [0]
  rhsNonContracting := [1]
  lhsBatch := []
  rhsBatch := []
  wf := dot_S256x128_S128x2_S256x2_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v30_1) S1x8x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v30_2) S1x8x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v30_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v50) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v73_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v73_1) S1x8x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v73_2) S1x8x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v73_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v93) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v105) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v107) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v110) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v112) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v115) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v116_0) S5000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v116_1) S1x8x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v116_2) S1x8x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v116_0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v128) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v129) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v132) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v135) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v136) S10000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x600000 : Shape := ⟨2, ![2, 600000]⟩
abbrev S600000x16 : Shape := ⟨2, ![600000, 16]⟩
abbrev S50000 : Shape := ⟨1, ![50000]⟩
abbrev S64x128 : Shape := ⟨2, ![64, 128]⟩
abbrev S128 : Shape := ⟨1, ![128]⟩
abbrev S16x128 : Shape := ⟨2, ![16, 128]⟩
abbrev S3x128x128 : Shape := ⟨3, ![3, 128, 128]⟩
abbrev S3x128 : Shape := ⟨2, ![3, 128]⟩
abbrev S128x128 : Shape := ⟨2, ![128, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S50000x128 : Shape := ⟨2, ![50000, 128]⟩
abbrev S1x128 : Shape := ⟨2, ![1, 128]⟩
abbrev S600000x128 : Shape := ⟨2, ![600000, 128]⟩
abbrev S_ : Shape := ⟨0, ![]⟩
abbrev S600000x1 : Shape := ⟨2, ![600000, 1]⟩
abbrev S1x128x128 : Shape := ⟨3, ![1, 128, 128]⟩
abbrev S256x128 : Shape := ⟨2, ![256, 128]⟩
abbrev S50000x1 : Shape := ⟨2, ![50000, 1]⟩
abbrev S256x2 : Shape := ⟨2, ![256, 2]⟩
abbrev S1x2 : Shape := ⟨2, ![1, 2]⟩

abbrev nBuf : Space → Nat
  | .hbm => 309
  | .vmem => 0
  | .smem => 0
  | _ => 0

abbrev hbmTy0_0 (i : Nat) : BufTy := match i % 128 with
  | 0 => ⟨S50000x64, .f32⟩
  | 1 => ⟨S2x600000, .i32⟩
  | 2 => ⟨S600000x16, .f32⟩
  | 3 => ⟨S50000, .i32⟩
  | 4 => ⟨S64x128, .f32⟩
  | 5 => ⟨S128, .f32⟩
  | 6 => ⟨S16x128, .f32⟩
  | 7 => ⟨S128, .f32⟩
  | 8 => ⟨S3x128x128, .f32⟩
  | 9 => ⟨S3x128, .f32⟩
  | 10 => ⟨S3x128x128, .f32⟩
  | 11 => ⟨S3x128, .f32⟩
  | 12 => ⟨S3x128, .f32⟩
  | 13 => ⟨S3x128, .f32⟩
  | 14 => ⟨S128x128, .f32⟩
  | 15 => ⟨S128, .f32⟩
  | 16 => ⟨S128x2, .f32⟩
  | 17 => ⟨S2, .f32⟩
  | 18 => ⟨S1x600000, .i32⟩
  | 19 => ⟨S600000, .i32⟩
  | 20 => ⟨S1x600000, .i32⟩
  | 21 => ⟨S600000, .i32⟩
  | 22 => ⟨S50000x128, .f32⟩
  | 23 => ⟨S1x128, .f32⟩
  | 24 => ⟨S50000x128, .f32⟩
  | 25 => ⟨S50000x128, .f32⟩
  | 26 => ⟨S600000x128, .f32⟩
  | 27 => ⟨S1x128, .f32⟩
  | 28 => ⟨S600000x128, .f32⟩
  | 29 => ⟨S600000x128, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .f32⟩
  | 39 => ⟨S600000x128, .f32⟩
  | 40 => ⟨S_, .f32⟩
  | 41 => ⟨S600000x128, .f32⟩
  | 42 => ⟨S600000x128, .f32⟩
  | 43 => ⟨S_, .f32⟩
  | 44 => ⟨S50000x128, .f32⟩
  | 45 => ⟨S600000x1, .i32⟩
  | 46 => ⟨S50000x128, .f32⟩
  | 47 => ⟨S50000x128, .f32⟩
  | 48 => ⟨S1x128x128, .f32⟩
  | 49 => ⟨S128x128, .f32⟩
  | 50 => ⟨S50000x128, .f32⟩
  | 51 => ⟨S1x128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S1x128x128, .f32⟩
  | 60 => ⟨S128x128, .f32⟩
  | 61 => ⟨S50000x128, .f32⟩
  | 62 => ⟨S1x128, .f32⟩
  | 63 => ⟨S128, .f32⟩
  | 64 => ⟨S1x128, .f32⟩
  | 65 => ⟨S50000x128, .f32⟩
  | 66 => ⟨S50000x128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S128, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S600000x128, .f32⟩
  | _ => ⟨S50000x64, .f32⟩

abbrev hbmTy0_1 (i : Nat) : BufTy := match i % 128 with
  | 0 => ⟨S_, .f32⟩
  | 1 => ⟨S600000x128, .f32⟩
  | 2 => ⟨S600000x128, .f32⟩
  | 3 => ⟨S_, .f32⟩
  | 4 => ⟨S50000x128, .f32⟩
  | 5 => ⟨S600000x1, .i32⟩
  | 6 => ⟨S50000x128, .f32⟩
  | 7 => ⟨S50000x128, .f32⟩
  | 8 => ⟨S1x128x128, .f32⟩
  | 9 => ⟨S128x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S1x128x128, .f32⟩
  | 20 => ⟨S128x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S128, .f32⟩
  | 29 => ⟨S_, .f32⟩
  | 30 => ⟨S128, .f32⟩
  | 31 => ⟨S128, .f32⟩
  | 32 => ⟨S_, .i32⟩
  | 33 => ⟨S_, .f32⟩
  | 34 => ⟨S128, .f32⟩
  | 35 => ⟨S1x128, .f32⟩
  | 36 => ⟨S_, .f32⟩
  | 37 => ⟨S1x128, .f32⟩
  | 38 => ⟨S1x128, .f32⟩
  | 39 => ⟨S50000x128, .f32⟩
  | 40 => ⟨S50000x128, .f32⟩
  | 41 => ⟨S50000x128, .f32⟩
  | 42 => ⟨S_, .f32⟩
  | 43 => ⟨S_, .f32⟩
  | 44 => ⟨S_, .f32⟩
  | 45 => ⟨S_, .f32⟩
  | 46 => ⟨S128, .f32⟩
  | 47 => ⟨S128, .f32⟩
  | 48 => ⟨S128, .f32⟩
  | 49 => ⟨S_, .f32⟩
  | 50 => ⟨S_, .i1⟩
  | 51 => ⟨S_, .f32⟩
  | 52 => ⟨S_, .f32⟩
  | 53 => ⟨S128, .f32⟩
  | 54 => ⟨S128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S600000x128, .f32⟩
  | 88 => ⟨S_, .f32⟩
  | 89 => ⟨S600000x128, .f32⟩
  | 90 => ⟨S600000x128, .f32⟩
  | 91 => ⟨S_, .f32⟩
  | 92 => ⟨S50000x128, .f32⟩
  | 93 => ⟨S600000x1, .i32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S1x128x128, .f32⟩
  | 108 => ⟨S128x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S50000x128, .f32⟩
  | _ => ⟨S50000x64, .f32⟩

abbrev hbmTy0_2 (i : Nat) : BufTy := match i % 128 with
  | 0 => ⟨S50000x128, .f32⟩
  | 1 => ⟨S50000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S128, .f32⟩
  | 25 => ⟨S128, .f32⟩
  | 26 => ⟨S128, .f32⟩
  | 27 => ⟨S1x128, .f32⟩
  | 28 => ⟨S50000x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .f32⟩
  | 39 => ⟨S256x128, .f32⟩
  | 40 => ⟨S50000x1, .i32⟩
  | 41 => ⟨S256x128, .f32⟩
  | 42 => ⟨S256x128, .f32⟩
  | 43 => ⟨S1x128, .f32⟩
  | 44 => ⟨S256x128, .f32⟩
  | 45 => ⟨S256x128, .f32⟩
  | 46 => ⟨S_, .f32⟩
  | 47 => ⟨S256x128, .f32⟩
  | 48 => ⟨S256x128, .f32⟩
  | 49 => ⟨S256x2, .f32⟩
  | 50 => ⟨S1x2, .f32⟩
  | 51 => ⟨S256x2, .f32⟩
  | 52 => ⟨S256x2, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_cst : Ref sig .tc := ⟨.hbm, 56, rfl⟩
abbrev main_call1_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_1 : Ref sig .tc := ⟨.hbm, 67, rfl⟩
abbrev main_v42 : Ref sig .tc := ⟨.hbm, 68, rfl⟩
abbrev main_cst_2 : Ref sig .tc := ⟨.hbm, 69, rfl⟩
abbrev main_v43 : Ref sig .tc := ⟨.hbm, 70, rfl⟩
abbrev main_v44 : Ref sig .tc := ⟨.hbm, 71, rfl⟩
abbrev main_c_3 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_cst_4 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_call3_cst : Ref sig .tc := ⟨.hbm, 115, rfl⟩
abbrev main_call3_v0 : Ref sig .tc := ⟨.hbm, 116, rfl⟩
abbrev main_v65 : Ref sig .tc := ⟨.hbm, 117, rfl⟩
abbrev main_c_5 : Ref sig .tc := ⟨.hbm, 118, rfl⟩
abbrev main_v66 : Ref sig .tc := ⟨.hbm, 119, rfl⟩
abbrev main_v67 : Ref sig .tc := ⟨.hbm, 120, rfl⟩
abbrev main_c_6 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_call4_cst : Ref sig .tc := ⟨.hbm, 128, rfl⟩
abbrev main_call4_v0 : Ref sig .tc := ⟨.hbm, 129, rfl⟩
abbrev main_v74 : Ref sig .tc := ⟨.hbm, 130, rfl⟩
abbrev main_cst_7 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_call5_cst : Ref sig .tc := ⟨.hbm, 144, rfl⟩
abbrev main_call5_v0 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_8 : Ref sig .tc := ⟨.hbm, 155, rfl⟩
abbrev main_v96 : Ref sig .tc := ⟨.hbm, 156, rfl⟩
abbrev main_cst_9 : Ref sig .tc := ⟨.hbm, 157, rfl⟩
abbrev main_v97 : Ref sig .tc := ⟨.hbm, 158, rfl⟩
abbrev main_v98 : Ref sig .tc := ⟨.hbm, 159, rfl⟩
abbrev main_c_10 : Ref sig .tc := ⟨.hbm, 160, rfl⟩
abbrev main_call6_cst : Ref sig .tc := ⟨.hbm, 161, rfl⟩
abbrev main_call6_v0 : Ref sig .tc := ⟨.hbm, 162, rfl⟩
abbrev main_call6_v1 : Ref sig .tc := ⟨.hbm, 163, rfl⟩
abbrev main_call6_cst_0 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_v5 : Ref sig .tc := ⟨.hbm, 168, rfl⟩
abbrev main_call6_v6 : Ref sig .tc := ⟨.hbm, 169, rfl⟩
abbrev main_call6_v7 : Ref sig .tc := ⟨.hbm, 170, rfl⟩
abbrev main_call6_cst_1 : Ref sig .tc := ⟨.hbm, 171, rfl⟩
abbrev main_call6_v8 : Ref sig .tc := ⟨.hbm, 172, rfl⟩
abbrev main_call6_cst_2 : Ref sig .tc := ⟨.hbm, 173, rfl⟩
abbrev main_call6_v9 : Ref sig .tc := ⟨.hbm, 174, rfl⟩
abbrev main_call6_v10 : Ref sig .tc := ⟨.hbm, 175, rfl⟩
abbrev main_call6_v11 : Ref sig .tc := ⟨.hbm, 176, rfl⟩
abbrev main_call6_cst_3 : Ref sig .tc := ⟨.hbm, 177, rfl⟩
abbrev main_call6_v12 : Ref sig .tc := ⟨.hbm, 178, rfl⟩
abbrev main_call6_cst_4 : Ref sig .tc := ⟨.hbm, 179, rfl⟩
abbrev main_call6_call0_v0 : Ref sig .tc := ⟨.hbm, 180, rfl⟩
abbrev main_call6_call0_v1 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_cst_11 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_call7_cst : Ref sig .tc := ⟨.hbm, 203, rfl⟩
abbrev main_call7_v0 : Ref sig .tc := ⟨.hbm, 204, rfl⟩
abbrev main_v119 : Ref sig .tc := ⟨.hbm, 205, rfl⟩
abbrev main_c_12 : Ref sig .tc := ⟨.hbm, 206, rfl⟩
abbrev main_v120 : Ref sig .tc := ⟨.hbm, 207, rfl⟩
abbrev main_v121 : Ref sig .tc := ⟨.hbm, 208, rfl⟩
abbrev main_c_13 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_call8_cst : Ref sig .tc := ⟨.hbm, 216, rfl⟩
abbrev main_call8_v0 : Ref sig .tc := ⟨.hbm, 217, rfl⟩
abbrev main_v128 : Ref sig .tc := ⟨.hbm, 218, rfl⟩
abbrev main_cst_14 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_call9_cst : Ref sig .tc := ⟨.hbm, 232, rfl⟩
abbrev main_call9_v0 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_cst_15 : Ref sig .tc := ⟨.hbm, 243, rfl⟩
abbrev main_v150 : Ref sig .tc := ⟨.hbm, 244, rfl⟩
abbrev main_cst_16 : Ref sig .tc := ⟨.hbm, 245, rfl⟩
abbrev main_v151 : Ref sig .tc := ⟨.hbm, 246, rfl⟩
abbrev main_v152 : Ref sig .tc := ⟨.hbm, 247, rfl⟩
abbrev main_c_17 : Ref sig .tc := ⟨.hbm, 248, rfl⟩
abbrev main_call10_cst : Ref sig .tc := ⟨.hbm, 249, rfl⟩
abbrev main_call10_v0 : Ref sig .tc := ⟨.hbm, 250, rfl⟩
abbrev main_call10_v1 : Ref sig .tc := ⟨.hbm, 251, rfl⟩
abbrev main_call10_cst_0 : Ref sig .tc := ⟨.hbm, 252, rfl⟩
abbrev main_call10_v2 : Ref sig .tc := ⟨.hbm, 253, rfl⟩
abbrev main_call10_v3 : Ref sig .tc := ⟨.hbm, 254, rfl⟩
abbrev main_call10_v4 : Ref sig .tc := ⟨.hbm, 255, rfl⟩
abbrev main_call10_v5 : Ref sig .tc := ⟨.hbm, 256, rfl⟩
abbrev main_call10_v6 : Ref sig .tc := ⟨.hbm, 257, rfl⟩
abbrev main_call10_v7 : Ref sig .tc := ⟨.hbm, 258, rfl⟩
abbrev main_call10_cst_1 : Ref sig .tc := ⟨.hbm, 259, rfl⟩
abbrev main_call10_v8 : Ref sig .tc := ⟨.hbm, 260, rfl⟩
abbrev main_call10_cst_2 : Ref sig .tc := ⟨.hbm, 261, rfl⟩
abbrev main_call10_v9 : Ref sig .tc := ⟨.hbm, 262, rfl⟩
abbrev main_call10_v10 : Ref sig .tc := ⟨.hbm, 263, rfl⟩
abbrev main_call10_v11 : Ref sig .tc := ⟨.hbm, 264, rfl⟩
abbrev main_call10_cst_3 : Ref sig .tc := ⟨.hbm, 265, rfl⟩
abbrev main_call10_v12 : Ref sig .tc := ⟨.hbm, 266, rfl⟩
abbrev main_call10_cst_4 : Ref sig .tc := ⟨.hbm, 267, rfl⟩
abbrev main_call10_call0_v0 : Ref sig .tc := ⟨.hbm, 268, rfl⟩
abbrev main_call10_call0_v1 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩
abbrev main_v161 : Ref sig .tc := ⟨.hbm, 278, rfl⟩
abbrev main_cst_18 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_call11_cst : Ref sig .tc := ⟨.hbm, 291, rfl⟩
abbrev main_call11_v0 : Ref sig .tc := ⟨.hbm, 292, rfl⟩
abbrev main_v173 : Ref sig .tc := ⟨.hbm, 293, rfl⟩
abbrev main_cst_19 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_call12_cst : Ref sig .tc := ⟨.hbm, 302, rfl⟩
abbrev main_call12_v0 : Ref sig .tc := ⟨.hbm, 303, rfl⟩
abbrev main_v181 : Ref sig .tc := ⟨.hbm, 304, rfl⟩
abbrev main_v182 : Ref sig .tc := ⟨.hbm, 305, rfl⟩
abbrev main_v183 : Ref sig .tc := ⟨.hbm, 306, rfl⟩
abbrev main_v184 : Ref sig .tc := ⟨.hbm, 307, rfl⟩
abbrev main_v185 : Ref sig .tc := ⟨.hbm, 308, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256x128 : S_.BroadcastsInDim S256x128 (![] : Fin 0 → Fin S256x128.rank)
  bcast_S50000_S50000x1_0 : S50000.BroadcastsInDim S50000x1 (![0] : Fin 1 → Fin S50000x1.rank)
  bcast_S1x128_S256x128_0_1 : S1x128.BroadcastsInDim S256x128 (![0, 1] : Fin 2 → Fin S256x128.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  dot_S50000x64_S64x128_S50000x128_1_0_0_1_n_n_wf : DotDims.WF S50000x64 S64x128 S50000x128 [1] [0] [0] [1] [] []
  dot_S600000x16_S16x128_S600000x128_1_0_0_1_n_n_wf : DotDims.WF S600000x16 S16x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  dot_S256x128_S128x128_S256x128_1_0_0_1_n_n_wf : DotDims.WF S256x128 S128x128 S256x128 [1] [0] [0] [1] [] []
  dot_S256x128_S128x2_S256x2_1_0_0_1_n_n_wf : DotDims.WF S256x128 S128x2 S256x2 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x2_S256x2_1_0_0_1_n_n : DotDims S256x128 S128x2 S256x2 where
  lhsContracting := [1]
  rhsContracting := [0]
  lhsNonContracting := [0]
  rhsNonContracting := [1]
  lhsBatch := []
  rhsBatch := []
  wf := dot_S256x128_S128x2_S256x2_1_0_0_1_n_n_wf

class Facts : Prop extends Facts₀ where

variable [Facts]
-- ==== Proof.KRun.lean ====
import proofs.«157653_j15152644620445_2_alg».proof.Proof.Gen.KernelIdeal.Frame
import Idealize.ShloMosaic.PureOps.Ideal

/-! # The kernel program's run, with its result named

Every weakly fair execution of the kernel program's entry function on the TensorCores terminates without a fault; in
the final memory the result buffer holds the last boundary valuation's contents of that buffer, and every argument
buffer holds what it held at launch. The run is cut into host stretches and pipelined regions; the thread state
carried across the cuts is "every unscoped buffer at the boundary's contents", so the final state can be read at any
unscoped buffer, the result buffer among them. -/

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: termination without a fault, the result buffer at the last boundary valuation, the arguments as
    launched. -/
theorem run : θ_run (defs (F := Ideal)) (onTc (τ := τ) (main (F := Ideal))) ⟨m, fun _ => 0, ρ⟩ (fun r => ∀ c : Dev nD,
      r.2.mem ((c.tc : Thread nD τ).loc main_v148) = W25 (F := Ideal) m ρ c (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v148 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c),
       (h c _ (mem_uc main_arg14 (by decide))).trans (W25_main_arg14 m ρ c),
       (h c _ (mem_uc main_arg15 (by decide))).trans (W25_main_arg15 m ρ c),
       (h c _ (mem_uc main_arg16 (by decide))).trans (W25_main_arg16 m ρ c),
       (h c _ (mem_uc main_arg17 (by decide))).trans (W25_main_arg17 m ρ c)⟩)

end Cert.KRun

end
-- ==== Proof.KHost.lean ====
import proofs.«157653_j15152644620445_2_alg».proof.Proof.Gen.KernelIdeal
import Idealize.ShloMosaic.PureOps.Ideal

/-! # The kernel program's host stages as whole-array functions

Between its pipelined regions the kernel program runs straight lines of whole-array host operations. Each line that
feeds a later region (or the result) is named here as one function of the arrays it reads, over extended reals: the
one-row layout of a bias vector, the two index columns cut from the edge list, the edge aggregation of a layer (gather
the source rows, add the edge features, clamp at zero, scatter-add into the destination rows), the layer's slice of a
stacked weight or bias, the column mean and the inverse standard deviation from the per-tile partial sums, and the
readout head (per-graph sum, two dense layers). The operations and their shape records are exactly the program's. -/

noncomputable section

namespace Cert.KHost

open Idealize.ShloMosaic Cert.KernelIdeal Cert.KernelIdeal.Gen

/-- A length-128 vector laid out as a one-row table. -/
def row (b : FVec Ideal S128 .f32) : FVec Ideal S1x128 .f32 :=
  shapeCast S1x128 b shapeCasts_S128_S1x128

/-- Row 0 of the edge list, as a flat vector of 600000 node numbers. -/
def srcFlat (ei : IVec S2x600000 32) : IVec S600000 32 :=
  shapeCast S600000 (extractStridedSlice S1x600000 ![0, 0] ei slices_S2x600000_S1x600000_0_0) shapeCasts_S1x600000_S600000

/-- Row 1 of the edge list, as a flat vector of 600000 node numbers. -/
def dstFlat (ei : IVec S2x600000 32) : IVec S600000 32 :=
  shapeCast S600000 (extractStridedSlice S1x600000 ![1, 0] ei slices_S2x600000_S1x600000_1_0) shapeCasts_S1x600000_S600000

/-- A flat vector of node numbers, negative entries wrapped by the node count, as an index column. -/
def wrapCol (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

/-- The source index column: row 0 of the edge list, wrapped. -/
def srcIdx (ei : IVec S2x600000 32) : IVec S600000x1 32 := wrapCol (srcFlat ei)

/-- The destination index column: row 1 of the edge list. -/
def dstIdx (ei : IVec S2x600000 32) : IVec S600000x1 32 :=
  broadcastInDim S600000x1 ![0] bcast_S600000_S600000x1_0 (dstFlat ei)

/-- A layer's messages from the two flat index vectors' source half: gather the source rows, add the edge features,
    clamp at zero. -/
def msgOf (h : FVec Ideal S50000x128 .f32) (ea : FVec Ideal S600000x128 .f32) (src : IVec S600000 32) :
    FVec Ideal S600000x128 .f32 :=
  maximumf
    (addf (Host.gather gather_S50000x128_S600000x1_S600000x128_1_0_n_n_0_1_1128 h (wrapCol src)) ea)
    (broadcastInDim S600000x128 ![] bcast_S_S600000x128 (constant (F := Ideal) S_ .f32 0x00000000#32))

/-- A layer's aggregation from the flat index vectors: the messages scatter-added into the destination rows of a zero
    table. -/
def aggOf (h : FVec Ideal S50000x128 .f32) (ea : FVec Ideal S600000x128 .f32) (src dst : IVec S600000 32) :
    FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (msgOf h ea src)

/-- A layer's aggregation as a function of the node table, the encoded edge features and the edge list. -/
def agg (h : FVec Ideal S50000x128 .f32) (ea : FVec Ideal S600000x128 .f32) (ei : IVec S2x600000 32) :
    FVec Ideal S50000x128 .f32 :=
  aggOf h ea (srcFlat ei) (dstFlat ei)

/-- Layer 0's matrix of a stack of three. -/
def mat0 (W : FVec Ideal S3x128x128 .f32) : FVec Ideal S128x128 .f32 :=
  shapeCast S128x128 (extractStridedSlice S1x128x128 ![0, 0, 0] W slices_S3x128x128_S1x128x128_0_0_0) shapeCasts_S1x128x128_S128x128
/-- Layer 1's matrix of a stack of three. -/
def mat1 (W : FVec Ideal S3x128x128 .f32) : FVec Ideal S128x128 .f32 :=
  shapeCast S128x128 (extractStridedSlice S1x128x128 ![1, 0, 0] W slices_S3x128x128_S1x128x128_1_0_0) shapeCasts_S1x128x128_S128x128
/-- Layer 2's matrix of a stack of three. -/
def mat2 (W : FVec Ideal S3x128x128 .f32) : FVec Ideal S128x128 .f32 :=
  shapeCast S128x128 (extractStridedSlice S1x128x128 ![2, 0, 0] W slices_S3x128x128_S1x128x128_2_0_0) shapeCasts_S1x128x128_S128x128

/-- Layer 0's vector of a stack of three. -/
def vec0 (B : FVec Ideal S3x128 .f32) : FVec Ideal S128 .f32 :=
  shapeCast S128 (extractStridedSlice S1x128 ![0, 0] B slices_S3x128_S1x128_0_0) shapeCasts_S1x128_S128
/-- Layer 1's vector of a stack of three. -/
def vec1 (B : FVec Ideal S3x128 .f32) : FVec Ideal S128 .f32 :=
  shapeCast S128 (extractStridedSlice S1x128 ![1, 0] B slices_S3x128_S1x128_1_0) shapeCasts_S1x128_S128
/-- Layer 2's vector of a stack of three. -/
def vec2 (B : FVec Ideal S3x128 .f32) : FVec Ideal S128 .f32 :=
  shapeCast S128 (extractStridedSlice S1x128 ![2, 0] B slices_S3x128_S1x128_2_0) shapeCasts_S1x128_S128

/-- The column totals of a table of per-tile partial sums, divided by the row count 50000. -/
def meanOf (S : FVec Ideal S10x8x128 .f32) : FVec Ideal S128 .f32 :=
  Host.divf
    (Host.reduceAdd S (constant (F := Ideal) S_ .f32 0x00000000#32) reducesTo_S10x8x128_S128_d0_1 h_S_)
    (broadcastInDim S128 ![] bcast_S_S128 (constant (F := Ideal) S_ .f32 0x47435000#32))

/-- The inverse standard deviation from the partial sums and the partial sums of squares: mean of squares minus the
    squared mean, plus the stabiliser, under the inverse square root. -/
def invOf (S Q : FVec Ideal S10x8x128 .f32) : FVec Ideal S128 .f32 :=
  Host.rsqrt
    (addf
      (subf
        (Host.divf
          (Host.reduceAdd Q (constant (F := Ideal) S_ .f32 0x00000000#32) reducesTo_S10x8x128_S128_d0_1 h_S_)
          (broadcastInDim S128 ![] bcast_S_S128 (constant (F := Ideal) S_ .f32 0x47435000#32)))
        (mulf (meanOf S) (meanOf S)))
      (broadcastInDim S128 ![] bcast_S_S128 (constant (F := Ideal) S_ .f32 0x3727C5AC#32)))

/-- The readout head's hidden layer before the clamp: the per-graph sum of the node rows, times the first matrix,
    plus the first bias. -/
def headPre (h : FVec Ideal S50000x128 .f32) (batch : IVec S50000 32) (hw1 : FVec Ideal S128x128 .f32)
    (hb1 : FVec Ideal S128 .f32) : FVec Ideal S256x128 .f32 :=
  addf
    (Host.dotGeneral dot_S256x128_S128x128_S256x128_1_0_0_1_n_n none
      (Host.scatterAdd scatter_S256x128_S50000x1_S50000x128_1_0_0_1
        (broadcastInDim S256x128 ![] bcast_S_S256x128 (constant (F := Ideal) S_ .f32 0x00000000#32))
        (broadcastInDim S50000x1 ![0] bcast_S50000_S50000x1_0 batch)
        h)
      hw1)
    (broadcastInDim S256x128 ![0, 1] bcast_S1x128_S256x128_0_1 (broadcastInDim S1x128 ![1] bcast_S128_S1x128_1 hb1))

/-- The clamp at zero of a [256,128] table. -/
def relu256 (x : FVec Ideal S256x128 .f32) : FVec Ideal S256x128 .f32 :=
  maximumf x (broadcastInDim S256x128 ![] bcast_S_S256x128 (constant (F := Ideal) S_ .f32 0x00000000#32))

/-- The readout head's output layer: times the second matrix, plus the second bias. -/
def headOut (x : FVec Ideal S256x128 .f32) (hw2 : FVec Ideal S128x2 .f32) (hb2 : FVec Ideal S2 .f32) :
    FVec Ideal S256x2 .f32 :=
  addf
    (Host.dotGeneral dot_S256x128_S128x2_S256x2_1_0_0_1_n_n none x hw2)
    (broadcastInDim S256x2 ![0, 1] bcast_S1x2_S256x2_0_1 (broadcastInDim S1x2 ![1] bcast_S2_S1x2_1 hb2))

/-- The readout head: per-graph sum, dense layer, clamp, dense layer. -/
def head (h : FVec Ideal S50000x128 .f32) (batch : IVec S50000 32) (hw1 : FVec Ideal S128x128 .f32)
    (hb1 : FVec Ideal S128 .f32) (hw2 : FVec Ideal S128x2 .f32) (hb2 : FVec Ideal S2 .f32) : FVec Ideal S256x2 .f32 :=
  headOut (relu256 (headPre h batch hw1 hb1)) hw2 hb2

end Cert.KHost

end
-- ==== Proof.KStretch.lean ====
import proofs.«157653_j15152644620445_2_alg».proof.Proof.Gen.KernelIdeal.Launch
import proofs.«157653_j15152644620445_2_alg».proof.Proof.KHost

/-! # The host stretches of the kernel program, read over an arbitrary valuation

Each straight line of host operations is a function on valuations (the buffers' contents): it rewrites the buffers it
writes and leaves every other buffer alone. For each line this module states, over an arbitrary entry valuation,
(1) the list of the buffers the line writes and that a buffer outside the list keeps its contents, and (2) for each
buffer a later region or the result reads, its contents after the line as a named whole-array function of the
contents of the buffers the line read. Three consecutive lines make up a layer's aggregation stage and the readout
head; their composites are stated too. -/

set_option maxRecDepth 4096

noncomputable section

namespace Cert.KStretch

open Idealize.ShloMosaic Idealize.ShloMosaic.TcCoe Cert.KernelIdeal Cert.KernelIdeal.Gen

variable (W : Valuation τ sig (Elt Ideal))

/-! ## What each line writes, and that it writes nothing else -/

/-- The buffers line 0 writes. -/
abbrev wr0 : List (Ref sig .tc) := [main_v0, main_v1, main_v2, main_v3, main_v4]
theorem sub0 : (hostOps0 (F := Ideal)).Forall fun op => op.writes ⊆ (wr0.map (Proc.devRef (τ := τ) .tc)).toFinset := by
  simp only [hostOps0, wr0, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 0 does not write keeps its contents. -/
theorem keep0 (b : Ref sig .tc) (hb : b ∉ wr0) :
    StableHlo.after (hostOps0 (F := Ideal)) W (Proc.devRef .tc b) = W (Proc.devRef .tc b) :=
  StableHlo.after_of_writes_sub _ W sub0 hb

/-- The buffers line 1 writes. -/
abbrev wr1 : List (Ref sig .tc) := [main_v6]
theorem sub1 : (hostOps1 (F := Ideal)).Forall fun op => op.writes ⊆ (wr1.map (Proc.devRef (τ := τ) .tc)).toFinset := by
  simp only [hostOps1, wr1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 1 does not write keeps its contents. -/
theorem keep1 (b : Ref sig .tc) (hb : b ∉ wr1) :
    StableHlo.after (hostOps1 (F := Ideal)) W (Proc.devRef .tc b) = W (Proc.devRef .tc b) :=
  StableHlo.after_of_writes_sub _ W sub1 hb

/-- The buffers line 2 writes. -/
abbrev wr2 : List (Ref sig .tc) := [main_c, main_v8, main_v9, main_c_0, main_v10, main_v11, main_v12, main_v13, main_v14, main_v15]
theorem sub2 : (hostOps2 (F := Ideal)).Forall fun op => op.writes ⊆ (wr2.map (Proc.devRef (τ := τ) .tc)).toFinset := by
  simp only [hostOps2, wr2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 2 does not write keeps its contents. -/
theorem keep2 (b : Ref sig .tc) (hb : b ∉ wr2) :
    StableHlo.after (hostOps2 (F := Ideal)) W (Proc.devRef .tc b) = W (Proc.devRef .tc b) :=
  StableHlo.after_of_writes_sub _ W sub2 hb

/-- The buffers line 2.1 writes. -/
abbrev wr2_1 : List (Ref sig .tc) := [main_call0_cst, main_call0_v0, main_v16]
theorem sub2_1 : (hostOps2_1 (F := Ideal)).Forall fun op => op.writes ⊆ (wr2_1.map (Proc.devRef (τ := τ) .tc)).toFinset := by
  simp only [hostOps2_1, wr2_1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 2.1 does not write keeps its contents. -/
theorem keep2_1 (b : Ref sig .tc) (hb : b ∉ wr2_1) :
    StableHlo.after (hostOps2_1 (F := Ideal)) W (Proc.devRef .tc b) = W (Proc.devRef .tc b) :=
  StableHlo.after_of_writes_sub _ W sub2_1 hb

/-- The buffers line 2.2 writes. -/
abbrev wr2_2 : List (Ref sig .tc) := [main_cst, main_v17, main_v18, main_v19, main_v20, main_v21, main_v22, main_v23, main_v24, main_v25, main_v26, main_v27, main_v28, main_v29]
theorem sub2_2 : (hostOps2_2 (F := Ideal)).Forall fun op => op.writes ⊆ (wr2_2.map (Proc.devRef (τ := τ) .tc)).toFinset := by
  simp only [hostOps2_2, wr2_2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 2.2 does not write keeps its contents. -/
theorem keep2_2 (b : Ref sig .tc) (hb : b ∉ wr2_2) :
    StableHlo.after (hostOps2_2 (F := Ideal)) W (Proc.devRef .tc b) = W (Proc.devRef .tc b) :=
  StableHlo.after_of_writes_sub _ W sub2_2 hb

/-- The buffers line 3 writes. -/
abbrev wr3 : List (Ref sig .tc) := [main_cst_1, main_v31, main_cst_2, main_v32, main_cst_3, main_v33, main_v34, main_cst_4, main_v35, main_v36, main_v37, main_v38, main_cst_5, main_v39, main_v40, main_v41, main_v42, main_v43, main_v44, main_v45, main_v46, main_v47, main_v48, main_v49]
theorem sub3 : (hostOps3 (F := Ideal)).Forall fun op => op.writes ⊆ (wr3.map (Proc.devRef (τ := τ) .tc)).toFinset := by
  simp only [hostOps3, wr3, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 3 does not write keeps its contents. -/
theorem keep3 (b : Ref sig .tc) (hb : b ∉ wr3) :
    StableHlo.after (hostOps3 (F := Ideal)) W (Proc.devRef .tc b) = W (Proc.devRef .tc b) :=
  StableHlo.after_of_writes_sub _ W sub3 hb

/-- The buffers line 4 writes. -/
abbrev wr4 : List (Ref sig .tc) := [main_c_6, main_v51, main_v52, main_c_7, main_v53, main_v54, main_v55, main_v56, main_v57, main_v58]
theorem sub4 : (hostOps4 (F := Ideal)).Forall fun op => op.writes ⊆ (wr4.map (Proc.devRef (τ := τ) .tc)).toFinset := by
  simp only [hostOps4, wr4, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 4 does not write keeps its contents. -/
theorem keep4 (b : Ref sig .tc) (hb : b ∉ wr4) :
    StableHlo.after (hostOps4 (F := Ideal)) W (Proc.devRef .tc b) = W (Proc.devRef .tc b) :=
  StableHlo.after_of_writes_sub _ W sub4 hb

/-- The buffers line 4.1 writes. -/
abbrev wr4_1 : List (Ref sig .tc) := [main_call1_cst, main_call1_v0, main_v59]
theorem sub4_1 : (hostOps4_1 (F := Ideal)).Forall fun op => op.writes ⊆ (wr4_1.map (Proc.devRef (τ := τ) .tc)).toFinset := by
  simp only [hostOps4_1, wr4_1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 4.1 does not write keeps its contents. -/
theorem keep4_1 (b : Ref sig .tc) (hb : b ∉ wr4_1) :
    StableHlo.after (hostOps4_1 (F := Ideal)) W (Proc.devRef .tc b) = W (Proc.devRef .tc b) :=
  StableHlo.after_of_writes_sub _ W sub4_1 hb

/-- The buffers line 4.2 writes. -/
abbrev wr4_2 : List (Ref sig .tc) := [main_cst_8, main_v60, main_v61, main_v62, main_v63, main_v64, main_v65, main_v66, main_v67, main_v68, main_v69, main_v70, main_v71, main_v72]
theorem sub4_2 : (hostOps4_2 (F := Ideal)).Forall fun op => op.writes ⊆ (wr4_2.map (Proc.devRef (τ := τ) .tc)).toFinset := by
  simp only [hostOps4_2, wr4_2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 4.2 does not write keeps its contents. -/
theorem keep4_2 (b : Ref sig .tc) (hb : b ∉ wr4_2) :
    StableHlo.after (hostOps4_2 (F := Ideal)) W (Proc.devRef .tc b) = W (Proc.devRef .tc b) :=
  StableHlo.after_of_writes_sub _ W sub4_2 hb

/-- The buffers line 5 writes. -/
abbrev wr5 : List (Ref sig .tc) := [main_cst_9, main_v74, main_cst_10, main_v75, main_cst_11, main_v76, main_v77, main_cst_12, main_v78, main_v79, main_v80, main_v81, main_cst_13, main_v82, main_v83, main_v84, main_v85, main_v86, main_v87, main_v88, main_v89, main_v90, main_v91, main_v92]
theorem sub5 : (hostOps5 (F := Ideal)).Forall fun op => op.writes ⊆ (wr5.map (Proc.devRef (τ := τ) .tc)).toFinset := by
  simp only [hostOps5, wr5, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 5 does not write keeps its contents. -/
theorem keep5 (b : Ref sig .tc) (hb : b ∉ wr5) :
    StableHlo.after (hostOps5 (F := Ideal)) W (Proc.devRef .tc b) = W (Proc.devRef .tc b) :=
  StableHlo.after_of_writes_sub _ W sub5 hb

/-- The buffers line 6 writes. -/
abbrev wr6 : List (Ref sig .tc) := [main_c_14, main_v94, main_v95, main_c_15, main_v96, main_v97, main_v98, main_v99, main_v100, main_v101]
theorem sub6 : (hostOps6 (F := Ideal)).Forall fun op => op.writes ⊆ (wr6.map (Proc.devRef (τ := τ) .tc)).toFinset := by
  simp only [hostOps6, wr6, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 6 does not write keeps its contents. -/
theorem keep6 (b : Ref sig .tc) (hb : b ∉ wr6) :
    StableHlo.after (hostOps6 (F := Ideal)) W (Proc.devRef .tc b) = W (Proc.devRef .tc b) :=
  StableHlo.after_of_writes_sub _ W sub6 hb

/-- The buffers line 6.1 writes. -/
abbrev wr6_1 : List (Ref sig .tc) := [main_call2_cst, main_call2_v0, main_v102]
theorem sub6_1 : (hostOps6_1 (F := Ideal)).Forall fun op => op.writes ⊆ (wr6_1.map (Proc.devRef (τ := τ) .tc)).toFinset := by
  simp only [hostOps6_1, wr6_1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 6.1 does not write keeps its contents. -/
theorem keep6_1 (b : Ref sig .tc) (hb : b ∉ wr6_1) :
    StableHlo.after (hostOps6_1 (F := Ideal)) W (Proc.devRef .tc b) = W (Proc.devRef .tc b) :=
  StableHlo.after_of_writes_sub _ W sub6_1 hb

/-- The buffers line 6.2 writes. -/
abbrev wr6_2 : List (Ref sig .tc) := [main_cst_16, main_v103, main_v104, main_v105, main_v106, main_v107, main_v108, main_v109, main_v110, main_v111, main_v112, main_v113, main_v114, main_v115]
theorem sub6_2 : (hostOps6_2 (F := Ideal)).Forall fun op => op.writes ⊆ (wr6_2.map (Proc.devRef (τ := τ) .tc)).toFinset := by
  simp only [hostOps6_2, wr6_2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 6.2 does not write keeps its contents. -/
theorem keep6_2 (b : Ref sig .tc) (hb : b ∉ wr6_2) :
    StableHlo.after (hostOps6_2 (F := Ideal)) W (Proc.devRef .tc b) = W (Proc.devRef .tc b) :=
  StableHlo.after_of_writes_sub _ W sub6_2 hb

/-- The buffers line 7 writes. -/
abbrev wr7 : List (Ref sig .tc) := [main_cst_17, main_v117, main_cst_18, main_v118, main_cst_19, main_v119, main_v120, main_cst_20, main_v121, main_v122, main_v123, main_v124, main_cst_21, main_v125, main_v126, main_v127, main_v128, main_v129, main_v130, main_v131, main_v132, main_v133, main_v134, main_v135]
theorem sub7 : (hostOps7 (F := Ideal)).Forall fun op => op.writes ⊆ (wr7.map (Proc.devRef (τ := τ) .tc)).toFinset := by
  simp only [hostOps7, wr7, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 7 does not write keeps its contents. -/
theorem keep7 (b : Ref sig .tc) (hb : b ∉ wr7) :
    StableHlo.after (hostOps7 (F := Ideal)) W (Proc.devRef .tc b) = W (Proc.devRef .tc b) :=
  StableHlo.after_of_writes_sub _ W sub7 hb

/-- The buffers line 8 writes. -/
abbrev wr8 : List (Ref sig .tc) := [main_cst_22, main_v137, main_v138, main_v139, main_v140, main_v141, main_v142, main_v143]
theorem sub8 : (hostOps8 (F := Ideal)).Forall fun op => op.writes ⊆ (wr8.map (Proc.devRef (τ := τ) .tc)).toFinset := by
  simp only [hostOps8, wr8, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 8 does not write keeps its contents. -/
theorem keep8 (b : Ref sig .tc) (hb : b ∉ wr8) :
    StableHlo.after (hostOps8 (F := Ideal)) W (Proc.devRef .tc b) = W (Proc.devRef .tc b) :=
  StableHlo.after_of_writes_sub _ W sub8 hb

/-- The buffers line 8.1 writes. -/
abbrev wr8_1 : List (Ref sig .tc) := [main_call3_cst, main_call3_v0, main_v144]
theorem sub8_1 : (hostOps8_1 (F := Ideal)).Forall fun op => op.writes ⊆ (wr8_1.map (Proc.devRef (τ := τ) .tc)).toFinset := by
  simp only [hostOps8_1, wr8_1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 8.1 does not write keeps its contents. -/
theorem keep8_1 (b : Ref sig .tc) (hb : b ∉ wr8_1) :
    StableHlo.after (hostOps8_1 (F := Ideal)) W (Proc.devRef .tc b) = W (Proc.devRef .tc b) :=
  StableHlo.after_of_writes_sub _ W sub8_1 hb

/-- The buffers line 8.2 writes. -/
abbrev wr8_2 : List (Ref sig .tc) := [main_v145, main_v146, main_v147, main_v148]
theorem sub8_2 : (hostOps8_2 (F := Ideal)).Forall fun op => op.writes ⊆ (wr8_2.map (Proc.devRef (τ := τ) .tc)).toFinset := by
  simp only [hostOps8_2, wr8_2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]
/-- A buffer line 8.2 does not write keeps its contents. -/
theorem keep8_2 (b : Ref sig .tc) (hb : b ∉ wr8_2) :
    StableHlo.after (hostOps8_2 (F := Ideal)) W (Proc.devRef .tc b) = W (Proc.devRef .tc b) :=
  StableHlo.after_of_writes_sub _ W sub8_2 hb

/-! ## What the lines leave in the buffers read later -/

theorem out0_v1 : StableHlo.after (hostOps0 (F := Ideal)) W (Proc.devRef .tc main_v1)
    = KHost.srcFlat (W (Proc.devRef .tc main_arg1)) := by
  simp only [hostOps0]
  after_results_simp
  all_goals first | rfl | (simp only [StableHlo.TRef.toBuf, StableHlo.TRef.ofBuf, cast_eq, id] <;> rfl)

theorem out0_v3 : StableHlo.after (hostOps0 (F := Ideal)) W (Proc.devRef .tc main_v3)
    = KHost.dstFlat (W (Proc.devRef .tc main_arg1)) := by
  simp only [hostOps0]
  after_results_simp
  all_goals first | rfl | (simp only [StableHlo.TRef.toBuf, StableHlo.TRef.ofBuf, cast_eq, id] <;> rfl)

theorem out0_v4 : StableHlo.after (hostOps0 (F := Ideal)) W (Proc.devRef .tc main_v4)
    = KHost.row (W (Proc.devRef .tc main_arg5)) := by
  simp only [hostOps0]
  after_results_simp
  all_goals first | rfl | (simp only [StableHlo.TRef.toBuf, StableHlo.TRef.ofBuf, cast_eq, id] <;> rfl)

theorem out1_v6 : StableHlo.after (hostOps1 (F := Ideal)) W (Proc.devRef .tc main_v6)
    = KHost.row (W (Proc.devRef .tc main_arg7)) := by
  simp only [hostOps1]
  after_results_simp
  all_goals first | rfl | (simp only [StableHlo.TRef.toBuf, StableHlo.TRef.ofBuf, cast_eq, id] <;> rfl)

/-! ### Layer 0: the aggregation stage (three lines) and the statistics line -/

theorem out2_pre : StableHlo.after (hostOps2 (F := Ideal)) W (Proc.devRef .tc main_v15)
    = (addf (Host.gather gather_S50000x128_S600000x1_S600000x128_1_0_n_n_0_1_1128 (W (Proc.devRef .tc main_v5)) (KHost.wrapCol (W (Proc.devRef .tc main_v1)))) (W (Proc.devRef .tc main_v7)) : FVec Ideal S600000x128 .f32) := by
  simp only [hostOps2]
  after_results_simp
  all_goals first | rfl | (simp only [StableHlo.TRef.toBuf, StableHlo.TRef.ofBuf, cast_eq, id] <;> rfl)

theorem out2_1_msg : StableHlo.after (hostOps2_1 (F := Ideal)) W (Proc.devRef .tc main_v16)
    = (maximumf (W (Proc.devRef .tc main_v15)) (broadcastInDim S600000x128 ![] bcast_S_S600000x128 (constant (F := Ideal) S_ .f32 0x00000000#32)) : FVec Ideal S600000x128 .f32) := by
  simp only [hostOps2_1]
  after_results_simp
  all_goals first | rfl | (simp only [StableHlo.TRef.toBuf, StableHlo.TRef.ofBuf, cast_eq, id] <;> rfl)

theorem out2_2_agg : StableHlo.after (hostOps2_2 (F := Ideal)) W (Proc.devRef .tc main_v19)
    = (Host.scatterAdd scatter_S50000x128_S600000x1_S600000x128_1_0_0_1
        (broadcastInDim S50000x128 ![] bcast_S_S50000x128 (constant (F := Ideal) S_ .f32 0x00000000#32))
        (broadcastInDim S600000x1 ![0] bcast_S600000_S600000x1_0 (W (Proc.devRef .tc main_v3))) (W (Proc.devRef .tc main_v16)) : FVec Ideal S50000x128 .f32) := by
  simp only [hostOps2_2]
  after_results_simp
  all_goals first | rfl | (simp only [StableHlo.TRef.toBuf, StableHlo.TRef.ofBuf, cast_eq, id] <;> rfl)

theorem out2_2_m1 : StableHlo.after (hostOps2_2 (F := Ideal)) W (Proc.devRef .tc main_v21)
    = KHost.mat0 (W (Proc.devRef .tc main_arg8)) := by
  simp only [hostOps2_2]
  after_results_simp
  all_goals first | rfl | (simp only [StableHlo.TRef.toBuf, StableHlo.TRef.ofBuf, cast_eq, id] <;> rfl)

theorem out2_2_b1 : StableHlo.after (hostOps2_2 (F := Ideal)) W (Proc.devRef .tc main_v24)
    = KHost.row (KHost.vec0 (W (Proc.devRef .tc main_arg9))) := by
  simp only [hostOps2_2]
  after_results_simp
  all_goals first | rfl | (simp only [StableHlo.TRef.toBuf, StableHlo.TRef.ofBuf, cast_eq, id] <;> rfl)

theorem out2_2_m2 : StableHlo.after (hostOps2_2 (F := Ideal)) W (Proc.devRef .tc main_v26)
    = KHost.mat0 (W (Proc.devRef .tc main_arg10)) := by
  simp only [hostOps2_2]
  after_results_simp
  all_goals first | rfl | (simp only [StableHlo.TRef.toBuf, StableHlo.TRef.ofBuf, cast_eq, id] <;> rfl)

theorem out2_2_b2 : StableHlo.after (hostOps2_2 (F := Ideal)) W (Proc.devRef .tc main_v29)
    = KHost.row (KHost.vec0 (W (Proc.devRef .tc main_arg11))) := by
  simp only [hostOps2_2]
  after_results_simp
  all_goals first | rfl | (simp only [StableHlo.TRef.toBuf, StableHlo.TRef.ofBuf, cast_eq, id] <;> rfl)

/-- The aggregation stage's table: the layer's aggregation of the node table, the encoded edge features and the two
    flat index vectors as they stood at the stage's entry. -/
theorem stage2_agg : (StableHlo.after (hostOps2_2 (F := Ideal)) (StableHlo.after (hostOps2_1 (F := Ideal)) (StableHlo.after (hostOps2 (F := Ideal)) W))) (Proc.devRef .tc main_v19)
    = KHost.aggOf (W (Proc.devRef .tc main_v5)) (W (Proc.devRef .tc main_v7)) (W (Proc.devRef .tc main_v1)) (W (Proc.devRef .tc main_v3)) := by
  rw [out2_2_agg, keep2_1 _ main_v3 (by decide), keep2 _ main_v3 (by decide), out2_1_msg, out2_pre]
  rfl
theorem stage2_m1 : (StableHlo.after (hostOps2_2 (F := Ideal)) (StableHlo.after (hostOps2_1 (F := Ideal)) (StableHlo.after (hostOps2 (F := Ideal)) W))) (Proc.devRef .tc main_v21)
    = KHost.mat0 (W (Proc.devRef .tc main_arg8)) := by
  rw [out2_2_m1, keep2_1 _ main_arg8 (by decide), keep2 _ main_arg8 (by decide)]
theorem stage2_b1 : (StableHlo.after (hostOps2_2 (F := Ideal)) (StableHlo.after (hostOps2_1 (F := Ideal)) (StableHlo.after (hostOps2 (F := Ideal)) W))) (Proc.devRef .tc main_v24)
    = KHost.row (KHost.vec0 (W (Proc.devRef .tc main_arg9))) := by
  rw [out2_2_b1, keep2_1 _ main_arg9 (by decide), keep2 _ main_arg9 (by decide)]
theorem stage2_m2 : (StableHlo.after (hostOps2_2 (F := Ideal)) (StableHlo.after (hostOps2_1 (F := Ideal)) (StableHlo.after (hostOps2 (F := Ideal)) W))) (Proc.devRef .tc main_v26)
    = KHost.mat0 (W (Proc.devRef .tc main_arg10)) := by
  rw [out2_2_m2, keep2_1 _ main_arg10 (by decide), keep2 _ main_arg10 (by decide)]
theorem stage2_b2 : (StableHlo.after (hostOps2_2 (F := Ideal)) (StableHlo.after (hostOps2_1 (F := Ideal)) (StableHlo.after (hostOps2 (F := Ideal)) W))) (Proc.devRef .tc main_v29)
    = KHost.row (KHost.vec0 (W (Proc.devRef .tc main_arg11))) := by
  rw [out2_2_b2, keep2_1 _ main_arg11 (by decide), keep2 _ main_arg11 (by decide)]
/-- A buffer none of the stage's three lines writes keeps its contents through the stage. -/
theorem stage2_keep (b : Ref sig .tc) (h : b ∉ wr2) (h1 : b ∉ wr2_1) (h2 : b ∉ wr2_2) : (StableHlo.after (hostOps2_2 (F := Ideal)) (StableHlo.after (hostOps2_1 (F := Ideal)) (StableHlo.after (hostOps2 (F := Ideal)) W))) (Proc.devRef .tc b) = W (Proc.devRef .tc b) := by
  rw [keep2_2 _ b h2, keep2_1 _ b h1, keep2 _ b h]

theorem out3_mean : StableHlo.after (hostOps3 (F := Ideal)) W (Proc.devRef .tc main_v42)
    = KHost.row (KHost.meanOf (W (Proc.devRef .tc main_v30_1))) := by
  simp only [hostOps3]
  after_results_simp
  all_goals first | rfl | (simp only [StableHlo.TRef.toBuf, StableHlo.TRef.ofBuf, cast_eq, id] <;> rfl)

theorem out3_inv : StableHlo.after (hostOps3 (F := Ideal)) W (Proc.devRef .tc main_v43)
    = KHost.row (KHost.invOf (W (Proc.devRef .tc main_v30_1)) (W (Proc.devRef .tc main_v30_2))) := by
  simp only [hostOps3]
  after_results_simp
  all_goals first | rfl | (simp only [StableHlo.TRef.toBuf, StableHlo.TRef.ofBuf, cast_eq, id] <;> rfl)

theorem out3_g : StableHlo.after (hostOps3 (F := Ideal)) W (Proc.devRef .tc main_v46)
    = KHost.row (KHost.vec0 (W (Proc.devRef .tc main_arg12))) := by
  simp only [hostOps3]
  after_results_simp
  all_goals first | rfl | (simp only [StableHlo.TRef.toBuf, StableHlo.TRef.ofBuf, cast_eq, id] <;> rfl)

theorem out3_be : StableHlo.after (hostOps3 (F := Ideal)) W (Proc.devRef .tc main_v49)
    = KHost.row (KHost.vec0 (W (Proc.devRef .tc main_arg13))) := by
  simp only [hostOps3]
  after_results_simp
  all_goals first | rfl | (simp only [StableHlo.TRef.toBuf, StableHlo.TRef.ofBuf, cast_eq, id] <;> rfl)

/-! ### Layer 1: the aggregation stage (three lines) and the statistics line -/

theorem out4_pre : StableHlo.after (hostOps4 (F := Ideal)) W (Proc.devRef .tc main_v58)
    = (addf (Host.gather gather_S50000x128_S600000x1_S600000x128_1_0_n_n_0_1_1128 (W (Proc.devRef .tc main_v50)) (KHost.wrapCol (W (Proc.devRef .tc main_v1)))) (W (Proc.devRef .tc main_v7)) : FVec Ideal S600000x128 .f32) := by
  simp only [hostOps4]
  after_results_simp
  all_goals first | rfl | (simp only [StableHlo.TRef.toBuf, StableHlo.TRef.ofBuf, cast_eq, id] <;> rfl)

theorem out4_1_msg : StableHlo.after (hostOps4_1 (F := Ideal)) W (Proc.devRef .tc main_v59)
    = (maximumf (W (Proc.devRef .tc main_v58)) (broadcastInDim S600000x128 ![] bcast_S_S600000x128 (constant (F := Ideal) S_ .f32 0x00000000#32)) : FVec Ideal S600000x128 .f32) := by
  simp only [hostOps4_1]
  after_results_simp
  all_goals first | rfl | (simp only [StableHlo.TRef.toBuf, StableHlo.TRef.ofBuf, cast_eq, id] <;> rfl)

theorem out4_2_agg : StableHlo.after (hostOps4_2 (F := Ideal)) W (Proc.devRef .tc main_v62)
    = (Host.scatterAdd scatter_S50000x128_S600000x1_S600000x128_1_0_0_1
        (broadcastInDim S50000x128 ![] bcast_S_S50000x128 (constant (F := Ideal) S_ .f32 0x00000000#32))
        (broadcastInDim S600000x1 ![0] bcast_S600000_S600000x1_0 (W (Proc.devRef .tc main_v3))) (W (Proc.devRef .tc main_v59)) : FVec Ideal S50000x128 .f32) := by
  simp only [hostOps4_2]
  after_results_simp
  all_goals first | rfl | (simp only [StableHlo.TRef.toBuf, StableHlo.TRef.ofBuf, cast_eq, id] <;> rfl)

theorem out4_2_m1 : StableHlo.after (hostOps4_2 (F := Ideal)) W (Proc.devRef .tc main_v64)
    = KHost.mat1 (W (Proc.devRef .tc main_arg8)) := by
  simp only [hostOps4_2]
  after_results_simp
  all_goals first | rfl | (simp only [StableHlo.TRef.toBuf, StableHlo.TRef.ofBuf, cast_eq, id] <;> rfl)

theorem out4_2_b1 : StableHlo.after (hostOps4_2 (F := Ideal)) W (Proc.devRef .tc main_v67)
    = KHost.row (KHost.vec1 (W (Proc.devRef .tc main_arg9))) := by
  simp only [hostOps4_2]
  after_results_simp
  all_goals first | rfl | (simp only [StableHlo.TRef.toBuf, StableHlo.TRef.ofBuf, cast_eq, id] <;> rfl)

theorem out4_2_m2 : StableHlo.after (hostOps4_2 (F := Ideal)) W (Proc.devRef .tc main_v69)
    = KHost.mat1 (W (Proc.devRef .tc main_arg10)) := by
  simp only [hostOps4_2]
  after_results_simp
  all_goals first | rfl | (simp only [StableHlo.TRef.toBuf, StableHlo.TRef.ofBuf, cast_eq, id] <;> rfl)

theorem out4_2_b2 : StableHlo.after (hostOps4_2 (F := Ideal)) W (Proc.devRef .tc main_v72)
    = KHost.row (KHost.vec1 (W (Proc.devRef .tc main_arg11))) := by
  simp only [hostOps4_2]
  after_results_simp
  all_goals first | rfl | (simp only [StableHlo.TRef.toBuf, StableHlo.TRef.ofBuf, cast_eq, id] <;> rfl)

/-- The aggregation stage's table: the layer's aggregation of the node table, the encoded edge features and the two
    flat index vectors as they stood at the stage's entry. -/
theorem stage4_agg : (StableHlo.after (hostOps4_2 (F := Ideal)) (StableHlo.after (hostOps4_1 (F := Ideal)) (StableHlo.after (hostOps4 (F := Ideal)) W))) (Proc.devRef .tc main_v62)
    = KHost.aggOf (W (Proc.devRef .tc main_v50)) (W (Proc.devRef .tc main_v7)) (W (Proc.devRef .tc main_v1)) (W (Proc.devRef .tc main_v3)) := by
  rw [out4_2_agg, keep4_1 _ main_v3 (by decide), keep4 _ main_v3 (by decide), out4_1_msg, out4_pre]
  rfl
theorem stage4_m1 : (StableHlo.after (hostOps4_2 (F := Ideal)) (StableHlo.after (hostOps4_1 (F := Ideal)) (StableHlo.after (hostOps4 (F := Ideal)) W))) (Proc.devRef .tc main_v64)
    = KHost.mat1 (W (Proc.devRef .tc main_arg8)) := by
  rw [out4_2_m1, keep4_1 _ main_arg8 (by decide), keep4 _ main_arg8 (by decide)]
theorem stage4_b1 : (StableHlo.after (hostOps4_2 (F := Ideal)) (StableHlo.after (hostOps4_1 (F := Ideal)) (StableHlo.after (hostOps4 (F := Ideal)) W))) (Proc.devRef .tc main_v67)
    = KHost.row (KHost.vec1 (W (Proc.devRef .tc main_arg9))) := by
  rw [out4_2_b1, keep4_1 _ main_arg9 (by decide), keep4 _ main_arg9 (by decide)]
theorem stage4_m2 : (StableHlo.after (hostOps4_2 (F := Ideal)) (StableHlo.after (hostOps4_1 (F := Ideal)) (StableHlo.after (hostOps4 (F := Ideal)) W))) (Proc.devRef .tc main_v69)
    = KHost.mat1 (W (Proc.devRef .tc main_arg10)) := by
  rw [out4_2_m2, keep4_1 _ main_arg10 (by decide), keep4 _ main_arg10 (by decide)]
theorem stage4_b2 : (StableHlo.after (hostOps4_2 (F := Ideal)) (StableHlo.after (hostOps4_1 (F := Ideal)) (StableHlo.after (hostOps4 (F := Ideal)) W))) (Proc.devRef .tc main_v72)
    = KHost.row (KHost.vec1 (W (Proc.devRef .tc main_arg11))) := by
  rw [out4_2_b2, keep4_1 _ main_arg11 (by decide), keep4 _ main_arg11 (by decide)]
/-- A buffer none of the stage's three lines writes keeps its contents through the stage. -/
theorem stage4_keep (b : Ref sig .tc) (h : b ∉ wr4) (h1 : b ∉ wr4_1) (h2 : b ∉ wr4_2) : (StableHlo.after (hostOps4_2 (F := Ideal)) (StableHlo.after (hostOps4_1 (F := Ideal)) (StableHlo.after (hostOps4 (F := Ideal)) W))) (Proc.devRef .tc b) = W (Proc.devRef .tc b) := by
  rw [keep4_2 _ b h2, keep4_1 _ b h1, keep4 _ b h]

theorem out5_mean : StableHlo.after (hostOps5 (F := Ideal)) W (Proc.devRef .tc main_v85)
    = KHost.row (KHost.meanOf (W (Proc.devRef .tc main_v73_1))) := by
  simp only [hostOps5]
  after_results_simp
  all_goals first | rfl | (simp only [StableHlo.TRef.toBuf, StableHlo.TRef.ofBuf, cast_eq, id] <;> rfl)

theorem out5_inv : StableHlo.after (hostOps5 (F := Ideal)) W (Proc.devRef .tc main_v86)
    = KHost.row (KHost.invOf (W (Proc.devRef .tc main_v73_1)) (W (Proc.devRef .tc main_v73_2))) := by
  simp only [hostOps5]
  after_results_simp
  all_goals first | rfl | (simp only [StableHlo.TRef.toBuf, StableHlo.TRef.ofBuf, cast_eq, id] <;> rfl)

theorem out5_g : StableHlo.after (hostOps5 (F := Ideal)) W (Proc.devRef .tc main_v89)
    = KHost.row (KHost.vec1 (W (Proc.devRef .tc main_arg12))) := by
  simp only [hostOps5]
  after_results_simp
  all_goals first | rfl | (simp only [StableHlo.TRef.toBuf, StableHlo.TRef.ofBuf, cast_eq, id] <;> rfl)

theorem out5_be : StableHlo.after (hostOps5 (F := Ideal)) W (Proc.devRef .tc main_v92)
    = KHost.row (KHost.vec1 (W (Proc.devRef .tc main_arg13))) := by
  simp only [hostOps5]
  after_results_simp
  all_goals first | rfl | (simp only [StableHlo.TRef.toBuf, StableHlo.TRef.ofBuf, cast_eq, id] <;> rfl)

/-! ### Layer 2: the aggregation stage (three lines) and the statistics line -/

theorem out6_pre : StableHlo.after (hostOps6 (F := Ideal)) W (Proc.devRef .tc main_v101)
    = (addf (Host.gather gather_S50000x128_S600000x1_S600000x128_1_0_n_n_0_1_1128 (W (Proc.devRef .tc main_v93)) (KHost.wrapCol (W (Proc.devRef .tc main_v1)))) (W (Proc.devRef .tc main_v7)) : FVec Ideal S600000x128 .f32) := by
  simp only [hostOps6]
  after_results_simp
  all_goals first | rfl | (simp only [StableHlo.TRef.toBuf, StableHlo.TRef.ofBuf, cast_eq, id] <;> rfl)

theorem out6_1_msg : StableHlo.after (hostOps6_1 (F := Ideal)) W (Proc.devRef .tc main_v102)
    = (maximumf (W (Proc.devRef .tc main_v101)) (broadcastInDim S600000x128 ![] bcast_S_S600000x128 (constant (F := Ideal) S_ .f32 0x00000000#32)) : FVec Ideal S600000x128 .f32) := by
  simp only [hostOps6_1]
  after_results_simp
  all_goals first | rfl | (simp only [StableHlo.TRef.toBuf, StableHlo.TRef.ofBuf, cast_eq, id] <;> rfl)

theorem out6_2_agg : StableHlo.after (hostOps6_2 (F := Ideal)) W (Proc.devRef .tc main_v105)
    = (Host.scatterAdd scatter_S50000x128_S600000x1_S600000x128_1_0_0_1
        (broadcastInDim S50000x128 ![] bcast_S_S50000x128 (constant (F := Ideal) S_ .f32 0x00000000#32))
        (broadcastInDim S600000x1 ![0] bcast_S600000_S600000x1_0 (W (Proc.devRef .tc main_v3))) (W (Proc.devRef .tc main_v102)) : FVec Ideal S50000x128 .f32) := by
  simp only [hostOps6_2]
  after_results_simp
  all_goals first | rfl | (simp only [StableHlo.TRef.toBuf, StableHlo.TRef.ofBuf, cast_eq, id] <;> rfl)

theorem out6_2_m1 : StableHlo.after (hostOps6_2 (F := Ideal)) W (Proc.devRef .tc main_v107)
    = KHost.mat2 (W (Proc.devRef .tc main_arg8)) := by
  simp only [hostOps6_2]
  after_results_simp
  all_goals first | rfl | (simp only [StableHlo.TRef.toBuf, StableHlo.TRef.ofBuf, cast_eq, id] <;> rfl)

theorem out6_2_b1 : StableHlo.after (hostOps6_2 (F := Ideal)) W (Proc.devRef .tc main_v110)
    = KHost.row (KHost.vec2 (W (Proc.devRef .tc main_arg9))) := by
  simp only [hostOps6_2]
  after_results_simp
  all_goals first | rfl | (simp only [StableHlo.TRef.toBuf, StableHlo.TRef.ofBuf, cast_eq, id] <;> rfl)

theorem out6_2_m2 : StableHlo.after (hostOps6_2 (F := Ideal)) W (Proc.devRef .tc main_v112)
    = KHost.mat2 (W (Proc.devRef .tc main_arg10)) := by
  simp only [hostOps6_2]
  after_results_simp
  all_goals first | rfl | (simp only [StableHlo.TRef.toBuf, StableHlo.TRef.ofBuf, cast_eq, id] <;> rfl)

theorem out6_2_b2 : StableHlo.after (hostOps6_2 (F := Ideal)) W (Proc.devRef .tc main_v115)
    = KHost.row (KHost.vec2 (W (Proc.devRef .tc main_arg11))) := by
  simp only [hostOps6_2]
  after_results_simp
  all_goals first | rfl | (simp only [StableHlo.TRef.toBuf, StableHlo.TRef.ofBuf, cast_eq, id] <;> rfl)

/-- The aggregation stage's table: the layer's aggregation of the node table, the encoded edge features and the two
    flat index vectors as they stood at the stage's entry. -/
theorem stage6_agg : (StableHlo.after (hostOps6_2 (F := Ideal)) (StableHlo.after (hostOps6_1 (F := Ideal)) (StableHlo.after (hostOps6 (F := Ideal)) W))) (Proc.devRef .tc main_v105)
    = KHost.aggOf (W (Proc.devRef .tc main_v93)) (W (Proc.devRef .tc main_v7)) (W (Proc.devRef .tc main_v1)) (W (Proc.devRef .tc main_v3)) := by
  rw [out6_2_agg, keep6_1 _ main_v3 (by decide), keep6 _ main_v3 (by decide), out6_1_msg, out6_pre]
  rfl
theorem stage6_m1 : (StableHlo.after (hostOps6_2 (F := Ideal)) (StableHlo.after (hostOps6_1 (F := Ideal)) (StableHlo.after (hostOps6 (F := Ideal)) W))) (Proc.devRef .tc main_v107)
    = KHost.mat2 (W (Proc.devRef .tc main_arg8)) := by
  rw [out6_2_m1, keep6_1 _ main_arg8 (by decide), keep6 _ main_arg8 (by decide)]
theorem stage6_b1 : (StableHlo.after (hostOps6_2 (F := Ideal)) (StableHlo.after (hostOps6_1 (F := Ideal)) (StableHlo.after (hostOps6 (F := Ideal)) W))) (Proc.devRef .tc main_v110)
    = KHost.row (KHost.vec2 (W (Proc.devRef .tc main_arg9))) := by
  rw [out6_2_b1, keep6_1 _ main_arg9 (by decide), keep6 _ main_arg9 (by decide)]
theorem stage6_m2 : (StableHlo.after (hostOps6_2 (F := Ideal)) (StableHlo.after (hostOps6_1 (F := Ideal)) (StableHlo.after (hostOps6 (F := Ideal)) W))) (Proc.devRef .tc main_v112)
    = KHost.mat2 (W (Proc.devRef .tc main_arg10)) := by
  rw [out6_2_m2, keep6_1 _ main_arg10 (by decide), keep6 _ main_arg10 (by decide)]
theorem stage6_b2 : (StableHlo.after (hostOps6_2 (F := Ideal)) (StableHlo.after (hostOps6_1 (F := Ideal)) (StableHlo.after (hostOps6 (F := Ideal)) W))) (Proc.devRef .tc main_v115)
    = KHost.row (KHost.vec2 (W (Proc.devRef .tc main_arg11))) := by
  rw [out6_2_b2, keep6_1 _ main_arg11 (by decide), keep6 _ main_arg11 (by decide)]
/-- A buffer none of the stage's three lines writes keeps its contents through the stage. -/
theorem stage6_keep (b : Ref sig .tc) (h : b ∉ wr6) (h1 : b ∉ wr6_1) (h2 : b ∉ wr6_2) : (StableHlo.after (hostOps6_2 (F := Ideal)) (StableHlo.after (hostOps6_1 (F := Ideal)) (StableHlo.after (hostOps6 (F := Ideal)) W))) (Proc.devRef .tc b) = W (Proc.devRef .tc b) := by
  rw [keep6_2 _ b h2, keep6_1 _ b h1, keep6 _ b h]

theorem out7_mean : StableHlo.after (hostOps7 (F := Ideal)) W (Proc.devRef .tc main_v128)
    = KHost.row (KHost.meanOf (W (Proc.devRef .tc main_v116_1))) := by
  simp only [hostOps7]
  after_results_simp
  all_goals first | rfl | (simp only [StableHlo.TRef.toBuf, StableHlo.TRef.ofBuf, cast_eq, id] <;> rfl)

theorem out7_inv : StableHlo.after (hostOps7 (F := Ideal)) W (Proc.devRef .tc main_v129)
    = KHost.row (KHost.invOf (W (Proc.devRef .tc main_v116_1)) (W (Proc.devRef .tc main_v116_2))) := by
  simp only [hostOps7]
  after_results_simp
  all_goals first | rfl | (simp only [StableHlo.TRef.toBuf, StableHlo.TRef.ofBuf, cast_eq, id] <;> rfl)

theorem out7_g : StableHlo.after (hostOps7 (F := Ideal)) W (Proc.devRef .tc main_v132)
    = KHost.row (KHost.vec2 (W (Proc.devRef .tc main_arg12))) := by
  simp only [hostOps7]
  after_results_simp
  all_goals first | rfl | (simp only [StableHlo.TRef.toBuf, StableHlo.TRef.ofBuf, cast_eq, id] <;> rfl)

theorem out7_be : StableHlo.after (hostOps7 (F := Ideal)) W (Proc.devRef .tc main_v135)
    = KHost.row (KHost.vec2 (W (Proc.devRef .tc main_arg13))) := by
  simp only [hostOps7]
  after_results_simp
  all_goals first | rfl | (simp only [StableHlo.TRef.toBuf, StableHlo.TRef.ofBuf, cast_eq, id] <;> rfl)

/-! ### The readout head (three lines) -/

theorem out8_pre : StableHlo.after (hostOps8 (F := Ideal)) W (Proc.devRef .tc main_v143)
    = KHost.headPre (W (Proc.devRef .tc main_v136)) (W (Proc.devRef .tc main_arg3)) (W (Proc.devRef .tc main_arg14)) (W (Proc.devRef .tc main_arg15)) := by
  simp only [hostOps8]
  after_results_simp
  all_goals first | rfl | (simp only [StableHlo.TRef.toBuf, StableHlo.TRef.ofBuf, cast_eq, id] <;> rfl)

theorem out8_1_relu : StableHlo.after (hostOps8_1 (F := Ideal)) W (Proc.devRef .tc main_v144)
    = KHost.relu256 (W (Proc.devRef .tc main_v143)) := by
  simp only [hostOps8_1]
  after_results_simp
  all_goals first | rfl | (simp only [StableHlo.TRef.toBuf, StableHlo.TRef.ofBuf, cast_eq, id] <;> rfl)

theorem out8_2_out : StableHlo.after (hostOps8_2 (F := Ideal)) W (Proc.devRef .tc main_v148)
    = KHost.headOut (W (Proc.devRef .tc main_v144)) (W (Proc.devRef .tc main_arg16)) (W (Proc.devRef .tc main_arg17)) := by
  simp only [hostOps8_2]
  after_results_simp
  all_goals first | rfl | (simp only [StableHlo.TRef.toBuf, StableHlo.TRef.ofBuf, cast_eq, id] <;> rfl)

/-- The result buffer after the head's three lines: the readout head of the last node table, the graph numbers and the
    head's weights as they stood at the head's entry. -/
theorem stage8_head : (StableHlo.after (hostOps8_2 (F := Ideal)) (StableHlo.after (hostOps8_1 (F := Ideal)) (StableHlo.after (hostOps8 (F := Ideal)) W))) (Proc.devRef .tc main_v148)
    = KHost.head (W (Proc.devRef .tc main_v136)) (W (Proc.devRef .tc main_arg3)) (W (Proc.devRef .tc main_arg14)) (W (Proc.devRef .tc main_arg15)) (W (Proc.devRef .tc main_arg16)) (W (Proc.devRef .tc main_arg17)) := by
  rw [out8_2_out, keep8_1 _ main_arg16 (by decide), keep8 _ main_arg16 (by decide), keep8_1 _ main_arg17 (by decide),
    keep8 _ main_arg17 (by decide), out8_1_relu, out8_pre]
  rfl

end Cert.KStretch

end
-- ==== Proof.KWalk.lean ====
import proofs.«157653_j15152644620445_2_alg».proof.Proof.Gen.KernelIdeal.Frame
import proofs.«157653_j15152644620445_2_alg».proof.Proof.KStretch

/-! # The walk through the kernel program's boundary valuations

The kernel program's run is cut at 25 boundaries; the valuation at a boundary is the previous one pushed through a
host line, or through a pipelined region (the region's arrays at what its write-backs leave, every other buffer
untouched). This module reads, at each region's entry, what every window array of the region holds, and at the end
what the result buffer holds — as the named host functions applied to the launch memory's arguments and to the
arrays earlier regions left. Each read is a walk back along the boundaries: a buffer a line or a region does not
write is carried across it unchanged, until the line or region that wrote it is reached. -/

set_option maxRecDepth 16384

noncomputable section

namespace Cert.KWalk

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-! ## The arrays the regions leave -/

/-- The encoded node table: region 0's output array. -/
abbrev H0 : FVec Ideal S50000x128 .f32 := (dat0 (F := Ideal) (V1 m ρ) c).arrAt 3 cfg0.N
/-- The encoded edge features: region 1's output array. -/
abbrev EAe : FVec Ideal S600000x128 .f32 := (dat1 (F := Ideal) (V3 m ρ) c).arrAt 3 cfg1.N
/-- Layer 0's pre-normalisation table: region 2's first output array. -/
abbrev Z0 : FVec Ideal S50000x128 .f32 := (dat2 (F := Ideal) (V7 m ρ) c).arrAt 6 cfg2.N
/-- Layer 0's per-tile column sums: region 2's second output array. -/
abbrev S0 : FVec Ideal S10x8x128 .f32 := (dat2 (F := Ideal) (V7 m ρ) c).arrAt 7 cfg2.N
/-- Layer 0's per-tile column sums of squares: region 2's third output array. -/
abbrev Q0 : FVec Ideal S10x8x128 .f32 := (dat2 (F := Ideal) (V7 m ρ) c).arrAt 8 cfg2.N
/-- Layer 0's output node table: region 3's output array. -/
abbrev H1 : FVec Ideal S50000x128 .f32 := (dat3 (F := Ideal) (V9 m ρ) c).arrAt 5 cfg3.N
/-- Layer 1's pre-normalisation table: region 4's first output array. -/
abbrev Z1 : FVec Ideal S50000x128 .f32 := (dat4 (F := Ideal) (V13 m ρ) c).arrAt 6 cfg4.N
/-- Layer 1's per-tile column sums: region 4's second output array. -/
abbrev S1 : FVec Ideal S10x8x128 .f32 := (dat4 (F := Ideal) (V13 m ρ) c).arrAt 7 cfg4.N
/-- Layer 1's per-tile column sums of squares: region 4's third output array. -/
abbrev Q1 : FVec Ideal S10x8x128 .f32 := (dat4 (F := Ideal) (V13 m ρ) c).arrAt 8 cfg4.N
/-- Layer 1's output node table: region 5's output array. -/
abbrev H2 : FVec Ideal S50000x128 .f32 := (dat5 (F := Ideal) (V15 m ρ) c).arrAt 5 cfg5.N
/-- Layer 2's pre-normalisation table: region 6's first output array. -/
abbrev Z2 : FVec Ideal S50000x128 .f32 := (dat6 (F := Ideal) (V19 m ρ) c).arrAt 6 cfg6.N
/-- Layer 2's per-tile column sums: region 6's second output array. -/
abbrev S2 : FVec Ideal S10x8x128 .f32 := (dat6 (F := Ideal) (V19 m ρ) c).arrAt 7 cfg6.N
/-- Layer 2's per-tile column sums of squares: region 6's third output array. -/
abbrev Q2 : FVec Ideal S10x8x128 .f32 := (dat6 (F := Ideal) (V19 m ρ) c).arrAt 8 cfg6.N
/-- Layer 2's output node table: region 7's output array. -/
abbrev H3 : FVec Ideal S50000x128 .f32 := (dat7 (F := Ideal) (V21 m ρ) c).arrAt 5 cfg7.N

/-! ## Buffers carried back to where they were written -/

theorem arg0_at1 : W1 m ρ c (Proc.devRef .tc main_arg0) = (m ((c : Thread nD τ).loc main_arg0)) :=
  calc W1 m ρ c (Proc.devRef .tc main_arg0)
    _ = W0 m ρ c (Proc.devRef .tc main_arg0) := KStretch.keep0 (W0 m ρ c) main_arg0 (by decide)
    _ = (m ((c : Thread nD τ).loc main_arg0)) := rfl
theorem arg4_at1 : W1 m ρ c (Proc.devRef .tc main_arg4) = (m ((c : Thread nD τ).loc main_arg4)) :=
  calc W1 m ρ c (Proc.devRef .tc main_arg4)
    _ = W0 m ρ c (Proc.devRef .tc main_arg4) := KStretch.keep0 (W0 m ρ c) main_arg4 (by decide)
    _ = (m ((c : Thread nD τ).loc main_arg4)) := rfl
theorem arg2_at3 : W3 m ρ c (Proc.devRef .tc main_arg2) = (m ((c : Thread nD τ).loc main_arg2)) :=
  calc W3 m ρ c (Proc.devRef .tc main_arg2)
    _ = W2 m ρ c (Proc.devRef .tc main_arg2) := KStretch.keep1 (W2 m ρ c) main_arg2 (by decide)
    _ = W1 m ρ c (Proc.devRef .tc main_arg2) := W2_of_ne m ρ c main_arg2 (by decide)
    _ = W0 m ρ c (Proc.devRef .tc main_arg2) := KStretch.keep0 (W0 m ρ c) main_arg2 (by decide)
    _ = (m ((c : Thread nD τ).loc main_arg2)) := rfl
theorem arg6_at3 : W3 m ρ c (Proc.devRef .tc main_arg6) = (m ((c : Thread nD τ).loc main_arg6)) :=
  calc W3 m ρ c (Proc.devRef .tc main_arg6)
    _ = W2 m ρ c (Proc.devRef .tc main_arg6) := KStretch.keep1 (W2 m ρ c) main_arg6 (by decide)
    _ = W1 m ρ c (Proc.devRef .tc main_arg6) := W2_of_ne m ρ c main_arg6 (by decide)
    _ = W0 m ρ c (Proc.devRef .tc main_arg6) := KStretch.keep0 (W0 m ρ c) main_arg6 (by decide)
    _ = (m ((c : Thread nD τ).loc main_arg6)) := rfl
theorem arg7_at2 : W2 m ρ c (Proc.devRef .tc main_arg7) = (m ((c : Thread nD τ).loc main_arg7)) :=
  calc W2 m ρ c (Proc.devRef .tc main_arg7)
    _ = W1 m ρ c (Proc.devRef .tc main_arg7) := W2_of_ne m ρ c main_arg7 (by decide)
    _ = W0 m ρ c (Proc.devRef .tc main_arg7) := KStretch.keep0 (W0 m ρ c) main_arg7 (by decide)
    _ = (m ((c : Thread nD τ).loc main_arg7)) := rfl
/-- The flat source vector, read before layer 0's aggregation stage. -/
theorem v1_at4 : W4 m ρ c (Proc.devRef .tc main_v1) = KHost.srcFlat (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := KStretch.keep1 (W2 m ρ c) main_v1 (by decide)
    _ = W1 m ρ c (Proc.devRef .tc main_v1) := W2_of_ne m ρ c main_v1 (by decide)
    _ = KHost.srcFlat (m ((c : Thread nD τ).loc main_arg1)) := KStretch.out0_v1 (W0 m ρ c)
/-- The flat destination vector, read before layer 0's aggregation stage. -/
theorem v3_at4 : W4 m ρ c (Proc.devRef .tc main_v3) = KHost.dstFlat (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := KStretch.keep1 (W2 m ρ c) main_v3 (by decide)
    _ = W1 m ρ c (Proc.devRef .tc main_v3) := W2_of_ne m ρ c main_v3 (by decide)
    _ = KHost.dstFlat (m ((c : Thread nD τ).loc main_arg1)) := KStretch.out0_v3 (W0 m ρ c)
/-- The encoded node table, read before layer 0's aggregation stage. -/
theorem v5_at4 : W4 m ρ c (Proc.devRef .tc main_v5) = H0 m ρ c :=
  calc W4 m ρ c (Proc.devRef .tc main_v5)
    _ = W3 m ρ c (Proc.devRef .tc main_v5) := W4_of_ne m ρ c main_v5 (by decide)
    _ = W2 m ρ c (Proc.devRef .tc main_v5) := KStretch.keep1 (W2 m ρ c) main_v5 (by decide)
    _ = H0 m ρ c := W2_arr m ρ c 3
/-- The encoded edge features, read before layer 0's aggregation stage. -/
theorem v7_at4 : W4 m ρ c (Proc.devRef .tc main_v7) = EAe m ρ c := W4_arr m ρ c 3
theorem arg8_at4 : W4 m ρ c (Proc.devRef .tc main_arg8) = (m ((c : Thread nD τ).loc main_arg8)) :=
  calc W4 m ρ c (Proc.devRef .tc main_arg8)
    _ = W3 m ρ c (Proc.devRef .tc main_arg8) := W4_of_ne m ρ c main_arg8 (by decide)
    _ = W2 m ρ c (Proc.devRef .tc main_arg8) := KStretch.keep1 (W2 m ρ c) main_arg8 (by decide)
    _ = W1 m ρ c (Proc.devRef .tc main_arg8) := W2_of_ne m ρ c main_arg8 (by decide)
    _ = W0 m ρ c (Proc.devRef .tc main_arg8) := KStretch.keep0 (W0 m ρ c) main_arg8 (by decide)
    _ = (m ((c : Thread nD τ).loc main_arg8)) := rfl
theorem arg9_at4 : W4 m ρ c (Proc.devRef .tc main_arg9) = (m ((c : Thread nD τ).loc main_arg9)) :=
  calc W4 m ρ c (Proc.devRef .tc main_arg9)
    _ = W3 m ρ c (Proc.devRef .tc main_arg9) := W4_of_ne m ρ c main_arg9 (by decide)
    _ = W2 m ρ c (Proc.devRef .tc main_arg9) := KStretch.keep1 (W2 m ρ c) main_arg9 (by decide)
    _ = W1 m ρ c (Proc.devRef .tc main_arg9) := W2_of_ne m ρ c main_arg9 (by decide)
    _ = W0 m ρ c (Proc.devRef .tc main_arg9) := KStretch.keep0 (W0 m ρ c) main_arg9 (by decide)
    _ = (m ((c : Thread nD τ).loc main_arg9)) := rfl
theorem arg10_at4 : W4 m ρ c (Proc.devRef .tc main_arg10) = (m ((c : Thread nD τ).loc main_arg10)) :=
  calc W4 m ρ c (Proc.devRef .tc main_arg10)
    _ = W3 m ρ c (Proc.devRef .tc main_arg10) := W4_of_ne m ρ c main_arg10 (by decide)
    _ = W2 m ρ c (Proc.devRef .tc main_arg10) := KStretch.keep1 (W2 m ρ c) main_arg10 (by decide)
    _ = W1 m ρ c (Proc.devRef .tc main_arg10) := W2_of_ne m ρ c main_arg10 (by decide)
    _ = W0 m ρ c (Proc.devRef .tc main_arg10) := KStretch.keep0 (W0 m ρ c) main_arg10 (by decide)
    _ = (m ((c : Thread nD τ).loc main_arg10)) := rfl
theorem arg11_at4 : W4 m ρ c (Proc.devRef .tc main_arg11) = (m ((c : Thread nD τ).loc main_arg11)) :=
  calc W4 m ρ c (Proc.devRef .tc main_arg11)
    _ = W3 m ρ c (Proc.devRef .tc main_arg11) := W4_of_ne m ρ c main_arg11 (by decide)
    _ = W2 m ρ c (Proc.devRef .tc main_arg11) := KStretch.keep1 (W2 m ρ c) main_arg11 (by decide)
    _ = W1 m ρ c (Proc.devRef .tc main_arg11) := W2_of_ne m ρ c main_arg11 (by decide)
    _ = W0 m ρ c (Proc.devRef .tc main_arg11) := KStretch.keep0 (W0 m ρ c) main_arg11 (by decide)
    _ = (m ((c : Thread nD τ).loc main_arg11)) := rfl
theorem arg12_at8 : W8 m ρ c (Proc.devRef .tc main_arg12) = (m ((c : Thread nD τ).loc main_arg12)) :=
  calc W8 m ρ c (Proc.devRef .tc main_arg12)
    _ = W7 m ρ c (Proc.devRef .tc main_arg12) := W8_of_ne m ρ c main_arg12 (by decide)
    _ = W6 m ρ c (Proc.devRef .tc main_arg12) := KStretch.keep2_2 (W6 m ρ c) main_arg12 (by decide)
    _ = W5 m ρ c (Proc.devRef .tc main_arg12) := KStretch.keep2_1 (W5 m ρ c) main_arg12 (by decide)
    _ = W4 m ρ c (Proc.devRef .tc main_arg12) := KStretch.keep2 (W4 m ρ c) main_arg12 (by decide)
    _ = W3 m ρ c (Proc.devRef .tc main_arg12) := W4_of_ne m ρ c main_arg12 (by decide)
    _ = W2 m ρ c (Proc.devRef .tc main_arg12) := KStretch.keep1 (W2 m ρ c) main_arg12 (by decide)
    _ = W1 m ρ c (Proc.devRef .tc main_arg12) := W2_of_ne m ρ c main_arg12 (by decide)
    _ = W0 m ρ c (Proc.devRef .tc main_arg12) := KStretch.keep0 (W0 m ρ c) main_arg12 (by decide)
    _ = (m ((c : Thread nD τ).loc main_arg12)) := rfl
theorem arg13_at8 : W8 m ρ c (Proc.devRef .tc main_arg13) = (m ((c : Thread nD τ).loc main_arg13)) :=
  calc W8 m ρ c (Proc.devRef .tc main_arg13)
    _ = W7 m ρ c (Proc.devRef .tc main_arg13) := W8_of_ne m ρ c main_arg13 (by decide)
    _ = W6 m ρ c (Proc.devRef .tc main_arg13) := KStretch.keep2_2 (W6 m ρ c) main_arg13 (by decide)
    _ = W5 m ρ c (Proc.devRef .tc main_arg13) := KStretch.keep2_1 (W5 m ρ c) main_arg13 (by decide)
    _ = W4 m ρ c (Proc.devRef .tc main_arg13) := KStretch.keep2 (W4 m ρ c) main_arg13 (by decide)
    _ = W3 m ρ c (Proc.devRef .tc main_arg13) := W4_of_ne m ρ c main_arg13 (by decide)
    _ = W2 m ρ c (Proc.devRef .tc main_arg13) := KStretch.keep1 (W2 m ρ c) main_arg13 (by decide)
    _ = W1 m ρ c (Proc.devRef .tc main_arg13) := W2_of_ne m ρ c main_arg13 (by decide)
    _ = W0 m ρ c (Proc.devRef .tc main_arg13) := KStretch.keep0 (W0 m ρ c) main_arg13 (by decide)
    _ = (m ((c : Thread nD τ).loc main_arg13)) := rfl
theorem v1_at10 : W10 m ρ c (Proc.devRef .tc main_v1) = KHost.srcFlat (m ((c : Thread nD τ).loc main_arg1)) :=
  calc W10 m ρ c (Proc.devRef .tc main_v1)
    _ = W9 m ρ c (Proc.devRef .tc main_v1) := W10_of_ne m ρ c main_v1 (by decide)
    _ = W8 m ρ c (Proc.devRef .tc main_v1) := KStretch.keep3 (W8 m ρ c) main_v1 (by decide)
    _ = W7 m ρ c (Proc.devRef .tc main_v1) := W8_of_ne m ρ c main_v1 (by decide)
    _ = W6 m ρ c (Proc.devRef .tc main_v1) := KStretch.keep2_2 (W6 m ρ c) main_v1 (by decide)
    _ = W5 m ρ c (Proc.devRef .tc main_v1) := KStretch.keep2_1 (W5 m ρ c) main_v1 (by decide)
    _ = W4 m ρ c (Proc.devRef .tc main_v1) := KStretch.keep2 (W4 m ρ c) main_v1 (by decide)
    _ = KHost.srcFlat (m ((c : Thread nD τ).loc main_arg1)) := v1_at4 m ρ c
theorem v3_at10 : W10 m ρ c (Proc.devRef .tc main_v3) = KHost.dstFlat (m ((c : Thread nD τ).loc main_arg1)) :=
  calc W10 m ρ c (Proc.devRef .tc main_v3)
    _ = W9 m ρ c (Proc.devRef .tc main_v3) := W10_of_ne m ρ c main_v3 (by decide)
    _ = W8 m ρ c (Proc.devRef .tc main_v3) := KStretch.keep3 (W8 m ρ c) main_v3 (by decide)
    _ = W7 m ρ c (Proc.devRef .tc main_v3) := W8_of_ne m ρ c main_v3 (by decide)
    _ = W6 m ρ c (Proc.devRef .tc main_v3) := KStretch.keep2_2 (W6 m ρ c) main_v3 (by decide)
    _ = W5 m ρ c (Proc.devRef .tc main_v3) := KStretch.keep2_1 (W5 m ρ c) main_v3 (by decide)
    _ = W4 m ρ c (Proc.devRef .tc main_v3) := KStretch.keep2 (W4 m ρ c) main_v3 (by decide)
    _ = KHost.dstFlat (m ((c : Thread nD τ).loc main_arg1)) := v3_at4 m ρ c
theorem v7_at10 : W10 m ρ c (Proc.devRef .tc main_v7) = EAe m ρ c :=
  calc W10 m ρ c (Proc.devRef .tc main_v7)
    _ = W9 m ρ c (Proc.devRef .tc main_v7) := W10_of_ne m ρ c main_v7 (by decide)
    _ = W8 m ρ c (Proc.devRef .tc main_v7) := KStretch.keep3 (W8 m ρ c) main_v7 (by decide)
    _ = W7 m ρ c (Proc.devRef .tc main_v7) := W8_of_ne m ρ c main_v7 (by decide)
    _ = W6 m ρ c (Proc.devRef .tc main_v7) := KStretch.keep2_2 (W6 m ρ c) main_v7 (by decide)
    _ = W5 m ρ c (Proc.devRef .tc main_v7) := KStretch.keep2_1 (W5 m ρ c) main_v7 (by decide)
    _ = W4 m ρ c (Proc.devRef .tc main_v7) := KStretch.keep2 (W4 m ρ c) main_v7 (by decide)
    _ = EAe m ρ c := v7_at4 m ρ c
theorem arg8_at10 : W10 m ρ c (Proc.devRef .tc main_arg8) = (m ((c : Thread nD τ).loc main_arg8)) :=
  calc W10 m ρ c (Proc.devRef .tc main_arg8)
    _ = W9 m ρ c (Proc.devRef .tc main_arg8) := W10_of_ne m ρ c main_arg8 (by decide)
    _ = W8 m ρ c (Proc.devRef .tc main_arg8) := KStretch.keep3 (W8 m ρ c) main_arg8 (by decide)
    _ = W7 m ρ c (Proc.devRef .tc main_arg8) := W8_of_ne m ρ c main_arg8 (by decide)
    _ = W6 m ρ c (Proc.devRef .tc main_arg8) := KStretch.keep2_2 (W6 m ρ c) main_arg8 (by decide)
    _ = W5 m ρ c (Proc.devRef .tc main_arg8) := KStretch.keep2_1 (W5 m ρ c) main_arg8 (by decide)
    _ = W4 m ρ c (Proc.devRef .tc main_arg8) := KStretch.keep2 (W4 m ρ c) main_arg8 (by decide)
    _ = (m ((c : Thread nD τ).loc main_arg8)) := arg8_at4 m ρ c
theorem arg9_at10 : W10 m ρ c (Proc.devRef .tc main_arg9) = (m ((c : Thread nD τ).loc main_arg9)) :=
  calc W10 m ρ c (Proc.devRef .tc main_arg9)
    _ = W9 m ρ c (Proc.devRef .tc main_arg9) := W10_of_ne m ρ c main_arg9 (by decide)
    _ = W8 m ρ c (Proc.devRef .tc main_arg9) := KStretch.keep3 (W8 m ρ c) main_arg9 (by decide)
    _ = W7 m ρ c (Proc.devRef .tc main_arg9) := W8_of_ne m ρ c main_arg9 (by decide)
    _ = W6 m ρ c (Proc.devRef .tc main_arg9) := KStretch.keep2_2 (W6 m ρ c) main_arg9 (by decide)
    _ = W5 m ρ c (Proc.devRef .tc main_arg9) := KStretch.keep2_1 (W5 m ρ c) main_arg9 (by decide)
    _ = W4 m ρ c (Proc.devRef .tc main_arg9) := KStretch.keep2 (W4 m ρ c) main_arg9 (by decide)
    _ = (m ((c : Thread nD τ).loc main_arg9)) := arg9_at4 m ρ c
theorem arg10_at10 : W10 m ρ c (Proc.devRef .tc main_arg10) = (m ((c : Thread nD τ).loc main_arg10)) :=
  calc W10 m ρ c (Proc.devRef .tc main_arg10)
    _ = W9 m ρ c (Proc.devRef .tc main_arg10) := W10_of_ne m ρ c main_arg10 (by decide)
    _ = W8 m ρ c (Proc.devRef .tc main_arg10) := KStretch.keep3 (W8 m ρ c) main_arg10 (by decide)
    _ = W7 m ρ c (Proc.devRef .tc main_arg10) := W8_of_ne m ρ c main_arg10 (by decide)
    _ = W6 m ρ c (Proc.devRef .tc main_arg10) := KStretch.keep2_2 (W6 m ρ c) main_arg10 (by decide)
    _ = W5 m ρ c (Proc.devRef .tc main_arg10) := KStretch.keep2_1 (W5 m ρ c) main_arg10 (by decide)
    _ = W4 m ρ c (Proc.devRef .tc main_arg10) := KStretch.keep2 (W4 m ρ c) main_arg10 (by decide)
    _ = (m ((c : Thread nD τ).loc main_arg10)) := arg10_at4 m ρ c
theorem arg11_at10 : W10 m ρ c (Proc.devRef .tc main_arg11) = (m ((c : Thread nD τ).loc main_arg11)) :=
  calc W10 m ρ c (Proc.devRef .tc main_arg11)
    _ = W9 m ρ c (Proc.devRef .tc main_arg11) := W10_of_ne m ρ c main_arg11 (by decide)
    _ = W8 m ρ c (Proc.devRef .tc main_arg11) := KStretch.keep3 (W8 m ρ c) main_arg11 (by decide)
    _ = W7 m ρ c (Proc.devRef .tc main_arg11) := W8_of_ne m ρ c main_arg11 (by decide)
    _ = W6 m ρ c (Proc.devRef .tc main_arg11) := KStretch.keep2_2 (W6 m ρ c) main_arg11 (by decide)
    _ = W5 m ρ c (Proc.devRef .tc main_arg11) := KStretch.keep2_1 (W5 m ρ c) main_arg11 (by decide)
    _ = W4 m ρ c (Proc.devRef .tc main_arg11) := KStretch.keep2 (W4 m ρ c) main_arg11 (by decide)
    _ = (m ((c : Thread nD τ).loc main_arg11)) := arg11_at4 m ρ c
theorem arg12_at14 : W14 m ρ c (Proc.devRef .tc main_arg12) = (m ((c : Thread nD τ).loc main_arg12)) :=
  calc W14 m ρ c (Proc.devRef .tc main_arg12)
    _ = W13 m ρ c (Proc.devRef .tc main_arg12) := W14_of_ne m ρ c main_arg12 (by decide)
    _ = W12 m ρ c (Proc.devRef .tc main_arg12) := KStretch.keep4_2 (W12 m ρ c) main_arg12 (by decide)
    _ = W11 m ρ c (Proc.devRef .tc main_arg12) := KStretch.keep4_1 (W11 m ρ c) main_arg12 (by decide)
    _ = W10 m ρ c (Proc.devRef .tc main_arg12) := KStretch.keep4 (W10 m ρ c) main_arg12 (by decide)
    _ = W9 m ρ c (Proc.devRef .tc main_arg12) := W10_of_ne m ρ c main_arg12 (by decide)
    _ = W8 m ρ c (Proc.devRef .tc main_arg12) := KStretch.keep3 (W8 m ρ c) main_arg12 (by decide)
    _ = (m ((c : Thread nD τ).loc main_arg12)) := arg12_at8 m ρ c
theorem arg13_at14 : W14 m ρ c (Proc.devRef .tc main_arg13) = (m ((c : Thread nD τ).loc main_arg13)) :=
  calc W14 m ρ c (Proc.devRef .tc main_arg13)
    _ = W13 m ρ c (Proc.devRef .tc main_arg13) := W14_of_ne m ρ c main_arg13 (by decide)
    _ = W12 m ρ c (Proc.devRef .tc main_arg13) := KStretch.keep4_2 (W12 m ρ c) main_arg13 (by decide)
    _ = W11 m ρ c (Proc.devRef .tc main_arg13) := KStretch.keep4_1 (W11 m ρ c) main_arg13 (by decide)
    _ = W10 m ρ c (Proc.devRef .tc main_arg13) := KStretch.keep4 (W10 m ρ c) main_arg13 (by decide)
    _ = W9 m ρ c (Proc.devRef .tc main_arg13) := W10_of_ne m ρ c main_arg13 (by decide)
    _ = W8 m ρ c (Proc.devRef .tc main_arg13) := KStretch.keep3 (W8 m ρ c) main_arg13 (by decide)
    _ = (m ((c : Thread nD τ).loc main_arg13)) := arg13_at8 m ρ c
theorem v1_at16 : W16 m ρ c (Proc.devRef .tc main_v1) = KHost.srcFlat (m ((c : Thread nD τ).loc main_arg1)) :=
  calc W16 m ρ c (Proc.devRef .tc main_v1)
    _ = W15 m ρ c (Proc.devRef .tc main_v1) := W16_of_ne m ρ c main_v1 (by decide)
    _ = W14 m ρ c (Proc.devRef .tc main_v1) := KStretch.keep5 (W14 m ρ c) main_v1 (by decide)
    _ = W13 m ρ c (Proc.devRef .tc main_v1) := W14_of_ne m ρ c main_v1 (by decide)
    _ = W12 m ρ c (Proc.devRef .tc main_v1) := KStretch.keep4_2 (W12 m ρ c) main_v1 (by decide)
    _ = W11 m ρ c (Proc.devRef .tc main_v1) := KStretch.keep4_1 (W11 m ρ c) main_v1 (by decide)
    _ = W10 m ρ c (Proc.devRef .tc main_v1) := KStretch.keep4 (W10 m ρ c) main_v1 (by decide)
    _ = KHost.srcFlat (m ((c : Thread nD τ).loc main_arg1)) := v1_at10 m ρ c
theorem v3_at16 : W16 m ρ c (Proc.devRef .tc main_v3) = KHost.dstFlat (m ((c : Thread nD τ).loc main_arg1)) :=
  calc W16 m ρ c (Proc.devRef .tc main_v3)
    _ = W15 m ρ c (Proc.devRef .tc main_v3) := W16_of_ne m ρ c main_v3 (by decide)
    _ = W14 m ρ c (Proc.devRef .tc main_v3) := KStretch.keep5 (W14 m ρ c) main_v3 (by decide)
    _ = W13 m ρ c (Proc.devRef .tc main_v3) := W14_of_ne m ρ c main_v3 (by decide)
    _ = W12 m ρ c (Proc.devRef .tc main_v3) := KStretch.keep4_2 (W12 m ρ c) main_v3 (by decide)
    _ = W11 m ρ c (Proc.devRef .tc main_v3) := KStretch.keep4_1 (W11 m ρ c) main_v3 (by decide)
    _ = W10 m ρ c (Proc.devRef .tc main_v3) := KStretch.keep4 (W10 m ρ c) main_v3 (by decide)
    _ = KHost.dstFlat (m ((c : Thread nD τ).loc main_arg1)) := v3_at10 m ρ c
theorem v7_at16 : W16 m ρ c (Proc.devRef .tc main_v7) = EAe m ρ c :=
  calc W16 m ρ c (Proc.devRef .tc main_v7)
    _ = W15 m ρ c (Proc.devRef .tc main_v7) := W16_of_ne m ρ c main_v7 (by decide)
    _ = W14 m ρ c (Proc.devRef .tc main_v7) := KStretch.keep5 (W14 m ρ c) main_v7 (by decide)
    _ = W13 m ρ c (Proc.devRef .tc main_v7) := W14_of_ne m ρ c main_v7 (by decide)
    _ = W12 m ρ c (Proc.devRef .tc main_v7) := KStretch.keep4_2 (W12 m ρ c) main_v7 (by decide)
    _ = W11 m ρ c (Proc.devRef .tc main_v7) := KStretch.keep4_1 (W11 m ρ c) main_v7 (by decide)
    _ = W10 m ρ c (Proc.devRef .tc main_v7) := KStretch.keep4 (W10 m ρ c) main_v7 (by decide)
    _ = EAe m ρ c := v7_at10 m ρ c
theorem arg8_at16 : W16 m ρ c (Proc.devRef .tc main_arg8) = (m ((c : Thread nD τ).loc main_arg8)) :=
  calc W16 m ρ c (Proc.devRef .tc main_arg8)
    _ = W15 m ρ c (Proc.devRef .tc main_arg8) := W16_of_ne m ρ c main_arg8 (by decide)
    _ = W14 m ρ c (Proc.devRef .tc main_arg8) := KStretch.keep5 (W14 m ρ c) main_arg8 (by decide)
    _ = W13 m ρ c (Proc.devRef .tc main_arg8) := W14_of_ne m ρ c main_arg8 (by decide)
    _ = W12 m ρ c (Proc.devRef .tc main_arg8) := KStretch.keep4_2 (W12 m ρ c) main_arg8 (by decide)
    _ = W11 m ρ c (Proc.devRef .tc main_arg8) := KStretch.keep4_1 (W11 m ρ c) main_arg8 (by decide)
    _ = W10 m ρ c (Proc.devRef .tc main_arg8) := KStretch.keep4 (W10 m ρ c) main_arg8 (by decide)
    _ = (m ((c : Thread nD τ).loc main_arg8)) := arg8_at10 m ρ c
theorem arg9_at16 : W16 m ρ c (Proc.devRef .tc main_arg9) = (m ((c : Thread nD τ).loc main_arg9)) :=
  calc W16 m ρ c (Proc.devRef .tc main_arg9)
    _ = W15 m ρ c (Proc.devRef .tc main_arg9) := W16_of_ne m ρ c main_arg9 (by decide)
    _ = W14 m ρ c (Proc.devRef .tc main_arg9) := KStretch.keep5 (W14 m ρ c) main_arg9 (by decide)
    _ = W13 m ρ c (Proc.devRef .tc main_arg9) := W14_of_ne m ρ c main_arg9 (by decide)
    _ = W12 m ρ c (Proc.devRef .tc main_arg9) := KStretch.keep4_2 (W12 m ρ c) main_arg9 (by decide)
    _ = W11 m ρ c (Proc.devRef .tc main_arg9) := KStretch.keep4_1 (W11 m ρ c) main_arg9 (by decide)
    _ = W10 m ρ c (Proc.devRef .tc main_arg9) := KStretch.keep4 (W10 m ρ c) main_arg9 (by decide)
    _ = (m ((c : Thread nD τ).loc main_arg9)) := arg9_at10 m ρ c
theorem arg10_at16 : W16 m ρ c (Proc.devRef .tc main_arg10) = (m ((c : Thread nD τ).loc main_arg10)) :=
  calc W16 m ρ c (Proc.devRef .tc main_arg10)
    _ = W15 m ρ c (Proc.devRef .tc main_arg10) := W16_of_ne m ρ c main_arg10 (by decide)
    _ = W14 m ρ c (Proc.devRef .tc main_arg10) := KStretch.keep5 (W14 m ρ c) main_arg10 (by decide)
    _ = W13 m ρ c (Proc.devRef .tc main_arg10) := W14_of_ne m ρ c main_arg10 (by decide)
    _ = W12 m ρ c (Proc.devRef .tc main_arg10) := KStretch.keep4_2 (W12 m ρ c) main_arg10 (by decide)
    _ = W11 m ρ c (Proc.devRef .tc main_arg10) := KStretch.keep4_1 (W11 m ρ c) main_arg10 (by decide)
    _ = W10 m ρ c (Proc.devRef .tc main_arg10) := KStretch.keep4 (W10 m ρ c) main_arg10 (by decide)
    _ = (m ((c : Thread nD τ).loc main_arg10)) := arg10_at10 m ρ c
theorem arg11_at16 : W16 m ρ c (Proc.devRef .tc main_arg11) = (m ((c : Thread nD τ).loc main_arg11)) :=
  calc W16 m ρ c (Proc.devRef .tc main_arg11)
    _ = W15 m ρ c (Proc.devRef .tc main_arg11) := W16_of_ne m ρ c main_arg11 (by decide)
    _ = W14 m ρ c (Proc.devRef .tc main_arg11) := KStretch.keep5 (W14 m ρ c) main_arg11 (by decide)
    _ = W13 m ρ c (Proc.devRef .tc main_arg11) := W14_of_ne m ρ c main_arg11 (by decide)
    _ = W12 m ρ c (Proc.devRef .tc main_arg11) := KStretch.keep4_2 (W12 m ρ c) main_arg11 (by decide)
    _ = W11 m ρ c (Proc.devRef .tc main_arg11) := KStretch.keep4_1 (W11 m ρ c) main_arg11 (by decide)
    _ = W10 m ρ c (Proc.devRef .tc main_arg11) := KStretch.keep4 (W10 m ρ c) main_arg11 (by decide)
    _ = (m ((c : Thread nD τ).loc main_arg11)) := arg11_at10 m ρ c
theorem arg12_at20 : W20 m ρ c (Proc.devRef .tc main_arg12) = (m ((c : Thread nD τ).loc main_arg12)) :=
  calc W20 m ρ c (Proc.devRef .tc main_arg12)
    _ = W19 m ρ c (Proc.devRef .tc main_arg12) := W20_of_ne m ρ c main_arg12 (by decide)
    _ = W18 m ρ c (Proc.devRef .tc main_arg12) := KStretch.keep6_2 (W18 m ρ c) main_arg12 (by decide)
    _ = W17 m ρ c (Proc.devRef .tc main_arg12) := KStretch.keep6_1 (W17 m ρ c) main_arg12 (by decide)
    _ = W16 m ρ c (Proc.devRef .tc main_arg12) := KStretch.keep6 (W16 m ρ c) main_arg12 (by decide)
    _ = W15 m ρ c (Proc.devRef .tc main_arg12) := W16_of_ne m ρ c main_arg12 (by decide)
    _ = W14 m ρ c (Proc.devRef .tc main_arg12) := KStretch.keep5 (W14 m ρ c) main_arg12 (by decide)
    _ = (m ((c : Thread nD τ).loc main_arg12)) := arg12_at14 m ρ c
theorem arg13_at20 : W20 m ρ c (Proc.devRef .tc main_arg13) = (m ((c : Thread nD τ).loc main_arg13)) :=
  calc W20 m ρ c (Proc.devRef .tc main_arg13)
    _ = W19 m ρ c (Proc.devRef .tc main_arg13) := W20_of_ne m ρ c main_arg13 (by decide)
    _ = W18 m ρ c (Proc.devRef .tc main_arg13) := KStretch.keep6_2 (W18 m ρ c) main_arg13 (by decide)
    _ = W17 m ρ c (Proc.devRef .tc main_arg13) := KStretch.keep6_1 (W17 m ρ c) main_arg13 (by decide)
    _ = W16 m ρ c (Proc.devRef .tc main_arg13) := KStretch.keep6 (W16 m ρ c) main_arg13 (by decide)
    _ = W15 m ρ c (Proc.devRef .tc main_arg13) := W16_of_ne m ρ c main_arg13 (by decide)
    _ = W14 m ρ c (Proc.devRef .tc main_arg13) := KStretch.keep5 (W14 m ρ c) main_arg13 (by decide)
    _ = (m ((c : Thread nD τ).loc main_arg13)) := arg13_at14 m ρ c
theorem arg3_at22 : W22 m ρ c (Proc.devRef .tc main_arg3) = (m ((c : Thread nD τ).loc main_arg3)) :=
  calc W22 m ρ c (Proc.devRef .tc main_arg3)
    _ = W21 m ρ c (Proc.devRef .tc main_arg3) := W22_of_ne m ρ c main_arg3 (by decide)
    _ = W20 m ρ c (Proc.devRef .tc main_arg3) := KStretch.keep7 (W20 m ρ c) main_arg3 (by decide)
    _ = W19 m ρ c (Proc.devRef .tc main_arg3) := W20_of_ne m ρ c main_arg3 (by decide)
    _ = W18 m ρ c (Proc.devRef .tc main_arg3) := KStretch.keep6_2 (W18 m ρ c) main_arg3 (by decide)
    _ = W17 m ρ c (Proc.devRef .tc main_arg3) := KStretch.keep6_1 (W17 m ρ c) main_arg3 (by decide)
    _ = W16 m ρ c (Proc.devRef .tc main_arg3) := KStretch.keep6 (W16 m ρ c) main_arg3 (by decide)
    _ = W15 m ρ c (Proc.devRef .tc main_arg3) := W16_of_ne m ρ c main_arg3 (by decide)
    _ = W14 m ρ c (Proc.devRef .tc main_arg3) := KStretch.keep5 (W14 m ρ c) main_arg3 (by decide)
    _ = W13 m ρ c (Proc.devRef .tc main_arg3) := W14_of_ne m ρ c main_arg3 (by decide)
    _ = W12 m ρ c (Proc.devRef .tc main_arg3) := KStretch.keep4_2 (W12 m ρ c) main_arg3 (by decide)
    _ = W11 m ρ c (Proc.devRef .tc main_arg3) := KStretch.keep4_1 (W11 m ρ c) main_arg3 (by decide)
    _ = W10 m ρ c (Proc.devRef .tc main_arg3) := KStretch.keep4 (W10 m ρ c) main_arg3 (by decide)
    _ = W9 m ρ c (Proc.devRef .tc main_arg3) := W10_of_ne m ρ c main_arg3 (by decide)
    _ = W8 m ρ c (Proc.devRef .tc main_arg3) := KStretch.keep3 (W8 m ρ c) main_arg3 (by decide)
    _ = W7 m ρ c (Proc.devRef .tc main_arg3) := W8_of_ne m ρ c main_arg3 (by decide)
    _ = W6 m ρ c (Proc.devRef .tc main_arg3) := KStretch.keep2_2 (W6 m ρ c) main_arg3 (by decide)
    _ = W5 m ρ c (Proc.devRef .tc main_arg3) := KStretch.keep2_1 (W5 m ρ c) main_arg3 (by decide)
    _ = W4 m ρ c (Proc.devRef .tc main_arg3) := KStretch.keep2 (W4 m ρ c) main_arg3 (by decide)
    _ = W3 m ρ c (Proc.devRef .tc main_arg3) := W4_of_ne m ρ c main_arg3 (by decide)
    _ = W2 m ρ c (Proc.devRef .tc main_arg3) := KStretch.keep1 (W2 m ρ c) main_arg3 (by decide)
    _ = W1 m ρ c (Proc.devRef .tc main_arg3) := W2_of_ne m ρ c main_arg3 (by decide)
    _ = W0 m ρ c (Proc.devRef .tc main_arg3) := KStretch.keep0 (W0 m ρ c) main_arg3 (by decide)
    _ = (m ((c : Thread nD τ).loc main_arg3)) := rfl
theorem arg14_at22 : W22 m ρ c (Proc.devRef .tc main_arg14) = (m ((c : Thread nD τ).loc main_arg14)) :=
  calc W22 m ρ c (Proc.devRef .tc main_arg14)
    _ = W21 m ρ c (Proc.devRef .tc main_arg14) := W22_of_ne m ρ c main_arg14 (by decide)
    _ = W20 m ρ c (Proc.devRef .tc main_arg14) := KStretch.keep7 (W20 m ρ c) main_arg14 (by decide)
    _ = W19 m ρ c (Proc.devRef .tc main_arg14) := W20_of_ne m ρ c main_arg14 (by decide)
    _ = W18 m ρ c (Proc.devRef .tc main_arg14) := KStretch.keep6_2 (W18 m ρ c) main_arg14 (by decide)
    _ = W17 m ρ c (Proc.devRef .tc main_arg14) := KStretch.keep6_1 (W17 m ρ c) main_arg14 (by decide)
    _ = W16 m ρ c (Proc.devRef .tc main_arg14) := KStretch.keep6 (W16 m ρ c) main_arg14 (by decide)
    _ = W15 m ρ c (Proc.devRef .tc main_arg14) := W16_of_ne m ρ c main_arg14 (by decide)
    _ = W14 m ρ c (Proc.devRef .tc main_arg14) := KStretch.keep5 (W14 m ρ c) main_arg14 (by decide)
    _ = W13 m ρ c (Proc.devRef .tc main_arg14) := W14_of_ne m ρ c main_arg14 (by decide)
    _ = W12 m ρ c (Proc.devRef .tc main_arg14) := KStretch.keep4_2 (W12 m ρ c) main_arg14 (by decide)
    _ = W11 m ρ c (Proc.devRef .tc main_arg14) := KStretch.keep4_1 (W11 m ρ c) main_arg14 (by decide)
    _ = W10 m ρ c (Proc.devRef .tc main_arg14) := KStretch.keep4 (W10 m ρ c) main_arg14 (by decide)
    _ = W9 m ρ c (Proc.devRef .tc main_arg14) := W10_of_ne m ρ c main_arg14 (by decide)
    _ = W8 m ρ c (Proc.devRef .tc main_arg14) := KStretch.keep3 (W8 m ρ c) main_arg14 (by decide)
    _ = W7 m ρ c (Proc.devRef .tc main_arg14) := W8_of_ne m ρ c main_arg14 (by decide)
    _ = W6 m ρ c (Proc.devRef .tc main_arg14) := KStretch.keep2_2 (W6 m ρ c) main_arg14 (by decide)
    _ = W5 m ρ c (Proc.devRef .tc main_arg14) := KStretch.keep2_1 (W5 m ρ c) main_arg14 (by decide)
    _ = W4 m ρ c (Proc.devRef .tc main_arg14) := KStretch.keep2 (W4 m ρ c) main_arg14 (by decide)
    _ = W3 m ρ c (Proc.devRef .tc main_arg14) := W4_of_ne m ρ c main_arg14 (by decide)
    _ = W2 m ρ c (Proc.devRef .tc main_arg14) := KStretch.keep1 (W2 m ρ c) main_arg14 (by decide)
    _ = W1 m ρ c (Proc.devRef .tc main_arg14) := W2_of_ne m ρ c main_arg14 (by decide)
    _ = W0 m ρ c (Proc.devRef .tc main_arg14) := KStretch.keep0 (W0 m ρ c) main_arg14 (by decide)
    _ = (m ((c : Thread nD τ).loc main_arg14)) := rfl
theorem arg15_at22 : W22 m ρ c (Proc.devRef .tc main_arg15) = (m ((c : Thread nD τ).loc main_arg15)) :=
  calc W22 m ρ c (Proc.devRef .tc main_arg15)
    _ = W21 m ρ c (Proc.devRef .tc main_arg15) := W22_of_ne m ρ c main_arg15 (by decide)
    _ = W20 m ρ c (Proc.devRef .tc main_arg15) := KStretch.keep7 (W20 m ρ c) main_arg15 (by decide)
    _ = W19 m ρ c (Proc.devRef .tc main_arg15) := W20_of_ne m ρ c main_arg15 (by decide)
    _ = W18 m ρ c (Proc.devRef .tc main_arg15) := KStretch.keep6_2 (W18 m ρ c) main_arg15 (by decide)
    _ = W17 m ρ c (Proc.devRef .tc main_arg15) := KStretch.keep6_1 (W17 m ρ c) main_arg15 (by decide)
    _ = W16 m ρ c (Proc.devRef .tc main_arg15) := KStretch.keep6 (W16 m ρ c) main_arg15 (by decide)
    _ = W15 m ρ c (Proc.devRef .tc main_arg15) := W16_of_ne m ρ c main_arg15 (by decide)
    _ = W14 m ρ c (Proc.devRef .tc main_arg15) := KStretch.keep5 (W14 m ρ c) main_arg15 (by decide)
    _ = W13 m ρ c (Proc.devRef .tc main_arg15) := W14_of_ne m ρ c main_arg15 (by decide)
    _ = W12 m ρ c (Proc.devRef .tc main_arg15) := KStretch.keep4_2 (W12 m ρ c) main_arg15 (by decide)
    _ = W11 m ρ c (Proc.devRef .tc main_arg15) := KStretch.keep4_1 (W11 m ρ c) main_arg15 (by decide)
    _ = W10 m ρ c (Proc.devRef .tc main_arg15) := KStretch.keep4 (W10 m ρ c) main_arg15 (by decide)
    _ = W9 m ρ c (Proc.devRef .tc main_arg15) := W10_of_ne m ρ c main_arg15 (by decide)
    _ = W8 m ρ c (Proc.devRef .tc main_arg15) := KStretch.keep3 (W8 m ρ c) main_arg15 (by decide)
    _ = W7 m ρ c (Proc.devRef .tc main_arg15) := W8_of_ne m ρ c main_arg15 (by decide)
    _ = W6 m ρ c (Proc.devRef .tc main_arg15) := KStretch.keep2_2 (W6 m ρ c) main_arg15 (by decide)
    _ = W5 m ρ c (Proc.devRef .tc main_arg15) := KStretch.keep2_1 (W5 m ρ c) main_arg15 (by decide)
    _ = W4 m ρ c (Proc.devRef .tc main_arg15) := KStretch.keep2 (W4 m ρ c) main_arg15 (by decide)
    _ = W3 m ρ c (Proc.devRef .tc main_arg15) := W4_of_ne m ρ c main_arg15 (by decide)
    _ = W2 m ρ c (Proc.devRef .tc main_arg15) := KStretch.keep1 (W2 m ρ c) main_arg15 (by decide)
    _ = W1 m ρ c (Proc.devRef .tc main_arg15) := W2_of_ne m ρ c main_arg15 (by decide)
    _ = W0 m ρ c (Proc.devRef .tc main_arg15) := KStretch.keep0 (W0 m ρ c) main_arg15 (by decide)
    _ = (m ((c : Thread nD τ).loc main_arg15)) := rfl
theorem arg16_at22 : W22 m ρ c (Proc.devRef .tc main_arg16) = (m ((c : Thread nD τ).loc main_arg16)) :=
  calc W22 m ρ c (Proc.devRef .tc main_arg16)
    _ = W21 m ρ c (Proc.devRef .tc main_arg16) := W22_of_ne m ρ c main_arg16 (by decide)
    _ = W20 m ρ c (Proc.devRef .tc main_arg16) := KStretch.keep7 (W20 m ρ c) main_arg16 (by decide)
    _ = W19 m ρ c (Proc.devRef .tc main_arg16) := W20_of_ne m ρ c main_arg16 (by decide)
    _ = W18 m ρ c (Proc.devRef .tc main_arg16) := KStretch.keep6_2 (W18 m ρ c) main_arg16 (by decide)
    _ = W17 m ρ c (Proc.devRef .tc main_arg16) := KStretch.keep6_1 (W17 m ρ c) main_arg16 (by decide)
    _ = W16 m ρ c (Proc.devRef .tc main_arg16) := KStretch.keep6 (W16 m ρ c) main_arg16 (by decide)
    _ = W15 m ρ c (Proc.devRef .tc main_arg16) := W16_of_ne m ρ c main_arg16 (by decide)
    _ = W14 m ρ c (Proc.devRef .tc main_arg16) := KStretch.keep5 (W14 m ρ c) main_arg16 (by decide)
    _ = W13 m ρ c (Proc.devRef .tc main_arg16) := W14_of_ne m ρ c main_arg16 (by decide)
    _ = W12 m ρ c (Proc.devRef .tc main_arg16) := KStretch.keep4_2 (W12 m ρ c) main_arg16 (by decide)
    _ = W11 m ρ c (Proc.devRef .tc main_arg16) := KStretch.keep4_1 (W11 m ρ c) main_arg16 (by decide)
    _ = W10 m ρ c (Proc.devRef .tc main_arg16) := KStretch.keep4 (W10 m ρ c) main_arg16 (by decide)
    _ = W9 m ρ c (Proc.devRef .tc main_arg16) := W10_of_ne m ρ c main_arg16 (by decide)
    _ = W8 m ρ c (Proc.devRef .tc main_arg16) := KStretch.keep3 (W8 m ρ c) main_arg16 (by decide)
    _ = W7 m ρ c (Proc.devRef .tc main_arg16) := W8_of_ne m ρ c main_arg16 (by decide)
    _ = W6 m ρ c (Proc.devRef .tc main_arg16) := KStretch.keep2_2 (W6 m ρ c) main_arg16 (by decide)
    _ = W5 m ρ c (Proc.devRef .tc main_arg16) := KStretch.keep2_1 (W5 m ρ c) main_arg16 (by decide)
    _ = W4 m ρ c (Proc.devRef .tc main_arg16) := KStretch.keep2 (W4 m ρ c) main_arg16 (by decide)
    _ = W3 m ρ c (Proc.devRef .tc main_arg16) := W4_of_ne m ρ c main_arg16 (by decide)
    _ = W2 m ρ c (Proc.devRef .tc main_arg16) := KStretch.keep1 (W2 m ρ c) main_arg16 (by decide)
    _ = W1 m ρ c (Proc.devRef .tc main_arg16) := W2_of_ne m ρ c main_arg16 (by decide)
    _ = W0 m ρ c (Proc.devRef .tc main_arg16) := KStretch.keep0 (W0 m ρ c) main_arg16 (by decide)
    _ = (m ((c : Thread nD τ).loc main_arg16)) := rfl
theorem arg17_at22 : W22 m ρ c (Proc.devRef .tc main_arg17) = (m ((c : Thread nD τ).loc main_arg17)) :=
  calc W22 m ρ c (Proc.devRef .tc main_arg17)
    _ = W21 m ρ c (Proc.devRef .tc main_arg17) := W22_of_ne m ρ c main_arg17 (by decide)
    _ = W20 m ρ c (Proc.devRef .tc main_arg17) := KStretch.keep7 (W20 m ρ c) main_arg17 (by decide)
    _ = W19 m ρ c (Proc.devRef .tc main_arg17) := W20_of_ne m ρ c main_arg17 (by decide)
    _ = W18 m ρ c (Proc.devRef .tc main_arg17) := KStretch.keep6_2 (W18 m ρ c) main_arg17 (by decide)
    _ = W17 m ρ c (Proc.devRef .tc main_arg17) := KStretch.keep6_1 (W17 m ρ c) main_arg17 (by decide)
    _ = W16 m ρ c (Proc.devRef .tc main_arg17) := KStretch.keep6 (W16 m ρ c) main_arg17 (by decide)
    _ = W15 m ρ c (Proc.devRef .tc main_arg17) := W16_of_ne m ρ c main_arg17 (by decide)
    _ = W14 m ρ c (Proc.devRef .tc main_arg17) := KStretch.keep5 (W14 m ρ c) main_arg17 (by decide)
    _ = W13 m ρ c (Proc.devRef .tc main_arg17) := W14_of_ne m ρ c main_arg17 (by decide)
    _ = W12 m ρ c (Proc.devRef .tc main_arg17) := KStretch.keep4_2 (W12 m ρ c) main_arg17 (by decide)
    _ = W11 m ρ c (Proc.devRef .tc main_arg17) := KStretch.keep4_1 (W11 m ρ c) main_arg17 (by decide)
    _ = W10 m ρ c (Proc.devRef .tc main_arg17) := KStretch.keep4 (W10 m ρ c) main_arg17 (by decide)
    _ = W9 m ρ c (Proc.devRef .tc main_arg17) := W10_of_ne m ρ c main_arg17 (by decide)
    _ = W8 m ρ c (Proc.devRef .tc main_arg17) := KStretch.keep3 (W8 m ρ c) main_arg17 (by decide)
    _ = W7 m ρ c (Proc.devRef .tc main_arg17) := W8_of_ne m ρ c main_arg17 (by decide)
    _ = W6 m ρ c (Proc.devRef .tc main_arg17) := KStretch.keep2_2 (W6 m ρ c) main_arg17 (by decide)
    _ = W5 m ρ c (Proc.devRef .tc main_arg17) := KStretch.keep2_1 (W5 m ρ c) main_arg17 (by decide)
    _ = W4 m ρ c (Proc.devRef .tc main_arg17) := KStretch.keep2 (W4 m ρ c) main_arg17 (by decide)
    _ = W3 m ρ c (Proc.devRef .tc main_arg17) := W4_of_ne m ρ c main_arg17 (by decide)
    _ = W2 m ρ c (Proc.devRef .tc main_arg17) := KStretch.keep1 (W2 m ρ c) main_arg17 (by decide)
    _ = W1 m ρ c (Proc.devRef .tc main_arg17) := W2_of_ne m ρ c main_arg17 (by decide)
    _ = W0 m ρ c (Proc.devRef .tc main_arg17) := KStretch.keep0 (W0 m ρ c) main_arg17 (by decide)
    _ = (m ((c : Thread nD τ).loc main_arg17)) := rfl

/-! ## The regions' output arrays at the regions' exits -/

theorem v30_0_at8 : W8 m ρ c (Proc.devRef .tc main_v30_0) = Z0 m ρ c := W8_arr m ρ c 6
theorem v30_1_at8 : W8 m ρ c (Proc.devRef .tc main_v30_1) = S0 m ρ c := W8_arr m ρ c 7
theorem v30_2_at8 : W8 m ρ c (Proc.devRef .tc main_v30_2) = Q0 m ρ c := W8_arr m ρ c 8
theorem v50_at10 : W10 m ρ c (Proc.devRef .tc main_v50) = H1 m ρ c := W10_arr m ρ c 5
theorem v73_0_at14 : W14 m ρ c (Proc.devRef .tc main_v73_0) = Z1 m ρ c := W14_arr m ρ c 6
theorem v73_1_at14 : W14 m ρ c (Proc.devRef .tc main_v73_1) = S1 m ρ c := W14_arr m ρ c 7
theorem v73_2_at14 : W14 m ρ c (Proc.devRef .tc main_v73_2) = Q1 m ρ c := W14_arr m ρ c 8
theorem v93_at16 : W16 m ρ c (Proc.devRef .tc main_v93) = H2 m ρ c := W16_arr m ρ c 5
theorem v116_0_at20 : W20 m ρ c (Proc.devRef .tc main_v116_0) = Z2 m ρ c := W20_arr m ρ c 6
theorem v116_1_at20 : W20 m ρ c (Proc.devRef .tc main_v116_1) = S2 m ρ c := W20_arr m ρ c 7
theorem v116_2_at20 : W20 m ρ c (Proc.devRef .tc main_v116_2) = Q2 m ρ c := W20_arr m ρ c 8
theorem v136_at22 : W22 m ρ c (Proc.devRef .tc main_v136) = H3 m ρ c := W22_arr m ρ c 5

/-! ## What each region's window arrays hold at the region's entry -/

/-- Region 0, window 0: the node features as launched. -/
theorem r0_w0 : V1 m ρ c (Pipeline.arrRef spec0 0) = (m ((c : Thread nD τ).loc main_arg0)) := arg0_at1 m ρ c
/-- Region 0, window 1: the node encoder's matrix as launched. -/
theorem r0_w1 : V1 m ρ c (Pipeline.arrRef spec0 1) = (m ((c : Thread nD τ).loc main_arg4)) := arg4_at1 m ρ c
/-- Region 0, window 2: the node encoder's bias as a one-row table. -/
theorem r0_w2 : V1 m ρ c (Pipeline.arrRef spec0 2) = KHost.row (m ((c : Thread nD τ).loc main_arg5)) := KStretch.out0_v4 (W0 m ρ c)

/-- Region 1, window 0: the edge features as launched. -/
theorem r1_w0 : V3 m ρ c (Pipeline.arrRef spec1 0) = (m ((c : Thread nD τ).loc main_arg2)) := arg2_at3 m ρ c
/-- Region 1, window 1: the edge encoder's matrix as launched. -/
theorem r1_w1 : V3 m ρ c (Pipeline.arrRef spec1 1) = (m ((c : Thread nD τ).loc main_arg6)) := arg6_at3 m ρ c
/-- Region 1, window 2: the edge encoder's bias as a one-row table. -/
theorem r1_w2 : V3 m ρ c (Pipeline.arrRef spec1 2) = KHost.row (m ((c : Thread nD τ).loc main_arg7)) :=
  (KStretch.out1_v6 (W2 m ρ c)).trans (congrArg KHost.row (arg7_at2 m ρ c))

/-- Region 2, window 0: the node table entering layer 0. -/
theorem r2_w0 : V7 m ρ c (Pipeline.arrRef spec2 0) = H0 m ρ c :=
  (KStretch.stage2_keep (W4 m ρ c) main_v5 (by decide) (by decide) (by decide)).trans (v5_at4 m ρ c)
/-- Region 2, window 1: layer 0's aggregation of that table, the encoded edge features and the edge list. -/
theorem r2_w1 : V7 m ρ c (Pipeline.arrRef spec2 1) = KHost.agg (H0 m ρ c) (EAe m ρ c) (m ((c : Thread nD τ).loc main_arg1)) :=
  (KStretch.stage2_agg (W4 m ρ c)).trans (by
    rw [KHost.agg, v5_at4 m ρ c, v7_at4 m ρ c, v1_at4 m ρ c, v3_at4 m ρ c])
/-- Region 2, window 2: layer 0's first matrix. -/
theorem r2_w2 : V7 m ρ c (Pipeline.arrRef spec2 2) = KHost.mat0 (m ((c : Thread nD τ).loc main_arg8)) :=
  (KStretch.stage2_m1 (W4 m ρ c)).trans (congrArg KHost.mat0 (arg8_at4 m ρ c))
/-- Region 2, window 3: layer 0's first bias as a one-row table. -/
theorem r2_w3 : V7 m ρ c (Pipeline.arrRef spec2 3) = KHost.row (KHost.vec0 (m ((c : Thread nD τ).loc main_arg9))) :=
  (KStretch.stage2_b1 (W4 m ρ c)).trans (congrArg (fun x => KHost.row (KHost.vec0 x)) (arg9_at4 m ρ c))
/-- Region 2, window 4: layer 0's second matrix. -/
theorem r2_w4 : V7 m ρ c (Pipeline.arrRef spec2 4) = KHost.mat0 (m ((c : Thread nD τ).loc main_arg10)) :=
  (KStretch.stage2_m2 (W4 m ρ c)).trans (congrArg KHost.mat0 (arg10_at4 m ρ c))
/-- Region 2, window 5: layer 0's second bias as a one-row table. -/
theorem r2_w5 : V7 m ρ c (Pipeline.arrRef spec2 5) = KHost.row (KHost.vec0 (m ((c : Thread nD τ).loc main_arg11))) :=
  (KStretch.stage2_b2 (W4 m ρ c)).trans (congrArg (fun x => KHost.row (KHost.vec0 x)) (arg11_at4 m ρ c))

/-- Region 3, window 0: layer 0's pre-normalisation table. -/
theorem r3_w0 : V9 m ρ c (Pipeline.arrRef spec3 0) = Z0 m ρ c :=
  (KStretch.keep3 (W8 m ρ c) main_v30_0 (by decide)).trans (v30_0_at8 m ρ c)
/-- Region 3, window 1: the column mean as a one-row table. -/
theorem r3_w1 : V9 m ρ c (Pipeline.arrRef spec3 1) = KHost.row (KHost.meanOf (S0 m ρ c)) :=
  (KStretch.out3_mean (W8 m ρ c)).trans (congrArg (fun x => KHost.row (KHost.meanOf x)) (v30_1_at8 m ρ c))
/-- Region 3, window 2: the column inverse standard deviation as a one-row table. -/
theorem r3_w2 : V9 m ρ c (Pipeline.arrRef spec3 2) = KHost.row (KHost.invOf (S0 m ρ c) (Q0 m ρ c)) :=
  (KStretch.out3_inv (W8 m ρ c)).trans (by
    rw [v30_1_at8 m ρ c, v30_2_at8 m ρ c])
/-- Region 3, window 3: layer 0's scale as a one-row table. -/
theorem r3_w3 : V9 m ρ c (Pipeline.arrRef spec3 3) = KHost.row (KHost.vec0 (m ((c : Thread nD τ).loc main_arg12))) :=
  (KStretch.out3_g (W8 m ρ c)).trans (congrArg (fun x => KHost.row (KHost.vec0 x)) (arg12_at8 m ρ c))
/-- Region 3, window 4: layer 0's shift as a one-row table. -/
theorem r3_w4 : V9 m ρ c (Pipeline.arrRef spec3 4) = KHost.row (KHost.vec0 (m ((c : Thread nD τ).loc main_arg13))) :=
  (KStretch.out3_be (W8 m ρ c)).trans (congrArg (fun x => KHost.row (KHost.vec0 x)) (arg13_at8 m ρ c))

/-- Region 4, window 0: the node table entering layer 1. -/
theorem r4_w0 : V13 m ρ c (Pipeline.arrRef spec4 0) = H1 m ρ c :=
  (KStretch.stage4_keep (W10 m ρ c) main_v50 (by decide) (by decide) (by decide)).trans (v50_at10 m ρ c)
/-- Region 4, window 1: layer 1's aggregation of that table, the encoded edge features and the edge list. -/
theorem r4_w1 : V13 m ρ c (Pipeline.arrRef spec4 1) = KHost.agg (H1 m ρ c) (EAe m ρ c) (m ((c : Thread nD τ).loc main_arg1)) :=
  (KStretch.stage4_agg (W10 m ρ c)).trans (by
    rw [KHost.agg, v50_at10 m ρ c, v7_at10 m ρ c, v1_at10 m ρ c, v3_at10 m ρ c])
/-- Region 4, window 2: layer 1's first matrix. -/
theorem r4_w2 : V13 m ρ c (Pipeline.arrRef spec4 2) = KHost.mat1 (m ((c : Thread nD τ).loc main_arg8)) :=
  (KStretch.stage4_m1 (W10 m ρ c)).trans (congrArg KHost.mat1 (arg8_at10 m ρ c))
/-- Region 4, window 3: layer 1's first bias as a one-row table. -/
theorem r4_w3 : V13 m ρ c (Pipeline.arrRef spec4 3) = KHost.row (KHost.vec1 (m ((c : Thread nD τ).loc main_arg9))) :=
  (KStretch.stage4_b1 (W10 m ρ c)).trans (congrArg (fun x => KHost.row (KHost.vec1 x)) (arg9_at10 m ρ c))
/-- Region 4, window 4: layer 1's second matrix. -/
theorem r4_w4 : V13 m ρ c (Pipeline.arrRef spec4 4) = KHost.mat1 (m ((c : Thread nD τ).loc main_arg10)) :=
  (KStretch.stage4_m2 (W10 m ρ c)).trans (congrArg KHost.mat1 (arg10_at10 m ρ c))
/-- Region 4, window 5: layer 1's second bias as a one-row table. -/
theorem r4_w5 : V13 m ρ c (Pipeline.arrRef spec4 5) = KHost.row (KHost.vec1 (m ((c : Thread nD τ).loc main_arg11))) :=
  (KStretch.stage4_b2 (W10 m ρ c)).trans (congrArg (fun x => KHost.row (KHost.vec1 x)) (arg11_at10 m ρ c))

/-- Region 5, window 0: layer 1's pre-normalisation table. -/
theorem r5_w0 : V15 m ρ c (Pipeline.arrRef spec5 0) = Z1 m ρ c :=
  (KStretch.keep5 (W14 m ρ c) main_v73_0 (by decide)).trans (v73_0_at14 m ρ c)
/-- Region 5, window 1: the column mean as a one-row table. -/
theorem r5_w1 : V15 m ρ c (Pipeline.arrRef spec5 1) = KHost.row (KHost.meanOf (S1 m ρ c)) :=
  (KStretch.out5_mean (W14 m ρ c)).trans (congrArg (fun x => KHost.row (KHost.meanOf x)) (v73_1_at14 m ρ c))
/-- Region 5, window 2: the column inverse standard deviation as a one-row table. -/
theorem r5_w2 : V15 m ρ c (Pipeline.arrRef spec5 2) = KHost.row (KHost.invOf (S1 m ρ c) (Q1 m ρ c)) :=
  (KStretch.out5_inv (W14 m ρ c)).trans (by
    rw [v73_1_at14 m ρ c, v73_2_at14 m ρ c])
/-- Region 5, window 3: layer 1's scale as a one-row table. -/
theorem r5_w3 : V15 m ρ c (Pipeline.arrRef spec5 3) = KHost.row (KHost.vec1 (m ((c : Thread nD τ).loc main_arg12))) :=
  (KStretch.out5_g (W14 m ρ c)).trans (congrArg (fun x => KHost.row (KHost.vec1 x)) (arg12_at14 m ρ c))
/-- Region 5, window 4: layer 1's shift as a one-row table. -/
theorem r5_w4 : V15 m ρ c (Pipeline.arrRef spec5 4) = KHost.row (KHost.vec1 (m ((c : Thread nD τ).loc main_arg13))) :=
  (KStretch.out5_be (W14 m ρ c)).trans (congrArg (fun x => KHost.row (KHost.vec1 x)) (arg13_at14 m ρ c))

/-- Region 6, window 0: the node table entering layer 2. -/
theorem r6_w0 : V19 m ρ c (Pipeline.arrRef spec6 0) = H2 m ρ c :=
  (KStretch.stage6_keep (W16 m ρ c) main_v93 (by decide) (by decide) (by decide)).trans (v93_at16 m ρ c)
/-- Region 6, window 1: layer 2's aggregation of that table, the encoded edge features and the edge list. -/
theorem r6_w1 : V19 m ρ c (Pipeline.arrRef spec6 1) = KHost.agg (H2 m ρ c) (EAe m ρ c) (m ((c : Thread nD τ).loc main_arg1)) :=
  (KStretch.stage6_agg (W16 m ρ c)).trans (by
    rw [KHost.agg, v93_at16 m ρ c, v7_at16 m ρ c, v1_at16 m ρ c, v3_at16 m ρ c])
/-- Region 6, window 2: layer 2's first matrix. -/
theorem r6_w2 : V19 m ρ c (Pipeline.arrRef spec6 2) = KHost.mat2 (m ((c : Thread nD τ).loc main_arg8)) :=
  (KStretch.stage6_m1 (W16 m ρ c)).trans (congrArg KHost.mat2 (arg8_at16 m ρ c))
/-- Region 6, window 3: layer 2's first bias as a one-row table. -/
theorem r6_w3 : V19 m ρ c (Pipeline.arrRef spec6 3) = KHost.row (KHost.vec2 (m ((c : Thread nD τ).loc main_arg9))) :=
  (KStretch.stage6_b1 (W16 m ρ c)).trans (congrArg (fun x => KHost.row (KHost.vec2 x)) (arg9_at16 m ρ c))
/-- Region 6, window 4: layer 2's second matrix. -/
theorem r6_w4 : V19 m ρ c (Pipeline.arrRef spec6 4) = KHost.mat2 (m ((c : Thread nD τ).loc main_arg10)) :=
  (KStretch.stage6_m2 (W16 m ρ c)).trans (congrArg KHost.mat2 (arg10_at16 m ρ c))
/-- Region 6, window 5: layer 2's second bias as a one-row table. -/
theorem r6_w5 : V19 m ρ c (Pipeline.arrRef spec6 5) = KHost.row (KHost.vec2 (m ((c : Thread nD τ).loc main_arg11))) :=
  (KStretch.stage6_b2 (W16 m ρ c)).trans (congrArg (fun x => KHost.row (KHost.vec2 x)) (arg11_at16 m ρ c))

/-- Region 7, window 0: layer 2's pre-normalisation table. -/
theorem r7_w0 : V21 m ρ c (Pipeline.arrRef spec7 0) = Z2 m ρ c :=
  (KStretch.keep7 (W20 m ρ c) main_v116_0 (by decide)).trans (v116_0_at20 m ρ c)
/-- Region 7, window 1: the column mean as a one-row table. -/
theorem r7_w1 : V21 m ρ c (Pipeline.arrRef spec7 1) = KHost.row (KHost.meanOf (S2 m ρ c)) :=
  (KStretch.out7_mean (W20 m ρ c)).trans (congrArg (fun x => KHost.row (KHost.meanOf x)) (v116_1_at20 m ρ c))
/-- Region 7, window 2: the column inverse standard deviation as a one-row table. -/
theorem r7_w2 : V21 m ρ c (Pipeline.arrRef spec7 2) = KHost.row (KHost.invOf (S2 m ρ c) (Q2 m ρ c)) :=
  (KStretch.out7_inv (W20 m ρ c)).trans (by
    rw [v116_1_at20 m ρ c, v116_2_at20 m ρ c])
/-- Region 7, window 3: layer 2's scale as a one-row table. -/
theorem r7_w3 : V21 m ρ c (Pipeline.arrRef spec7 3) = KHost.row (KHost.vec2 (m ((c : Thread nD τ).loc main_arg12))) :=
  (KStretch.out7_g (W20 m ρ c)).trans (congrArg (fun x => KHost.row (KHost.vec2 x)) (arg12_at20 m ρ c))
/-- Region 7, window 4: layer 2's shift as a one-row table. -/
theorem r7_w4 : V21 m ρ c (Pipeline.arrRef spec7 4) = KHost.row (KHost.vec2 (m ((c : Thread nD τ).loc main_arg13))) :=
  (KStretch.out7_be (W20 m ρ c)).trans (congrArg (fun x => KHost.row (KHost.vec2 x)) (arg13_at20 m ρ c))

/-! ## The result -/

/-- The result buffer at the last boundary: the readout head of the last layer's node table, the graph numbers and the
    head's weights as launched. -/
theorem result : W25 m ρ c (Proc.devRef .tc main_v148)
    = KHost.head (H3 m ρ c) (m ((c : Thread nD τ).loc main_arg3)) (m ((c : Thread nD τ).loc main_arg14)) (m ((c : Thread nD τ).loc main_arg15)) (m ((c : Thread nD τ).loc main_arg16)) (m ((c : Thread nD τ).loc main_arg17)) :=
  (KStretch.stage8_head (W22 m ρ c)).trans (by
    rw [v136_at22 m ρ c, arg3_at22 m ρ c, arg14_at22 m ρ c, arg15_at22 m ρ c, arg16_at22 m ρ c, arg17_at22 m ρ c])

end Cert.KWalk

end
-- ==== Proof.KSpec.lean ====
/-
  The values the eight kernel regions leave in their output arrays, as closed forms over whole arrays of extended
  reals, index by index.

  A linear layer is a matrix product plus a bias row.  The message-passing layer's dense part adds the aggregated
  messages to the node features, applies two linear layers with a rectifier between them, and also emits, per tile of
  5000 rows, the column sums of the result and of its square; these land in row 0 of an 8-row slab (a 0/1 mask
  multiplies the other rows by zero).  The normalisation rescales each column and applies a rectifier.
-/
import proofs.«157653_j15152644620445_2_alg».proof.KernelIdeal
import Idealize.ShloMosaic.PureOps.Ideal.Laws
import Idealize.ShloMosaic.Lib.ValueIdx

noncomputable section

open scoped BigOperators

namespace Cert.KSpec

open Cert.KernelIdeal Idealize.ShloMosaic Idealize.ShloMosaic.ValueIdx

/-- The node encoder: row i of X times Wt, plus the bias row. -/
def linG0 (X : FVec Ideal S50000x64 .f32) (Wt : FVec Ideal S64x128 .f32) (Br : FVec Ideal S1x128 .f32) :
    FVec Ideal S50000x128 .f32 :=
  fun i => (∑ k : Fin 64, X (ix2 (i 0) k) * Wt (ix2 k (i 1))) + Br (ix2 0 (i 1))

/-- The edge encoder: the same over 16 input features. -/
def linG1 (X : FVec Ideal S600000x16 .f32) (Wt : FVec Ideal S16x128 .f32) (Br : FVec Ideal S1x128 .f32) :
    FVec Ideal S600000x128 .f32 :=
  fun i => (∑ k : Fin 16, X (ix2 (i 0) k) * Wt (ix2 k (i 1))) + Br (ix2 0 (i 1))

/-- The dense part of a layer: z = H + A, then (max (z·W1 + B1) 0)·W2 + B2. -/
def mlpZ (H A : FVec Ideal S50000x128 .f32) (W1 : FVec Ideal S128x128 .f32) (B1 : FVec Ideal S1x128 .f32)
    (W2 : FVec Ideal S128x128 .f32) (B2 : FVec Ideal S1x128 .f32) : FVec Ideal S50000x128 .f32 :=
  fun i => (∑ k : Fin 128,
      max ((∑ k' : Fin 128, (H (ix2 (i 0) k') + A (ix2 (i 0) k')) * W1 (ix2 k' k)) + B1 (ix2 0 k)) 0
        * W2 (ix2 k (i 1))) + B2 (ix2 0 (i 1))

/-- The mask that keeps row 0 of an 8-row slab. -/
def mask8 (s : Fin 8) : EReal := if s.val = 0 then 1 else 0

/-- Row r of tile t, in a table of 10 tiles of 5000 rows. -/
def tileRow (t : Fin 10) (r : Fin 5000) : Fin 50000 :=
  ⟨t.val * 5000 + r.val, by have := t.isLt; have := r.isLt; omega⟩

/-- Per tile of 5000 rows, the column sums of Z, kept in row 0 of the tile's slab. -/
def tileSum (Z : FVec Ideal S50000x128 .f32) : FVec Ideal S10x8x128 .f32 :=
  fun i => (∑ r : Fin 5000, Z (ix2 (tileRow (i 0) r) (i 2))) * mask8 (i 1)

/-- Per tile, the column sums of the squares of Z, kept the same way. -/
def tileSumSq (Z : FVec Ideal S50000x128 .f32) : FVec Ideal S10x8x128 .f32 :=
  fun i => (∑ r : Fin 5000, Z (ix2 (tileRow (i 0) r) (i 2)) * Z (ix2 (tileRow (i 0) r) (i 2))) * mask8 (i 1)

/-- The normalisation: max (gamma·(z − mean)·invstd + beta) 0, column by column. -/
def bnG (Z : FVec Ideal S50000x128 .f32) (Mean Inv Ga Be : FVec Ideal S1x128 .f32) : FVec Ideal S50000x128 .f32 :=
  fun i => max (Ga (ix2 0 (i 1)) * (Z i - Mean (ix2 0 (i 1))) * Inv (ix2 0 (i 1)) + Be (ix2 0 (i 1))) 0

end Cert.KSpec

end
-- ==== Proof.KCommon.lean ====
/-
  Small facts shared by the readings of the kernel regions: the zero offsets of a whole-buffer access, however spelt,
  and a one-row table broadcast down the rows of a taller table.
-/
import proofs.«157653_j15152644620445_2_alg».proof.KernelIdeal
import Idealize.ShloMosaic.Lib.Pipeline.Value
import Idealize.ShloMosaic.Lib.ValueIdx

noncomputable section

namespace Cert.KVal

open Cert.KernelIdeal Idealize.ShloMosaic Idealize.ShloMosaic.ValueIdx

theorem hz2 : (![0, 0] : Fin 2 → Nat) = fun _ => 0 := funext fun a => by fin_cases a <;> rfl

theorem hz3 : (![0, 0, 0] : Fin 3 → Nat) = fun _ => 0 := funext fun a => by fin_cases a <;> rfl

/-- A one-row table broadcast down M rows reads, at (p, q), the row's entry q. -/
theorem bcastRow_apply {α : Type} {M : ℕ} (x : S1x128.Idx → α) (h : S1x128.Broadcasts ⟨2, ![M, 128]⟩)
    (p : Fin M) (q : Fin 128) : broadcastTo ⟨2, ![M, 128]⟩ x h (ix2 p q) = x (ix2 0 q) := by
  refine broadcastTo_apply x h (ix2 p q) (ix2 0 q) fun a => ?_
  match a with
  | ⟨0, _⟩ => rfl
  | ⟨1, _⟩ => rfl

end Cert.KVal

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.KRegionLin.lean ====
/-
  The two encoder regions, read index by index at the extended reals.

  Each runs over tiles of rows of a table (5 tiles of 10000 rows of [50000, 64]; 75 tiles of 8000 rows of [600000, 16]).
  A tile's result at (p, q) is the sum over k of the tile's entry (p, k) times the weights' entry (k, q), plus the bias
  row's entry q: it depends on the tile only through row p.  Tile t holds the rows from t times the tile height on, the
  weights and the bias row are whole at every point, and the tiles cover the table.  So the result array ends holding
  that function of the whole table.
-/
import proofs.«157653_j15152644620445_2_alg».proof.Proof.Gen.KernelIdeal.Frame
import proofs.«157653_j15152644620445_2_alg».proof.Proof.KSpec
import proofs.«157653_j15152644620445_2_alg».proof.Proof.KCommon
import proofs.«157653_j15152644620445_2_alg».proof.Proof.LibTileMatmul
import Idealize.ShloMosaic.Lib.Pipeline.Value
import Idealize.ShloMosaic.Lib.ValueIdx

noncomputable section

open scoped BigOperators

namespace Cert.KVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-! ## Region 0 -/

/-- The encoder's tile at (p, q): the row's product with column q of the weights, plus the bias row's entry q. -/
theorem k0_pay1_apply (x0 : Vec Ideal S10000x64 .f32) (w : Vec Ideal S64x128 .f32) (br : Vec Ideal S1x128 .f32) (p : Fin 10000) (q : Fin 128) :
    k0_pay1 (F := Ideal) x0 w br (ix2 p q) = (∑ k : Fin 64, x0 (ix2 p k) * w (ix2 k q)) + br (ix2 0 q) := by
  unfold k0_pay1
  simp only [shapeCast_self]
  show matmul (F := Ideal) dot_S10000x64_S64x128_S10000x128_1_0_0_1_n_n none x0 w (constant (F := Ideal) S10000x128 .f32 0x00000000#32) (ix2 p q)
      + broadcastTo S10000x128 br _ (ix2 p q) = _
  rw [bcastRow_apply]
  exact congrArg (· + br (ix2 0 q))
    (Idealize.ShloMosaic.TileMatmul.matmul_zero_apply (dot_S10000x64_S64x128_S10000x128_1_0_0_1_n_n).wf none x0 w p q)

/-- A tile of the encoder against the whole table: where the tile's row is the table's row and the weights and the bias
    row are the table's, the tile's result at y is the whole table's result at i. -/
theorem lin_tile0 (X : FVec Ideal S50000x64 .f32) (Wt : FVec Ideal S64x128 .f32) (Br : FVec Ideal S1x128 .f32)
    (x0 : Vec Ideal S10000x64 .f32) (x1 : Vec Ideal S64x128 .f32) (x2 : Vec Ideal S1x128 .f32) (y : S10000x128.Idx) (i : S50000x128.Idx)
    (h0 : ∀ k : Fin 64, x0 (ix2 (y 0) k) = X (ix2 (i 0) k)) (hi : (i 1).val = (y 1).val) (h1 : x1 = Wt) (h2 : x2 = Br) :
    k0_pay1 (F := Ideal) x0 x1 x2 y = KSpec.linG0 X Wt Br i := by
  subst h1 h2
  obtain ⟨p, q, rfl⟩ : ∃ (p : Fin 10000) (q : Fin 128), y = ix2 p q := ⟨y 0, y 1, eq_ix2 y⟩
  have hq : i 1 = q := Fin.ext hi
  have h0' : ∀ k : Fin 64, x0 (ix2 p k) = X (ix2 (i 0) k) := h0
  rw [k0_pay1_apply]
  unfold KSpec.linG0
  rw [hq]
  simp only [h0']

/-- The one store of the encoder's body leaves its payload in the result's buffer. -/
theorem out0_3_eq (x0 : Vec Ideal S10000x64 .f32) (x1 : Vec Ideal S64x128 .f32) (x2 : Vec Ideal S1x128 .f32) :
    out0_3 (F := Ideal) x0 x1 x2 = k0_pay1 (F := Ideal) x0 x1 x2 := by
  unfold out0_3
  rw [View.canon_unit_zero hz2]
  simp only [View.ld_unit_zero (S := S10000x64) hz2, View.ld_unit_zero (S := S64x128) hz2, View.ld_unit_zero (S := S1x128) hz2]

/-- The printed index maps over the grid: the table's tile and the result's tile move with the point, the weights and the
    bias row stay. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The table's tile at point t holds rows 10000·t … of the table. -/
theorem iblk0_0_apply (t : Fin cfg0.N) (y : S10000x64.Idx) (k : S50000x64.Idx)
    (hk0 : (k 0).val = t.val * 10000 + (y 0).val) (hk1 : (k 1).val = (y 1).val) :
    (iblk0 V c 0 t : Vec Ideal S10000x64 .f32) y = (V c (Pipeline.arrRef spec0 0) : S50000x64.Idx → EReal) k := by
  obtain ⟨e0, e1, -⟩ := idx0 t
  unfold iblk0
  rw [View.read_apply]
  show V c (Pipeline.arrRef spec0 0) _ = V c (Pipeline.arrRef spec0 0) _
  congr 1
  funext a
  apply Fin.ext
  match a with
  | ⟨0, _⟩ => show win0_0.index t 0 * 10000 + 1 * (y 0).val = (k 0).val; rw [e0, hk0]; omega
  | ⟨1, _⟩ => show win0_0.index t 1 * 64 + 1 * (y 1).val = (k 1).val; rw [e1, hk1]; omega

/-- The weights' block is the whole matrix at every point. -/
theorem iblk0_1_eq (t : Fin cfg0.N) :
    (iblk0 V c 1 t : Vec Ideal S64x128 .f32) = (V c (Pipeline.arrRef spec0 1) : S64x128.Idx → EReal) := by
  obtain ⟨-, -, e0, e1, -⟩ := idx0 t
  funext y
  unfold iblk0
  rw [View.read_apply]
  show V c (Pipeline.arrRef spec0 1) _ = V c (Pipeline.arrRef spec0 1) y
  congr 1
  funext a
  apply Fin.ext
  match a with
  | ⟨0, _⟩ => show win0_1.index t 0 * 64 + 1 * (y 0).val = (y 0).val; rw [e0]; omega
  | ⟨1, _⟩ => show win0_1.index t 1 * 128 + 1 * (y 1).val = (y 1).val; rw [e1]; omega

/-- The bias row's block is the whole row at every point. -/
theorem iblk0_2_eq (t : Fin cfg0.N) :
    (iblk0 V c 2 t : Vec Ideal S1x128 .f32) = (V c (Pipeline.arrRef spec0 2) : S1x128.Idx → EReal) := by
  obtain ⟨-, -, -, -, e0, e1, -⟩ := idx0 t
  funext y
  unfold iblk0
  rw [View.read_apply]
  show V c (Pipeline.arrRef spec0 2) _ = V c (Pipeline.arrRef spec0 2) y
  congr 1
  funext a
  apply Fin.ext
  match a with
  | ⟨0, _⟩ => show win0_2.index t 0 * 1 + 1 * (y 0).val = (y 0).val; rw [e0]; omega
  | ⟨1, _⟩ => show win0_2.index t 1 * 128 + 1 * (y 1).val = (y 1).val; rw [e1]; omega

/-- What point t writes back is tile t of the whole table's encoding. -/
theorem flushed0_eq (t : Fin cfg0.N) :
    (dat0 (F := Ideal) V c).flushed 3 t = ((cfg0.win 3).blk t).view.read (Elt Ideal)
      (KSpec.linG0 (V c (Pipeline.arrRef spec0 0)) (V c (Pipeline.arrRef spec0 1)) (V c (Pipeline.arrRef spec0 2))) := by
  obtain ⟨-, -, -, -, -, -, e0, e1⟩ := idx0 t
  show (cfg0.win 3).cut (grid0.coords t) ((dat0 V c).after 3 t) = _
  rw [after0_3]
  funext j
  have hk0 : ((((cfg0.win 3).blk t).view.emb j : S50000x128.Idx) 0).val = t.val * 10000 + (j 0).val := by
    show win0_3.index t 0 * 10000 + 1 * (j 0).val = _
    rw [e0]; omega
  have hk1 : ((((cfg0.win 3).blk t).view.emb j : S50000x128.Idx) 1).val = (j 1).val := by
    show win0_3.index t 1 * 128 + 1 * (j 1).val = _
    rw [e1]; omega
  exact (congrFun (out0_3_eq (iblk0 V c 0 t) (iblk0 V c 1 t) (iblk0 V c 2 t))
      ((cfg0.win 3).xinj (grid0.coords t) j)).trans
    (lin_tile0 _ _ _ (iblk0 V c 0 t) (iblk0 V c 1 t) (iblk0 V c 2 t)
      ((cfg0.win 3).xinj (grid0.coords t) j) (((cfg0.win 3).blk t).view.emb j)
      (fun k => iblk0_0_apply V c t _ _ hk0 rfl) hk1 (iblk0_1_eq V c t) (iblk0_2_eq V c t))

/-- An entry of the result is in point t's tile iff each coordinate is in the tile's range on its axis. -/
theorem mem_blk0 (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v5).slice (win0_3.rect t)).set ↔ _
  rw [View.set_slice_whole, Rect.mem_set_unit]
  exact Iff.rfl

/-- Every entry of the result is in the tile of the point its row's number divided by 10000 names. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, -, -, e0, e1⟩ := idx0 t
  refine ⟨t, flush0_3 t, ?_⟩
  rw [mem_blk0]
  intro a
  match a with
  | ⟨0, _⟩ =>
    show win0_3.index t 0 * 10000 ≤ (i 0).val ∧ (i 0).val < win0_3.index t 0 * 10000 + 10000
    rw [e0, ht]; omega
  | ⟨1, _⟩ =>
    show win0_3.index t 1 * 128 ≤ (i 1).val ∧ (i 1).val < win0_3.index t 1 * 128 + 128
    rw [e1]; omega

/-- The encoder region leaves, in its result array, the whole table's encoding. -/
theorem lin0 : (dat0 (F := Ideal) V c).arrAt 3 cfg0.N
    = KSpec.linG0 (V c (Pipeline.arrRef spec0 0)) (V c (Pipeline.arrRef spec0 1)) (V c (Pipeline.arrRef spec0 2)) :=
  (dat0 V c).arrAt_eq_of_cover 3 _ (fun t _ => flushed0_eq V c t) (cover0)

/-! ## Region 1 -/

/-- The encoder's tile at (p, q): the row's product with column q of the weights, plus the bias row's entry q. -/
theorem k1_pay1_apply (x0 : Vec Ideal S8000x16 .f32) (w : Vec Ideal S16x128 .f32) (br : Vec Ideal S1x128 .f32) (p : Fin 8000) (q : Fin 128) :
    k1_pay1 (F := Ideal) x0 w br (ix2 p q) = (∑ k : Fin 16, x0 (ix2 p k) * w (ix2 k q)) + br (ix2 0 q) := by
  unfold k1_pay1
  simp only [shapeCast_self]
  show matmul (F := Ideal) dot_S8000x16_S16x128_S8000x128_1_0_0_1_n_n none x0 w (constant (F := Ideal) S8000x128 .f32 0x00000000#32) (ix2 p q)
      + broadcastTo S8000x128 br _ (ix2 p q) = _
  rw [bcastRow_apply]
  exact congrArg (· + br (ix2 0 q))
    (Idealize.ShloMosaic.TileMatmul.matmul_zero_apply (dot_S8000x16_S16x128_S8000x128_1_0_0_1_n_n).wf none x0 w p q)

/-- A tile of the encoder against the whole table: where the tile's row is the table's row and the weights and the bias
    row are the table's, the tile's result at y is the whole table's result at i. -/
theorem lin_tile1 (X : FVec Ideal S600000x16 .f32) (Wt : FVec Ideal S16x128 .f32) (Br : FVec Ideal S1x128 .f32)
    (x0 : Vec Ideal S8000x16 .f32) (x1 : Vec Ideal S16x128 .f32) (x2 : Vec Ideal S1x128 .f32) (y : S8000x128.Idx) (i : S600000x128.Idx)
    (h0 : ∀ k : Fin 16, x0 (ix2 (y 0) k) = X (ix2 (i 0) k)) (hi : (i 1).val = (y 1).val) (h1 : x1 = Wt) (h2 : x2 = Br) :
    k1_pay1 (F := Ideal) x0 x1 x2 y = KSpec.linG1 X Wt Br i := by
  subst h1 h2
  obtain ⟨p, q, rfl⟩ : ∃ (p : Fin 8000) (q : Fin 128), y = ix2 p q := ⟨y 0, y 1, eq_ix2 y⟩
  have hq : i 1 = q := Fin.ext hi
  have h0' : ∀ k : Fin 16, x0 (ix2 p k) = X (ix2 (i 0) k) := h0
  rw [k1_pay1_apply]
  unfold KSpec.linG1
  rw [hq]
  simp only [h0']

/-- The one store of the encoder's body leaves its payload in the result's buffer. -/
theorem out1_3_eq (x0 : Vec Ideal S8000x16 .f32) (x1 : Vec Ideal S16x128 .f32) (x2 : Vec Ideal S1x128 .f32) :
    out1_3 (F := Ideal) x0 x1 x2 = k1_pay1 (F := Ideal) x0 x1 x2 := by
  unfold out1_3
  rw [View.canon_unit_zero hz2]
  simp only [View.ld_unit_zero (S := S8000x16) hz2, View.ld_unit_zero (S := S16x128) hz2, View.ld_unit_zero (S := S1x128) hz2]

/-- The printed index maps over the grid: the table's tile and the result's tile move with the point, the weights and the
    bias row stay. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The table's tile at point t holds rows 8000·t … of the table. -/
theorem iblk1_0_apply (t : Fin cfg1.N) (y : S8000x16.Idx) (k : S600000x16.Idx)
    (hk0 : (k 0).val = t.val * 8000 + (y 0).val) (hk1 : (k 1).val = (y 1).val) :
    (iblk1 V c 0 t : Vec Ideal S8000x16 .f32) y = (V c (Pipeline.arrRef spec1 0) : S600000x16.Idx → EReal) k := by
  obtain ⟨e0, e1, -⟩ := idx1 t
  unfold iblk1
  rw [View.read_apply]
  show V c (Pipeline.arrRef spec1 0) _ = V c (Pipeline.arrRef spec1 0) _
  congr 1
  funext a
  apply Fin.ext
  match a with
  | ⟨0, _⟩ => show win1_0.index t 0 * 8000 + 1 * (y 0).val = (k 0).val; rw [e0, hk0]; omega
  | ⟨1, _⟩ => show win1_0.index t 1 * 16 + 1 * (y 1).val = (k 1).val; rw [e1, hk1]; omega

/-- The weights' block is the whole matrix at every point. -/
theorem iblk1_1_eq (t : Fin cfg1.N) :
    (iblk1 V c 1 t : Vec Ideal S16x128 .f32) = (V c (Pipeline.arrRef spec1 1) : S16x128.Idx → EReal) := by
  obtain ⟨-, -, e0, e1, -⟩ := idx1 t
  funext y
  unfold iblk1
  rw [View.read_apply]
  show V c (Pipeline.arrRef spec1 1) _ = V c (Pipeline.arrRef spec1 1) y
  congr 1
  funext a
  apply Fin.ext
  match a with
  | ⟨0, _⟩ => show win1_1.index t 0 * 16 + 1 * (y 0).val = (y 0).val; rw [e0]; omega
  | ⟨1, _⟩ => show win1_1.index t 1 * 128 + 1 * (y 1).val = (y 1).val; rw [e1]; omega

/-- The bias row's block is the whole row at every point. -/
theorem iblk1_2_eq (t : Fin cfg1.N) :
    (iblk1 V c 2 t : Vec Ideal S1x128 .f32) = (V c (Pipeline.arrRef spec1 2) : S1x128.Idx → EReal) := by
  obtain ⟨-, -, -, -, e0, e1, -⟩ := idx1 t
  funext y
  unfold iblk1
  rw [View.read_apply]
  show V c (Pipeline.arrRef spec1 2) _ = V c (Pipeline.arrRef spec1 2) y
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

/-- What point t writes back is tile t of the whole table's encoding. -/
theorem flushed1_eq (t : Fin cfg1.N) :
    (dat1 (F := Ideal) V c).flushed 3 t = ((cfg1.win 3).blk t).view.read (Elt Ideal)
      (KSpec.linG1 (V c (Pipeline.arrRef spec1 0)) (V c (Pipeline.arrRef spec1 1)) (V c (Pipeline.arrRef spec1 2))) := by
  obtain ⟨-, -, -, -, -, -, e0, e1⟩ := idx1 t
  show (cfg1.win 3).cut (grid1.coords t) ((dat1 V c).after 3 t) = _
  rw [after1_3]
  funext j
  have hk0 : ((((cfg1.win 3).blk t).view.emb j : S600000x128.Idx) 0).val = t.val * 8000 + (j 0).val := by
    show win1_3.index t 0 * 8000 + 1 * (j 0).val = _
    rw [e0]; omega
  have hk1 : ((((cfg1.win 3).blk t).view.emb j : S600000x128.Idx) 1).val = (j 1).val := by
    show win1_3.index t 1 * 128 + 1 * (j 1).val = _
    rw [e1]; omega
  exact (congrFun (out1_3_eq (iblk1 V c 0 t) (iblk1 V c 1 t) (iblk1 V c 2 t))
      ((cfg1.win 3).xinj (grid1.coords t) j)).trans
    (lin_tile1 _ _ _ (iblk1 V c 0 t) (iblk1 V c 1 t) (iblk1 V c 2 t)
      ((cfg1.win 3).xinj (grid1.coords t) j) (((cfg1.win 3).blk t).view.emb j)
      (fun k => iblk1_0_apply V c t _ _ hk0 rfl) hk1 (iblk1_1_eq V c t) (iblk1_2_eq V c t))

/-- An entry of the result is in point t's tile iff each coordinate is in the tile's range on its axis. -/
theorem mem_blk1 (t : Fin cfg1.N) (i : S600000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v7).slice (win1_3.rect t)).set ↔ _
  rw [View.set_slice_whole, Rect.mem_set_unit]
  exact Iff.rfl

/-- Every entry of the result is in the tile of the point its row's number divided by 8000 names. -/
theorem cover1 (i : S600000x128.Idx) :
    ∃ t : Fin cfg1.N, (cfg1.win 3).flush t = true ∧ i ∈ ((cfg1.win 3).blk t).view.set := by
  have hi0 : (i 0).val < 600000 := (i 0).isLt
  have hi1 : (i 1).val < 128 := (i 1).isLt
  have hN : cfg1.N = 75 := N_1
  obtain ⟨t, ht⟩ : ∃ t : Fin cfg1.N, t.val = (i 0).val / 8000 := ⟨⟨(i 0).val / 8000, by rw [hN]; omega⟩, rfl⟩
  obtain ⟨-, -, -, -, -, -, e0, e1⟩ := idx1 t
  refine ⟨t, flush1_3 t, ?_⟩
  rw [mem_blk1]
  intro a
  match a with
  | ⟨0, _⟩ =>
    show win1_3.index t 0 * 8000 ≤ (i 0).val ∧ (i 0).val < win1_3.index t 0 * 8000 + 8000
    rw [e0, ht]; omega
  | ⟨1, _⟩ =>
    show win1_3.index t 1 * 128 ≤ (i 1).val ∧ (i 1).val < win1_3.index t 1 * 128 + 128
    rw [e1]; omega

/-- The encoder region leaves, in its result array, the whole table's encoding. -/
theorem lin1 : (dat1 (F := Ideal) V c).arrAt 3 cfg1.N
    = KSpec.linG1 (V c (Pipeline.arrRef spec1 0)) (V c (Pipeline.arrRef spec1 1)) (V c (Pipeline.arrRef spec1 2)) :=
  (dat1 V c).arrAt_eq_of_cover 3 _ (fun t _ => flushed1_eq V c t) (cover1)

end Cert.KVal

end
-- ==== Proof.KRegionBn.lean ====
/-
  The three normalisation regions, read index by index at the extended reals.

  Each runs over 5 tiles of 10000 rows of a [50000, 128] table.  A tile's result at (p, q) is
  max (gamma q · (z (p, q) − mean q) · invstd q + beta q) 0, which depends on the tile only through the entry itself;
  tile t holds rows 10000·t … 10000·t + 9999, the parameter rows are whole at every point, and the 5 tiles cover the
  table.  So the result array ends holding that function of the whole table.  The three regions differ only in the
  arrays they are run on.
-/
import proofs.«157653_j15152644620445_2_alg».proof.Proof.Gen.KernelIdeal.Frame
import proofs.«157653_j15152644620445_2_alg».proof.Proof.KSpec
import proofs.«157653_j15152644620445_2_alg».proof.Proof.KCommon
import Idealize.ShloMosaic.Lib.Pipeline.Value
import Idealize.ShloMosaic.Lib.ValueIdx

noncomputable section

open scoped BigOperators

namespace Cert.KVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-! ## Region 3 -/

/-- The normalisation's tile at (p, q): the rectified affine image of the entry, with column q's four parameters. -/
theorem k3_pay1_apply (x0 : Vec Ideal S10000x128 .f32) (g mu iv be : Vec Ideal S1x128 .f32) (p : Fin 10000) (q : Fin 128) :
    k3_pay1 (F := Ideal) x0 g mu iv be (ix2 p q)
      = max (g (ix2 0 q) * (x0 (ix2 p q) - mu (ix2 0 q)) * iv (ix2 0 q) + be (ix2 0 q)) 0 := by
  unfold k3_pay1
  simp only [shapeCast_self]
  show max (broadcastTo S10000x128 g _ (ix2 p q) * (x0 (ix2 p q) - broadcastTo S10000x128 mu _ (ix2 p q))
      * broadcastTo S10000x128 iv _ (ix2 p q) + broadcastTo S10000x128 be _ (ix2 p q)) (Ideal.ofBits .f32 0x00000000#32) = _
  rw [bcastRow_apply, bcastRow_apply, bcastRow_apply, bcastRow_apply, Ideal.ofBits_zero_f32]

/-- A tile of the normalisation against the whole table: where the tile's entry y is the table's entry i in the same
    column and the four parameter rows are the table's, the tile's result at y is the whole table's result at i. -/
theorem bn_tile3 (Z : FVec Ideal S50000x128 .f32) (Mean Inv Ga Be : FVec Ideal S1x128 .f32)
    (x0 : Vec Ideal S10000x128 .f32) (x1 x2 x3 x4 : Vec Ideal S1x128 .f32) (y : S10000x128.Idx) (i : S50000x128.Idx)
    (h0 : x0 y = Z i) (hi : (i 1).val = (y 1).val) (h1 : x1 = Mean) (h2 : x2 = Inv) (h3 : x3 = Ga) (h4 : x4 = Be) :
    k3_pay1 (F := Ideal) x0 x3 x1 x2 x4 y = KSpec.bnG Z Mean Inv Ga Be i := by
  subst h1 h2 h3 h4
  obtain ⟨p, q, rfl⟩ : ∃ (p : Fin 10000) (q : Fin 128), y = ix2 p q := ⟨y 0, y 1, eq_ix2 y⟩
  have hq : i 1 = q := Fin.ext hi
  rw [k3_pay1_apply, h0]
  unfold KSpec.bnG
  rw [hq]

/-- The one store of the normalisation's body leaves its payload in the result's buffer. -/
theorem out3_5_eq (x0 : Vec Ideal S10000x128 .f32) (x1 x2 x3 x4 : Vec Ideal S1x128 .f32) :
    out3_5 (F := Ideal) x0 x1 x2 x3 x4 = k3_pay1 (F := Ideal) x0 x3 x1 x2 x4 := by
  unfold out3_5
  rw [View.canon_unit_zero hz2]
  simp only [View.ld_unit_zero (S := S10000x128) hz2, View.ld_unit_zero (S := S1x128) hz2]

/-- The printed index maps over the grid of 5 points: the table's tile and the result's tile move with the point, the
    four parameter rows stay. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The table's tile at point t holds rows 10000·t … 10000·t + 9999 of the table. -/
theorem iblk3_0_apply (t : Fin cfg3.N) (y : S10000x128.Idx) (k : S50000x128.Idx)
    (hk0 : (k 0).val = t.val * 10000 + (y 0).val) (hk1 : (k 1).val = (y 1).val) :
    (iblk3 V c 0 t : Vec Ideal S10000x128 .f32) y = (V c (Pipeline.arrRef spec3 0) : S50000x128.Idx → EReal) k := by
  obtain ⟨e0, e1, -⟩ := idx3 t
  unfold iblk3
  rw [View.read_apply]
  show V c (Pipeline.arrRef spec3 0) _ = V c (Pipeline.arrRef spec3 0) _
  congr 1
  funext a
  apply Fin.ext
  match a with
  | ⟨0, _⟩ => show win3_0.index t 0 * 10000 + 1 * (y 0).val = (k 0).val; rw [e0, hk0]; omega
  | ⟨1, _⟩ => show win3_0.index t 1 * 128 + 1 * (y 1).val = (k 1).val; rw [e1, hk1]; omega

/-- Parameter row 1's block is the whole row at every point. -/
theorem iblk3_1_eq (t : Fin cfg3.N) :
    (iblk3 V c 1 t : Vec Ideal S1x128 .f32) = (V c (Pipeline.arrRef spec3 1) : S1x128.Idx → EReal) := by
  obtain ⟨-, -, e0, e1, -⟩ := idx3 t
  funext y
  unfold iblk3
  rw [View.read_apply]
  show V c (Pipeline.arrRef spec3 1) _ = V c (Pipeline.arrRef spec3 1) y
  congr 1
  funext a
  apply Fin.ext
  match a with
  | ⟨0, _⟩ => show win3_1.index t 0 * 1 + 1 * (y 0).val = (y 0).val; rw [e0]; omega
  | ⟨1, _⟩ => show win3_1.index t 1 * 128 + 1 * (y 1).val = (y 1).val; rw [e1]; omega

/-- Parameter row 2's block is the whole row at every point. -/
theorem iblk3_2_eq (t : Fin cfg3.N) :
    (iblk3 V c 2 t : Vec Ideal S1x128 .f32) = (V c (Pipeline.arrRef spec3 2) : S1x128.Idx → EReal) := by
  obtain ⟨-, -, -, -, e0, e1, -⟩ := idx3 t
  funext y
  unfold iblk3
  rw [View.read_apply]
  show V c (Pipeline.arrRef spec3 2) _ = V c (Pipeline.arrRef spec3 2) y
  congr 1
  funext a
  apply Fin.ext
  match a with
  | ⟨0, _⟩ => show win3_2.index t 0 * 1 + 1 * (y 0).val = (y 0).val; rw [e0]; omega
  | ⟨1, _⟩ => show win3_2.index t 1 * 128 + 1 * (y 1).val = (y 1).val; rw [e1]; omega

/-- Parameter row 3's block is the whole row at every point. -/
theorem iblk3_3_eq (t : Fin cfg3.N) :
    (iblk3 V c 3 t : Vec Ideal S1x128 .f32) = (V c (Pipeline.arrRef spec3 3) : S1x128.Idx → EReal) := by
  obtain ⟨-, -, -, -, -, -, e0, e1, -⟩ := idx3 t
  funext y
  unfold iblk3
  rw [View.read_apply]
  show V c (Pipeline.arrRef spec3 3) _ = V c (Pipeline.arrRef spec3 3) y
  congr 1
  funext a
  apply Fin.ext
  match a with
  | ⟨0, _⟩ => show win3_3.index t 0 * 1 + 1 * (y 0).val = (y 0).val; rw [e0]; omega
  | ⟨1, _⟩ => show win3_3.index t 1 * 128 + 1 * (y 1).val = (y 1).val; rw [e1]; omega

/-- Parameter row 4's block is the whole row at every point. -/
theorem iblk3_4_eq (t : Fin cfg3.N) :
    (iblk3 V c 4 t : Vec Ideal S1x128 .f32) = (V c (Pipeline.arrRef spec3 4) : S1x128.Idx → EReal) := by
  obtain ⟨-, -, -, -, -, -, -, -, e0, e1, -⟩ := idx3 t
  funext y
  unfold iblk3
  rw [View.read_apply]
  show V c (Pipeline.arrRef spec3 4) _ = V c (Pipeline.arrRef spec3 4) y
  congr 1
  funext a
  apply Fin.ext
  match a with
  | ⟨0, _⟩ => show win3_4.index t 0 * 1 + 1 * (y 0).val = (y 0).val; rw [e0]; omega
  | ⟨1, _⟩ => show win3_4.index t 1 * 128 + 1 * (y 1).val = (y 1).val; rw [e1]; omega

/-- What point t writes back is tile t of the whole table's normalisation. -/
theorem flushed3_eq (t : Fin cfg3.N) :
    (dat3 (F := Ideal) V c).flushed 5 t = ((cfg3.win 5).blk t).view.read (Elt Ideal)
      (KSpec.bnG (V c (Pipeline.arrRef spec3 0)) (V c (Pipeline.arrRef spec3 1)) (V c (Pipeline.arrRef spec3 2))
        (V c (Pipeline.arrRef spec3 3)) (V c (Pipeline.arrRef spec3 4))) := by
  obtain ⟨-, -, -, -, -, -, -, -, -, -, e0, e1⟩ := idx3 t
  show (cfg3.win 5).cut (grid3.coords t) ((dat3 V c).after 5 t) = _
  rw [after3_5]
  funext j
  have hk0 : ((((cfg3.win 5).blk t).view.emb j : S50000x128.Idx) 0).val = t.val * 10000 + (j 0).val := by
    show win3_5.index t 0 * 10000 + 1 * (j 0).val = _
    rw [e0]; omega
  have hk1 : ((((cfg3.win 5).blk t).view.emb j : S50000x128.Idx) 1).val = (j 1).val := by
    show win3_5.index t 1 * 128 + 1 * (j 1).val = _
    rw [e1]; omega
  exact (congrFun (out3_5_eq (iblk3 V c 0 t) (iblk3 V c 1 t) (iblk3 V c 2 t) (iblk3 V c 3 t) (iblk3 V c 4 t))
      ((cfg3.win 5).xinj (grid3.coords t) j)).trans
    (bn_tile3 _ _ _ _ _ (iblk3 V c 0 t) (iblk3 V c 1 t) (iblk3 V c 2 t) (iblk3 V c 3 t) (iblk3 V c 4 t)
      ((cfg3.win 5).xinj (grid3.coords t) j) (((cfg3.win 5).blk t).view.emb j)
      (iblk3_0_apply V c t _ _ hk0 hk1) hk1 (iblk3_1_eq V c t) (iblk3_2_eq V c t) (iblk3_3_eq V c t) (iblk3_4_eq V c t))

/-- An entry of the result is in point t's tile iff each coordinate is in the tile's range on its axis. -/
theorem mem_blk3 (t : Fin cfg3.N) (i : S50000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v50).slice (win3_5.rect t)).set ↔ _
  rw [View.set_slice_whole, Rect.mem_set_unit]
  exact Iff.rfl

/-- Every entry of the result is in the tile of the point its row's number divided by 10000 names. -/
theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 5 := N_3
  obtain ⟨t, ht⟩ : ∃ t : Fin cfg3.N, t.val = (i 0).val / 10000 := ⟨⟨(i 0).val / 10000, by rw [hN]; omega⟩, rfl⟩
  obtain ⟨-, -, -, -, -, -, -, -, -, -, e0, e1⟩ := idx3 t
  refine ⟨t, flush3_5 t, ?_⟩
  rw [mem_blk3]
  intro a
  match a with
  | ⟨0, _⟩ =>
    show win3_5.index t 0 * 10000 ≤ (i 0).val ∧ (i 0).val < win3_5.index t 0 * 10000 + 10000
    rw [e0, ht]; omega
  | ⟨1, _⟩ =>
    show win3_5.index t 1 * 128 ≤ (i 1).val ∧ (i 1).val < win3_5.index t 1 * 128 + 128
    rw [e1]; omega

/-- The normalisation region leaves, in its result array, the whole table's normalisation. -/
theorem bn3 : (dat3 (F := Ideal) V c).arrAt 5 cfg3.N
    = KSpec.bnG (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 _ (fun t _ => flushed3_eq V c t) (cover3)

/-! ## Region 5 -/

/-- The normalisation's tile at (p, q): the rectified affine image of the entry, with column q's four parameters. -/
theorem k5_pay1_apply (x0 : Vec Ideal S10000x128 .f32) (g mu iv be : Vec Ideal S1x128 .f32) (p : Fin 10000) (q : Fin 128) :
    k5_pay1 (F := Ideal) x0 g mu iv be (ix2 p q)
      = max (g (ix2 0 q) * (x0 (ix2 p q) - mu (ix2 0 q)) * iv (ix2 0 q) + be (ix2 0 q)) 0 := by
  unfold k5_pay1
  simp only [shapeCast_self]
  show max (broadcastTo S10000x128 g _ (ix2 p q) * (x0 (ix2 p q) - broadcastTo S10000x128 mu _ (ix2 p q))
      * broadcastTo S10000x128 iv _ (ix2 p q) + broadcastTo S10000x128 be _ (ix2 p q)) (Ideal.ofBits .f32 0x00000000#32) = _
  rw [bcastRow_apply, bcastRow_apply, bcastRow_apply, bcastRow_apply, Ideal.ofBits_zero_f32]

/-- A tile of the normalisation against the whole table: where the tile's entry y is the table's entry i in the same
    column and the four parameter rows are the table's, the tile's result at y is the whole table's result at i. -/
theorem bn_tile5 (Z : FVec Ideal S50000x128 .f32) (Mean Inv Ga Be : FVec Ideal S1x128 .f32)
    (x0 : Vec Ideal S10000x128 .f32) (x1 x2 x3 x4 : Vec Ideal S1x128 .f32) (y : S10000x128.Idx) (i : S50000x128.Idx)
    (h0 : x0 y = Z i) (hi : (i 1).val = (y 1).val) (h1 : x1 = Mean) (h2 : x2 = Inv) (h3 : x3 = Ga) (h4 : x4 = Be) :
    k5_pay1 (F := Ideal) x0 x3 x1 x2 x4 y = KSpec.bnG Z Mean Inv Ga Be i := by
  subst h1 h2 h3 h4
  obtain ⟨p, q, rfl⟩ : ∃ (p : Fin 10000) (q : Fin 128), y = ix2 p q := ⟨y 0, y 1, eq_ix2 y⟩
  have hq : i 1 = q := Fin.ext hi
  rw [k5_pay1_apply, h0]
  unfold KSpec.bnG
  rw [hq]

/-- The one store of the normalisation's body leaves its payload in the result's buffer. -/
theorem out5_5_eq (x0 : Vec Ideal S10000x128 .f32) (x1 x2 x3 x4 : Vec Ideal S1x128 .f32) :
    out5_5 (F := Ideal) x0 x1 x2 x3 x4 = k5_pay1 (F := Ideal) x0 x3 x1 x2 x4 := by
  unfold out5_5
  rw [View.canon_unit_zero hz2]
  simp only [View.ld_unit_zero (S := S10000x128) hz2, View.ld_unit_zero (S := S1x128) hz2]

/-- The printed index maps over the grid of 5 points: the table's tile and the result's tile move with the point, the
    four parameter rows stay. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The table's tile at point t holds rows 10000·t … 10000·t + 9999 of the table. -/
theorem iblk5_0_apply (t : Fin cfg5.N) (y : S10000x128.Idx) (k : S50000x128.Idx)
    (hk0 : (k 0).val = t.val * 10000 + (y 0).val) (hk1 : (k 1).val = (y 1).val) :
    (iblk5 V c 0 t : Vec Ideal S10000x128 .f32) y = (V c (Pipeline.arrRef spec5 0) : S50000x128.Idx → EReal) k := by
  obtain ⟨e0, e1, -⟩ := idx5 t
  unfold iblk5
  rw [View.read_apply]
  show V c (Pipeline.arrRef spec5 0) _ = V c (Pipeline.arrRef spec5 0) _
  congr 1
  funext a
  apply Fin.ext
  match a with
  | ⟨0, _⟩ => show win5_0.index t 0 * 10000 + 1 * (y 0).val = (k 0).val; rw [e0, hk0]; omega
  | ⟨1, _⟩ => show win5_0.index t 1 * 128 + 1 * (y 1).val = (k 1).val; rw [e1, hk1]; omega

/-- Parameter row 1's block is the whole row at every point. -/
theorem iblk5_1_eq (t : Fin cfg5.N) :
    (iblk5 V c 1 t : Vec Ideal S1x128 .f32) = (V c (Pipeline.arrRef spec5 1) : S1x128.Idx → EReal) := by
  obtain ⟨-, -, e0, e1, -⟩ := idx5 t
  funext y
  unfold iblk5
  rw [View.read_apply]
  show V c (Pipeline.arrRef spec5 1) _ = V c (Pipeline.arrRef spec5 1) y
  congr 1
  funext a
  apply Fin.ext
  match a with
  | ⟨0, _⟩ => show win5_1.index t 0 * 1 + 1 * (y 0).val = (y 0).val; rw [e0]; omega
  | ⟨1, _⟩ => show win5_1.index t 1 * 128 + 1 * (y 1).val = (y 1).val; rw [e1]; omega

/-- Parameter row 2's block is the whole row at every point. -/
theorem iblk5_2_eq (t : Fin cfg5.N) :
    (iblk5 V c 2 t : Vec Ideal S1x128 .f32) = (V c (Pipeline.arrRef spec5 2) : S1x128.Idx → EReal) := by
  obtain ⟨-, -, -, -, e0, e1, -⟩ := idx5 t
  funext y
  unfold iblk5
  rw [View.read_apply]
  show V c (Pipeline.arrRef spec5 2) _ = V c (Pipeline.arrRef spec5 2) y
  congr 1
  funext a
  apply Fin.ext
  match a with
  | ⟨0, _⟩ => show win5_2.index t 0 * 1 + 1 * (y 0).val = (y 0).val; rw [e0]; omega
  | ⟨1, _⟩ => show win5_2.index t 1 * 128 + 1 * (y 1).val = (y 1).val; rw [e1]; omega

/-- Parameter row 3's block is the whole row at every point. -/
theorem iblk5_3_eq (t : Fin cfg5.N) :
    (iblk5 V c 3 t : Vec Ideal S1x128 .f32) = (V c (Pipeline.arrRef spec5 3) : S1x128.Idx → EReal) := by
  obtain ⟨-, -, -, -, -, -, e0, e1, -⟩ := idx5 t
  funext y
  unfold iblk5
  rw [View.read_apply]
  show V c (Pipeline.arrRef spec5 3) _ = V c (Pipeline.arrRef spec5 3) y
  congr 1
  funext a
  apply Fin.ext
  match a with
  | ⟨0, _⟩ => show win5_3.index t 0 * 1 + 1 * (y 0).val = (y 0).val; rw [e0]; omega
  | ⟨1, _⟩ => show win5_3.index t 1 * 128 + 1 * (y 1).val = (y 1).val; rw [e1]; omega

/-- Parameter row 4's block is the whole row at every point. -/
theorem iblk5_4_eq (t : Fin cfg5.N) :
    (iblk5 V c 4 t : Vec Ideal S1x128 .f32) = (V c (Pipeline.arrRef spec5 4) : S1x128.Idx → EReal) := by
  obtain ⟨-, -, -, -, -, -, -, -, e0, e1, -⟩ := idx5 t
  funext y
  unfold iblk5
  rw [View.read_apply]
  show V c (Pipeline.arrRef spec5 4) _ = V c (Pipeline.arrRef spec5 4) y
  congr 1
  funext a
  apply Fin.ext
  match a with
  | ⟨0, _⟩ => show win5_4.index t 0 * 1 + 1 * (y 0).val = (y 0).val; rw [e0]; omega
  | ⟨1, _⟩ => show win5_4.index t 1 * 128 + 1 * (y 1).val = (y 1).val; rw [e1]; omega

/-- What point t writes back is tile t of the whole table's normalisation. -/
theorem flushed5_eq (t : Fin cfg5.N) :
    (dat5 (F := Ideal) V c).flushed 5 t = ((cfg5.win 5).blk t).view.read (Elt Ideal)
      (KSpec.bnG (V c (Pipeline.arrRef spec5 0)) (V c (Pipeline.arrRef spec5 1)) (V c (Pipeline.arrRef spec5 2))
        (V c (Pipeline.arrRef spec5 3)) (V c (Pipeline.arrRef spec5 4))) := by
  obtain ⟨-, -, -, -, -, -, -, -, -, -, e0, e1⟩ := idx5 t
  show (cfg5.win 5).cut (grid5.coords t) ((dat5 V c).after 5 t) = _
  rw [after5_5]
  funext j
  have hk0 : ((((cfg5.win 5).blk t).view.emb j : S50000x128.Idx) 0).val = t.val * 10000 + (j 0).val := by
    show win5_5.index t 0 * 10000 + 1 * (j 0).val = _
    rw [e0]; omega
  have hk1 : ((((cfg5.win 5).blk t).view.emb j : S50000x128.Idx) 1).val = (j 1).val := by
    show win5_5.index t 1 * 128 + 1 * (j 1).val = _
    rw [e1]; omega
  exact (congrFun (out5_5_eq (iblk5 V c 0 t) (iblk5 V c 1 t) (iblk5 V c 2 t) (iblk5 V c 3 t) (iblk5 V c 4 t))
      ((cfg5.win 5).xinj (grid5.coords t) j)).trans
    (bn_tile5 _ _ _ _ _ (iblk5 V c 0 t) (iblk5 V c 1 t) (iblk5 V c 2 t) (iblk5 V c 3 t) (iblk5 V c 4 t)
      ((cfg5.win 5).xinj (grid5.coords t) j) (((cfg5.win 5).blk t).view.emb j)
      (iblk5_0_apply V c t _ _ hk0 hk1) hk1 (iblk5_1_eq V c t) (iblk5_2_eq V c t) (iblk5_3_eq V c t) (iblk5_4_eq V c t))

/-- An entry of the result is in point t's tile iff each coordinate is in the tile's range on its axis. -/
theorem mem_blk5 (t : Fin cfg5.N) (i : S50000x128.Idx) :
    i ∈ ((cfg5.win 5).blk t).view.set ↔ ∀ a : Fin 2, win5_5.index t a * S10000x128.size a ≤ (i a).val
      ∧ (i a).val < win5_5.index t a * S10000x128.size a + S10000x128.size a := by
  show i ∈ ((View.whole main_v93).slice (win5_5.rect t)).set ↔ _
  rw [View.set_slice_whole, Rect.mem_set_unit]
  exact Iff.rfl

/-- Every entry of the result is in the tile of the point its row's number divided by 10000 names. -/
theorem cover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 5 := N_5
  obtain ⟨t, ht⟩ : ∃ t : Fin cfg5.N, t.val = (i 0).val / 10000 := ⟨⟨(i 0).val / 10000, by rw [hN]; omega⟩, rfl⟩
  obtain ⟨-, -, -, -, -, -, -, -, -, -, e0, e1⟩ := idx5 t
  refine ⟨t, flush5_5 t, ?_⟩
  rw [mem_blk5]
  intro a
  match a with
  | ⟨0, _⟩ =>
    show win5_5.index t 0 * 10000 ≤ (i 0).val ∧ (i 0).val < win5_5.index t 0 * 10000 + 10000
    rw [e0, ht]; omega
  | ⟨1, _⟩ =>
    show win5_5.index t 1 * 128 ≤ (i 1).val ∧ (i 1).val < win5_5.index t 1 * 128 + 128
    rw [e1]; omega

/-- The normalisation region leaves, in its result array, the whole table's normalisation. -/
theorem bn5 : (dat5 (F := Ideal) V c).arrAt 5 cfg5.N
    = KSpec.bnG (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 5 _ (fun t _ => flushed5_eq V c t) (cover5)

/-! ## Region 7 -/

/-- The normalisation's tile at (p, q): the rectified affine image of the entry, with column q's four parameters. -/
theorem k7_pay1_apply (x0 : Vec Ideal S10000x128 .f32) (g mu iv be : Vec Ideal S1x128 .f32) (p : Fin 10000) (q : Fin 128) :
    k7_pay1 (F := Ideal) x0 g mu iv be (ix2 p q)
      = max (g (ix2 0 q) * (x0 (ix2 p q) - mu (ix2 0 q)) * iv (ix2 0 q) + be (ix2 0 q)) 0 := by
  unfold k7_pay1
  simp only [shapeCast_self]
  show max (broadcastTo S10000x128 g _ (ix2 p q) * (x0 (ix2 p q) - broadcastTo S10000x128 mu _ (ix2 p q))
      * broadcastTo S10000x128 iv _ (ix2 p q) + broadcastTo S10000x128 be _ (ix2 p q)) (Ideal.ofBits .f32 0x00000000#32) = _
  rw [bcastRow_apply, bcastRow_apply, bcastRow_apply, bcastRow_apply, Ideal.ofBits_zero_f32]

/-- A tile of the normalisation against the whole table: where the tile's entry y is the table's entry i in the same
    column and the four parameter rows are the table's, the tile's result at y is the whole table's result at i. -/
theorem bn_tile7 (Z : FVec Ideal S50000x128 .f32) (Mean Inv Ga Be : FVec Ideal S1x128 .f32)
    (x0 : Vec Ideal S10000x128 .f32) (x1 x2 x3 x4 : Vec Ideal S1x128 .f32) (y : S10000x128.Idx) (i : S50000x128.Idx)
    (h0 : x0 y = Z i) (hi : (i 1).val = (y 1).val) (h1 : x1 = Mean) (h2 : x2 = Inv) (h3 : x3 = Ga) (h4 : x4 = Be) :
    k7_pay1 (F := Ideal) x0 x3 x1 x2 x4 y = KSpec.bnG Z Mean Inv Ga Be i := by
  subst h1 h2 h3 h4
  obtain ⟨p, q, rfl⟩ : ∃ (p : Fin 10000) (q : Fin 128), y = ix2 p q := ⟨y 0, y 1, eq_ix2 y⟩
  have hq : i 1 = q := Fin.ext hi
  rw [k7_pay1_apply, h0]
  unfold KSpec.bnG
  rw [hq]

/-- The one store of the normalisation's body leaves its payload in the result's buffer. -/
theorem out7_5_eq (x0 : Vec Ideal S10000x128 .f32) (x1 x2 x3 x4 : Vec Ideal S1x128 .f32) :
    out7_5 (F := Ideal) x0 x1 x2 x3 x4 = k7_pay1 (F := Ideal) x0 x3 x1 x2 x4 := by
  unfold out7_5
  rw [View.canon_unit_zero hz2]
  simp only [View.ld_unit_zero (S := S10000x128) hz2, View.ld_unit_zero (S := S1x128) hz2]

/-- The printed index maps over the grid of 5 points: the table's tile and the result's tile move with the point, the
    four parameter rows stay. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The table's tile at point t holds rows 10000·t … 10000·t + 9999 of the table. -/
theorem iblk7_0_apply (t : Fin cfg7.N) (y : S10000x128.Idx) (k : S50000x128.Idx)
    (hk0 : (k 0).val = t.val * 10000 + (y 0).val) (hk1 : (k 1).val = (y 1).val) :
    (iblk7 V c 0 t : Vec Ideal S10000x128 .f32) y = (V c (Pipeline.arrRef spec7 0) : S50000x128.Idx → EReal) k := by
  obtain ⟨e0, e1, -⟩ := idx7 t
  unfold iblk7
  rw [View.read_apply]
  show V c (Pipeline.arrRef spec7 0) _ = V c (Pipeline.arrRef spec7 0) _
  congr 1
  funext a
  apply Fin.ext
  match a with
  | ⟨0, _⟩ => show win7_0.index t 0 * 10000 + 1 * (y 0).val = (k 0).val; rw [e0, hk0]; omega
  | ⟨1, _⟩ => show win7_0.index t 1 * 128 + 1 * (y 1).val = (k 1).val; rw [e1, hk1]; omega

/-- Parameter row 1's block is the whole row at every point. -/
theorem iblk7_1_eq (t : Fin cfg7.N) :
    (iblk7 V c 1 t : Vec Ideal S1x128 .f32) = (V c (Pipeline.arrRef spec7 1) : S1x128.Idx → EReal) := by
  obtain ⟨-, -, e0, e1, -⟩ := idx7 t
  funext y
  unfold iblk7
  rw [View.read_apply]
  show V c (Pipeline.arrRef spec7 1) _ = V c (Pipeline.arrRef spec7 1) y
  congr 1
  funext a
  apply Fin.ext
  match a with
  | ⟨0, _⟩ => show win7_1.index t 0 * 1 + 1 * (y 0).val = (y 0).val; rw [e0]; omega
  | ⟨1, _⟩ => show win7_1.index t 1 * 128 + 1 * (y 1).val = (y 1).val; rw [e1]; omega

/-- Parameter row 2's block is the whole row at every point. -/
theorem iblk7_2_eq (t : Fin cfg7.N) :
    (iblk7 V c 2 t : Vec Ideal S1x128 .f32) = (V c (Pipeline.arrRef spec7 2) : S1x128.Idx → EReal) := by
  obtain ⟨-, -, -, -, e0, e1, -⟩ := idx7 t
  funext y
  unfold iblk7
  rw [View.read_apply]
  show V c (Pipeline.arrRef spec7 2) _ = V c (Pipeline.arrRef spec7 2) y
  congr 1
  funext a
  apply Fin.ext
  match a with
  | ⟨0, _⟩ => show win7_2.index t 0 * 1 + 1 * (y 0).val = (y 0).val; rw [e0]; omega
  | ⟨1, _⟩ => show win7_2.index t 1 * 128 + 1 * (y 1).val = (y 1).val; rw [e1]; omega

/-- Parameter row 3's block is the whole row at every point. -/
theorem iblk7_3_eq (t : Fin cfg7.N) :
    (iblk7 V c 3 t : Vec Ideal S1x128 .f32) = (V c (Pipeline.arrRef spec7 3) : S1x128.Idx → EReal) := by
  obtain ⟨-, -, -, -, -, -, e0, e1, -⟩ := idx7 t
  funext y
  unfold iblk7
  rw [View.read_apply]
  show V c (Pipeline.arrRef spec7 3) _ = V c (Pipeline.arrRef spec7 3) y
  congr 1
  funext a
  apply Fin.ext
  match a with
  | ⟨0, _⟩ => show win7_3.index t 0 * 1 + 1 * (y 0).val = (y 0).val; rw [e0]; omega
  | ⟨1, _⟩ => show win7_3.index t 1 * 128 + 1 * (y 1).val = (y 1).val; rw [e1]; omega

/-- Parameter row 4's block is the whole row at every point. -/
theorem iblk7_4_eq (t : Fin cfg7.N) :
    (iblk7 V c 4 t : Vec Ideal S1x128 .f32) = (V c (Pipeline.arrRef spec7 4) : S1x128.Idx → EReal) := by
  obtain ⟨-, -, -, -, -, -, -, -, e0, e1, -⟩ := idx7 t
  funext y
  unfold iblk7
  rw [View.read_apply]
  show V c (Pipeline.arrRef spec7 4) _ = V c (Pipeline.arrRef spec7 4) y
  congr 1
  funext a
  apply Fin.ext
  match a with
  | ⟨0, _⟩ => show win7_4.index t 0 * 1 + 1 * (y 0).val = (y 0).val; rw [e0]; omega
  | ⟨1, _⟩ => show win7_4.index t 1 * 128 + 1 * (y 1).val = (y 1).val; rw [e1]; omega

/-- What point t writes back is tile t of the whole table's normalisation. -/
theorem flushed7_eq (t : Fin cfg7.N) :
    (dat7 (F := Ideal) V c).flushed 5 t = ((cfg7.win 5).blk t).view.read (Elt Ideal)
      (KSpec.bnG (V c (Pipeline.arrRef spec7 0)) (V c (Pipeline.arrRef spec7 1)) (V c (Pipeline.arrRef spec7 2))
        (V c (Pipeline.arrRef spec7 3)) (V c (Pipeline.arrRef spec7 4))) := by
  obtain ⟨-, -, -, -, -, -, -, -, -, -, e0, e1⟩ := idx7 t
  show (cfg7.win 5).cut (grid7.coords t) ((dat7 V c).after 5 t) = _
  rw [after7_5]
  funext j
  have hk0 : ((((cfg7.win 5).blk t).view.emb j : S50000x128.Idx) 0).val = t.val * 10000 + (j 0).val := by
    show win7_5.index t 0 * 10000 + 1 * (j 0).val = _
    rw [e0]; omega
  have hk1 : ((((cfg7.win 5).blk t).view.emb j : S50000x128.Idx) 1).val = (j 1).val := by
    show win7_5.index t 1 * 128 + 1 * (j 1).val = _
    rw [e1]; omega
  exact (congrFun (out7_5_eq (iblk7 V c 0 t) (iblk7 V c 1 t) (iblk7 V c 2 t) (iblk7 V c 3 t) (iblk7 V c 4 t))
      ((cfg7.win 5).xinj (grid7.coords t) j)).trans
    (bn_tile7 _ _ _ _ _ (iblk7 V c 0 t) (iblk7 V c 1 t) (iblk7 V c 2 t) (iblk7 V c 3 t) (iblk7 V c 4 t)
      ((cfg7.win 5).xinj (grid7.coords t) j) (((cfg7.win 5).blk t).view.emb j)
      (iblk7_0_apply V c t _ _ hk0 hk1) hk1 (iblk7_1_eq V c t) (iblk7_2_eq V c t) (iblk7_3_eq V c t) (iblk7_4_eq V c t))

/-- An entry of the result is in point t's tile iff each coordinate is in the tile's range on its axis. -/
theorem mem_blk7 (t : Fin cfg7.N) (i : S50000x128.Idx) :
    i ∈ ((cfg7.win 5).blk t).view.set ↔ ∀ a : Fin 2, win7_5.index t a * S10000x128.size a ≤ (i a).val
      ∧ (i a).val < win7_5.index t a * S10000x128.size a + S10000x128.size a := by
  show i ∈ ((View.whole main_v136).slice (win7_5.rect t)).set ↔ _
  rw [View.set_slice_whole, Rect.mem_set_unit]
  exact Iff.rfl

/-- Every entry of the result is in the tile of the point its row's number divided by 10000 names. -/
theorem cover7 (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  have hN : cfg7.N = 5 := N_7
  obtain ⟨t, ht⟩ : ∃ t : Fin cfg7.N, t.val = (i 0).val / 10000 := ⟨⟨(i 0).val / 10000, by rw [hN]; omega⟩, rfl⟩
  obtain ⟨-, -, -, -, -, -, -, -, -, -, e0, e1⟩ := idx7 t
  refine ⟨t, flush7_5 t, ?_⟩
  rw [mem_blk7]
  intro a
  match a with
  | ⟨0, _⟩ =>
    show win7_5.index t 0 * 10000 ≤ (i 0).val ∧ (i 0).val < win7_5.index t 0 * 10000 + 10000
    rw [e0, ht]; omega
  | ⟨1, _⟩ =>
    show win7_5.index t 1 * 128 ≤ (i 1).val ∧ (i 1).val < win7_5.index t 1 * 128 + 128
    rw [e1]; omega

/-- The normalisation region leaves, in its result array, the whole table's normalisation. -/
theorem bn7 : (dat7 (F := Ideal) V c).arrAt 5 cfg7.N
    = KSpec.bnG (V c (Pipeline.arrRef spec7 0)) (V c (Pipeline.arrRef spec7 1)) (V c (Pipeline.arrRef spec7 2))
        (V c (Pipeline.arrRef spec7 3)) (V c (Pipeline.arrRef spec7 4)) :=
  (dat7 V c).arrAt_eq_of_cover 5 _ (fun t _ => flushed7_eq V c t) (cover7)

end Cert.KVal

end
-- ==== Proof.RefSpec.lean ====
import proofs.«157653_j15152644620445_2_alg».proof.Proof.Gen.ReferenceIdeal
import Idealize.ShloMosaic.PureOps.Ideal

/-!
# The reference network, stage by stage

The reference program is a three-layer message-passing network: two linear encoders, then per layer a
gather–add–rectify message, a sum over incoming edges, a two-layer perceptron, a normalisation over the
node axis by the batch mean and the batch variance (the mean of the squared deviations), a rectifier; then a
sum over the graphs and a two-layer head. Each stage is stated here as a function of whole arrays at the
ideal instance (a float an extended real), built from exactly the array operations the program's lines apply,
so that the composed value of a run of the program is these functions applied to its arguments.
-/

noncomputable section

namespace Cert.RefSpec

open Cert.ReferenceIdeal Cert.ReferenceIdeal.Gen Idealize.ShloMosaic

/-- The scalar zero. -/
def zeroS : FVec Ideal S_ .f32 := constant S_ .f32 0x00000000#32

/-- The node count 50000 as a scalar float. -/
def countS : FVec Ideal S_ .f32 := constant S_ .f32 0x47435000#32

/-- A vector of 128 entries laid along every one of the 50000 rows. -/
def rowN (v : FVec Ideal S128 .f32) : FVec Ideal S50000x128 .f32 :=
  broadcastInDim S50000x128 ![0, 1] bcast_S1x128_S50000x128_0_1 (broadcastInDim S1x128 ![1] bcast_S128_S1x128_1 v)

/-- The node encoder: x · w + b. -/
def enc0 (x : FVec Ideal S50000x64 .f32) (w : FVec Ideal S64x128 .f32) (b : FVec Ideal S128 .f32) :
    FVec Ideal S50000x128 .f32 :=
  addf (Host.dotGeneral dot_S50000x64_S64x128_S50000x128_1_0_0_1_n_n none x w) (rowN b)

/-- The edge encoder: ea · ew + eb. -/
def enc1 (ea : FVec Ideal S600000x16 .f32) (ew : FVec Ideal S16x128 .f32) (eb : FVec Ideal S128 .f32) :
    FVec Ideal S600000x128 .f32 :=
  addf (Host.dotGeneral dot_S600000x16_S16x128_S600000x128_1_0_0_1_n_n none ea ew)
    (broadcastInDim S600000x128 ![0, 1] bcast_S1x128_S600000x128_0_1 (broadcastInDim S1x128 ![1] bcast_S128_S1x128_1 eb))

/-- Row 0 of the edge list: the source node of every edge. -/
def edgeRow0 (ei : IVec S2x600000 32) : IVec S600000 32 :=
  shapeCast S600000 (extractStridedSlice S1x600000 ![0, 0] ei slices_S2x600000_S1x600000_0_0) shapeCasts_S1x600000_S600000

/-- Row 1 of the edge list: the target node of every edge. -/
def edgeRow1 (ei : IVec S2x600000 32) : IVec S600000 32 :=
  shapeCast S600000 (extractStridedSlice S1x600000 ![1, 0] ei slices_S2x600000_S1x600000_1_0) shapeCasts_S1x600000_S600000

/-- The source indices as a column, a negative index counted from the end (s < 0 ↦ s + 50000). -/
def srcIdx (ei : IVec S2x600000 32) : IVec S600000x1 32 :=
  broadcastInDim S600000x1 ![0] bcast_S600000_S600000x1_0
    (select (cmpi .slt (edgeRow0 ei) (broadcastInDim S600000 ![] bcast_S_S600000 (constantI S_ 32 0#32)))
      (addi (edgeRow0 ei) (broadcastInDim S600000 ![] bcast_S_S600000 (constantI S_ 32 50000#32)))
      (edgeRow0 ei))

/-- The target indices as a column. -/
def dstIdx (ei : IVec S2x600000 32) : IVec S600000x1 32 :=
  broadcastInDim S600000x1 ![0] bcast_S600000_S600000x1_0 (edgeRow1 ei)

/-- The aggregated messages: at every node the sum, over the edges that end there, of
    max (h[source] + ea, 0). -/
def agg (h : FVec Ideal S50000x128 .f32) (ea : FVec Ideal S600000x128 .f32) (si di : IVec S600000x1 32) :
    FVec Ideal S50000x128 .f32 :=
  Host.scatterAdd scatter_S50000x128_S600000x1_S600000x128_1_0_0_1
    (broadcastInDim S50000x128 ![] bcast_S_S50000x128 zeroS) di
    (maximumf (addf (Host.gather gather_S50000x128_S600000x1_S600000x128_1_0_n_n_0_1_1128 h si) ea)
      (broadcastInDim S600000x128 ![] bcast_S_S600000x128 zeroS))

/-- A linear layer on the node features: x · w + b. -/
def lin (x : FVec Ideal S50000x128 .f32) (w : FVec Ideal S128x128 .f32) (b : FVec Ideal S128 .f32) :
    FVec Ideal S50000x128 .f32 :=
  addf (Host.dotGeneral dot_S50000x128_S128x128_S50000x128_1_0_0_1_n_n none x w) (rowN b)

/-- The rectifier: max (x, 0). -/
def relu (x : FVec Ideal S50000x128 .f32) : FVec Ideal S50000x128 .f32 :=
  maximumf x (broadcastInDim S50000x128 ![] bcast_S_S50000x128 zeroS)

/-- The layer's perceptron on h + a. -/
def mlp (h a : FVec Ideal S50000x128 .f32) (w1 : FVec Ideal S128x128 .f32) (b1 : FVec Ideal S128 .f32)
    (w2 : FVec Ideal S128x128 .f32) (b2 : FVec Ideal S128 .f32) : FVec Ideal S50000x128 .f32 :=
  lin (relu (lin (addf h a) w1 b1)) w2 b2

/-- The column sums. -/
def colSum (z : FVec Ideal S50000x128 .f32) : FVec Ideal S128 .f32 :=
  Host.reduceAdd z zeroS reducesTo_S50000x128_S128_d0 h_S_

/-- The batch mean of every column: the column sum over 50000. -/
def mean (z : FVec Ideal S50000x128 .f32) : FVec Ideal S128 .f32 :=
  Host.divf (colSum z) (broadcastInDim S128 ![] bcast_S_S128 countS)

/-- The divisor of the variance: 50000 less the correction 0. -/
def varDenom : FVec Ideal S_ .f32 := subf countS (sitofp .f32 (constantI S_ 32 0#32))

/-- The deviations from the column means, the means computed as a one-row matrix. -/
def centered (z : FVec Ideal S50000x128 .f32) : FVec Ideal S50000x128 .f32 :=
  subf z (broadcastInDim S50000x128 ![0, 1] bcast_S1x128_S50000x128_0_1
    (Host.divf (broadcastInDim S1x128 ![1] bcast_S128_S1x128_1 (colSum z)) (broadcastInDim S1x128 ![] bcast_S_S1x128 countS)))

/-- The batch variance of every column: the mean of the squared deviations, where the divisor is positive
    (it is), the not-a-number word elsewhere. -/
def var (z : FVec Ideal S50000x128 .f32) : FVec Ideal S128 .f32 :=
  select (broadcastInDim S128 ![] bcast_S_S128 (cmpf .ogt varDenom zeroS))
    (Host.divf (colSum (mulf (centered z) (centered z))) (broadcastInDim S128 ![] bcast_S_S128 varDenom))
    (broadcastInDim S128 ![] bcast_S_S128 (constant S_ .f32 0x7FC00000#32 : FVec Ideal S_ .f32))

/-- The normalisation with a given inverse deviation: max (ga · (z - mean) · inv + be, 0). -/
def bnWith (z : FVec Ideal S50000x128 .f32) (mean inv ga be : FVec Ideal S128 .f32) : FVec Ideal S50000x128 .f32 :=
  relu (addf (mulf (mulf (rowN ga) (subf z (rowN mean))) (rowN inv)) (rowN be))

/-- The stabiliser added to the variance. -/
def epsS : FVec Ideal S_ .f32 := constant S_ .f32 0x3727C5AC#32

/-- The normalisation: the inverse deviation is 1 / sqrt (var + eps). -/
def bn (z : FVec Ideal S50000x128 .f32) (mean var ga be : FVec Ideal S128 .f32) : FVec Ideal S50000x128 .f32 :=
  bnWith z mean (Host.rsqrt (addf var (broadcastInDim S128 ![] bcast_S_S128 epsS))) ga be

/-- Layer l's matrix of a stack of three. -/
def mat0 (W : FVec Ideal S3x128x128 .f32) : FVec Ideal S128x128 .f32 :=
  shapeCast S128x128 (extractStridedSlice S1x128x128 ![0, 0, 0] W slices_S3x128x128_S1x128x128_0_0_0) shapeCasts_S1x128x128_S128x128
@[inherit_doc mat0]
def mat1 (W : FVec Ideal S3x128x128 .f32) : FVec Ideal S128x128 .f32 :=
  shapeCast S128x128 (extractStridedSlice S1x128x128 ![1, 0, 0] W slices_S3x128x128_S1x128x128_1_0_0) shapeCasts_S1x128x128_S128x128
@[inherit_doc mat0]
def mat2 (W : FVec Ideal S3x128x128 .f32) : FVec Ideal S128x128 .f32 :=
  shapeCast S128x128 (extractStridedSlice S1x128x128 ![2, 0, 0] W slices_S3x128x128_S1x128x128_2_0_0) shapeCasts_S1x128x128_S128x128

/-- Layer l's vector of a stack of three. -/
def vec0 (B : FVec Ideal S3x128 .f32) : FVec Ideal S128 .f32 :=
  shapeCast S128 (extractStridedSlice S1x128 ![0, 0] B slices_S3x128_S1x128_0_0) shapeCasts_S1x128_S128
@[inherit_doc vec0]
def vec1 (B : FVec Ideal S3x128 .f32) : FVec Ideal S128 .f32 :=
  shapeCast S128 (extractStridedSlice S1x128 ![1, 0] B slices_S3x128_S1x128_1_0) shapeCasts_S1x128_S128
@[inherit_doc vec0]
def vec2 (B : FVec Ideal S3x128 .f32) : FVec Ideal S128 .f32 :=
  shapeCast S128 (extractStridedSlice S1x128 ![2, 0] B slices_S3x128_S1x128_2_0) shapeCasts_S1x128_S128

/-- The normalisation of z by its own batch statistics. -/
def bnOf (z : FVec Ideal S50000x128 .f32) (ga be : FVec Ideal S128 .f32) : FVec Ideal S50000x128 .f32 :=
  bn z (mean z) (var z) ga be

/-- One layer of the network. -/
def layer (h : FVec Ideal S50000x128 .f32) (ea : FVec Ideal S600000x128 .f32) (si di : IVec S600000x1 32)
    (w1 : FVec Ideal S128x128 .f32) (b1 : FVec Ideal S128 .f32) (w2 : FVec Ideal S128x128 .f32) (b2 : FVec Ideal S128 .f32)
    (ga be : FVec Ideal S128 .f32) : FVec Ideal S50000x128 .f32 :=
  bnOf (mlp h (agg h ea si di) w1 b1 w2 b2) ga be

/-- The sum of the node features over every graph. -/
def pool (h : FVec Ideal S50000x128 .f32) (batch : IVec S50000 32) : FVec Ideal S256x128 .f32 :=
  Host.scatterAdd scatter_S256x128_S50000x1_S50000x128_1_0_0_1
    (broadcastInDim S256x128 ![] bcast_S_S256x128 zeroS)
    (broadcastInDim S50000x1 ![0] bcast_S50000_S50000x1_0 batch) h

/-- The read-out: the pooled features through a rectified linear layer and a linear layer. -/
def head (h : FVec Ideal S50000x128 .f32) (batch : IVec S50000 32) (hw1 : FVec Ideal S128x128 .f32) (hb1 : FVec Ideal S128 .f32)
    (hw2 : FVec Ideal S128x2 .f32) (hb2 : FVec Ideal S2 .f32) : FVec Ideal S256x2 .f32 :=
  addf
    (Host.dotGeneral dot_S256x128_S128x2_S256x2_1_0_0_1_n_n none
      (maximumf
        (addf (Host.dotGeneral dot_S256x128_S128x128_S256x128_1_0_0_1_n_n none (pool h batch) hw1)
          (broadcastInDim S256x128 ![0, 1] bcast_S1x128_S256x128_0_1 (broadcastInDim S1x128 ![1] bcast_S128_S1x128_1 hb1)))
        (broadcastInDim S256x128 ![] bcast_S_S256x128 zeroS))
      hw2)
    (broadcastInDim S256x2 ![0, 1] bcast_S1x2_S256x2_0_1 (broadcastInDim S1x2 ![1] bcast_S2_S1x2_1 hb2))

/-- The whole network, of the program's eighteen arguments in their order. -/
def forward (x : FVec Ideal S50000x64 .f32) (ei : IVec S2x600000 32) (eattr : FVec Ideal S600000x16 .f32)
    (batch : IVec S50000 32) (nw : FVec Ideal S64x128 .f32) (nb : FVec Ideal S128 .f32)
    (ew : FVec Ideal S16x128 .f32) (eb : FVec Ideal S128 .f32)
    (W1 : FVec Ideal S3x128x128 .f32) (B1 : FVec Ideal S3x128 .f32) (W2 : FVec Ideal S3x128x128 .f32) (B2 : FVec Ideal S3x128 .f32)
    (GA BE : FVec Ideal S3x128 .f32) (hw1 : FVec Ideal S128x128 .f32) (hb1 : FVec Ideal S128 .f32)
    (hw2 : FVec Ideal S128x2 .f32) (hb2 : FVec Ideal S2 .f32) : FVec Ideal S256x2 .f32 :=
  head
    (layer
      (layer
        (layer (enc0 x nw nb) (enc1 eattr ew eb) (srcIdx ei) (dstIdx ei)
          (mat0 W1) (vec0 B1) (mat0 W2) (vec0 B2) (vec0 GA) (vec0 BE))
        (enc1 eattr ew eb) (srcIdx ei) (dstIdx ei)
        (mat1 W1) (vec1 B1) (mat1 W2) (vec1 B2) (vec1 GA) (vec1 BE))
      (enc1 eattr ew eb) (srcIdx ei) (dstIdx ei)
      (mat2 W1) (vec2 B1) (mat2 W2) (vec2 B2) (vec2 GA) (vec2 BE))
    batch hw1 hb1 hw2 hb2

end Cert.RefSpec

end
-- ==== Proof.BridgePoint.lean ====
/-
  The kernel's regions against the reference's stages, entry by entry.  A region's output, read at row n and column j,
  is a finite sum of products plus a bias (the encoders and the perceptron) or a pointwise expression (the
  normalisation); the reference's stage is the host's matrix product plus a broadcast bias, or the same pointwise
  expression through broadcasts.  At the ideal instance the two are the same extended real at every entry.
-/
import proofs.«157653_j15152644620445_2_alg».proof.Proof.RefSpec
import proofs.«157653_j15152644620445_2_alg».proof.Proof.KSpec
import proofs.«157653_j15152644620445_2_alg».proof.Proof.LibTileMatmul
import Idealize.ShloMosaic.Lib.Pipeline.Value
import Idealize.ShloMosaic.Lib.ValueLayout
import Idealize.ShloMosaic.Lib.ValueIdx

noncomputable section

open scoped BigOperators

namespace Cert.Bridge

open Idealize.ShloMosaic Idealize.ShloMosaic.ValueIdx

/-- A vector laid along every row, read at (n, j), is the vector's entry j. -/
theorem rowN_apply (v : FVec Ideal ⟨1, ![128]⟩ .f32) (n : Fin 50000) (j : Fin 128) :
    Cert.RefSpec.rowN v (ix2 n j) = v (ix1 j) := by
  unfold Cert.RefSpec.rowN
  rw [broadcastInDim_apply _ _ _ _ (ix2 (0 : Fin 1) j) (fun a => by match a with | ⟨0, _⟩ => rfl | ⟨1, _⟩ => rfl),
      broadcastInDim_apply _ _ _ _ (ix1 j) (fun a => by match a with | ⟨0, _⟩ => rfl)]

/-- The rectifier at an entry. -/
theorem relu_apply (x : FVec Ideal ⟨2, ![50000, 128]⟩ .f32) (i : (⟨2, ![50000, 128]⟩ : Shape).Idx) :
    Cert.RefSpec.relu x i = max (x i) 0 := by
  show max (x i) (Ideal.ofBits .f32 0x00000000#32) = _
  rw [Ideal.ofBits_zero_f32]

/-- The normalisation region's closed form is the reference's normalise-scale-shift-rectify stage. -/
theorem bn_eq (z : FVec Ideal ⟨2, ![50000, 128]⟩ .f32) (mean inv ga be : FVec Ideal ⟨1, ![128]⟩ .f32)
    (h : (⟨1, ![128]⟩ : Shape).ShapeCasts ⟨2, ![1, 128]⟩) :
    Cert.KSpec.bnG z (shapeCast ⟨2, ![1, 128]⟩ mean h) (shapeCast ⟨2, ![1, 128]⟩ inv h) (shapeCast ⟨2, ![1, 128]⟩ ga h)
        (shapeCast ⟨2, ![1, 128]⟩ be h)
      = Cert.RefSpec.bnWith z mean inv ga be := by
  funext i
  obtain ⟨n, j, rfl⟩ : ∃ (n : Fin 50000) (j : Fin 128), i = ix2 n j := ⟨i 0, i 1, eq_ix2 i⟩
  unfold Cert.RefSpec.bnWith
  rw [relu_apply]
  show max (shapeCast ⟨2, ![1, 128]⟩ ga h (ix2 0 j) * (z (ix2 n j) - shapeCast ⟨2, ![1, 128]⟩ mean h (ix2 0 j))
        * shapeCast ⟨2, ![1, 128]⟩ inv h (ix2 0 j) + shapeCast ⟨2, ![1, 128]⟩ be h (ix2 0 j)) 0
      = max (Cert.RefSpec.rowN ga (ix2 n j) * (z (ix2 n j) - Cert.RefSpec.rowN mean (ix2 n j)) * Cert.RefSpec.rowN inv (ix2 n j)
        + Cert.RefSpec.rowN be (ix2 n j)) 0
  simp only [rowN_apply, shapeCast_a_1a_apply]

end Cert.Bridge

end
-- ==== Proof.RealVals.lean ====
/-
  Real-valued extended reals.  At the ideal instance a float is an extended real; the algebra that joins the
  two programs (a mean of squared deviations against a mean of squares minus a squared mean) holds only where every
  entry is a real number, so the proof carries "every entry is real" through each stage.  This module has the
  scalar closure facts (sums, products, maxima, quotients by a nonzero real, the reciprocal square root of a
  positive real) and the same for whole arrays under the host operations the two programs apply.
-/
import Idealize.ShloMosaic.PureOps.Ideal.Laws

noncomputable section

open scoped BigOperators

namespace Cert.RealVals

open Idealize.ShloMosaic

/-- An extended real that is a real number. -/
def IsReal (x : EReal) : Prop := ∃ r : ℝ, x = (r : EReal)

/-- Every entry of a family is a real number. -/
def AllReal {ι : Type} (v : ι → EReal) : Prop := ∀ i, IsReal (v i)

theorem isReal_coe (r : ℝ) : IsReal (r : EReal) := ⟨r, rfl⟩
theorem isReal_zero : IsReal 0 := ⟨0, by simp⟩
theorem isReal_one : IsReal 1 := ⟨1, by simp⟩

theorem IsReal.add {x y : EReal} (hx : IsReal x) (hy : IsReal y) : IsReal (x + y) := by
  obtain ⟨a, rfl⟩ := hx; obtain ⟨b, rfl⟩ := hy; exact ⟨a + b, by rw [EReal.coe_add]⟩

theorem IsReal.neg {x : EReal} (hx : IsReal x) : IsReal (-x) := by
  obtain ⟨a, rfl⟩ := hx; exact ⟨-a, by rw [EReal.coe_neg]⟩

theorem IsReal.sub {x y : EReal} (hx : IsReal x) (hy : IsReal y) : IsReal (x - y) := by
  obtain ⟨a, rfl⟩ := hx; obtain ⟨b, rfl⟩ := hy; exact ⟨a - b, by rw [EReal.coe_sub]⟩

theorem IsReal.mul {x y : EReal} (hx : IsReal x) (hy : IsReal y) : IsReal (x * y) := by
  obtain ⟨a, rfl⟩ := hx; obtain ⟨b, rfl⟩ := hy; exact ⟨a * b, by rw [EReal.coe_mul]⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The sum of the coercions is the coercion of the sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of a real number by a nonzero real number is a real number. -/
theorem IsReal.div_coe {x : EReal} (hx : IsReal x) {y : ℝ} (hy : y ≠ 0) : IsReal (Ideal.div x (y : EReal)) := by
  obtain ⟨a, rfl⟩ := hx
  rw [Ideal.div_coe hy]; exact (isReal_coe a).mul (isReal_coe _)

theorem div_coe_coe (a : ℝ) {y : ℝ} (hy : y ≠ 0) : Ideal.div (a : EReal) (y : EReal) = ((a / y : ℝ) : EReal) := by
  rw [Ideal.div_coe hy, ← EReal.coe_mul]; congr 1; field_simp

/-- The reciprocal square root of a positive real number is a real number. -/
theorem isReal_rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-! ## Whole arrays -/

variable {s t : Shape}

theorem allReal_addf {φ : FTy} (x y : FVec Ideal s φ) (hx : AllReal x) (hy : AllReal y) : AllReal (addf x y) :=
  fun i => (hx i).add (hy i)
theorem allReal_subf {φ : FTy} (x y : FVec Ideal s φ) (hx : AllReal x) (hy : AllReal y) : AllReal (subf x y) :=
  fun i => (hx i).sub (hy i)
theorem allReal_mulf {φ : FTy} (x y : FVec Ideal s φ) (hx : AllReal x) (hy : AllReal y) : AllReal (mulf x y) :=
  fun i => (hx i).mul (hy i)
theorem allReal_maximumf {φ : FTy} (x y : FVec Ideal s φ) (hx : AllReal x) (hy : AllReal y) : AllReal (maximumf x y) :=
  fun i => (hx i).max (hy i)

/-- A gather's entries are entries of its operand. -/
theorem allReal_gather {si : Shape} {w : Nat} (d : GatherDims s si t) (x : s.Idx → EReal) (idx : IVec si w)
    (hx : AllReal x) : AllReal (Host.gather d x idx) := fun j => hx _

/-- A scatter-add's entry is the operand's entry plus a finite sum of update entries. -/
theorem allReal_scatterAdd {si u : Shape} {w : Nat} {φ : FTy} (d : ScatterDims s si u) (x : FVec Ideal s φ)
    (idx : IVec si w) (upd : FVec Ideal u φ) (hx : AllReal x) (hu : AllReal upd) :
    AllReal (Host.scatterAdd (F := Ideal) d x idx upd) :=
  fun i => (hx i).add (isReal_sum _ _ fun j _ => hu j)

/-- A host sum's entry is the initial value plus a finite sum of operand entries. -/
theorem allReal_reduceAdd {axes : List (Fin s.rank)} {u : Shape} {φ : FTy} (x : FVec Ideal s φ) (init : u.Idx → Ideal φ)
    (h : s.ReducesTo axes t) (hu : 0 < u.numel) (hx : AllReal x) (hi : AllReal init) :
    AllReal (Host.reduceAdd (F := Ideal) x init h hu) :=
  fun _ => (hi _).add (isReal_sum _ _ fun i _ => hx i)

/-- A matrix product's entry is a finite sum of products of entries. -/
theorem allReal_dotGeneral {sl sr so : Shape} {φ₁ φ₂ : FTy} (d : DotDims sl sr so) (prec : Option ContractPrecision)
    (x : FVec Ideal sl φ₁) (y : FVec Ideal sr φ₂) (hx : AllReal x) (hy : AllReal y) :
    AllReal (Host.dotGeneral (F := Ideal) d prec x y) := by
  intro j
  show IsReal (FloatOps.dotGeneral d prec _ x y j)
  rw [Ideal.dotGeneral_apply]
  exact isReal_sum _ _ fun k _ => (hx _).mul (hy _)

end Cert.RealVals

end
-- ==== Proof.VarMath.lean ====
/-
  The one law that joins the two programs' batch statistics.  Over real numbers z_0 … z_{N-1} with N > 0 and
  mean μ = (Σ z_i)/N, the mean of the squared deviations equals the mean of the squares minus the squared mean:
      (Σ (z_i - μ)²)/N = (Σ z_i²)/N - μ².
  It uses distributivity and cancellation, so it is stated over ℝ; the extended-real forms below carry it to
  families whose entries are all real.
-/
import proofs.«157653_j15152644620445_2_alg».proof.Proof.RealVals

noncomputable section

open scoped BigOperators

namespace Cert.VarMath

open Idealize.ShloMosaic Cert.RealVals

/-- Over the reals: mean of squares minus squared mean is the mean of squared deviations. -/
theorem var_real {ι : Type} [Fintype ι] (z : ι → ℝ) (n : ℝ) (hn : n ≠ 0) (hcard : (Fintype.card ι : ℝ) = n) :
    (∑ i, z i * z i) / n - (∑ i, z i) / n * ((∑ i, z i) / n)
      = (∑ i, (z i - (∑ j, z j) / n) * (z i - (∑ j, z j) / n)) / n := by
  set S := ∑ j, z j with hS
  have h : ∑ i, (z i - S / n) * (z i - S / n) = (∑ i, z i * z i) - 2 * (S / n) * S + n * ((S / n) * (S / n)) := by
    have e : ∀ i, (z i - S / n) * (z i - S / n) = z i * z i - 2 * (S / n) * z i + (S / n) * (S / n) := fun i => by ring
    simp_rw [e]
    rw [Finset.sum_add_distrib, Finset.sum_sub_distrib, ← Finset.mul_sum, Finset.sum_const, Finset.card_univ,
      nsmul_eq_mul, hcard]
  rw [h]; field_simp; ring

/-- The same over extended reals whose entries are all real: Z i = z i. -/
theorem var_ereal {ι : Type} [Fintype ι] (Z : ι → EReal) (hZ : AllReal Z) (n : ℝ) (hn : n ≠ 0)
    (hcard : (Fintype.card ι : ℝ) = n) :
    Ideal.div (0 + ∑ i, Z i * Z i) (n : EReal)
        - Ideal.div (0 + ∑ i, Z i) (n : EReal) * Ideal.div (0 + ∑ i, Z i) (n : EReal)
      = Ideal.div (0 + ∑ i, (Z i - Ideal.div (0 + ∑ j, Z j) (n : EReal)) * (Z i - Ideal.div (0 + ∑ j, Z j) (n : EReal)))
          (n : EReal) := by
  choose z hz using hZ
  have hZ' : Z = fun i => ((z i : ℝ) : EReal) := funext hz
  subst hZ'
  simp only [zero_add, ← EReal.coe_mul, coe_sum, div_coe_coe _ hn, ← EReal.coe_sub]
  rw [var_real z n hn hcard]

/-- The mean of squared deviations of real numbers is a nonnegative real number. -/
theorem var_nonneg {ι : Type} [Fintype ι] (z : ι → ℝ) (n : ℝ) (hn : 0 < n) (μ : ℝ) :
    0 ≤ (∑ i, (z i - μ) * (z i - μ)) / n :=
  div_nonneg (Finset.sum_nonneg fun i _ => mul_self_nonneg _) hn.le

end Cert.VarMath

end
-- ==== Proof.Consts.lean ====
/-
  The float constants the two programs spell, as the extended reals their bit patterns denote at the ideal instance:
  the node count 50000.0 that both divide by, and the variance floor 9.99999974e-6, a positive real.
-/
import Idealize.ShloMosaic.PureOps.Ideal

noncomputable section

namespace Cert.Consts

open Idealize.ShloMosaic

/-- The word 0x47435000 denotes the real number 50000. -/
theorem ofBits_50000 : Ideal.ofBits .f32 0x47435000#32 = ((50000 : ℝ) : EReal) := by
  simp [Ideal.ofBits, Ideal.ieee, -EReal.coe_mul]; norm_num

/-- The word 0x3727C5AC (the single nearest 1e-5) denotes a positive real number. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

end Cert.Consts

end
-- ==== Proof.LibBlockSum.lean ====
/-
  Sums over rows cut into equal blocks.

  A table of B·R rows is processed block by block, R rows at a time, and a running total is kept: it starts from
  zero, takes the first block's sum, and then one more block's sum per step.  The two lemmas say that the sum over all
  rows is the sum over the blocks of the sums inside each block, and that the running total after step n is the sum of
  the blocks 0, …, n.  Both hold in any commutative additive monoid, so at infinite values too.
-/
import Idealize.ShloMosaic.PureOps.Ideal

open scoped BigOperators

namespace Cert.LibBlockSum

/-- Row r of block t, in a table of B blocks of R rows, is a row of the table: t·R + r < B·R. -/
theorem block_lt {B R : ℕ} (t : Fin B) (r : Fin R) : t.val * R + r.val < B * R :=
  calc t.val * R + r.val < t.val * R + R := Nat.add_lt_add_left r.isLt _
    _ = (t.val + 1) * R := (Nat.succ_mul _ _).symm
    _ ≤ B * R := Nat.mul_le_mul_right _ t.isLt

/-- A sum over B·R rows is the sum over the B blocks of the sums over the R rows inside each block, row r of block t
    being row t·R + r. -/
theorem sum_blocks {M : Type*} [AddCommMonoid M] (B R : ℕ) (f : Fin (B * R) → M) :
    ∑ i : Fin (B * R), f i = ∑ t : Fin B, ∑ r : Fin R, f ⟨t.val * R + r.val, block_lt t r⟩ := by
  rw [← Equiv.sum_comp finProdFinEquiv f, Fintype.sum_prod_type]
  refine Finset.sum_congr rfl fun t _ => Finset.sum_congr rfl fun r _ => congrArg f (Fin.ext ?_)
  show r.val + R * t.val = t.val * R + r.val
  rw [Nat.mul_comm, Nat.add_comm]

/-- The same for a function of the row's number. -/
theorem sum_blocks_nat {M : Type*} [AddCommMonoid M] (B R : ℕ) (f : ℕ → M) :
    ∑ i : Fin (B * R), f i.val = ∑ t : Fin B, ∑ r : Fin R, f (t.val * R + r.val) :=
  sum_blocks B R fun i => f i.val

/-- A running total that starts from zero plus block 0's sum and adds block k+1's sum at step k+1 holds, after step n,
    the sum of the blocks 0, …, n. -/
theorem acc_blocks {M : Type*} [AddCommMonoid M] (g : ℕ → M) :
    ∀ n, (Nat.rec (0 + g 0) (fun k acc => acc + g (k + 1)) n : M) = ∑ t ∈ Finset.range (n + 1), g t := by
  intro n
  induction n with
  | zero =>
    rw [Finset.sum_range_one]
    exact zero_add (g 0)
  | succ n ih =>
    show (Nat.rec (0 + g 0) (fun k acc => acc + g (k + 1)) n : M) + g (n + 1) = _
    rw [ih, Finset.sum_range_succ _ (n + 1)]

/-- A sum over the first B naturals is the sum over the B-element index type. -/
theorem sum_range_eq_fin {M : Type*} [AddCommMonoid M] (g : ℕ → M) (B : ℕ) :
    ∑ t ∈ Finset.range B, g t = ∑ t : Fin B, g t.val :=
  (Fin.sum_univ_eq_sum_range g B).symm

/-- So for a table of B + 1 blocks of R rows, with the blocks' sums g t = ∑ r, f (t·R + r), the running total after
    the last step, step B, is the sum over all (B + 1)·R rows. -/
theorem acc_all_rows {M : Type*} [AddCommMonoid M] (B R : ℕ) (f : ℕ → M) :
    (Nat.rec (0 + ∑ r : Fin R, f (0 * R + r.val)) (fun k acc => acc + ∑ r : Fin R, f ((k + 1) * R + r.val)) B : M)
      = ∑ i : Fin ((B + 1) * R), f i.val := by
  rw [acc_blocks (fun t => ∑ r : Fin R, f (t * R + r.val)) B, sum_range_eq_fin, sum_blocks_nat]

end Cert.LibBlockSum
-- ==== Proof.BridgeStats.lean ====
/-
  The batch statistics.  The perceptron region leaves, per tile of 5000 rows, the tile's column sums of z and of z²
  in row 0 of an 8-row slab (a 0/1 mask zeroes rows 1 … 7); the host adds the slabs up and divides by 50000.  Summed
  over the ten tiles and the eight slab rows these are the column sums over all 50000 rows, so the kernel's mean is the
  reference's mean, and its "mean of squares minus squared mean" is the reference's "mean of squared deviations"
  wherever every entry of z is a real number.
-/
import proofs.«157653_j15152644620445_2_alg».proof.Proof.BridgePoint
import proofs.«157653_j15152644620445_2_alg».proof.Proof.KHost
import proofs.«157653_j15152644620445_2_alg».proof.Proof.VarMath
import proofs.«157653_j15152644620445_2_alg».proof.Proof.Consts
import proofs.«157653_j15152644620445_2_alg».proof.Proof.LibBlockSum

noncomputable section

open scoped BigOperators

namespace Cert.Bridge

open Idealize.ShloMosaic Idealize.ShloMosaic.ValueIdx Cert.RealVals

/-- A scalar laid over any shape reads the scalar everywhere. -/
theorem bcastS_apply {α : Type} {t : Shape} (h : (⟨0, ![]⟩ : Shape).BroadcastsInDim t (![] : Fin 0 → Fin t.rank))
    (c : (⟨0, ![]⟩ : Shape).Idx → α) (i : t.Idx) : broadcastInDim t ![] h c i = c ix0 :=
  broadcastInDim_apply _ _ _ _ ix0 (fun a => a.elim0)

/-- A column sum of a [50000, 128] array at column j: zero plus the sum over the rows. -/
theorem colSum_apply (z : FVec Ideal ⟨2, ![50000, 128]⟩ .f32) (j : Fin 128) :
    Cert.RefSpec.colSum z (ix1 j) = 0 + ∑ n : Fin 50000, z (ix2 n j) := by
  have hr : Shape.Reduces ⟨2, ![50000, 128]⟩ [0] ⟨1, ![128]⟩ := by decide
  show Ideal.hostReduceAdd Cert.ReferenceIdeal.Gen.reducesTo_S50000x128_S128_d0 z (Ideal.ofBits .f32 0x00000000#32) (ix1 j) = _
  rw [Ideal.hostReduceAdd_single _ hr, Ideal.ofBits_zero_f32]
  refine congrArg (0 + ·) (Finset.sum_congr rfl fun k _ => congrArg z ?_)
  funext a; apply Fin.ext
  match a with
  | ⟨0, _⟩ => rfl
  | ⟨1, _⟩ => rfl

/-- The host's sum of a [10, 8, 128] table over its first two axes, at column j. -/
theorem tileTotal_apply (S : FVec Ideal ⟨3, ![10, 8, 128]⟩ .f32) (j : Fin 128) :
    Host.reduceAdd (F := Ideal) S (constant (F := Ideal) ⟨0, ![]⟩ .f32 0x00000000#32)
        Cert.KernelIdeal.Gen.reducesTo_S10x8x128_S128_d0_1 Cert.KernelIdeal.Gen.h_S_ (ix1 j)
      = 0 + ∑ t : Fin 10, ∑ s : Fin 8, S (ix3 t s j) := by
  show Ideal.hostReduceAdd Cert.KernelIdeal.Gen.reducesTo_S10x8x128_S128_d0_1 S (Ideal.ofBits .f32 0x00000000#32) (ix1 j) = _
  unfold Ideal.hostReduceAdd
  rw [Ideal.ofBits_zero_f32]
  refine congrArg (0 + ·) ?_
  rw [← Finset.sum_product' (Finset.univ : Finset (Fin 10)) (Finset.univ : Finset (Fin 8)) (fun t s => S (ix3 t s j))]
  have key : ∀ i : (⟨3, ![10, 8, 128]⟩ : Shape).Idx,
      Cert.KernelIdeal.Gen.reducesTo_S10x8x128_S128_d0_1.drop i = ix1 j ↔ i 2 = j := fun i => by
    constructor
    · intro e
      have := congrArg (fun v => (v 0).val) e
      exact Fin.ext this
    · intro e
      funext b; apply Fin.ext
      match b with
      | ⟨0, _⟩ => exact congrArg Fin.val e
  refine Finset.sum_bij' (fun i _ => (i 0, i 1)) (fun p _ => ix3 p.1 p.2 j) ?_ ?_ ?_ ?_ ?_
  · intro i _; exact Finset.mem_product.2 ⟨Finset.mem_univ _, Finset.mem_univ _⟩
  · intro p _; exact Finset.mem_filter.2 ⟨Finset.mem_univ _, (key _).2 rfl⟩
  · intro i hi
    have e : i 2 = j := (key i).1 (Finset.mem_filter.1 hi).2
    funext d
    match d with
    | ⟨0, _⟩ => rfl
    | ⟨1, _⟩ => rfl
    | ⟨2, _⟩ => exact e.symm
  · intro p _; rfl
  · intro i hi
    have e : i 2 = j := (key i).1 (Finset.mem_filter.1 hi).2
    refine congrArg S ?_
    funext d
    match d with
    | ⟨0, _⟩ => rfl
    | ⟨1, _⟩ => rfl
    | ⟨2, _⟩ => exact e

/-- Only slab row 0 carries the tile's value. -/
theorem sum_mask8 (x : EReal) : ∑ s : Fin 8, x * Cert.KSpec.mask8 s = x := by
  simp [Fin.sum_univ_eight, Cert.KSpec.mask8]

/-- The ten tiles of 5000 rows are the 50000 rows. -/
theorem sum_tiles (g : Fin 50000 → EReal) :
    (∑ t : Fin 10, ∑ r : Fin 5000, g (Cert.KSpec.tileRow t r)) = ∑ n : Fin 50000, g n :=
  (Cert.LibBlockSum.sum_blocks 10 5000 (fun i : Fin (10 * 5000) => g (⟨i.val, i.isLt⟩ : Fin 50000))).symm

/-- The slabs of per-tile column sums add up to the column sums. -/
theorem tileSum_total (Z : FVec Ideal ⟨2, ![50000, 128]⟩ .f32) (j : Fin 128) :
    (∑ t : Fin 10, ∑ s : Fin 8, Cert.KSpec.tileSum Z (ix3 t s j)) = ∑ n : Fin 50000, Z (ix2 n j) := by
  have e : ∀ t : Fin 10, (∑ s : Fin 8, Cert.KSpec.tileSum Z (ix3 t s j))
      = ∑ r : Fin 5000, Z (ix2 (Cert.KSpec.tileRow t r) j) := fun t =>
    sum_mask8 (∑ r : Fin 5000, Z (ix2 (Cert.KSpec.tileRow t r) j))
  rw [Finset.sum_congr rfl fun t _ => e t]
  exact sum_tiles fun n => Z (ix2 n j)

/-- The slabs of per-tile column sums of squares add up to the column sums of squares. -/
theorem tileSumSq_total (Z : FVec Ideal ⟨2, ![50000, 128]⟩ .f32) (j : Fin 128) :
    (∑ t : Fin 10, ∑ s : Fin 8, Cert.KSpec.tileSumSq Z (ix3 t s j)) = ∑ n : Fin 50000, Z (ix2 n j) * Z (ix2 n j) := by
  have e : ∀ t : Fin 10, (∑ s : Fin 8, Cert.KSpec.tileSumSq Z (ix3 t s j))
      = ∑ r : Fin 5000, Z (ix2 (Cert.KSpec.tileRow t r) j) * Z (ix2 (Cert.KSpec.tileRow t r) j) := fun t =>
    sum_mask8 (∑ r : Fin 5000, Z (ix2 (Cert.KSpec.tileRow t r) j) * Z (ix2 (Cert.KSpec.tileRow t r) j))
  rw [Finset.sum_congr rfl fun t _ => e t]
  exact sum_tiles fun n => Z (ix2 n j) * Z (ix2 n j)

end Cert.Bridge

end
-- ==== Proof.BridgeVar.lean ====
/-
  The kernel's statistics are the reference's.  Read at column j, the reference's mean is (0 + Σ_n z(n,j)) / 50000 and
  its variance the mean of the squared deviations from it (its guard "50000 - 0 > 0" holds, so the not-a-number branch is
  never taken); the kernel's are the totals of the per-tile sums over 50000, and mean of squares minus squared mean.
  The totals are the column sums; the two variances agree where every entry of z is a real number, and then
  variance plus the stabiliser is a positive real, so its inverse square root is a real number.
-/
import proofs.«157653_j15152644620445_2_alg».proof.Proof.BridgeStats

noncomputable section

open scoped BigOperators

namespace Cert.Bridge

open Idealize.ShloMosaic Idealize.ShloMosaic.ValueIdx Cert.RealVals

/-- The reference's mean at column j. -/
theorem mean_apply (Z : FVec Ideal ⟨2, ![50000, 128]⟩ .f32) (j : Fin 128) :
    Cert.RefSpec.mean Z (ix1 j) = Ideal.div (0 + ∑ n : Fin 50000, Z (ix2 n j)) ((50000 : ℝ) : EReal) := by
  show Ideal.div (Cert.RefSpec.colSum Z (ix1 j)) (Ideal.ofBits .f32 0x47435000#32) = _
  rw [colSum_apply, Cert.Consts.ofBits_50000]

/-- The kernel's mean, from the per-tile sums, is the reference's mean. -/
theorem mean_eq (Z : FVec Ideal ⟨2, ![50000, 128]⟩ .f32) :
    Cert.KHost.meanOf (Cert.KSpec.tileSum Z) = Cert.RefSpec.mean Z := by
  funext i
  obtain ⟨j, rfl⟩ : ∃ j : Fin 128, i = ix1 j := ⟨i 0, eq_ix1 i⟩
  show Ideal.div (Host.reduceAdd (F := Ideal) (Cert.KSpec.tileSum Z) (constant (F := Ideal) ⟨0, ![]⟩ .f32 0x00000000#32)
        Cert.KernelIdeal.Gen.reducesTo_S10x8x128_S128_d0_1 Cert.KernelIdeal.Gen.h_S_ (ix1 j)) (Ideal.ofBits .f32 0x47435000#32)
      = Ideal.div (Cert.RefSpec.colSum Z (ix1 j)) (Ideal.ofBits .f32 0x47435000#32)
  rw [tileTotal_apply, colSum_apply, tileSum_total]

/-- A deviation from the column mean, at (n, j). -/
theorem centered_apply (Z : FVec Ideal ⟨2, ![50000, 128]⟩ .f32) (n : Fin 50000) (j : Fin 128) :
    Cert.RefSpec.centered Z (ix2 n j)
      = Z (ix2 n j) - Ideal.div (0 + ∑ m : Fin 50000, Z (ix2 m j)) ((50000 : ℝ) : EReal) := by
  unfold Cert.RefSpec.centered subf
  dsimp only
  rw [broadcastInDim_apply _ _ _ _ (ix2 (0 : Fin 1) j) (fun a => by match a with | ⟨0, _⟩ => rfl | ⟨1, _⟩ => rfl)]
  unfold Host.divf
  rw [broadcastInDim_apply _ _ _ _ (ix1 j) (fun a => by match a with | ⟨0, _⟩ => rfl), bcastS_apply, colSum_apply]
  show Z (ix2 n j) - Ideal.div (0 + ∑ m : Fin 50000, Z (ix2 m j)) (Ideal.ofBits .f32 0x47435000#32) = _
  rw [Cert.Consts.ofBits_50000]

/-- The variance's divisor, 50000 less the correction 0, is 50000. -/
theorem varDenom_eq : Cert.RefSpec.varDenom ix0 = ((50000 : ℝ) : EReal) := by
  show Ideal.ofBits .f32 0x47435000#32 - ((((0#32 : BitVec 32).toInt : ℤ) : ℝ) : EReal) = _
  rw [Cert.Consts.ofBits_50000]; simp

/-- The reference's variance at column j: the mean of the squared deviations. -/
theorem var_apply (Z : FVec Ideal ⟨2, ![50000, 128]⟩ .f32) (j : Fin 128) :
    Cert.RefSpec.var Z (ix1 j)
      = Ideal.div (0 + ∑ n : Fin 50000,
          (Z (ix2 n j) - Ideal.div (0 + ∑ m : Fin 50000, Z (ix2 m j)) ((50000 : ℝ) : EReal))
          * (Z (ix2 n j) - Ideal.div (0 + ∑ m : Fin 50000, Z (ix2 m j)) ((50000 : ℝ) : EReal))) ((50000 : ℝ) : EReal) := by
  have hg : Ideal.cmp .ogt (Cert.RefSpec.varDenom ix0) (Ideal.ofBits .f32 0x00000000#32) = 1#1 := by
    rw [varDenom_eq, Ideal.ofBits_zero_f32]
    show BitVec.ofBool (decide ((0 : EReal) < ((50000 : ℝ) : EReal))) = 1#1
    rw [decide_eq_true (by exact_mod_cast (by norm_num : (0 : ℝ) < 50000))]; rfl
  show Scalar.select (Ideal.cmp .ogt (Cert.RefSpec.varDenom ix0) (Ideal.ofBits .f32 0x00000000#32))
      (Ideal.div (Cert.RefSpec.colSum (mulf (Cert.RefSpec.centered Z) (Cert.RefSpec.centered Z)) (ix1 j)) (Cert.RefSpec.varDenom ix0))
      (Ideal.ofBits .f32 0x7FC00000#32) = _
  rw [hg, varDenom_eq, colSum_apply]
  show Ideal.div (0 + ∑ n : Fin 50000, Cert.RefSpec.centered Z (ix2 n j) * Cert.RefSpec.centered Z (ix2 n j)) _ = _
  simp only [centered_apply]

/-- The kernel's inverse deviation is the reference's, where every entry of z is a real number. -/
theorem inv_eq (Z : FVec Ideal ⟨2, ![50000, 128]⟩ .f32) (hZ : AllReal Z) :
    Cert.KHost.invOf (Cert.KSpec.tileSum Z) (Cert.KSpec.tileSumSq Z)
      = Host.rsqrt (F := Ideal) (addf (Cert.RefSpec.var Z)
          (broadcastInDim (⟨1, ![128]⟩ : Shape) ![] Cert.ReferenceIdeal.Gen.bcast_S_S128 Cert.RefSpec.epsS)) := by
  funext i
  obtain ⟨j, rfl⟩ : ∃ j : Fin 128, i = ix1 j := ⟨i 0, eq_ix1 i⟩
  show Ideal.rsqrt ((Ideal.div (Host.reduceAdd (F := Ideal) (Cert.KSpec.tileSumSq Z) (constant (F := Ideal) ⟨0, ![]⟩ .f32 0x00000000#32)
          Cert.KernelIdeal.Gen.reducesTo_S10x8x128_S128_d0_1 Cert.KernelIdeal.Gen.h_S_ (ix1 j)) (Ideal.ofBits .f32 0x47435000#32)
        - Cert.KHost.meanOf (Cert.KSpec.tileSum Z) (ix1 j) * Cert.KHost.meanOf (Cert.KSpec.tileSum Z) (ix1 j))
        + Ideal.ofBits .f32 0x3727C5AC#32)
      = Ideal.rsqrt (Cert.RefSpec.var Z (ix1 j) + Ideal.ofBits .f32 0x3727C5AC#32)
  rw [mean_eq, mean_apply, tileTotal_apply, tileSumSq_total, var_apply, Cert.Consts.ofBits_50000]
  rw [Cert.VarMath.var_ereal (fun n : Fin 50000 => Z (ix2 n j)) (fun n => hZ _) 50000 (by norm_num) (by simp)]

/-- Where every entry of z is real, the mean is real at every column. -/
theorem allReal_mean (Z : FVec Ideal ⟨2, ![50000, 128]⟩ .f32) (hZ : AllReal Z) : AllReal (Cert.RefSpec.mean Z) := by
  intro i
  obtain ⟨j, rfl⟩ : ∃ j : Fin 128, i = ix1 j := ⟨i 0, eq_ix1 i⟩
  rw [mean_apply]
  exact (isReal_zero.add (isReal_sum _ _ fun n _ => hZ _)).div_coe (by norm_num)

/-- Where every entry of z is real, variance plus the stabiliser is a positive real, so the inverse deviation is real. -/
theorem allReal_inv (Z : FVec Ideal ⟨2, ![50000, 128]⟩ .f32) (hZ : AllReal Z) :
    AllReal (Host.rsqrt (F := Ideal) (addf (Cert.RefSpec.var Z)
      (broadcastInDim (⟨1, ![128]⟩ : Shape) ![] Cert.ReferenceIdeal.Gen.bcast_S_S128 Cert.RefSpec.epsS))) := by
  intro i
  obtain ⟨j, rfl⟩ : ∃ j : Fin 128, i = ix1 j := ⟨i 0, eq_ix1 i⟩
  show IsReal (Ideal.rsqrt (Cert.RefSpec.var Z (ix1 j) + Ideal.ofBits .f32 0x3727C5AC#32))
  obtain ⟨e, he, hee⟩ := Cert.Consts.ofBits_eps
  rw [var_apply, hee]
  choose z hz using fun n : Fin 50000 => hZ (ix2 n j)
  simp only [hz, zero_add, coe_sum, div_coe_coe _ (by norm_num : (50000 : ℝ) ≠ 0), ← EReal.coe_sub, ← EReal.coe_mul,
    ← EReal.coe_add]
  exact isReal_rsqrt_pos (add_pos_of_nonneg_of_pos (Cert.VarMath.var_nonneg z 50000 (by norm_num) _) he)

end Cert.Bridge

end
-- ==== Proof.BridgeLin.lean ====
/-
  The matrix-product stages.  A region computes, on a tile of rows, the tile's product with the weights into a zero
  accumulator plus a bias row; read at (n, j) that is the sum over k of x(n,k)·w(k,j), plus b(j).  The reference's stage
  is the host's product of the whole arrays plus the bias laid along the rows: the same sum at every entry.
-/
import proofs.«157653_j15152644620445_2_alg».proof.Proof.BridgePoint

noncomputable section

open scoped BigOperators

namespace Cert.Bridge

open Idealize.ShloMosaic Idealize.ShloMosaic.ValueIdx Idealize.ShloMosaic.TileMatmul

/-- The 128-wide affine stage of the reference at an entry. -/
theorem lin_apply (x : FVec Ideal ⟨2, ![50000, 128]⟩ .f32) (w : FVec Ideal ⟨2, ![128, 128]⟩ .f32) (b : FVec Ideal ⟨1, ![128]⟩ .f32)
    (n : Fin 50000) (j : Fin 128) :
    Cert.RefSpec.lin x w b (ix2 n j) = (∑ k : Fin 128, x (ix2 n k) * w (ix2 k j)) + b (ix1 j) := by
  show Host.dotGeneral (F := Ideal) Cert.ReferenceIdeal.dot_S50000x128_S128x128_S50000x128_1_0_0_1_n_n none x w (ix2 n j)
      + Cert.RefSpec.rowN b (ix2 n j) = _
  rw [rowN_apply]
  exact congrArg (· + b (ix1 j))
    (dotGeneral_apply (Cert.ReferenceIdeal.dot_S50000x128_S128x128_S50000x128_1_0_0_1_n_n).wf none x w n j)

/-- The node encoder's region is the reference's node encoder. -/
theorem enc0_eq (x : FVec Ideal ⟨2, ![50000, 64]⟩ .f32) (w : FVec Ideal ⟨2, ![64, 128]⟩ .f32) (b : FVec Ideal ⟨1, ![128]⟩ .f32)
    (h : (⟨1, ![128]⟩ : Shape).ShapeCasts ⟨2, ![1, 128]⟩) :
    Cert.KSpec.linG0 x w (shapeCast ⟨2, ![1, 128]⟩ b h) = Cert.RefSpec.enc0 x w b := by
  funext i
  obtain ⟨n, j, rfl⟩ : ∃ (n : Fin 50000) (j : Fin 128), i = ix2 n j := ⟨i 0, i 1, eq_ix2 i⟩
  show (∑ k : Fin 64, x (ix2 n k) * w (ix2 k j)) + shapeCast ⟨2, ![1, 128]⟩ b h (ix2 0 j)
      = Host.dotGeneral (F := Ideal) Cert.ReferenceIdeal.dot_S50000x64_S64x128_S50000x128_1_0_0_1_n_n none x w (ix2 n j)
        + Cert.RefSpec.rowN b (ix2 n j)
  rw [rowN_apply, shapeCast_a_1a_apply]
  exact congrArg (· + b (ix1 j))
    (dotGeneral_apply (Cert.ReferenceIdeal.dot_S50000x64_S64x128_S50000x128_1_0_0_1_n_n).wf none x w n j).symm

/-- A vector laid along every one of the 600000 edge rows, read at (e, j). -/
theorem rowE_apply (v : FVec Ideal ⟨1, ![128]⟩ .f32) (e : Fin 600000) (j : Fin 128) :
    broadcastInDim (⟨2, ![600000, 128]⟩ : Shape) ![0, 1] Cert.ReferenceIdeal.Gen.bcast_S1x128_S600000x128_0_1
      (broadcastInDim (⟨2, ![1, 128]⟩ : Shape) ![1] Cert.ReferenceIdeal.Gen.bcast_S128_S1x128_1 v) (ix2 e j) = v (ix1 j) := by
  rw [broadcastInDim_apply _ _ _ _ (ix2 (0 : Fin 1) j) (fun a => by match a with | ⟨0, _⟩ => rfl | ⟨1, _⟩ => rfl),
      broadcastInDim_apply _ _ _ _ (ix1 j) (fun a => by match a with | ⟨0, _⟩ => rfl)]

/-- The edge encoder's region is the reference's edge encoder. -/
theorem enc1_eq (x : FVec Ideal ⟨2, ![600000, 16]⟩ .f32) (w : FVec Ideal ⟨2, ![16, 128]⟩ .f32) (b : FVec Ideal ⟨1, ![128]⟩ .f32)
    (h : (⟨1, ![128]⟩ : Shape).ShapeCasts ⟨2, ![1, 128]⟩) :
    Cert.KSpec.linG1 x w (shapeCast ⟨2, ![1, 128]⟩ b h) = Cert.RefSpec.enc1 x w b := by
  funext i
  obtain ⟨n, j, rfl⟩ : ∃ (n : Fin 600000) (j : Fin 128), i = ix2 n j := ⟨i 0, i 1, eq_ix2 i⟩
  show (∑ k : Fin 16, x (ix2 n k) * w (ix2 k j)) + shapeCast ⟨2, ![1, 128]⟩ b h (ix2 0 j)
      = Host.dotGeneral (F := Ideal) Cert.ReferenceIdeal.dot_S600000x16_S16x128_S600000x128_1_0_0_1_n_n none x w (ix2 n j)
        + broadcastInDim (⟨2, ![600000, 128]⟩ : Shape) ![0, 1] Cert.ReferenceIdeal.Gen.bcast_S1x128_S600000x128_0_1
            (broadcastInDim (⟨2, ![1, 128]⟩ : Shape) ![1] Cert.ReferenceIdeal.Gen.bcast_S128_S1x128_1 b) (ix2 n j)
  rw [rowE_apply, shapeCast_a_1a_apply]
  exact congrArg (· + b (ix1 j))
    (dotGeneral_apply (Cert.ReferenceIdeal.dot_S600000x16_S16x128_S600000x128_1_0_0_1_n_n).wf none x w n j).symm

/-- The perceptron region is the reference's perceptron: affine, rectify, affine. -/
theorem mlp_eq (hh a : FVec Ideal ⟨2, ![50000, 128]⟩ .f32) (w1 : FVec Ideal ⟨2, ![128, 128]⟩ .f32) (b1 : FVec Ideal ⟨1, ![128]⟩ .f32)
    (w2 : FVec Ideal ⟨2, ![128, 128]⟩ .f32) (b2 : FVec Ideal ⟨1, ![128]⟩ .f32)
    (h : (⟨1, ![128]⟩ : Shape).ShapeCasts ⟨2, ![1, 128]⟩) :
    Cert.KSpec.mlpZ hh a w1 (shapeCast ⟨2, ![1, 128]⟩ b1 h) w2 (shapeCast ⟨2, ![1, 128]⟩ b2 h) = Cert.RefSpec.mlp hh a w1 b1 w2 b2 := by
  funext i
  obtain ⟨n, j, rfl⟩ : ∃ (n : Fin 50000) (j : Fin 128), i = ix2 n j := ⟨i 0, i 1, eq_ix2 i⟩
  unfold Cert.RefSpec.mlp
  rw [lin_apply]
  show (∑ k : Fin 128, max ((∑ k' : Fin 128, (hh (ix2 n k') + a (ix2 n k')) * w1 (ix2 k' k)) + shapeCast ⟨2, ![1, 128]⟩ b1 h (ix2 0 k)) 0
        * w2 (ix2 k j)) + shapeCast ⟨2, ![1, 128]⟩ b2 h (ix2 0 j) = _
  rw [shapeCast_a_1a_apply]
  refine congrArg (· + b2 (ix1 j)) (Finset.sum_congr rfl fun k _ => ?_)
  rw [relu_apply, lin_apply, shapeCast_a_1a_apply]
  rfl

end Cert.Bridge

end
-- ==== Proof.BridgeLayer.lean ====
/-
  Every stage of the network maps arrays of real numbers to arrays of real numbers: the stages are finite sums of
  products, maxima, entries picked by an index, and the normalisation, whose inverse deviation is real because the
  variance of real numbers plus a positive stabiliser is positive.  And the kernel's host stages between its regions
  are, operation for operation, the reference's.
-/
import proofs.«157653_j15152644620445_2_alg».proof.Proof.BridgeVar
import proofs.«157653_j15152644620445_2_alg».proof.Proof.BridgeLin

noncomputable section

open scoped BigOperators

namespace Cert.Bridge

open Idealize.ShloMosaic Idealize.ShloMosaic.ValueIdx Cert.RealVals

/-! ## Layout operations pick entries -/

theorem allReal_broadcastInDim {s t : Shape} (dims : Fin s.rank → Fin t.rank) (h : s.BroadcastsInDim t dims)
    (x : s.Idx → EReal) (hx : AllReal x) : AllReal (broadcastInDim t dims h x) := fun _ => hx _

theorem allReal_shapeCast {s t : Shape} (x : s.Idx → EReal) (h : s.ShapeCasts t) (hx : AllReal x) :
    AllReal (shapeCast t x h) := fun _ => hx _

theorem allReal_slice {s t : Shape} (off : Fin s.rank → Nat) (x : s.Idx → EReal) (h : s.Slices off t) (hx : AllReal x) :
    AllReal (extractStridedSlice t off x h) := fun _ => hx _

/-- The zero splat. -/
theorem allReal_zeros {t : Shape} (h : (⟨0, ![]⟩ : Shape).BroadcastsInDim t (![] : Fin 0 → Fin t.rank)) :
    AllReal (broadcastInDim t ![] h Cert.RefSpec.zeroS) := fun _ => by
  show IsReal (Ideal.ofBits .f32 0x00000000#32)
  rw [Ideal.ofBits_zero_f32]; exact isReal_zero

/-! ## The stages -/

theorem allReal_rowN (v : FVec Ideal ⟨1, ![128]⟩ .f32) (hv : AllReal v) : AllReal (Cert.RefSpec.rowN v) :=
  allReal_broadcastInDim _ _ _ (allReal_broadcastInDim _ _ _ hv)

theorem allReal_enc0 (x : FVec Ideal ⟨2, ![50000, 64]⟩ .f32) (w : FVec Ideal ⟨2, ![64, 128]⟩ .f32) (b : FVec Ideal ⟨1, ![128]⟩ .f32)
    (hx : AllReal x) (hw : AllReal w) (hb : AllReal b) : AllReal (Cert.RefSpec.enc0 x w b) :=
  allReal_addf _ _ (allReal_dotGeneral _ _ _ _ hx hw) (allReal_rowN b hb)

theorem allReal_enc1 (x : FVec Ideal ⟨2, ![600000, 16]⟩ .f32) (w : FVec Ideal ⟨2, ![16, 128]⟩ .f32) (b : FVec Ideal ⟨1, ![128]⟩ .f32)
    (hx : AllReal x) (hw : AllReal w) (hb : AllReal b) : AllReal (Cert.RefSpec.enc1 x w b) :=
  allReal_addf _ _ (allReal_dotGeneral _ _ _ _ hx hw) (allReal_broadcastInDim _ _ _ (allReal_broadcastInDim _ _ _ hb))

theorem allReal_agg (h : FVec Ideal ⟨2, ![50000, 128]⟩ .f32) (ea : FVec Ideal ⟨2, ![600000, 128]⟩ .f32) (si di : IVec ⟨2, ![600000, 1]⟩ 32) (hh : AllReal h) (hea : AllReal ea) :
    AllReal (Cert.RefSpec.agg h ea si di) :=
  allReal_scatterAdd _ _ _ _ (allReal_zeros _)
    (allReal_maximumf _ _ (allReal_addf _ _ (allReal_gather _ _ _ hh) hea) (allReal_zeros _))

theorem allReal_lin (x : FVec Ideal ⟨2, ![50000, 128]⟩ .f32) (w : FVec Ideal ⟨2, ![128, 128]⟩ .f32) (b : FVec Ideal ⟨1, ![128]⟩ .f32) (hx : AllReal x) (hw : AllReal w) (hb : AllReal b) :
    AllReal (Cert.RefSpec.lin x w b) :=
  allReal_addf _ _ (allReal_dotGeneral _ _ _ _ hx hw) (allReal_rowN b hb)

theorem allReal_relu (x : FVec Ideal ⟨2, ![50000, 128]⟩ .f32) (hx : AllReal x) : AllReal (Cert.RefSpec.relu x) :=
  allReal_maximumf _ _ hx (allReal_zeros _)

theorem allReal_mlp (h a : FVec Ideal ⟨2, ![50000, 128]⟩ .f32) (w1 : FVec Ideal ⟨2, ![128, 128]⟩ .f32) (b1 : FVec Ideal ⟨1, ![128]⟩ .f32) (w2 : FVec Ideal ⟨2, ![128, 128]⟩ .f32) (b2 : FVec Ideal ⟨1, ![128]⟩ .f32)
    (hh : AllReal h) (ha : AllReal a) (hw1 : AllReal w1) (hb1 : AllReal b1) (hw2 : AllReal w2) (hb2 : AllReal b2) :
    AllReal (Cert.RefSpec.mlp h a w1 b1 w2 b2) :=
  allReal_lin _ _ _ (allReal_relu _ (allReal_lin _ _ _ (allReal_addf _ _ hh ha) hw1 hb1)) hw2 hb2

theorem allReal_bnWith (z : FVec Ideal ⟨2, ![50000, 128]⟩ .f32) (mean inv ga be : FVec Ideal ⟨1, ![128]⟩ .f32) (hz : AllReal z) (hm : AllReal mean) (hi : AllReal inv)
    (hg : AllReal ga) (hb : AllReal be) : AllReal (Cert.RefSpec.bnWith z mean inv ga be) :=
  allReal_relu _ (allReal_addf _ _ (allReal_mulf _ _ (allReal_mulf _ _ (allReal_rowN _ hg)
    (allReal_subf _ _ hz (allReal_rowN _ hm))) (allReal_rowN _ hi)) (allReal_rowN _ hb))

theorem allReal_layer (h : FVec Ideal ⟨2, ![50000, 128]⟩ .f32) (ea : FVec Ideal ⟨2, ![600000, 128]⟩ .f32) (si di : IVec ⟨2, ![600000, 1]⟩ 32) (w1 : FVec Ideal ⟨2, ![128, 128]⟩ .f32) (b1 : FVec Ideal ⟨1, ![128]⟩ .f32)
    (w2 : FVec Ideal ⟨2, ![128, 128]⟩ .f32) (b2 : FVec Ideal ⟨1, ![128]⟩ .f32) (ga be : FVec Ideal ⟨1, ![128]⟩ .f32) (hh : AllReal h) (hea : AllReal ea) (hw1 : AllReal w1)
    (hb1 : AllReal b1) (hw2 : AllReal w2) (hb2 : AllReal b2) (hg : AllReal ga) (hbe : AllReal be) :
    AllReal (Cert.RefSpec.layer h ea si di w1 b1 w2 b2 ga be) := by
  have hz := allReal_mlp h (Cert.RefSpec.agg h ea si di) w1 b1 w2 b2 hh (allReal_agg h ea si di hh hea) hw1 hb1 hw2 hb2
  exact allReal_bnWith _ _ _ _ _ hz (allReal_mean _ hz) (allReal_inv _ hz) hg hbe

theorem allReal_mat0 (W : FVec Ideal ⟨3, ![3, 128, 128]⟩ .f32) (hW : AllReal W) : AllReal (Cert.RefSpec.mat0 W) :=
  allReal_shapeCast _ _ (allReal_slice _ _ _ hW)
theorem allReal_mat1 (W : FVec Ideal ⟨3, ![3, 128, 128]⟩ .f32) (hW : AllReal W) : AllReal (Cert.RefSpec.mat1 W) :=
  allReal_shapeCast _ _ (allReal_slice _ _ _ hW)
theorem allReal_mat2 (W : FVec Ideal ⟨3, ![3, 128, 128]⟩ .f32) (hW : AllReal W) : AllReal (Cert.RefSpec.mat2 W) :=
  allReal_shapeCast _ _ (allReal_slice _ _ _ hW)
theorem allReal_vec0 (B : FVec Ideal ⟨2, ![3, 128]⟩ .f32) (hB : AllReal B) : AllReal (Cert.RefSpec.vec0 B) :=
  allReal_shapeCast _ _ (allReal_slice _ _ _ hB)
theorem allReal_vec1 (B : FVec Ideal ⟨2, ![3, 128]⟩ .f32) (hB : AllReal B) : AllReal (Cert.RefSpec.vec1 B) :=
  allReal_shapeCast _ _ (allReal_slice _ _ _ hB)
theorem allReal_vec2 (B : FVec Ideal ⟨2, ![3, 128]⟩ .f32) (hB : AllReal B) : AllReal (Cert.RefSpec.vec2 B) :=
  allReal_shapeCast _ _ (allReal_slice _ _ _ hB)

/-! ## The kernel's host stages are the reference's -/

theorem agg_eq (h : FVec Ideal ⟨2, ![50000, 128]⟩ .f32) (ea : FVec Ideal ⟨2, ![600000, 128]⟩ .f32) (ei : IVec ⟨2, ![2, 600000]⟩ 32) :
    Cert.KHost.agg h ea ei = Cert.RefSpec.agg h ea (Cert.RefSpec.srcIdx ei) (Cert.RefSpec.dstIdx ei) := rfl

theorem mat0_eq (W : FVec Ideal ⟨3, ![3, 128, 128]⟩ .f32) : Cert.KHost.mat0 W = Cert.RefSpec.mat0 W := rfl
theorem mat1_eq (W : FVec Ideal ⟨3, ![3, 128, 128]⟩ .f32) : Cert.KHost.mat1 W = Cert.RefSpec.mat1 W := rfl
theorem mat2_eq (W : FVec Ideal ⟨3, ![3, 128, 128]⟩ .f32) : Cert.KHost.mat2 W = Cert.RefSpec.mat2 W := rfl
theorem vec0_eq (B : FVec Ideal ⟨2, ![3, 128]⟩ .f32) : Cert.KHost.vec0 B = Cert.RefSpec.vec0 B := rfl
theorem vec1_eq (B : FVec Ideal ⟨2, ![3, 128]⟩ .f32) : Cert.KHost.vec1 B = Cert.RefSpec.vec1 B := rfl
theorem vec2_eq (B : FVec Ideal ⟨2, ![3, 128]⟩ .f32) : Cert.KHost.vec2 B = Cert.RefSpec.vec2 B := rfl

theorem head_eq (h : FVec Ideal ⟨2, ![50000, 128]⟩ .f32) (batch : IVec ⟨1, ![50000]⟩ 32) (hw1 : FVec Ideal ⟨2, ![128, 128]⟩ .f32) (hb1 : FVec Ideal ⟨1, ![128]⟩ .f32)
    (hw2 : FVec Ideal ⟨2, ![128, 2]⟩ .f32) (hb2 : FVec Ideal ⟨1, ![2]⟩ .f32) :
    Cert.KHost.head h batch hw1 hb1 hw2 hb2 = Cert.RefSpec.head h batch hw1 hb1 hw2 hb2 := rfl

/-! ## One layer -/

/-- One layer of the kernel — the perceptron region on the host's aggregate, the statistics from the per-tile
    sums, the normalisation region — is the reference's layer, where the layer's inputs are real. -/
theorem layer_step (h : FVec Ideal ⟨2, ![50000, 128]⟩ .f32) (ea : FVec Ideal ⟨2, ![600000, 128]⟩ .f32) (ei : IVec ⟨2, ![2, 600000]⟩ 32) (w1 : FVec Ideal ⟨2, ![128, 128]⟩ .f32) (b1 : FVec Ideal ⟨1, ![128]⟩ .f32)
    (w2 : FVec Ideal ⟨2, ![128, 128]⟩ .f32) (b2 : FVec Ideal ⟨1, ![128]⟩ .f32) (ga be : FVec Ideal ⟨1, ![128]⟩ .f32) (hh : AllReal h) (hea : AllReal ea) (hw1 : AllReal w1)
    (hb1 : AllReal b1) (hw2 : AllReal w2) (hb2 : AllReal b2) :
    Cert.KSpec.bnG (Cert.KSpec.mlpZ h (Cert.KHost.agg h ea ei) w1 (Cert.KHost.row b1) w2 (Cert.KHost.row b2))
        (Cert.KHost.row (Cert.KHost.meanOf (Cert.KSpec.tileSum
          (Cert.KSpec.mlpZ h (Cert.KHost.agg h ea ei) w1 (Cert.KHost.row b1) w2 (Cert.KHost.row b2)))))
        (Cert.KHost.row (Cert.KHost.invOf
          (Cert.KSpec.tileSum (Cert.KSpec.mlpZ h (Cert.KHost.agg h ea ei) w1 (Cert.KHost.row b1) w2 (Cert.KHost.row b2)))
          (Cert.KSpec.tileSumSq (Cert.KSpec.mlpZ h (Cert.KHost.agg h ea ei) w1 (Cert.KHost.row b1) w2 (Cert.KHost.row b2)))))
        (Cert.KHost.row ga) (Cert.KHost.row be)
      = Cert.RefSpec.layer h ea (Cert.RefSpec.srcIdx ei) (Cert.RefSpec.dstIdx ei) w1 b1 w2 b2 ga be := by
  have hZ : Cert.KSpec.mlpZ h (Cert.KHost.agg h ea ei) w1 (Cert.KHost.row b1) w2 (Cert.KHost.row b2)
      = Cert.RefSpec.mlp h (Cert.RefSpec.agg h ea (Cert.RefSpec.srcIdx ei) (Cert.RefSpec.dstIdx ei)) w1 b1 w2 b2 := by
    rw [agg_eq]; exact mlp_eq _ _ _ _ _ _ _
  rw [hZ, mean_eq, inv_eq _ (allReal_mlp _ _ _ _ _ _ hh (allReal_agg _ _ _ _ hh hea) hw1 hb1 hw2 hb2)]
  exact bn_eq _ _ _ _ _ _

end Cert.Bridge

end
-- ==== Proof.KMlpPay.lean ====
/-
  The payloads of the three dense regions, read at an index at the extended reals, over variable tiles.

  The dense part computes, on a tile of 5000 rows, (max ((h + a)·W1 + b1) 0)·W2 + b2; its column sums and the column
  sums of its squares are broadcast to an 8-row slab and multiplied by a mask that is 1 in row 0 and 0 elsewhere.
-/
import proofs.«157653_j15152644620445_2_alg».proof.Proof.Gen.KernelIdeal.Skeleton
import proofs.«157653_j15152644620445_2_alg».proof.Proof.KSpec
import proofs.«157653_j15152644620445_2_alg».proof.Proof.KCommon
import proofs.«157653_j15152644620445_2_alg».proof.Proof.LibTileMatmul
import Idealize.ShloMosaic.Lib.Pipeline.Value
import Idealize.ShloMosaic.Lib.ValueIdx
import Idealize.ShloMosaic.Lib.ValueLayout

noncomputable section

open scoped BigOperators

namespace Cert.KVal

open Cert.KernelIdeal Cert.KernelIdeal.Gen Idealize.ShloMosaic Idealize.ShloMosaic.ValueIdx

/-- An 8-row table stored as a one-slab block reads, at (u, s, q), the table's entry (s, q). -/
theorem slab_apply {α : Type} (v : S8x128.Idx → α) (h : S8x128.ShapeCasts S1x8x128) (u : Fin 1) (s : Fin 8) (q : Fin 128) :
    shapeCast S1x8x128 v h (ix3 u s q) = v (ix2 s q) :=
  shapeCast_apply v h _ _ (by
    have hu : u.val = 0 := by omega
    rw [Shape.rowMajor_val_two, Shape.rowMajor_val_three]
    show s.val * 128 + q.val = (u.val * 8 + s.val) * 128 + q.val
    rw [hu]; omega)

/-- The comparison of a row number below 8 with zero, widened to 32 bits. -/
theorem mask_bits : ∀ s : Fin 8, (IntOp.cmpi .eq (BitVec.ofNat 32 s.val) (0#32)).setWidth 32 = if s.val = 0 then 1#32 else 0#32 := by
  decide

/-! ## Region 2 -/

/-- The product of a 5000-row tile with a square table into the zero accumulator, at (p, q). -/
theorem mm2_apply (X : FVec Ideal S5000x128 .f32) (W : FVec Ideal S128x128 .f32) (p : Fin 5000) (q : Fin 128) :
    (matmul (F := Ideal) dot_S5000x128_S128x128_S5000x128_1_0_0_1_n_n none (truncf .bf16 X (by decide)) (truncf .bf16 W (by decide))
      (constant (F := Ideal) S5000x128 .f32 0x00000000#32) (ix2 p q) : EReal) = ∑ k : Fin 128, X (ix2 p k) * W (ix2 k q) :=
  TileMatmul.matmul_zero_apply _ none _ _ p q

/-- The dense part's tile at (p, q): two linear layers with a rectifier between them, on the sum of the two input tiles. -/
theorem k2_pay3_apply (x0 x1 : Vec Ideal S5000x128 .f32) (w1 : Vec Ideal S128x128 .f32) (b1 : Vec Ideal S1x128 .f32)
    (w2 : Vec Ideal S128x128 .f32) (b2 : Vec Ideal S1x128 .f32) (p : Fin 5000) (q : Fin 128) :
    k2_pay3 (F := Ideal) x0 x1 w1 b1 w2 b2 (ix2 p q)
      = (∑ k : Fin 128, max ((∑ k' : Fin 128, (x0 (ix2 p k') + x1 (ix2 p k')) * w1 (ix2 k' k)) + b1 (ix2 0 k)) 0
          * w2 (ix2 k q)) + b2 (ix2 0 q) := by
  unfold k2_pay3
  simp only [shapeCast_self]
  show (matmul (F := Ideal) dot_S5000x128_S128x128_S5000x128_1_0_0_1_n_n none
      (truncf .bf16 (maximumf (addf (matmul (F := Ideal) dot_S5000x128_S128x128_S5000x128_1_0_0_1_n_n none
          (truncf .bf16 (addf x0 x1) _) (truncf .bf16 w1 _) (constant (F := Ideal) S5000x128 .f32 0x00000000#32))
        (broadcastTo S5000x128 b1 _)) (broadcast S5000x128 (Ideal.ofBits .f32 0x00000000#32))) _)
      (truncf .bf16 w2 _) (constant (F := Ideal) S5000x128 .f32 0x00000000#32) (ix2 p q) : EReal)
    + broadcastTo S5000x128 b2 _ (ix2 p q) = _
  rw [bcastRow_apply]
  refine congrArg (· + b2 (ix2 0 q)) ?_
  refine (mm2_apply _ w2 p q).trans ?_
  refine Finset.sum_congr rfl fun k _ => congrArg (· * w2 (ix2 k q)) ?_
  show max ((matmul (F := Ideal) dot_S5000x128_S128x128_S5000x128_1_0_0_1_n_n none
          (truncf .bf16 (addf x0 x1) _) (truncf .bf16 w1 _) (constant (F := Ideal) S5000x128 .f32 0x00000000#32) (ix2 p k) : EReal)
        + broadcastTo S5000x128 b1 _ (ix2 p k)) (Ideal.ofBits .f32 0x00000000#32) = _
  rw [bcastRow_apply, Ideal.ofBits_zero_f32]
  exact congrArg (fun z => max (z + b1 (ix2 0 k)) 0) (mm2_apply (addf x0 x1) w1 p k)

/-- The mask: 1 in row 0 of the 8-row slab, 0 in the other rows. -/
theorem k2_pay5_apply (s : Fin 8) (q : Fin 128) : k2_pay5 (F := Ideal) (ix2 s q) = KSpec.mask8 s := by
  unfold k2_pay5
  show FloatOps.sitofp (F := Ideal) .f32 ((IntOp.cmpi .eq (iota .tc S8x128 32 [0] _ (ix2 s q)) (0#32)).setWidth 32) = _
  rw [iota_single_apply]
  show FloatOps.sitofp (F := Ideal) .f32 ((IntOp.cmpi .eq (BitVec.ofNat 32 s.val) (0#32)).setWidth 32) = _
  rw [mask_bits s]
  unfold KSpec.mask8
  split
  · show (((1#32 : BitVec 32).toInt : ℝ) : EReal) = 1
    rw [show (1#32 : BitVec 32).toInt = 1 from by decide]; simp
  · show (((0#32 : BitVec 32).toInt : ℝ) : EReal) = 0
    rw [show (0#32 : BitVec 32).toInt = 0 from by decide]; simp

/-- The column sums of the dense part's tile, repeated in the slab's 8 rows. -/
theorem k2_pay6_apply (x0 x1 : Vec Ideal S5000x128 .f32) (w1 : Vec Ideal S128x128 .f32) (b1 : Vec Ideal S1x128 .f32)
    (w2 : Vec Ideal S128x128 .f32) (b2 : Vec Ideal S1x128 .f32) (s : Fin 8) (q : Fin 128) :
    k2_pay6 (F := Ideal) x0 x1 w1 b1 w2 b2 (ix2 s q) = ∑ r : Fin 5000, k2_pay3 (F := Ideal) x0 x1 w1 b1 w2 b2 (ix2 r q) := by
  unfold k2_pay6
  simp only [shapeCast_self]
  refine (bcastRow_apply _ _ s q).trans ?_
  refine (shapeCast_a_1a_apply _ _ 0 q).trans ?_
  refine (Ideal.multiReduction_add_single _ _ _ _ _ (ix1 q)).trans ?_
  refine Finset.sum_congr rfl fun r _ => congrArg (k2_pay3 (F := Ideal) x0 x1 w1 b1 w2 b2) ?_
  funext a
  match a with
  | ⟨0, _⟩ => rfl
  | ⟨1, _⟩ => rfl

/-- The column sums of the squares of the dense part's tile, as a one-row table. -/
theorem k2_pay4_apply (x0 x1 : Vec Ideal S5000x128 .f32) (w1 : Vec Ideal S128x128 .f32) (b1 : Vec Ideal S1x128 .f32)
    (w2 : Vec Ideal S128x128 .f32) (b2 : Vec Ideal S1x128 .f32) (u : Fin 1) (q : Fin 128) :
    k2_pay4 (F := Ideal) x0 x1 w1 b1 w2 b2 (ix2 u q)
      = ∑ r : Fin 5000, k2_pay3 (F := Ideal) x0 x1 w1 b1 w2 b2 (ix2 r q) * k2_pay3 (F := Ideal) x0 x1 w1 b1 w2 b2 (ix2 r q) := by
  unfold k2_pay4
  refine (shapeCast_a_1a_apply _ _ u q).trans ?_
  refine (Ideal.multiReduction_add_single _ _ _ _ _ (ix1 q)).trans ?_
  refine Finset.sum_congr rfl fun r _ => ?_
  refine congrArg (fun j => k2_pay3 (F := Ideal) x0 x1 w1 b1 w2 b2 j * k2_pay3 (F := Ideal) x0 x1 w1 b1 w2 b2 j) ?_
  funext a
  match a with
  | ⟨0, _⟩ => rfl
  | ⟨1, _⟩ => rfl

/-- The slab of sums: the broadcast column sums times the mask. -/
theorem k2_pay1_apply (v35 v37 : FVec Ideal S8x128 .f32) (u : Fin 1) (s : Fin 8) (q : Fin 128) :
    k2_pay1 (F := Ideal) v35 v37 (ix3 u s q) = v37 (ix2 s q) * v35 (ix2 s q) := by
  unfold k2_pay1
  exact slab_apply (mulf v37 v35) _ u s q

/-- The slab of sums of squares: the broadcast one-row table times the mask. -/
theorem k2_pay2_apply (v30 : FVec Ideal S1x128 .f32) (v35 : FVec Ideal S8x128 .f32) (u : Fin 1) (s : Fin 8) (q : Fin 128) :
    k2_pay2 (F := Ideal) v30 v35 (ix3 u s q) = v30 (ix2 0 q) * v35 (ix2 s q) := by
  unfold k2_pay2
  simp only [shapeCast_self]
  refine (slab_apply _ _ u s q).trans ?_
  show broadcastTo S8x128 v30 _ (ix2 s q) * v35 (ix2 s q) = _
  rw [bcastRow_apply]

/-- A tile of the dense part against the whole tables: where row (y 0) of each input tile is row (i 0) of its table, the
    columns agree, and the weights and bias rows are the tables', the tile's result at y is the whole tables' at i. -/
theorem mlp_tile2 (H A : FVec Ideal S50000x128 .f32) (W1 : FVec Ideal S128x128 .f32) (B1 : FVec Ideal S1x128 .f32)
    (W2 : FVec Ideal S128x128 .f32) (B2 : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32) (y : S5000x128.Idx) (i : S50000x128.Idx)
    (h0 : ∀ k : Fin 128, x0 (ix2 (y 0) k) = H (ix2 (i 0) k)) (h1 : ∀ k : Fin 128, x1 (ix2 (y 0) k) = A (ix2 (i 0) k))
    (hi : (i 1).val = (y 1).val) (e2 : x2 = W1) (e3 : x3 = B1) (e4 : x4 = W2) (e5 : x5 = B2) :
    k2_pay3 (F := Ideal) x0 x1 x2 x3 x4 x5 y = KSpec.mlpZ H A W1 B1 W2 B2 i := by
  subst e2 e3 e4 e5
  obtain ⟨p, q, rfl⟩ : ∃ (p : Fin 5000) (q : Fin 128), y = ix2 p q := ⟨y 0, y 1, eq_ix2 y⟩
  have hq : i 1 = q := Fin.ext hi
  have h0' : ∀ k : Fin 128, x0 (ix2 p k) = H (ix2 (i 0) k) := h0
  have h1' : ∀ k : Fin 128, x1 (ix2 p k) = A (ix2 (i 0) k) := h1
  rw [k2_pay3_apply]
  unfold KSpec.mlpZ
  rw [hq]
  refine congrArg (· + x5 (ix2 0 q)) (Finset.sum_congr rfl fun k _ => congrArg (· * x4 (ix2 k q)) ?_)
  exact congrArg (fun z => max (z + x3 (ix2 0 k)) 0) (Finset.sum_congr rfl fun k' _ => by rw [h0' k', h1' k'])

/-- The slab of column sums of a tile against the whole tables: where the input tiles are rows 5000·(i 0) … of their
    tables, the slab's entry j is the whole tables' per-tile column sum at i. -/
theorem mlpS_tile2 (H A : FVec Ideal S50000x128 .f32) (W1 : FVec Ideal S128x128 .f32) (B1 : FVec Ideal S1x128 .f32)
    (W2 : FVec Ideal S128x128 .f32) (B2 : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32) (j : S1x8x128.Idx) (i : S10x8x128.Idx)
    (h0 : ∀ (r : Fin 5000) (k : Fin 128), x0 (ix2 r k) = H (ix2 (KSpec.tileRow (i 0) r) k))
    (h1 : ∀ (r : Fin 5000) (k : Fin 128), x1 (ix2 r k) = A (ix2 (KSpec.tileRow (i 0) r) k))
    (hi1 : (i 1).val = (j 1).val) (hi2 : (i 2).val = (j 2).val)
    (e2 : x2 = W1) (e3 : x3 = B1) (e4 : x4 = W2) (e5 : x5 = B2) :
    k2_pay1 (F := Ideal) (k2_pay5 (F := Ideal)) (k2_pay6 (F := Ideal) x0 x1 x2 x3 x4 x5) j
      = KSpec.tileSum (KSpec.mlpZ H A W1 B1 W2 B2) i := by
  obtain ⟨u, s, q, rfl⟩ : ∃ (u : Fin 1) (s : Fin 8) (q : Fin 128), j = ix3 u s q := ⟨j 0, j 1, j 2, eq_ix3 j⟩
  have hs : i 1 = s := Fin.ext hi1
  have hq : i 2 = q := Fin.ext hi2
  rw [k2_pay1_apply, k2_pay6_apply, k2_pay5_apply]
  unfold KSpec.tileSum
  rw [hs, hq]
  refine congrArg (· * KSpec.mask8 s) (Finset.sum_congr rfl fun r _ => ?_)
  exact mlp_tile2 H A W1 B1 W2 B2 x0 x1 x2 x3 x4 x5 (ix2 r q) (ix2 (KSpec.tileRow (i 0) r) q)
    (fun k => h0 r k) (fun k => h1 r k) rfl e2 e3 e4 e5

/-- The slab of column sums of squares, likewise. -/
theorem mlpQ_tile2 (H A : FVec Ideal S50000x128 .f32) (W1 : FVec Ideal S128x128 .f32) (B1 : FVec Ideal S1x128 .f32)
    (W2 : FVec Ideal S128x128 .f32) (B2 : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32) (j : S1x8x128.Idx) (i : S10x8x128.Idx)
    (h0 : ∀ (r : Fin 5000) (k : Fin 128), x0 (ix2 r k) = H (ix2 (KSpec.tileRow (i 0) r) k))
    (h1 : ∀ (r : Fin 5000) (k : Fin 128), x1 (ix2 r k) = A (ix2 (KSpec.tileRow (i 0) r) k))
    (hi1 : (i 1).val = (j 1).val) (hi2 : (i 2).val = (j 2).val)
    (e2 : x2 = W1) (e3 : x3 = B1) (e4 : x4 = W2) (e5 : x5 = B2) :
    k2_pay2 (F := Ideal) (k2_pay4 (F := Ideal) x0 x1 x2 x3 x4 x5) (k2_pay5 (F := Ideal)) j
      = KSpec.tileSumSq (KSpec.mlpZ H A W1 B1 W2 B2) i := by
  obtain ⟨u, s, q, rfl⟩ : ∃ (u : Fin 1) (s : Fin 8) (q : Fin 128), j = ix3 u s q := ⟨j 0, j 1, j 2, eq_ix3 j⟩
  have hs : i 1 = s := Fin.ext hi1
  have hq : i 2 = q := Fin.ext hi2
  rw [k2_pay2_apply, k2_pay4_apply, k2_pay5_apply]
  unfold KSpec.tileSumSq
  rw [hs, hq]
  refine congrArg (· * KSpec.mask8 s) (Finset.sum_congr rfl fun r _ => ?_)
  have e := mlp_tile2 H A W1 B1 W2 B2 x0 x1 x2 x3 x4 x5 (ix2 r q) (ix2 (KSpec.tileRow (i 0) r) q)
    (fun k => h0 r k) (fun k => h1 r k) rfl e2 e3 e4 e5
  rw [e]

/-! ## Region 4 -/

/-- The product of a 5000-row tile with a square table into the zero accumulator, at (p, q). -/
theorem mm4_apply (X : FVec Ideal S5000x128 .f32) (W : FVec Ideal S128x128 .f32) (p : Fin 5000) (q : Fin 128) :
    (matmul (F := Ideal) dot_S5000x128_S128x128_S5000x128_1_0_0_1_n_n none (truncf .bf16 X (by decide)) (truncf .bf16 W (by decide))
      (constant (F := Ideal) S5000x128 .f32 0x00000000#32) (ix2 p q) : EReal) = ∑ k : Fin 128, X (ix2 p k) * W (ix2 k q) :=
  TileMatmul.matmul_zero_apply _ none _ _ p q

/-- The dense part's tile at (p, q): two linear layers with a rectifier between them, on the sum of the two input tiles. -/
theorem k4_pay3_apply (x0 x1 : Vec Ideal S5000x128 .f32) (w1 : Vec Ideal S128x128 .f32) (b1 : Vec Ideal S1x128 .f32)
    (w2 : Vec Ideal S128x128 .f32) (b2 : Vec Ideal S1x128 .f32) (p : Fin 5000) (q : Fin 128) :
    k4_pay3 (F := Ideal) x0 x1 w1 b1 w2 b2 (ix2 p q)
      = (∑ k : Fin 128, max ((∑ k' : Fin 128, (x0 (ix2 p k') + x1 (ix2 p k')) * w1 (ix2 k' k)) + b1 (ix2 0 k)) 0
          * w2 (ix2 k q)) + b2 (ix2 0 q) := by
  unfold k4_pay3
  simp only [shapeCast_self]
  show (matmul (F := Ideal) dot_S5000x128_S128x128_S5000x128_1_0_0_1_n_n none
      (truncf .bf16 (maximumf (addf (matmul (F := Ideal) dot_S5000x128_S128x128_S5000x128_1_0_0_1_n_n none
          (truncf .bf16 (addf x0 x1) _) (truncf .bf16 w1 _) (constant (F := Ideal) S5000x128 .f32 0x00000000#32))
        (broadcastTo S5000x128 b1 _)) (broadcast S5000x128 (Ideal.ofBits .f32 0x00000000#32))) _)
      (truncf .bf16 w2 _) (constant (F := Ideal) S5000x128 .f32 0x00000000#32) (ix2 p q) : EReal)
    + broadcastTo S5000x128 b2 _ (ix2 p q) = _
  rw [bcastRow_apply]
  refine congrArg (· + b2 (ix2 0 q)) ?_
  refine (mm4_apply _ w2 p q).trans ?_
  refine Finset.sum_congr rfl fun k _ => congrArg (· * w2 (ix2 k q)) ?_
  show max ((matmul (F := Ideal) dot_S5000x128_S128x128_S5000x128_1_0_0_1_n_n none
          (truncf .bf16 (addf x0 x1) _) (truncf .bf16 w1 _) (constant (F := Ideal) S5000x128 .f32 0x00000000#32) (ix2 p k) : EReal)
        + broadcastTo S5000x128 b1 _ (ix2 p k)) (Ideal.ofBits .f32 0x00000000#32) = _
  rw [bcastRow_apply, Ideal.ofBits_zero_f32]
  exact congrArg (fun z => max (z + b1 (ix2 0 k)) 0) (mm4_apply (addf x0 x1) w1 p k)

/-- The mask: 1 in row 0 of the 8-row slab, 0 in the other rows. -/
theorem k4_pay5_apply (s : Fin 8) (q : Fin 128) : k4_pay5 (F := Ideal) (ix2 s q) = KSpec.mask8 s := by
  unfold k4_pay5
  show FloatOps.sitofp (F := Ideal) .f32 ((IntOp.cmpi .eq (iota .tc S8x128 32 [0] _ (ix2 s q)) (0#32)).setWidth 32) = _
  rw [iota_single_apply]
  show FloatOps.sitofp (F := Ideal) .f32 ((IntOp.cmpi .eq (BitVec.ofNat 32 s.val) (0#32)).setWidth 32) = _
  rw [mask_bits s]
  unfold KSpec.mask8
  split
  · show (((1#32 : BitVec 32).toInt : ℝ) : EReal) = 1
    rw [show (1#32 : BitVec 32).toInt = 1 from by decide]; simp
  · show (((0#32 : BitVec 32).toInt : ℝ) : EReal) = 0
    rw [show (0#32 : BitVec 32).toInt = 0 from by decide]; simp

/-- The column sums of the dense part's tile, repeated in the slab's 8 rows. -/
theorem k4_pay6_apply (x0 x1 : Vec Ideal S5000x128 .f32) (w1 : Vec Ideal S128x128 .f32) (b1 : Vec Ideal S1x128 .f32)
    (w2 : Vec Ideal S128x128 .f32) (b2 : Vec Ideal S1x128 .f32) (s : Fin 8) (q : Fin 128) :
    k4_pay6 (F := Ideal) x0 x1 w1 b1 w2 b2 (ix2 s q) = ∑ r : Fin 5000, k4_pay3 (F := Ideal) x0 x1 w1 b1 w2 b2 (ix2 r q) := by
  unfold k4_pay6
  simp only [shapeCast_self]
  refine (bcastRow_apply _ _ s q).trans ?_
  refine (shapeCast_a_1a_apply _ _ 0 q).trans ?_
  refine (Ideal.multiReduction_add_single _ _ _ _ _ (ix1 q)).trans ?_
  refine Finset.sum_congr rfl fun r _ => congrArg (k4_pay3 (F := Ideal) x0 x1 w1 b1 w2 b2) ?_
  funext a
  match a with
  | ⟨0, _⟩ => rfl
  | ⟨1, _⟩ => rfl

/-- The column sums of the squares of the dense part's tile, as a one-row table. -/
theorem k4_pay4_apply (x0 x1 : Vec Ideal S5000x128 .f32) (w1 : Vec Ideal S128x128 .f32) (b1 : Vec Ideal S1x128 .f32)
    (w2 : Vec Ideal S128x128 .f32) (b2 : Vec Ideal S1x128 .f32) (u : Fin 1) (q : Fin 128) :
    k4_pay4 (F := Ideal) x0 x1 w1 b1 w2 b2 (ix2 u q)
      = ∑ r : Fin 5000, k4_pay3 (F := Ideal) x0 x1 w1 b1 w2 b2 (ix2 r q) * k4_pay3 (F := Ideal) x0 x1 w1 b1 w2 b2 (ix2 r q) := by
  unfold k4_pay4
  refine (shapeCast_a_1a_apply _ _ u q).trans ?_
  refine (Ideal.multiReduction_add_single _ _ _ _ _ (ix1 q)).trans ?_
  refine Finset.sum_congr rfl fun r _ => ?_
  refine congrArg (fun j => k4_pay3 (F := Ideal) x0 x1 w1 b1 w2 b2 j * k4_pay3 (F := Ideal) x0 x1 w1 b1 w2 b2 j) ?_
  funext a
  match a with
  | ⟨0, _⟩ => rfl
  | ⟨1, _⟩ => rfl

/-- The slab of sums: the broadcast column sums times the mask. -/
theorem k4_pay1_apply (v35 v37 : FVec Ideal S8x128 .f32) (u : Fin 1) (s : Fin 8) (q : Fin 128) :
    k4_pay1 (F := Ideal) v35 v37 (ix3 u s q) = v37 (ix2 s q) * v35 (ix2 s q) := by
  unfold k4_pay1
  exact slab_apply (mulf v37 v35) _ u s q

/-- The slab of sums of squares: the broadcast one-row table times the mask. -/
theorem k4_pay2_apply (v30 : FVec Ideal S1x128 .f32) (v35 : FVec Ideal S8x128 .f32) (u : Fin 1) (s : Fin 8) (q : Fin 128) :
    k4_pay2 (F := Ideal) v30 v35 (ix3 u s q) = v30 (ix2 0 q) * v35 (ix2 s q) := by
  unfold k4_pay2
  simp only [shapeCast_self]
  refine (slab_apply _ _ u s q).trans ?_
  show broadcastTo S8x128 v30 _ (ix2 s q) * v35 (ix2 s q) = _
  rw [bcastRow_apply]

/-- A tile of the dense part against the whole tables: where row (y 0) of each input tile is row (i 0) of its table, the
    columns agree, and the weights and bias rows are the tables', the tile's result at y is the whole tables' at i. -/
theorem mlp_tile4 (H A : FVec Ideal S50000x128 .f32) (W1 : FVec Ideal S128x128 .f32) (B1 : FVec Ideal S1x128 .f32)
    (W2 : FVec Ideal S128x128 .f32) (B2 : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32) (y : S5000x128.Idx) (i : S50000x128.Idx)
    (h0 : ∀ k : Fin 128, x0 (ix2 (y 0) k) = H (ix2 (i 0) k)) (h1 : ∀ k : Fin 128, x1 (ix2 (y 0) k) = A (ix2 (i 0) k))
    (hi : (i 1).val = (y 1).val) (e2 : x2 = W1) (e3 : x3 = B1) (e4 : x4 = W2) (e5 : x5 = B2) :
    k4_pay3 (F := Ideal) x0 x1 x2 x3 x4 x5 y = KSpec.mlpZ H A W1 B1 W2 B2 i := by
  subst e2 e3 e4 e5
  obtain ⟨p, q, rfl⟩ : ∃ (p : Fin 5000) (q : Fin 128), y = ix2 p q := ⟨y 0, y 1, eq_ix2 y⟩
  have hq : i 1 = q := Fin.ext hi
  have h0' : ∀ k : Fin 128, x0 (ix2 p k) = H (ix2 (i 0) k) := h0
  have h1' : ∀ k : Fin 128, x1 (ix2 p k) = A (ix2 (i 0) k) := h1
  rw [k4_pay3_apply]
  unfold KSpec.mlpZ
  rw [hq]
  refine congrArg (· + x5 (ix2 0 q)) (Finset.sum_congr rfl fun k _ => congrArg (· * x4 (ix2 k q)) ?_)
  exact congrArg (fun z => max (z + x3 (ix2 0 k)) 0) (Finset.sum_congr rfl fun k' _ => by rw [h0' k', h1' k'])

/-- The slab of column sums of a tile against the whole tables: where the input tiles are rows 5000·(i 0) … of their
    tables, the slab's entry j is the whole tables' per-tile column sum at i. -/
theorem mlpS_tile4 (H A : FVec Ideal S50000x128 .f32) (W1 : FVec Ideal S128x128 .f32) (B1 : FVec Ideal S1x128 .f32)
    (W2 : FVec Ideal S128x128 .f32) (B2 : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32) (j : S1x8x128.Idx) (i : S10x8x128.Idx)
    (h0 : ∀ (r : Fin 5000) (k : Fin 128), x0 (ix2 r k) = H (ix2 (KSpec.tileRow (i 0) r) k))
    (h1 : ∀ (r : Fin 5000) (k : Fin 128), x1 (ix2 r k) = A (ix2 (KSpec.tileRow (i 0) r) k))
    (hi1 : (i 1).val = (j 1).val) (hi2 : (i 2).val = (j 2).val)
    (e2 : x2 = W1) (e3 : x3 = B1) (e4 : x4 = W2) (e5 : x5 = B2) :
    k4_pay1 (F := Ideal) (k4_pay5 (F := Ideal)) (k4_pay6 (F := Ideal) x0 x1 x2 x3 x4 x5) j
      = KSpec.tileSum (KSpec.mlpZ H A W1 B1 W2 B2) i := by
  obtain ⟨u, s, q, rfl⟩ : ∃ (u : Fin 1) (s : Fin 8) (q : Fin 128), j = ix3 u s q := ⟨j 0, j 1, j 2, eq_ix3 j⟩
  have hs : i 1 = s := Fin.ext hi1
  have hq : i 2 = q := Fin.ext hi2
  rw [k4_pay1_apply, k4_pay6_apply, k4_pay5_apply]
  unfold KSpec.tileSum
  rw [hs, hq]
  refine congrArg (· * KSpec.mask8 s) (Finset.sum_congr rfl fun r _ => ?_)
  exact mlp_tile4 H A W1 B1 W2 B2 x0 x1 x2 x3 x4 x5 (ix2 r q) (ix2 (KSpec.tileRow (i 0) r) q)
    (fun k => h0 r k) (fun k => h1 r k) rfl e2 e3 e4 e5

/-- The slab of column sums of squares, likewise. -/
theorem mlpQ_tile4 (H A : FVec Ideal S50000x128 .f32) (W1 : FVec Ideal S128x128 .f32) (B1 : FVec Ideal S1x128 .f32)
    (W2 : FVec Ideal S128x128 .f32) (B2 : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32) (j : S1x8x128.Idx) (i : S10x8x128.Idx)
    (h0 : ∀ (r : Fin 5000) (k : Fin 128), x0 (ix2 r k) = H (ix2 (KSpec.tileRow (i 0) r) k))
    (h1 : ∀ (r : Fin 5000) (k : Fin 128), x1 (ix2 r k) = A (ix2 (KSpec.tileRow (i 0) r) k))
    (hi1 : (i 1).val = (j 1).val) (hi2 : (i 2).val = (j 2).val)
    (e2 : x2 = W1) (e3 : x3 = B1) (e4 : x4 = W2) (e5 : x5 = B2) :
    k4_pay2 (F := Ideal) (k4_pay4 (F := Ideal) x0 x1 x2 x3 x4 x5) (k4_pay5 (F := Ideal)) j
      = KSpec.tileSumSq (KSpec.mlpZ H A W1 B1 W2 B2) i := by
  obtain ⟨u, s, q, rfl⟩ : ∃ (u : Fin 1) (s : Fin 8) (q : Fin 128), j = ix3 u s q := ⟨j 0, j 1, j 2, eq_ix3 j⟩
  have hs : i 1 = s := Fin.ext hi1
  have hq : i 2 = q := Fin.ext hi2
  rw [k4_pay2_apply, k4_pay4_apply, k4_pay5_apply]
  unfold KSpec.tileSumSq
  rw [hs, hq]
  refine congrArg (· * KSpec.mask8 s) (Finset.sum_congr rfl fun r _ => ?_)
  have e := mlp_tile4 H A W1 B1 W2 B2 x0 x1 x2 x3 x4 x5 (ix2 r q) (ix2 (KSpec.tileRow (i 0) r) q)
    (fun k => h0 r k) (fun k => h1 r k) rfl e2 e3 e4 e5
  rw [e]

/-! ## Region 6 -/

/-- The product of a 5000-row tile with a square table into the zero accumulator, at (p, q). -/
theorem mm6_apply (X : FVec Ideal S5000x128 .f32) (W : FVec Ideal S128x128 .f32) (p : Fin 5000) (q : Fin 128) :
    (matmul (F := Ideal) dot_S5000x128_S128x128_S5000x128_1_0_0_1_n_n none (truncf .bf16 X (by decide)) (truncf .bf16 W (by decide))
      (constant (F := Ideal) S5000x128 .f32 0x00000000#32) (ix2 p q) : EReal) = ∑ k : Fin 128, X (ix2 p k) * W (ix2 k q) :=
  TileMatmul.matmul_zero_apply _ none _ _ p q

/-- The dense part's tile at (p, q): two linear layers with a rectifier between them, on the sum of the two input tiles. -/
theorem k6_pay3_apply (x0 x1 : Vec Ideal S5000x128 .f32) (w1 : Vec Ideal S128x128 .f32) (b1 : Vec Ideal S1x128 .f32)
    (w2 : Vec Ideal S128x128 .f32) (b2 : Vec Ideal S1x128 .f32) (p : Fin 5000) (q : Fin 128) :
    k6_pay3 (F := Ideal) x0 x1 w1 b1 w2 b2 (ix2 p q)
      = (∑ k : Fin 128, max ((∑ k' : Fin 128, (x0 (ix2 p k') + x1 (ix2 p k')) * w1 (ix2 k' k)) + b1 (ix2 0 k)) 0
          * w2 (ix2 k q)) + b2 (ix2 0 q) := by
  unfold k6_pay3
  simp only [shapeCast_self]
  show (matmul (F := Ideal) dot_S5000x128_S128x128_S5000x128_1_0_0_1_n_n none
      (truncf .bf16 (maximumf (addf (matmul (F := Ideal) dot_S5000x128_S128x128_S5000x128_1_0_0_1_n_n none
          (truncf .bf16 (addf x0 x1) _) (truncf .bf16 w1 _) (constant (F := Ideal) S5000x128 .f32 0x00000000#32))
        (broadcastTo S5000x128 b1 _)) (broadcast S5000x128 (Ideal.ofBits .f32 0x00000000#32))) _)
      (truncf .bf16 w2 _) (constant (F := Ideal) S5000x128 .f32 0x00000000#32) (ix2 p q) : EReal)
    + broadcastTo S5000x128 b2 _ (ix2 p q) = _
  rw [bcastRow_apply]
  refine congrArg (· + b2 (ix2 0 q)) ?_
  refine (mm6_apply _ w2 p q).trans ?_
  refine Finset.sum_congr rfl fun k _ => congrArg (· * w2 (ix2 k q)) ?_
  show max ((matmul (F := Ideal) dot_S5000x128_S128x128_S5000x128_1_0_0_1_n_n none
          (truncf .bf16 (addf x0 x1) _) (truncf .bf16 w1 _) (constant (F := Ideal) S5000x128 .f32 0x00000000#32) (ix2 p k) : EReal)
        + broadcastTo S5000x128 b1 _ (ix2 p k)) (Ideal.ofBits .f32 0x00000000#32) = _
  rw [bcastRow_apply, Ideal.ofBits_zero_f32]
  exact congrArg (fun z => max (z + b1 (ix2 0 k)) 0) (mm6_apply (addf x0 x1) w1 p k)

/-- The mask: 1 in row 0 of the 8-row slab, 0 in the other rows. -/
theorem k6_pay5_apply (s : Fin 8) (q : Fin 128) : k6_pay5 (F := Ideal) (ix2 s q) = KSpec.mask8 s := by
  unfold k6_pay5
  show FloatOps.sitofp (F := Ideal) .f32 ((IntOp.cmpi .eq (iota .tc S8x128 32 [0] _ (ix2 s q)) (0#32)).setWidth 32) = _
  rw [iota_single_apply]
  show FloatOps.sitofp (F := Ideal) .f32 ((IntOp.cmpi .eq (BitVec.ofNat 32 s.val) (0#32)).setWidth 32) = _
  rw [mask_bits s]
  unfold KSpec.mask8
  split
  · show (((1#32 : BitVec 32).toInt : ℝ) : EReal) = 1
    rw [show (1#32 : BitVec 32).toInt = 1 from by decide]; simp
  · show (((0#32 : BitVec 32).toInt : ℝ) : EReal) = 0
    rw [show (0#32 : BitVec 32).toInt = 0 from by decide]; simp

/-- The column sums of the dense part's tile, repeated in the slab's 8 rows. -/
theorem k6_pay6_apply (x0 x1 : Vec Ideal S5000x128 .f32) (w1 : Vec Ideal S128x128 .f32) (b1 : Vec Ideal S1x128 .f32)
    (w2 : Vec Ideal S128x128 .f32) (b2 : Vec Ideal S1x128 .f32) (s : Fin 8) (q : Fin 128) :
    k6_pay6 (F := Ideal) x0 x1 w1 b1 w2 b2 (ix2 s q) = ∑ r : Fin 5000, k6_pay3 (F := Ideal) x0 x1 w1 b1 w2 b2 (ix2 r q) := by
  unfold k6_pay6
  simp only [shapeCast_self]
  refine (bcastRow_apply _ _ s q).trans ?_
  refine (shapeCast_a_1a_apply _ _ 0 q).trans ?_
  refine (Ideal.multiReduction_add_single _ _ _ _ _ (ix1 q)).trans ?_
  refine Finset.sum_congr rfl fun r _ => congrArg (k6_pay3 (F := Ideal) x0 x1 w1 b1 w2 b2) ?_
  funext a
  match a with
  | ⟨0, _⟩ => rfl
  | ⟨1, _⟩ => rfl

/-- The column sums of the squares of the dense part's tile, as a one-row table. -/
theorem k6_pay4_apply (x0 x1 : Vec Ideal S5000x128 .f32) (w1 : Vec Ideal S128x128 .f32) (b1 : Vec Ideal S1x128 .f32)
    (w2 : Vec Ideal S128x128 .f32) (b2 : Vec Ideal S1x128 .f32) (u : Fin 1) (q : Fin 128) :
    k6_pay4 (F := Ideal) x0 x1 w1 b1 w2 b2 (ix2 u q)
      = ∑ r : Fin 5000, k6_pay3 (F := Ideal) x0 x1 w1 b1 w2 b2 (ix2 r q) * k6_pay3 (F := Ideal) x0 x1 w1 b1 w2 b2 (ix2 r q) := by
  unfold k6_pay4
  refine (shapeCast_a_1a_apply _ _ u q).trans ?_
  refine (Ideal.multiReduction_add_single _ _ _ _ _ (ix1 q)).trans ?_
  refine Finset.sum_congr rfl fun r _ => ?_
  refine congrArg (fun j => k6_pay3 (F := Ideal) x0 x1 w1 b1 w2 b2 j * k6_pay3 (F := Ideal) x0 x1 w1 b1 w2 b2 j) ?_
  funext a
  match a with
  | ⟨0, _⟩ => rfl
  | ⟨1, _⟩ => rfl

/-- The slab of sums: the broadcast column sums times the mask. -/
theorem k6_pay1_apply (v35 v37 : FVec Ideal S8x128 .f32) (u : Fin 1) (s : Fin 8) (q : Fin 128) :
    k6_pay1 (F := Ideal) v35 v37 (ix3 u s q) = v37 (ix2 s q) * v35 (ix2 s q) := by
  unfold k6_pay1
  exact slab_apply (mulf v37 v35) _ u s q

/-- The slab of sums of squares: the broadcast one-row table times the mask. -/
theorem k6_pay2_apply (v30 : FVec Ideal S1x128 .f32) (v35 : FVec Ideal S8x128 .f32) (u : Fin 1) (s : Fin 8) (q : Fin 128) :
    k6_pay2 (F := Ideal) v30 v35 (ix3 u s q) = v30 (ix2 0 q) * v35 (ix2 s q) := by
  unfold k6_pay2
  simp only [shapeCast_self]
  refine (slab_apply _ _ u s q).trans ?_
  show broadcastTo S8x128 v30 _ (ix2 s q) * v35 (ix2 s q) = _
  rw [bcastRow_apply]

/-- A tile of the dense part against the whole tables: where row (y 0) of each input tile is row (i 0) of its table, the
    columns agree, and the weights and bias rows are the tables', the tile's result at y is the whole tables' at i. -/
theorem mlp_tile6 (H A : FVec Ideal S50000x128 .f32) (W1 : FVec Ideal S128x128 .f32) (B1 : FVec Ideal S1x128 .f32)
    (W2 : FVec Ideal S128x128 .f32) (B2 : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32) (y : S5000x128.Idx) (i : S50000x128.Idx)
    (h0 : ∀ k : Fin 128, x0 (ix2 (y 0) k) = H (ix2 (i 0) k)) (h1 : ∀ k : Fin 128, x1 (ix2 (y 0) k) = A (ix2 (i 0) k))
    (hi : (i 1).val = (y 1).val) (e2 : x2 = W1) (e3 : x3 = B1) (e4 : x4 = W2) (e5 : x5 = B2) :
    k6_pay3 (F := Ideal) x0 x1 x2 x3 x4 x5 y = KSpec.mlpZ H A W1 B1 W2 B2 i := by
  subst e2 e3 e4 e5
  obtain ⟨p, q, rfl⟩ : ∃ (p : Fin 5000) (q : Fin 128), y = ix2 p q := ⟨y 0, y 1, eq_ix2 y⟩
  have hq : i 1 = q := Fin.ext hi
  have h0' : ∀ k : Fin 128, x0 (ix2 p k) = H (ix2 (i 0) k) := h0
  have h1' : ∀ k : Fin 128, x1 (ix2 p k) = A (ix2 (i 0) k) := h1
  rw [k6_pay3_apply]
  unfold KSpec.mlpZ
  rw [hq]
  refine congrArg (· + x5 (ix2 0 q)) (Finset.sum_congr rfl fun k _ => congrArg (· * x4 (ix2 k q)) ?_)
  exact congrArg (fun z => max (z + x3 (ix2 0 k)) 0) (Finset.sum_congr rfl fun k' _ => by rw [h0' k', h1' k'])

/-- The slab of column sums of a tile against the whole tables: where the input tiles are rows 5000·(i 0) … of their
    tables, the slab's entry j is the whole tables' per-tile column sum at i. -/
theorem mlpS_tile6 (H A : FVec Ideal S50000x128 .f32) (W1 : FVec Ideal S128x128 .f32) (B1 : FVec Ideal S1x128 .f32)
    (W2 : FVec Ideal S128x128 .f32) (B2 : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32) (j : S1x8x128.Idx) (i : S10x8x128.Idx)
    (h0 : ∀ (r : Fin 5000) (k : Fin 128), x0 (ix2 r k) = H (ix2 (KSpec.tileRow (i 0) r) k))
    (h1 : ∀ (r : Fin 5000) (k : Fin 128), x1 (ix2 r k) = A (ix2 (KSpec.tileRow (i 0) r) k))
    (hi1 : (i 1).val = (j 1).val) (hi2 : (i 2).val = (j 2).val)
    (e2 : x2 = W1) (e3 : x3 = B1) (e4 : x4 = W2) (e5 : x5 = B2) :
    k6_pay1 (F := Ideal) (k6_pay5 (F := Ideal)) (k6_pay6 (F := Ideal) x0 x1 x2 x3 x4 x5) j
      = KSpec.tileSum (KSpec.mlpZ H A W1 B1 W2 B2) i := by
  obtain ⟨u, s, q, rfl⟩ : ∃ (u : Fin 1) (s : Fin 8) (q : Fin 128), j = ix3 u s q := ⟨j 0, j 1, j 2, eq_ix3 j⟩
  have hs : i 1 = s := Fin.ext hi1
  have hq : i 2 = q := Fin.ext hi2
  rw [k6_pay1_apply, k6_pay6_apply, k6_pay5_apply]
  unfold KSpec.tileSum
  rw [hs, hq]
  refine congrArg (· * KSpec.mask8 s) (Finset.sum_congr rfl fun r _ => ?_)
  exact mlp_tile6 H A W1 B1 W2 B2 x0 x1 x2 x3 x4 x5 (ix2 r q) (ix2 (KSpec.tileRow (i 0) r) q)
    (fun k => h0 r k) (fun k => h1 r k) rfl e2 e3 e4 e5

/-- The slab of column sums of squares, likewise. -/
theorem mlpQ_tile6 (H A : FVec Ideal S50000x128 .f32) (W1 : FVec Ideal S128x128 .f32) (B1 : FVec Ideal S1x128 .f32)
    (W2 : FVec Ideal S128x128 .f32) (B2 : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32) (j : S1x8x128.Idx) (i : S10x8x128.Idx)
    (h0 : ∀ (r : Fin 5000) (k : Fin 128), x0 (ix2 r k) = H (ix2 (KSpec.tileRow (i 0) r) k))
    (h1 : ∀ (r : Fin 5000) (k : Fin 128), x1 (ix2 r k) = A (ix2 (KSpec.tileRow (i 0) r) k))
    (hi1 : (i 1).val = (j 1).val) (hi2 : (i 2).val = (j 2).val)
    (e2 : x2 = W1) (e3 : x3 = B1) (e4 : x4 = W2) (e5 : x5 = B2) :
    k6_pay2 (F := Ideal) (k6_pay4 (F := Ideal) x0 x1 x2 x3 x4 x5) (k6_pay5 (F := Ideal)) j
      = KSpec.tileSumSq (KSpec.mlpZ H A W1 B1 W2 B2) i := by
  obtain ⟨u, s, q, rfl⟩ : ∃ (u : Fin 1) (s : Fin 8) (q : Fin 128), j = ix3 u s q := ⟨j 0, j 1, j 2, eq_ix3 j⟩
  have hs : i 1 = s := Fin.ext hi1
  have hq : i 2 = q := Fin.ext hi2
  rw [k6_pay2_apply, k6_pay4_apply, k6_pay5_apply]
  unfold KSpec.tileSumSq
  rw [hs, hq]
  refine congrArg (· * KSpec.mask8 s) (Finset.sum_congr rfl fun r _ => ?_)
  have e := mlp_tile6 H A W1 B1 W2 B2 x0 x1 x2 x3 x4 x5 (ix2 r q) (ix2 (KSpec.tileRow (i 0) r) q)
    (fun k => h0 r k) (fun k => h1 r k) rfl e2 e3 e4 e5
  rw [e]

end Cert.KVal

end
-- ==== Proof.KRegionMlp2.lean ====
/-
  The three dense regions, read index by index at the extended reals.

  Each runs over 10 tiles of 5000 rows of two [50000, 128] tables.  At point t the result's tile is the dense part of
  rows 5000·t … 5000·t + 4999, which depends on a tile only through the row it is read at; slab t of each of the two
  [10, 8, 128] arrays holds, in its row 0, the column sums over those 5000 rows of the result and of its square, and
  zeros in the other rows.  The tiles cover the result and the slabs cover the slab arrays, so the three arrays end
  holding functions of the whole tables.  The three regions differ only in the arrays they are run on.
-/
import proofs.«157653_j15152644620445_2_alg».proof.Proof.Gen.KernelIdeal.Frame
import proofs.«157653_j15152644620445_2_alg».proof.Proof.KSpec
import proofs.«157653_j15152644620445_2_alg».proof.Proof.KCommon
import proofs.«157653_j15152644620445_2_alg».proof.Proof.KMlpPay
import Idealize.ShloMosaic.Lib.Pipeline.Value
import Idealize.ShloMosaic.Lib.ValueIdx

noncomputable section

open scoped BigOperators

namespace Cert.KVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-! ## Region 2 -/

/-- The one store to the result's buffer leaves the dense part's payload. -/
theorem out2_6_eq (x0 x1 : Vec Ideal S5000x128 .f32) (x2 : Vec Ideal S128x128 .f32) (x3 : Vec Ideal S1x128 .f32)
    (x4 : Vec Ideal S128x128 .f32) (x5 : Vec Ideal S1x128 .f32) :
    out2_6 (F := Ideal) x0 x1 x2 x3 x4 x5 = k2_pay3 (F := Ideal) x0 x1 x2 x3 x4 x5 := by
  unfold out2_6
  rw [View.canon_unit_zero hz2]
  simp only [View.ld_unit_zero (S := S5000x128) hz2, View.ld_unit_zero (S := S128x128) hz2, View.ld_unit_zero (S := S1x128) hz2]

/-- The one store to the slab of sums leaves the masked column sums. -/
theorem out2_7_eq (x0 x1 : Vec Ideal S5000x128 .f32) (x2 : Vec Ideal S128x128 .f32) (x3 : Vec Ideal S1x128 .f32)
    (x4 : Vec Ideal S128x128 .f32) (x5 : Vec Ideal S1x128 .f32) :
    out2_7 (F := Ideal) x0 x1 x2 x3 x4 x5
      = k2_pay1 (F := Ideal) (k2_pay5 (F := Ideal)) (k2_pay6 (F := Ideal) x0 x1 x2 x3 x4 x5) := by
  unfold out2_7
  rw [View.canon_unit_zero hz3]
  simp only [View.ld_unit_zero (S := S5000x128) hz2, View.ld_unit_zero (S := S128x128) hz2, View.ld_unit_zero (S := S1x128) hz2]

/-- The one store to the slab of sums of squares leaves the masked column sums of squares. -/
theorem out2_8_eq (x0 x1 : Vec Ideal S5000x128 .f32) (x2 : Vec Ideal S128x128 .f32) (x3 : Vec Ideal S1x128 .f32)
    (x4 : Vec Ideal S128x128 .f32) (x5 : Vec Ideal S1x128 .f32) :
    out2_8 (F := Ideal) x0 x1 x2 x3 x4 x5
      = k2_pay2 (F := Ideal) (k2_pay4 (F := Ideal) x0 x1 x2 x3 x4 x5) (k2_pay5 (F := Ideal)) := by
  unfold out2_8
  rw [View.canon_unit_zero hz3]
  simp only [View.ld_unit_zero (S := S5000x128) hz2, View.ld_unit_zero (S := S128x128) hz2, View.ld_unit_zero (S := S1x128) hz2]

/-- The printed index maps over the grid of 10 points: the two input tiles, the result's tile and the two slabs move
    with the point, the weights and bias rows stay. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0
    ∧ win2_8.index t (0 : Fin 3) = t.val ∧ win2_8.index t (1 : Fin 3) = 0 ∧ win2_8.index t (2 : Fin 3) = 0 :=
  (by decide +kernel : ∀ t : Fin grid2.N, _)

/-- Input table 0's tile at point t holds rows 5000·t … 5000·t + 4999 of the table. -/
theorem iblk2_0_apply (t : Fin cfg2.N) (y : S5000x128.Idx) (k : S50000x128.Idx)
    (hk0 : (k 0).val = t.val * 5000 + (y 0).val) (hk1 : (k 1).val = (y 1).val) :
    (iblk2 V c 0 t : Vec Ideal S5000x128 .f32) y = (V c (Pipeline.arrRef spec2 0) : S50000x128.Idx → EReal) k := by
  obtain ⟨e0, e1, -⟩ := idx2 t
  unfold iblk2
  rw [View.read_apply]
  show V c (Pipeline.arrRef spec2 0) _ = V c (Pipeline.arrRef spec2 0) _
  congr 1
  funext a
  apply Fin.ext
  match a with
  | ⟨0, _⟩ => show win2_0.index t 0 * 5000 + 1 * (y 0).val = (k 0).val; rw [e0, hk0]; omega
  | ⟨1, _⟩ => show win2_0.index t 1 * 128 + 1 * (y 1).val = (k 1).val; rw [e1, hk1]; omega

/-- Input table 1's tile at point t holds rows 5000·t … 5000·t + 4999 of the table. -/
theorem iblk2_1_apply (t : Fin cfg2.N) (y : S5000x128.Idx) (k : S50000x128.Idx)
    (hk0 : (k 0).val = t.val * 5000 + (y 0).val) (hk1 : (k 1).val = (y 1).val) :
    (iblk2 V c 1 t : Vec Ideal S5000x128 .f32) y = (V c (Pipeline.arrRef spec2 1) : S50000x128.Idx → EReal) k := by
  obtain ⟨-, -, e0, e1, -⟩ := idx2 t
  unfold iblk2
  rw [View.read_apply]
  show V c (Pipeline.arrRef spec2 1) _ = V c (Pipeline.arrRef spec2 1) _
  congr 1
  funext a
  apply Fin.ext
  match a with
  | ⟨0, _⟩ => show win2_1.index t 0 * 5000 + 1 * (y 0).val = (k 0).val; rw [e0, hk0]; omega
  | ⟨1, _⟩ => show win2_1.index t 1 * 128 + 1 * (y 1).val = (k 1).val; rw [e1, hk1]; omega

/-- Window 2's block is its whole table at every point. -/
theorem iblk2_2_eq (t : Fin cfg2.N) :
    (iblk2 V c 2 t : Vec Ideal S128x128 .f32) = (V c (Pipeline.arrRef spec2 2) : S128x128.Idx → EReal) := by
  obtain ⟨-, -, -, -, e0, e1, -⟩ := idx2 t
  funext y
  unfold iblk2
  rw [View.read_apply]
  show V c (Pipeline.arrRef spec2 2) _ = V c (Pipeline.arrRef spec2 2) y
  congr 1
  funext a
  apply Fin.ext
  match a with
  | ⟨0, _⟩ => show win2_2.index t 0 * 128 + 1 * (y 0).val = (y 0).val; rw [e0]; omega
  | ⟨1, _⟩ => show win2_2.index t 1 * 128 + 1 * (y 1).val = (y 1).val; rw [e1]; omega

/-- Window 3's block is its whole table at every point. -/
theorem iblk2_3_eq (t : Fin cfg2.N) :
    (iblk2 V c 3 t : Vec Ideal S1x128 .f32) = (V c (Pipeline.arrRef spec2 3) : S1x128.Idx → EReal) := by
  obtain ⟨-, -, -, -, -, -, e0, e1, -⟩ := idx2 t
  funext y
  unfold iblk2
  rw [View.read_apply]
  show V c (Pipeline.arrRef spec2 3) _ = V c (Pipeline.arrRef spec2 3) y
  congr 1
  funext a
  apply Fin.ext
  match a with
  | ⟨0, _⟩ => show win2_3.index t 0 * 1 + 1 * (y 0).val = (y 0).val; rw [e0]; omega
  | ⟨1, _⟩ => show win2_3.index t 1 * 128 + 1 * (y 1).val = (y 1).val; rw [e1]; omega

/-- Window 4's block is its whole table at every point. -/
theorem iblk2_4_eq (t : Fin cfg2.N) :
    (iblk2 V c 4 t : Vec Ideal S128x128 .f32) = (V c (Pipeline.arrRef spec2 4) : S128x128.Idx → EReal) := by
  obtain ⟨-, -, -, -, -, -, -, -, e0, e1, -⟩ := idx2 t
  funext y
  unfold iblk2
  rw [View.read_apply]
  show V c (Pipeline.arrRef spec2 4) _ = V c (Pipeline.arrRef spec2 4) y
  congr 1
  funext a
  apply Fin.ext
  match a with
  | ⟨0, _⟩ => show win2_4.index t 0 * 128 + 1 * (y 0).val = (y 0).val; rw [e0]; omega
  | ⟨1, _⟩ => show win2_4.index t 1 * 128 + 1 * (y 1).val = (y 1).val; rw [e1]; omega

/-- Window 5's block is its whole table at every point. -/
theorem iblk2_5_eq (t : Fin cfg2.N) :
    (iblk2 V c 5 t : Vec Ideal S1x128 .f32) = (V c (Pipeline.arrRef spec2 5) : S1x128.Idx → EReal) := by
  obtain ⟨-, -, -, -, -, -, -, -, -, -, e0, e1, -⟩ := idx2 t
  funext y
  unfold iblk2
  rw [View.read_apply]
  show V c (Pipeline.arrRef spec2 5) _ = V c (Pipeline.arrRef spec2 5) y
  congr 1
  funext a
  apply Fin.ext
  match a with
  | ⟨0, _⟩ => show win2_5.index t 0 * 1 + 1 * (y 0).val = (y 0).val; rw [e0]; omega
  | ⟨1, _⟩ => show win2_5.index t 1 * 128 + 1 * (y 1).val = (y 1).val; rw [e1]; omega

/-- What point t writes back to the result is tile t of the whole tables' dense part. -/
theorem flushed2_6_eq (t : Fin cfg2.N) :
    (dat2 (F := Ideal) V c).flushed 6 t = ((cfg2.win 6).blk t).view.read (Elt Ideal)
      (KSpec.mlpZ (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  obtain ⟨-, -, -, -, -, -, -, -, -, -, -, -, e0, e1, -⟩ := idx2 t
  show (cfg2.win 6).cut (grid2.coords t) ((dat2 V c).after 6 t) = _
  rw [after2_6]
  funext j
  have hk0 : ((((cfg2.win 6).blk t).view.emb j : S50000x128.Idx) 0).val = t.val * 5000 + (j 0).val := by
    show win2_6.index t 0 * 5000 + 1 * (j 0).val = _
    rw [e0]; omega
  have hk1 : ((((cfg2.win 6).blk t).view.emb j : S50000x128.Idx) 1).val = (j 1).val := by
    show win2_6.index t 1 * 128 + 1 * (j 1).val = _
    rw [e1]; omega
  exact (congrFun (out2_6_eq (iblk2 V c 0 t) (iblk2 V c 1 t) (iblk2 V c 2 t) (iblk2 V c 3 t) (iblk2 V c 4 t) (iblk2 V c 5 t)) ((cfg2.win 6).xinj (grid2.coords t) j)).trans
    (mlp_tile2 _ _ _ _ _ _ (iblk2 V c 0 t) (iblk2 V c 1 t) (iblk2 V c 2 t) (iblk2 V c 3 t) (iblk2 V c 4 t) (iblk2 V c 5 t)
      ((cfg2.win 6).xinj (grid2.coords t) j) (((cfg2.win 6).blk t).view.emb j)
      (fun k => iblk2_0_apply V c t _ _ hk0 rfl) (fun k => iblk2_1_apply V c t _ _ hk0 rfl) hk1 (iblk2_2_eq V c t) (iblk2_3_eq V c t) (iblk2_4_eq V c t) (iblk2_5_eq V c t))

/-- An entry of the result is in point t's tile iff each coordinate is in the tile's range on its axis. -/
theorem mem_blk2_6 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v30_0).slice (win2_6.rect t)).set ↔ _
  rw [View.set_slice_whole, Rect.mem_set_unit]
  exact Iff.rfl

/-- Every entry of the result is in the tile of the point its row's number divided by 5000 names. -/
theorem cover2_6 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, e0, e1, -⟩ := idx2 t
  refine ⟨t, flush2_6 t, ?_⟩
  rw [mem_blk2_6]
  intro a
  match a with
  | ⟨0, _⟩ =>
    show win2_6.index t 0 * 5000 ≤ (i 0).val ∧ (i 0).val < win2_6.index t 0 * 5000 + 5000
    rw [e0, ht]; omega
  | ⟨1, _⟩ =>
    show win2_6.index t 1 * 128 ≤ (i 1).val ∧ (i 1).val < win2_6.index t 1 * 128 + 128
    rw [e1]; omega

/-- The dense region leaves, in its result array, the whole tables' dense part. -/
theorem mlpZ2 : (dat2 (F := Ideal) V c).arrAt 6 cfg2.N = KSpec.mlpZ (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 V c).arrAt_eq_of_cover 6 _ (fun t _ => flushed2_6_eq V c t) (cover2_6)

/-- What point t writes back to the slab array of column sums is slab t of the whole tables' column sums. -/
theorem flushed2_7_eq (t : Fin cfg2.N) :
    (dat2 (F := Ideal) V c).flushed 7 t = ((cfg2.win 7).blk t).view.read (Elt Ideal)
      (KSpec.tileSum (KSpec.mlpZ (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)))) := by
  obtain ⟨-, -, -, -, -, -, -, -, -, -, -, -, -, -, f0, f1, f2, -⟩ := idx2 t
  show (cfg2.win 7).cut (grid2.coords t) ((dat2 V c).after 7 t) = _
  rw [after2_7]
  funext j
  have hj0 : (j 0).val < 1 := (j 0).isLt
  have hk0 : ((((cfg2.win 7).blk t).view.emb j : S10x8x128.Idx) 0).val = t.val := by
    show win2_7.index t 0 * 1 + 1 * (j 0).val = _
    rw [f0]; omega
  have hk1 : ((((cfg2.win 7).blk t).view.emb j : S10x8x128.Idx) 1).val = (j 1).val := by
    show win2_7.index t 1 * 8 + 1 * (j 1).val = _
    rw [f1]; omega
  have hk2 : ((((cfg2.win 7).blk t).view.emb j : S10x8x128.Idx) 2).val = (j 2).val := by
    show win2_7.index t 2 * 128 + 1 * (j 2).val = _
    rw [f2]; omega
  have hrow : ∀ r : Fin 5000, (KSpec.tileRow ((((cfg2.win 7).blk t).view.emb j : S10x8x128.Idx) 0) r).val = t.val * 5000 + r.val :=
    fun r => by show ((((cfg2.win 7).blk t).view.emb j : S10x8x128.Idx) 0).val * 5000 + r.val = _; rw [hk0]
  exact (congrFun (out2_7_eq (iblk2 V c 0 t) (iblk2 V c 1 t) (iblk2 V c 2 t) (iblk2 V c 3 t) (iblk2 V c 4 t) (iblk2 V c 5 t)) ((cfg2.win 7).xinj (grid2.coords t) j)).trans
    (mlpS_tile2 _ _ _ _ _ _ (iblk2 V c 0 t) (iblk2 V c 1 t) (iblk2 V c 2 t) (iblk2 V c 3 t) (iblk2 V c 4 t) (iblk2 V c 5 t)
      ((cfg2.win 7).xinj (grid2.coords t) j) (((cfg2.win 7).blk t).view.emb j)
      (fun r k => iblk2_0_apply V c t (ix2 r k) (ix2 (KSpec.tileRow ((((cfg2.win 7).blk t).view.emb j : S10x8x128.Idx) 0) r) k) (hrow r) rfl)
      (fun r k => iblk2_1_apply V c t (ix2 r k) (ix2 (KSpec.tileRow ((((cfg2.win 7).blk t).view.emb j : S10x8x128.Idx) 0) r) k) (hrow r) rfl)
      hk1 hk2 (iblk2_2_eq V c t) (iblk2_3_eq V c t) (iblk2_4_eq V c t) (iblk2_5_eq V c t))

/-- An entry of the slab array is in point t's slab iff each coordinate is in the slab's range on its axis. -/
theorem mem_blk2_7 (t : Fin cfg2.N) (i : S10x8x128.Idx) :
    i ∈ ((cfg2.win 7).blk t).view.set ↔ ∀ a : Fin 3, win2_7.index t a * S1x8x128.size a ≤ (i a).val
      ∧ (i a).val < win2_7.index t a * S1x8x128.size a + S1x8x128.size a := by
  show i ∈ ((View.whole main_v30_1).slice (win2_7.rect t)).set ↔ _
  rw [View.set_slice_whole, Rect.mem_set_unit]
  exact Iff.rfl

/-- Every entry of the slab array is in the slab of the point its first coordinate names. -/
theorem cover2_7 (i : S10x8x128.Idx) :
    ∃ t : Fin cfg2.N, (cfg2.win 7).flush t = true ∧ i ∈ ((cfg2.win 7).blk t).view.set := by
  have hi0 : (i 0).val < 10 := (i 0).isLt
  have hi1 : (i 1).val < 8 := (i 1).isLt
  have hi2 : (i 2).val < 128 := (i 2).isLt
  have hN : cfg2.N = 10 := N_2
  obtain ⟨t, ht⟩ : ∃ t : Fin cfg2.N, t.val = (i 0).val := ⟨⟨(i 0).val, by rw [hN]; omega⟩, rfl⟩
  obtain ⟨-, -, -, -, -, -, -, -, -, -, -, -, -, -, f0, f1, f2, -⟩ := idx2 t
  refine ⟨t, flush2_7 t, ?_⟩
  rw [mem_blk2_7]
  intro a
  match a with
  | ⟨0, _⟩ =>
    show win2_7.index t 0 * 1 ≤ (i 0).val ∧ (i 0).val < win2_7.index t 0 * 1 + 1
    rw [f0, ht]; omega
  | ⟨1, _⟩ =>
    show win2_7.index t 1 * 8 ≤ (i 1).val ∧ (i 1).val < win2_7.index t 1 * 8 + 8
    rw [f1]; omega
  | ⟨2, _⟩ =>
    show win2_7.index t 2 * 128 ≤ (i 2).val ∧ (i 2).val < win2_7.index t 2 * 128 + 128
    rw [f2]; omega

/-- The dense region leaves, in its slab array of sums, the per-tile column sums of the whole tables' dense part. -/
theorem mlpS2 : (dat2 (F := Ideal) V c).arrAt 7 cfg2.N = KSpec.tileSum (KSpec.mlpZ (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) :=
  (dat2 V c).arrAt_eq_of_cover 7 _ (fun t _ => flushed2_7_eq V c t) (cover2_7)

/-- What point t writes back to the slab array of column sums of squares is slab t of the whole tables' column sums of squares. -/
theorem flushed2_8_eq (t : Fin cfg2.N) :
    (dat2 (F := Ideal) V c).flushed 8 t = ((cfg2.win 8).blk t).view.read (Elt Ideal)
      (KSpec.tileSumSq (KSpec.mlpZ (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)))) := by
  obtain ⟨-, -, -, -, -, -, -, -, -, -, -, -, -, -, -, -, -, f0, f1, f2⟩ := idx2 t
  show (cfg2.win 8).cut (grid2.coords t) ((dat2 V c).after 8 t) = _
  rw [after2_8]
  funext j
  have hj0 : (j 0).val < 1 := (j 0).isLt
  have hk0 : ((((cfg2.win 8).blk t).view.emb j : S10x8x128.Idx) 0).val = t.val := by
    show win2_8.index t 0 * 1 + 1 * (j 0).val = _
    rw [f0]; omega
  have hk1 : ((((cfg2.win 8).blk t).view.emb j : S10x8x128.Idx) 1).val = (j 1).val := by
    show win2_8.index t 1 * 8 + 1 * (j 1).val = _
    rw [f1]; omega
  have hk2 : ((((cfg2.win 8).blk t).view.emb j : S10x8x128.Idx) 2).val = (j 2).val := by
    show win2_8.index t 2 * 128 + 1 * (j 2).val = _
    rw [f2]; omega
  have hrow : ∀ r : Fin 5000, (KSpec.tileRow ((((cfg2.win 8).blk t).view.emb j : S10x8x128.Idx) 0) r).val = t.val * 5000 + r.val :=
    fun r => by show ((((cfg2.win 8).blk t).view.emb j : S10x8x128.Idx) 0).val * 5000 + r.val = _; rw [hk0]
  exact (congrFun (out2_8_eq (iblk2 V c 0 t) (iblk2 V c 1 t) (iblk2 V c 2 t) (iblk2 V c 3 t) (iblk2 V c 4 t) (iblk2 V c 5 t)) ((cfg2.win 8).xinj (grid2.coords t) j)).trans
    (mlpQ_tile2 _ _ _ _ _ _ (iblk2 V c 0 t) (iblk2 V c 1 t) (iblk2 V c 2 t) (iblk2 V c 3 t) (iblk2 V c 4 t) (iblk2 V c 5 t)
      ((cfg2.win 8).xinj (grid2.coords t) j) (((cfg2.win 8).blk t).view.emb j)
      (fun r k => iblk2_0_apply V c t (ix2 r k) (ix2 (KSpec.tileRow ((((cfg2.win 8).blk t).view.emb j : S10x8x128.Idx) 0) r) k) (hrow r) rfl)
      (fun r k => iblk2_1_apply V c t (ix2 r k) (ix2 (KSpec.tileRow ((((cfg2.win 8).blk t).view.emb j : S10x8x128.Idx) 0) r) k) (hrow r) rfl)
      hk1 hk2 (iblk2_2_eq V c t) (iblk2_3_eq V c t) (iblk2_4_eq V c t) (iblk2_5_eq V c t))

/-- An entry of the slab array is in point t's slab iff each coordinate is in the slab's range on its axis. -/
theorem mem_blk2_8 (t : Fin cfg2.N) (i : S10x8x128.Idx) :
    i ∈ ((cfg2.win 8).blk t).view.set ↔ ∀ a : Fin 3, win2_8.index t a * S1x8x128.size a ≤ (i a).val
      ∧ (i a).val < win2_8.index t a * S1x8x128.size a + S1x8x128.size a := by
  show i ∈ ((View.whole main_v30_2).slice (win2_8.rect t)).set ↔ _
  rw [View.set_slice_whole, Rect.mem_set_unit]
  exact Iff.rfl

/-- Every entry of the slab array is in the slab of the point its first coordinate names. -/
theorem cover2_8 (i : S10x8x128.Idx) :
    ∃ t : Fin cfg2.N, (cfg2.win 8).flush t = true ∧ i ∈ ((cfg2.win 8).blk t).view.set := by
  have hi0 : (i 0).val < 10 := (i 0).isLt
  have hi1 : (i 1).val < 8 := (i 1).isLt
  have hi2 : (i 2).val < 128 := (i 2).isLt
  have hN : cfg2.N = 10 := N_2
  obtain ⟨t, ht⟩ : ∃ t : Fin cfg2.N, t.val = (i 0).val := ⟨⟨(i 0).val, by rw [hN]; omega⟩, rfl⟩
  obtain ⟨-, -, -, -, -, -, -, -, -, -, -, -, -, -, -, -, -, f0, f1, f2⟩ := idx2 t
  refine ⟨t, flush2_8 t, ?_⟩
  rw [mem_blk2_8]
  intro a
  match a with
  | ⟨0, _⟩ =>
    show win2_8.index t 0 * 1 ≤ (i 0).val ∧ (i 0).val < win2_8.index t 0 * 1 + 1
    rw [f0, ht]; omega
  | ⟨1, _⟩ =>
    show win2_8.index t 1 * 8 ≤ (i 1).val ∧ (i 1).val < win2_8.index t 1 * 8 + 8
    rw [f1]; omega
  | ⟨2, _⟩ =>
    show win2_8.index t 2 * 128 ≤ (i 2).val ∧ (i 2).val < win2_8.index t 2 * 128 + 128
    rw [f2]; omega

/-- The dense region leaves, in its slab array of sums of squares, the per-tile column sums of squares. -/
theorem mlpQ2 : (dat2 (F := Ideal) V c).arrAt 8 cfg2.N = KSpec.tileSumSq (KSpec.mlpZ (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) :=
  (dat2 V c).arrAt_eq_of_cover 8 _ (fun t _ => flushed2_8_eq V c t) (cover2_8)

end Cert.KVal

end
-- ==== Proof.KRegionMlp4.lean ====
/-
  The three dense regions, read index by index at the extended reals.

  Each runs over 10 tiles of 5000 rows of two [50000, 128] tables.  At point t the result's tile is the dense part of
  rows 5000·t … 5000·t + 4999, which depends on a tile only through the row it is read at; slab t of each of the two
  [10, 8, 128] arrays holds, in its row 0, the column sums over those 5000 rows of the result and of its square, and
  zeros in the other rows.  The tiles cover the result and the slabs cover the slab arrays, so the three arrays end
  holding functions of the whole tables.  The three regions differ only in the arrays they are run on.
-/
import proofs.«157653_j15152644620445_2_alg».proof.Proof.Gen.KernelIdeal.Frame
import proofs.«157653_j15152644620445_2_alg».proof.Proof.KSpec
import proofs.«157653_j15152644620445_2_alg».proof.Proof.KCommon
import proofs.«157653_j15152644620445_2_alg».proof.Proof.KMlpPay
import Idealize.ShloMosaic.Lib.Pipeline.Value
import Idealize.ShloMosaic.Lib.ValueIdx

noncomputable section

open scoped BigOperators

namespace Cert.KVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-! ## Region 4 -/

/-- The one store to the result's buffer leaves the dense part's payload. -/
theorem out4_6_eq (x0 x1 : Vec Ideal S5000x128 .f32) (x2 : Vec Ideal S128x128 .f32) (x3 : Vec Ideal S1x128 .f32)
    (x4 : Vec Ideal S128x128 .f32) (x5 : Vec Ideal S1x128 .f32) :
    out4_6 (F := Ideal) x0 x1 x2 x3 x4 x5 = k4_pay3 (F := Ideal) x0 x1 x2 x3 x4 x5 := by
  unfold out4_6
  rw [View.canon_unit_zero hz2]
  simp only [View.ld_unit_zero (S := S5000x128) hz2, View.ld_unit_zero (S := S128x128) hz2, View.ld_unit_zero (S := S1x128) hz2]

/-- The one store to the slab of sums leaves the masked column sums. -/
theorem out4_7_eq (x0 x1 : Vec Ideal S5000x128 .f32) (x2 : Vec Ideal S128x128 .f32) (x3 : Vec Ideal S1x128 .f32)
    (x4 : Vec Ideal S128x128 .f32) (x5 : Vec Ideal S1x128 .f32) :
    out4_7 (F := Ideal) x0 x1 x2 x3 x4 x5
      = k4_pay1 (F := Ideal) (k4_pay5 (F := Ideal)) (k4_pay6 (F := Ideal) x0 x1 x2 x3 x4 x5) := by
  unfold out4_7
  rw [View.canon_unit_zero hz3]
  simp only [View.ld_unit_zero (S := S5000x128) hz2, View.ld_unit_zero (S := S128x128) hz2, View.ld_unit_zero (S := S1x128) hz2]

/-- The one store to the slab of sums of squares leaves the masked column sums of squares. -/
theorem out4_8_eq (x0 x1 : Vec Ideal S5000x128 .f32) (x2 : Vec Ideal S128x128 .f32) (x3 : Vec Ideal S1x128 .f32)
    (x4 : Vec Ideal S128x128 .f32) (x5 : Vec Ideal S1x128 .f32) :
    out4_8 (F := Ideal) x0 x1 x2 x3 x4 x5
      = k4_pay2 (F := Ideal) (k4_pay4 (F := Ideal) x0 x1 x2 x3 x4 x5) (k4_pay5 (F := Ideal)) := by
  unfold out4_8
  rw [View.canon_unit_zero hz3]
  simp only [View.ld_unit_zero (S := S5000x128) hz2, View.ld_unit_zero (S := S128x128) hz2, View.ld_unit_zero (S := S1x128) hz2]

/-- The printed index maps over the grid of 10 points: the two input tiles, the result's tile and the two slabs move
    with the point, the weights and bias rows stay. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 3) = t.val ∧ win4_7.index t (1 : Fin 3) = 0 ∧ win4_7.index t (2 : Fin 3) = 0
    ∧ win4_8.index t (0 : Fin 3) = t.val ∧ win4_8.index t (1 : Fin 3) = 0 ∧ win4_8.index t (2 : Fin 3) = 0 :=
  (by decide +kernel : ∀ t : Fin grid4.N, _)

/-- Input table 0's tile at point t holds rows 5000·t … 5000·t + 4999 of the table. -/
theorem iblk4_0_apply (t : Fin cfg4.N) (y : S5000x128.Idx) (k : S50000x128.Idx)
    (hk0 : (k 0).val = t.val * 5000 + (y 0).val) (hk1 : (k 1).val = (y 1).val) :
    (iblk4 V c 0 t : Vec Ideal S5000x128 .f32) y = (V c (Pipeline.arrRef spec4 0) : S50000x128.Idx → EReal) k := by
  obtain ⟨e0, e1, -⟩ := idx4 t
  unfold iblk4
  rw [View.read_apply]
  show V c (Pipeline.arrRef spec4 0) _ = V c (Pipeline.arrRef spec4 0) _
  congr 1
  funext a
  apply Fin.ext
  match a with
  | ⟨0, _⟩ => show win4_0.index t 0 * 5000 + 1 * (y 0).val = (k 0).val; rw [e0, hk0]; omega
  | ⟨1, _⟩ => show win4_0.index t 1 * 128 + 1 * (y 1).val = (k 1).val; rw [e1, hk1]; omega

/-- Input table 1's tile at point t holds rows 5000·t … 5000·t + 4999 of the table. -/
theorem iblk4_1_apply (t : Fin cfg4.N) (y : S5000x128.Idx) (k : S50000x128.Idx)
    (hk0 : (k 0).val = t.val * 5000 + (y 0).val) (hk1 : (k 1).val = (y 1).val) :
    (iblk4 V c 1 t : Vec Ideal S5000x128 .f32) y = (V c (Pipeline.arrRef spec4 1) : S50000x128.Idx → EReal) k := by
  obtain ⟨-, -, e0, e1, -⟩ := idx4 t
  unfold iblk4
  rw [View.read_apply]
  show V c (Pipeline.arrRef spec4 1) _ = V c (Pipeline.arrRef spec4 1) _
  congr 1
  funext a
  apply Fin.ext
  match a with
  | ⟨0, _⟩ => show win4_1.index t 0 * 5000 + 1 * (y 0).val = (k 0).val; rw [e0, hk0]; omega
  | ⟨1, _⟩ => show win4_1.index t 1 * 128 + 1 * (y 1).val = (k 1).val; rw [e1, hk1]; omega

/-- Window 2's block is its whole table at every point. -/
theorem iblk4_2_eq (t : Fin cfg4.N) :
    (iblk4 V c 2 t : Vec Ideal S128x128 .f32) = (V c (Pipeline.arrRef spec4 2) : S128x128.Idx → EReal) := by
  obtain ⟨-, -, -, -, e0, e1, -⟩ := idx4 t
  funext y
  unfold iblk4
  rw [View.read_apply]
  show V c (Pipeline.arrRef spec4 2) _ = V c (Pipeline.arrRef spec4 2) y
  congr 1
  funext a
  apply Fin.ext
  match a with
  | ⟨0, _⟩ => show win4_2.index t 0 * 128 + 1 * (y 0).val = (y 0).val; rw [e0]; omega
  | ⟨1, _⟩ => show win4_2.index t 1 * 128 + 1 * (y 1).val = (y 1).val; rw [e1]; omega

/-- Window 3's block is its whole table at every point. -/
theorem iblk4_3_eq (t : Fin cfg4.N) :
    (iblk4 V c 3 t : Vec Ideal S1x128 .f32) = (V c (Pipeline.arrRef spec4 3) : S1x128.Idx → EReal) := by
  obtain ⟨-, -, -, -, -, -, e0, e1, -⟩ := idx4 t
  funext y
  unfold iblk4
  rw [View.read_apply]
  show V c (Pipeline.arrRef spec4 3) _ = V c (Pipeline.arrRef spec4 3) y
  congr 1
  funext a
  apply Fin.ext
  match a with
  | ⟨0, _⟩ => show win4_3.index t 0 * 1 + 1 * (y 0).val = (y 0).val; rw [e0]; omega
  | ⟨1, _⟩ => show win4_3.index t 1 * 128 + 1 * (y 1).val = (y 1).val; rw [e1]; omega

/-- Window 4's block is its whole table at every point. -/
theorem iblk4_4_eq (t : Fin cfg4.N) :
    (iblk4 V c 4 t : Vec Ideal S128x128 .f32) = (V c (Pipeline.arrRef spec4 4) : S128x128.Idx → EReal) := by
  obtain ⟨-, -, -, -, -, -, -, -, e0, e1, -⟩ := idx4 t
  funext y
  unfold iblk4
  rw [View.read_apply]
  show V c (Pipeline.arrRef spec4 4) _ = V c (Pipeline.arrRef spec4 4) y
  congr 1
  funext a
  apply Fin.ext
  match a with
  | ⟨0, _⟩ => show win4_4.index t 0 * 128 + 1 * (y 0).val = (y 0).val; rw [e0]; omega
  | ⟨1, _⟩ => show win4_4.index t 1 * 128 + 1 * (y 1).val = (y 1).val; rw [e1]; omega

/-- Window 5's block is its whole table at every point. -/
theorem iblk4_5_eq (t : Fin cfg4.N) :
    (iblk4 V c 5 t : Vec Ideal S1x128 .f32) = (V c (Pipeline.arrRef spec4 5) : S1x128.Idx → EReal) := by
  obtain ⟨-, -, -, -, -, -, -, -, -, -, e0, e1, -⟩ := idx4 t
  funext y
  unfold iblk4
  rw [View.read_apply]
  show V c (Pipeline.arrRef spec4 5) _ = V c (Pipeline.arrRef spec4 5) y
  congr 1
  funext a
  apply Fin.ext
  match a with
  | ⟨0, _⟩ => show win4_5.index t 0 * 1 + 1 * (y 0).val = (y 0).val; rw [e0]; omega
  | ⟨1, _⟩ => show win4_5.index t 1 * 128 + 1 * (y 1).val = (y 1).val; rw [e1]; omega

/-- What point t writes back to the result is tile t of the whole tables' dense part. -/
theorem flushed4_6_eq (t : Fin cfg4.N) :
    (dat4 (F := Ideal) V c).flushed 6 t = ((cfg4.win 6).blk t).view.read (Elt Ideal)
      (KSpec.mlpZ (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  obtain ⟨-, -, -, -, -, -, -, -, -, -, -, -, e0, e1, -⟩ := idx4 t
  show (cfg4.win 6).cut (grid4.coords t) ((dat4 V c).after 6 t) = _
  rw [after4_6]
  funext j
  have hk0 : ((((cfg4.win 6).blk t).view.emb j : S50000x128.Idx) 0).val = t.val * 5000 + (j 0).val := by
    show win4_6.index t 0 * 5000 + 1 * (j 0).val = _
    rw [e0]; omega
  have hk1 : ((((cfg4.win 6).blk t).view.emb j : S50000x128.Idx) 1).val = (j 1).val := by
    show win4_6.index t 1 * 128 + 1 * (j 1).val = _
    rw [e1]; omega
  exact (congrFun (out4_6_eq (iblk4 V c 0 t) (iblk4 V c 1 t) (iblk4 V c 2 t) (iblk4 V c 3 t) (iblk4 V c 4 t) (iblk4 V c 5 t)) ((cfg4.win 6).xinj (grid4.coords t) j)).trans
    (mlp_tile4 _ _ _ _ _ _ (iblk4 V c 0 t) (iblk4 V c 1 t) (iblk4 V c 2 t) (iblk4 V c 3 t) (iblk4 V c 4 t) (iblk4 V c 5 t)
      ((cfg4.win 6).xinj (grid4.coords t) j) (((cfg4.win 6).blk t).view.emb j)
      (fun k => iblk4_0_apply V c t _ _ hk0 rfl) (fun k => iblk4_1_apply V c t _ _ hk0 rfl) hk1 (iblk4_2_eq V c t) (iblk4_3_eq V c t) (iblk4_4_eq V c t) (iblk4_5_eq V c t))

/-- An entry of the result is in point t's tile iff each coordinate is in the tile's range on its axis. -/
theorem mem_blk4_6 (t : Fin cfg4.N) (i : S50000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v73_0).slice (win4_6.rect t)).set ↔ _
  rw [View.set_slice_whole, Rect.mem_set_unit]
  exact Iff.rfl

/-- Every entry of the result is in the tile of the point its row's number divided by 5000 names. -/
theorem cover4_6 (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, -, -, -, -, -, -, e0, e1, -⟩ := idx4 t
  refine ⟨t, flush4_6 t, ?_⟩
  rw [mem_blk4_6]
  intro a
  match a with
  | ⟨0, _⟩ =>
    show win4_6.index t 0 * 5000 ≤ (i 0).val ∧ (i 0).val < win4_6.index t 0 * 5000 + 5000
    rw [e0, ht]; omega
  | ⟨1, _⟩ =>
    show win4_6.index t 1 * 128 ≤ (i 1).val ∧ (i 1).val < win4_6.index t 1 * 128 + 128
    rw [e1]; omega

/-- The dense region leaves, in its result array, the whole tables' dense part. -/
theorem mlpZ4 : (dat4 (F := Ideal) V c).arrAt 6 cfg4.N = KSpec.mlpZ (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) :=
  (dat4 V c).arrAt_eq_of_cover 6 _ (fun t _ => flushed4_6_eq V c t) (cover4_6)

/-- What point t writes back to the slab array of column sums is slab t of the whole tables' column sums. -/
theorem flushed4_7_eq (t : Fin cfg4.N) :
    (dat4 (F := Ideal) V c).flushed 7 t = ((cfg4.win 7).blk t).view.read (Elt Ideal)
      (KSpec.tileSum (KSpec.mlpZ (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)))) := by
  obtain ⟨-, -, -, -, -, -, -, -, -, -, -, -, -, -, f0, f1, f2, -⟩ := idx4 t
  show (cfg4.win 7).cut (grid4.coords t) ((dat4 V c).after 7 t) = _
  rw [after4_7]
  funext j
  have hj0 : (j 0).val < 1 := (j 0).isLt
  have hk0 : ((((cfg4.win 7).blk t).view.emb j : S10x8x128.Idx) 0).val = t.val := by
    show win4_7.index t 0 * 1 + 1 * (j 0).val = _
    rw [f0]; omega
  have hk1 : ((((cfg4.win 7).blk t).view.emb j : S10x8x128.Idx) 1).val = (j 1).val := by
    show win4_7.index t 1 * 8 + 1 * (j 1).val = _
    rw [f1]; omega
  have hk2 : ((((cfg4.win 7).blk t).view.emb j : S10x8x128.Idx) 2).val = (j 2).val := by
    show win4_7.index t 2 * 128 + 1 * (j 2).val = _
    rw [f2]; omega
  have hrow : ∀ r : Fin 5000, (KSpec.tileRow ((((cfg4.win 7).blk t).view.emb j : S10x8x128.Idx) 0) r).val = t.val * 5000 + r.val :=
    fun r => by show ((((cfg4.win 7).blk t).view.emb j : S10x8x128.Idx) 0).val * 5000 + r.val = _; rw [hk0]
  exact (congrFun (out4_7_eq (iblk4 V c 0 t) (iblk4 V c 1 t) (iblk4 V c 2 t) (iblk4 V c 3 t) (iblk4 V c 4 t) (iblk4 V c 5 t)) ((cfg4.win 7).xinj (grid4.coords t) j)).trans
    (mlpS_tile4 _ _ _ _ _ _ (iblk4 V c 0 t) (iblk4 V c 1 t) (iblk4 V c 2 t) (iblk4 V c 3 t) (iblk4 V c 4 t) (iblk4 V c 5 t)
      ((cfg4.win 7).xinj (grid4.coords t) j) (((cfg4.win 7).blk t).view.emb j)
      (fun r k => iblk4_0_apply V c t (ix2 r k) (ix2 (KSpec.tileRow ((((cfg4.win 7).blk t).view.emb j : S10x8x128.Idx) 0) r) k) (hrow r) rfl)
      (fun r k => iblk4_1_apply V c t (ix2 r k) (ix2 (KSpec.tileRow ((((cfg4.win 7).blk t).view.emb j : S10x8x128.Idx) 0) r) k) (hrow r) rfl)
      hk1 hk2 (iblk4_2_eq V c t) (iblk4_3_eq V c t) (iblk4_4_eq V c t) (iblk4_5_eq V c t))

/-- An entry of the slab array is in point t's slab iff each coordinate is in the slab's range on its axis. -/
theorem mem_blk4_7 (t : Fin cfg4.N) (i : S10x8x128.Idx) :
    i ∈ ((cfg4.win 7).blk t).view.set ↔ ∀ a : Fin 3, win4_7.index t a * S1x8x128.size a ≤ (i a).val
      ∧ (i a).val < win4_7.index t a * S1x8x128.size a + S1x8x128.size a := by
  show i ∈ ((View.whole main_v73_1).slice (win4_7.rect t)).set ↔ _
  rw [View.set_slice_whole, Rect.mem_set_unit]
  exact Iff.rfl

/-- Every entry of the slab array is in the slab of the point its first coordinate names. -/
theorem cover4_7 (i : S10x8x128.Idx) :
    ∃ t : Fin cfg4.N, (cfg4.win 7).flush t = true ∧ i ∈ ((cfg4.win 7).blk t).view.set := by
  have hi0 : (i 0).val < 10 := (i 0).isLt
  have hi1 : (i 1).val < 8 := (i 1).isLt
  have hi2 : (i 2).val < 128 := (i 2).isLt
  have hN : cfg4.N = 10 := N_4
  obtain ⟨t, ht⟩ : ∃ t : Fin cfg4.N, t.val = (i 0).val := ⟨⟨(i 0).val, by rw [hN]; omega⟩, rfl⟩
  obtain ⟨-, -, -, -, -, -, -, -, -, -, -, -, -, -, f0, f1, f2, -⟩ := idx4 t
  refine ⟨t, flush4_7 t, ?_⟩
  rw [mem_blk4_7]
  intro a
  match a with
  | ⟨0, _⟩ =>
    show win4_7.index t 0 * 1 ≤ (i 0).val ∧ (i 0).val < win4_7.index t 0 * 1 + 1
    rw [f0, ht]; omega
  | ⟨1, _⟩ =>
    show win4_7.index t 1 * 8 ≤ (i 1).val ∧ (i 1).val < win4_7.index t 1 * 8 + 8
    rw [f1]; omega
  | ⟨2, _⟩ =>
    show win4_7.index t 2 * 128 ≤ (i 2).val ∧ (i 2).val < win4_7.index t 2 * 128 + 128
    rw [f2]; omega

/-- The dense region leaves, in its slab array of sums, the per-tile column sums of the whole tables' dense part. -/
theorem mlpS4 : (dat4 (F := Ideal) V c).arrAt 7 cfg4.N = KSpec.tileSum (KSpec.mlpZ (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) :=
  (dat4 V c).arrAt_eq_of_cover 7 _ (fun t _ => flushed4_7_eq V c t) (cover4_7)

/-- What point t writes back to the slab array of column sums of squares is slab t of the whole tables' column sums of squares. -/
theorem flushed4_8_eq (t : Fin cfg4.N) :
    (dat4 (F := Ideal) V c).flushed 8 t = ((cfg4.win 8).blk t).view.read (Elt Ideal)
      (KSpec.tileSumSq (KSpec.mlpZ (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)))) := by
  obtain ⟨-, -, -, -, -, -, -, -, -, -, -, -, -, -, -, -, -, f0, f1, f2⟩ := idx4 t
  show (cfg4.win 8).cut (grid4.coords t) ((dat4 V c).after 8 t) = _
  rw [after4_8]
  funext j
  have hj0 : (j 0).val < 1 := (j 0).isLt
  have hk0 : ((((cfg4.win 8).blk t).view.emb j : S10x8x128.Idx) 0).val = t.val := by
    show win4_8.index t 0 * 1 + 1 * (j 0).val = _
    rw [f0]; omega
  have hk1 : ((((cfg4.win 8).blk t).view.emb j : S10x8x128.Idx) 1).val = (j 1).val := by
    show win4_8.index t 1 * 8 + 1 * (j 1).val = _
    rw [f1]; omega
  have hk2 : ((((cfg4.win 8).blk t).view.emb j : S10x8x128.Idx) 2).val = (j 2).val := by
    show win4_8.index t 2 * 128 + 1 * (j 2).val = _
    rw [f2]; omega
  have hrow : ∀ r : Fin 5000, (KSpec.tileRow ((((cfg4.win 8).blk t).view.emb j : S10x8x128.Idx) 0) r).val = t.val * 5000 + r.val :=
    fun r => by show ((((cfg4.win 8).blk t).view.emb j : S10x8x128.Idx) 0).val * 5000 + r.val = _; rw [hk0]
  exact (congrFun (out4_8_eq (iblk4 V c 0 t) (iblk4 V c 1 t) (iblk4 V c 2 t) (iblk4 V c 3 t) (iblk4 V c 4 t) (iblk4 V c 5 t)) ((cfg4.win 8).xinj (grid4.coords t) j)).trans
    (mlpQ_tile4 _ _ _ _ _ _ (iblk4 V c 0 t) (iblk4 V c 1 t) (iblk4 V c 2 t) (iblk4 V c 3 t) (iblk4 V c 4 t) (iblk4 V c 5 t)
      ((cfg4.win 8).xinj (grid4.coords t) j) (((cfg4.win 8).blk t).view.emb j)
      (fun r k => iblk4_0_apply V c t (ix2 r k) (ix2 (KSpec.tileRow ((((cfg4.win 8).blk t).view.emb j : S10x8x128.Idx) 0) r) k) (hrow r) rfl)
      (fun r k => iblk4_1_apply V c t (ix2 r k) (ix2 (KSpec.tileRow ((((cfg4.win 8).blk t).view.emb j : S10x8x128.Idx) 0) r) k) (hrow r) rfl)
      hk1 hk2 (iblk4_2_eq V c t) (iblk4_3_eq V c t) (iblk4_4_eq V c t) (iblk4_5_eq V c t))

/-- An entry of the slab array is in point t's slab iff each coordinate is in the slab's range on its axis. -/
theorem mem_blk4_8 (t : Fin cfg4.N) (i : S10x8x128.Idx) :
    i ∈ ((cfg4.win 8).blk t).view.set ↔ ∀ a : Fin 3, win4_8.index t a * S1x8x128.size a ≤ (i a).val
      ∧ (i a).val < win4_8.index t a * S1x8x128.size a + S1x8x128.size a := by
  show i ∈ ((View.whole main_v73_2).slice (win4_8.rect t)).set ↔ _
  rw [View.set_slice_whole, Rect.mem_set_unit]
  exact Iff.rfl

/-- Every entry of the slab array is in the slab of the point its first coordinate names. -/
theorem cover4_8 (i : S10x8x128.Idx) :
    ∃ t : Fin cfg4.N, (cfg4.win 8).flush t = true ∧ i ∈ ((cfg4.win 8).blk t).view.set := by
  have hi0 : (i 0).val < 10 := (i 0).isLt
  have hi1 : (i 1).val < 8 := (i 1).isLt
  have hi2 : (i 2).val < 128 := (i 2).isLt
  have hN : cfg4.N = 10 := N_4
  obtain ⟨t, ht⟩ : ∃ t : Fin cfg4.N, t.val = (i 0).val := ⟨⟨(i 0).val, by rw [hN]; omega⟩, rfl⟩
  obtain ⟨-, -, -, -, -, -, -, -, -, -, -, -, -, -, -, -, -, f0, f1, f2⟩ := idx4 t
  refine ⟨t, flush4_8 t, ?_⟩
  rw [mem_blk4_8]
  intro a
  match a with
  | ⟨0, _⟩ =>
    show win4_8.index t 0 * 1 ≤ (i 0).val ∧ (i 0).val < win4_8.index t 0 * 1 + 1
    rw [f0, ht]; omega
  | ⟨1, _⟩ =>
    show win4_8.index t 1 * 8 ≤ (i 1).val ∧ (i 1).val < win4_8.index t 1 * 8 + 8
    rw [f1]; omega
  | ⟨2, _⟩ =>
    show win4_8.index t 2 * 128 ≤ (i 2).val ∧ (i 2).val < win4_8.index t 2 * 128 + 128
    rw [f2]; omega

/-- The dense region leaves, in its slab array of sums of squares, the per-tile column sums of squares. -/
theorem mlpQ4 : (dat4 (F := Ideal) V c).arrAt 8 cfg4.N = KSpec.tileSumSq (KSpec.mlpZ (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) :=
  (dat4 V c).arrAt_eq_of_cover 8 _ (fun t _ => flushed4_8_eq V c t) (cover4_8)

end Cert.KVal

end
-- ==== Proof.KRegionMlp6.lean ====
/-
  The three dense regions, read index by index at the extended reals.

  Each runs over 10 tiles of 5000 rows of two [50000, 128] tables.  At point t the result's tile is the dense part of
  rows 5000·t … 5000·t + 4999, which depends on a tile only through the row it is read at; slab t of each of the two
  [10, 8, 128] arrays holds, in its row 0, the column sums over those 5000 rows of the result and of its square, and
  zeros in the other rows.  The tiles cover the result and the slabs cover the slab arrays, so the three arrays end
  holding functions of the whole tables.  The three regions differ only in the arrays they are run on.
-/
import proofs.«157653_j15152644620445_2_alg».proof.Proof.Gen.KernelIdeal.Frame
import proofs.«157653_j15152644620445_2_alg».proof.Proof.KSpec
import proofs.«157653_j15152644620445_2_alg».proof.Proof.KCommon
import proofs.«157653_j15152644620445_2_alg».proof.Proof.KMlpPay
import Idealize.ShloMosaic.Lib.Pipeline.Value
import Idealize.ShloMosaic.Lib.ValueIdx

noncomputable section

open scoped BigOperators

namespace Cert.KVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-! ## Region 6 -/

/-- The one store to the result's buffer leaves the dense part's payload. -/
theorem out6_6_eq (x0 x1 : Vec Ideal S5000x128 .f32) (x2 : Vec Ideal S128x128 .f32) (x3 : Vec Ideal S1x128 .f32)
    (x4 : Vec Ideal S128x128 .f32) (x5 : Vec Ideal S1x128 .f32) :
    out6_6 (F := Ideal) x0 x1 x2 x3 x4 x5 = k6_pay3 (F := Ideal) x0 x1 x2 x3 x4 x5 := by
  unfold out6_6
  rw [View.canon_unit_zero hz2]
  simp only [View.ld_unit_zero (S := S5000x128) hz2, View.ld_unit_zero (S := S128x128) hz2, View.ld_unit_zero (S := S1x128) hz2]

/-- The one store to the slab of sums leaves the masked column sums. -/
theorem out6_7_eq (x0 x1 : Vec Ideal S5000x128 .f32) (x2 : Vec Ideal S128x128 .f32) (x3 : Vec Ideal S1x128 .f32)
    (x4 : Vec Ideal S128x128 .f32) (x5 : Vec Ideal S1x128 .f32) :
    out6_7 (F := Ideal) x0 x1 x2 x3 x4 x5
      = k6_pay1 (F := Ideal) (k6_pay5 (F := Ideal)) (k6_pay6 (F := Ideal) x0 x1 x2 x3 x4 x5) := by
  unfold out6_7
  rw [View.canon_unit_zero hz3]
  simp only [View.ld_unit_zero (S := S5000x128) hz2, View.ld_unit_zero (S := S128x128) hz2, View.ld_unit_zero (S := S1x128) hz2]

/-- The one store to the slab of sums of squares leaves the masked column sums of squares. -/
theorem out6_8_eq (x0 x1 : Vec Ideal S5000x128 .f32) (x2 : Vec Ideal S128x128 .f32) (x3 : Vec Ideal S1x128 .f32)
    (x4 : Vec Ideal S128x128 .f32) (x5 : Vec Ideal S1x128 .f32) :
    out6_8 (F := Ideal) x0 x1 x2 x3 x4 x5
      = k6_pay2 (F := Ideal) (k6_pay4 (F := Ideal) x0 x1 x2 x3 x4 x5) (k6_pay5 (F := Ideal)) := by
  unfold out6_8
  rw [View.canon_unit_zero hz3]
  simp only [View.ld_unit_zero (S := S5000x128) hz2, View.ld_unit_zero (S := S128x128) hz2, View.ld_unit_zero (S := S1x128) hz2]

/-- The printed index maps over the grid of 10 points: the two input tiles, the result's tile and the two slabs move
    with the point, the weights and bias rows stay. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 3) = t.val ∧ win6_7.index t (1 : Fin 3) = 0 ∧ win6_7.index t (2 : Fin 3) = 0
    ∧ win6_8.index t (0 : Fin 3) = t.val ∧ win6_8.index t (1 : Fin 3) = 0 ∧ win6_8.index t (2 : Fin 3) = 0 :=
  (by decide +kernel : ∀ t : Fin grid6.N, _)

/-- Input table 0's tile at point t holds rows 5000·t … 5000·t + 4999 of the table. -/
theorem iblk6_0_apply (t : Fin cfg6.N) (y : S5000x128.Idx) (k : S50000x128.Idx)
    (hk0 : (k 0).val = t.val * 5000 + (y 0).val) (hk1 : (k 1).val = (y 1).val) :
    (iblk6 V c 0 t : Vec Ideal S5000x128 .f32) y = (V c (Pipeline.arrRef spec6 0) : S50000x128.Idx → EReal) k := by
  obtain ⟨e0, e1, -⟩ := idx6 t
  unfold iblk6
  rw [View.read_apply]
  show V c (Pipeline.arrRef spec6 0) _ = V c (Pipeline.arrRef spec6 0) _
  congr 1
  funext a
  apply Fin.ext
  match a with
  | ⟨0, _⟩ => show win6_0.index t 0 * 5000 + 1 * (y 0).val = (k 0).val; rw [e0, hk0]; omega
  | ⟨1, _⟩ => show win6_0.index t 1 * 128 + 1 * (y 1).val = (k 1).val; rw [e1, hk1]; omega

/-- Input table 1's tile at point t holds rows 5000·t … 5000·t + 4999 of the table. -/
theorem iblk6_1_apply (t : Fin cfg6.N) (y : S5000x128.Idx) (k : S50000x128.Idx)
    (hk0 : (k 0).val = t.val * 5000 + (y 0).val) (hk1 : (k 1).val = (y 1).val) :
    (iblk6 V c 1 t : Vec Ideal S5000x128 .f32) y = (V c (Pipeline.arrRef spec6 1) : S50000x128.Idx → EReal) k := by
  obtain ⟨-, -, e0, e1, -⟩ := idx6 t
  unfold iblk6
  rw [View.read_apply]
  show V c (Pipeline.arrRef spec6 1) _ = V c (Pipeline.arrRef spec6 1) _
  congr 1
  funext a
  apply Fin.ext
  match a with
  | ⟨0, _⟩ => show win6_1.index t 0 * 5000 + 1 * (y 0).val = (k 0).val; rw [e0, hk0]; omega
  | ⟨1, _⟩ => show win6_1.index t 1 * 128 + 1 * (y 1).val = (k 1).val; rw [e1, hk1]; omega

/-- Window 2's block is its whole table at every point. -/
theorem iblk6_2_eq (t : Fin cfg6.N) :
    (iblk6 V c 2 t : Vec Ideal S128x128 .f32) = (V c (Pipeline.arrRef spec6 2) : S128x128.Idx → EReal) := by
  obtain ⟨-, -, -, -, e0, e1, -⟩ := idx6 t
  funext y
  unfold iblk6
  rw [View.read_apply]
  show V c (Pipeline.arrRef spec6 2) _ = V c (Pipeline.arrRef spec6 2) y
  congr 1
  funext a
  apply Fin.ext
  match a with
  | ⟨0, _⟩ => show win6_2.index t 0 * 128 + 1 * (y 0).val = (y 0).val; rw [e0]; omega
  | ⟨1, _⟩ => show win6_2.index t 1 * 128 + 1 * (y 1).val = (y 1).val; rw [e1]; omega

/-- Window 3's block is its whole table at every point. -/
theorem iblk6_3_eq (t : Fin cfg6.N) :
    (iblk6 V c 3 t : Vec Ideal S1x128 .f32) = (V c (Pipeline.arrRef spec6 3) : S1x128.Idx → EReal) := by
  obtain ⟨-, -, -, -, -, -, e0, e1, -⟩ := idx6 t
  funext y
  unfold iblk6
  rw [View.read_apply]
  show V c (Pipeline.arrRef spec6 3) _ = V c (Pipeline.arrRef spec6 3) y
  congr 1
  funext a
  apply Fin.ext
  match a with
  | ⟨0, _⟩ => show win6_3.index t 0 * 1 + 1 * (y 0).val = (y 0).val; rw [e0]; omega
  | ⟨1, _⟩ => show win6_3.index t 1 * 128 + 1 * (y 1).val = (y 1).val; rw [e1]; omega

/-- Window 4's block is its whole table at every point. -/
theorem iblk6_4_eq (t : Fin cfg6.N) :
    (iblk6 V c 4 t : Vec Ideal S128x128 .f32) = (V c (Pipeline.arrRef spec6 4) : S128x128.Idx → EReal) := by
  obtain ⟨-, -, -, -, -, -, -, -, e0, e1, -⟩ := idx6 t
  funext y
  unfold iblk6
  rw [View.read_apply]
  show V c (Pipeline.arrRef spec6 4) _ = V c (Pipeline.arrRef spec6 4) y
  congr 1
  funext a
  apply Fin.ext
  match a with
  | ⟨0, _⟩ => show win6_4.index t 0 * 128 + 1 * (y 0).val = (y 0).val; rw [e0]; omega
  | ⟨1, _⟩ => show win6_4.index t 1 * 128 + 1 * (y 1).val = (y 1).val; rw [e1]; omega

/-- Window 5's block is its whole table at every point. -/
theorem iblk6_5_eq (t : Fin cfg6.N) :
    (iblk6 V c 5 t : Vec Ideal S1x128 .f32) = (V c (Pipeline.arrRef spec6 5) : S1x128.Idx → EReal) := by
  obtain ⟨-, -, -, -, -, -, -, -, -, -, e0, e1, -⟩ := idx6 t
  funext y
  unfold iblk6
  rw [View.read_apply]
  show V c (Pipeline.arrRef spec6 5) _ = V c (Pipeline.arrRef spec6 5) y
  congr 1
  funext a
  apply Fin.ext
  match a with
  | ⟨0, _⟩ => show win6_5.index t 0 * 1 + 1 * (y 0).val = (y 0).val; rw [e0]; omega
  | ⟨1, _⟩ => show win6_5.index t 1 * 128 + 1 * (y 1).val = (y 1).val; rw [e1]; omega

/-- What point t writes back to the result is tile t of the whole tables' dense part. -/
theorem flushed6_6_eq (t : Fin cfg6.N) :
    (dat6 (F := Ideal) V c).flushed 6 t = ((cfg6.win 6).blk t).view.read (Elt Ideal)
      (KSpec.mlpZ (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) := by
  obtain ⟨-, -, -, -, -, -, -, -, -, -, -, -, e0, e1, -⟩ := idx6 t
  show (cfg6.win 6).cut (grid6.coords t) ((dat6 V c).after 6 t) = _
  rw [after6_6]
  funext j
  have hk0 : ((((cfg6.win 6).blk t).view.emb j : S50000x128.Idx) 0).val = t.val * 5000 + (j 0).val := by
    show win6_6.index t 0 * 5000 + 1 * (j 0).val = _
    rw [e0]; omega
  have hk1 : ((((cfg6.win 6).blk t).view.emb j : S50000x128.Idx) 1).val = (j 1).val := by
    show win6_6.index t 1 * 128 + 1 * (j 1).val = _
    rw [e1]; omega
  exact (congrFun (out6_6_eq (iblk6 V c 0 t) (iblk6 V c 1 t) (iblk6 V c 2 t) (iblk6 V c 3 t) (iblk6 V c 4 t) (iblk6 V c 5 t)) ((cfg6.win 6).xinj (grid6.coords t) j)).trans
    (mlp_tile6 _ _ _ _ _ _ (iblk6 V c 0 t) (iblk6 V c 1 t) (iblk6 V c 2 t) (iblk6 V c 3 t) (iblk6 V c 4 t) (iblk6 V c 5 t)
      ((cfg6.win 6).xinj (grid6.coords t) j) (((cfg6.win 6).blk t).view.emb j)
      (fun k => iblk6_0_apply V c t _ _ hk0 rfl) (fun k => iblk6_1_apply V c t _ _ hk0 rfl) hk1 (iblk6_2_eq V c t) (iblk6_3_eq V c t) (iblk6_4_eq V c t) (iblk6_5_eq V c t))

/-- An entry of the result is in point t's tile iff each coordinate is in the tile's range on its axis. -/
theorem mem_blk6_6 (t : Fin cfg6.N) (i : S50000x128.Idx) :
    i ∈ ((cfg6.win 6).blk t).view.set ↔ ∀ a : Fin 2, win6_6.index t a * S5000x128.size a ≤ (i a).val
      ∧ (i a).val < win6_6.index t a * S5000x128.size a + S5000x128.size a := by
  show i ∈ ((View.whole main_v116_0).slice (win6_6.rect t)).set ↔ _
  rw [View.set_slice_whole, Rect.mem_set_unit]
  exact Iff.rfl

/-- Every entry of the result is in the tile of the point its row's number divided by 5000 names. -/
theorem cover6_6 (i : S50000x128.Idx) :
    ∃ t : Fin cfg6.N, (cfg6.win 6).flush t = true ∧ i ∈ ((cfg6.win 6).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨-, -, -, -, -, -, -, -, -, -, -, -, e0, e1, -⟩ := idx6 t
  refine ⟨t, flush6_6 t, ?_⟩
  rw [mem_blk6_6]
  intro a
  match a with
  | ⟨0, _⟩ =>
    show win6_6.index t 0 * 5000 ≤ (i 0).val ∧ (i 0).val < win6_6.index t 0 * 5000 + 5000
    rw [e0, ht]; omega
  | ⟨1, _⟩ =>
    show win6_6.index t 1 * 128 ≤ (i 1).val ∧ (i 1).val < win6_6.index t 1 * 128 + 128
    rw [e1]; omega

/-- The dense region leaves, in its result array, the whole tables' dense part. -/
theorem mlpZ6 : (dat6 (F := Ideal) V c).arrAt 6 cfg6.N = KSpec.mlpZ (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5)) :=
  (dat6 V c).arrAt_eq_of_cover 6 _ (fun t _ => flushed6_6_eq V c t) (cover6_6)

/-- What point t writes back to the slab array of column sums is slab t of the whole tables' column sums. -/
theorem flushed6_7_eq (t : Fin cfg6.N) :
    (dat6 (F := Ideal) V c).flushed 7 t = ((cfg6.win 7).blk t).view.read (Elt Ideal)
      (KSpec.tileSum (KSpec.mlpZ (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5)))) := by
  obtain ⟨-, -, -, -, -, -, -, -, -, -, -, -, -, -, f0, f1, f2, -⟩ := idx6 t
  show (cfg6.win 7).cut (grid6.coords t) ((dat6 V c).after 7 t) = _
  rw [after6_7]
  funext j
  have hj0 : (j 0).val < 1 := (j 0).isLt
  have hk0 : ((((cfg6.win 7).blk t).view.emb j : S10x8x128.Idx) 0).val = t.val := by
    show win6_7.index t 0 * 1 + 1 * (j 0).val = _
    rw [f0]; omega
  have hk1 : ((((cfg6.win 7).blk t).view.emb j : S10x8x128.Idx) 1).val = (j 1).val := by
    show win6_7.index t 1 * 8 + 1 * (j 1).val = _
    rw [f1]; omega
  have hk2 : ((((cfg6.win 7).blk t).view.emb j : S10x8x128.Idx) 2).val = (j 2).val := by
    show win6_7.index t 2 * 128 + 1 * (j 2).val = _
    rw [f2]; omega
  have hrow : ∀ r : Fin 5000, (KSpec.tileRow ((((cfg6.win 7).blk t).view.emb j : S10x8x128.Idx) 0) r).val = t.val * 5000 + r.val :=
    fun r => by show ((((cfg6.win 7).blk t).view.emb j : S10x8x128.Idx) 0).val * 5000 + r.val = _; rw [hk0]
  exact (congrFun (out6_7_eq (iblk6 V c 0 t) (iblk6 V c 1 t) (iblk6 V c 2 t) (iblk6 V c 3 t) (iblk6 V c 4 t) (iblk6 V c 5 t)) ((cfg6.win 7).xinj (grid6.coords t) j)).trans
    (mlpS_tile6 _ _ _ _ _ _ (iblk6 V c 0 t) (iblk6 V c 1 t) (iblk6 V c 2 t) (iblk6 V c 3 t) (iblk6 V c 4 t) (iblk6 V c 5 t)
      ((cfg6.win 7).xinj (grid6.coords t) j) (((cfg6.win 7).blk t).view.emb j)
      (fun r k => iblk6_0_apply V c t (ix2 r k) (ix2 (KSpec.tileRow ((((cfg6.win 7).blk t).view.emb j : S10x8x128.Idx) 0) r) k) (hrow r) rfl)
      (fun r k => iblk6_1_apply V c t (ix2 r k) (ix2 (KSpec.tileRow ((((cfg6.win 7).blk t).view.emb j : S10x8x128.Idx) 0) r) k) (hrow r) rfl)
      hk1 hk2 (iblk6_2_eq V c t) (iblk6_3_eq V c t) (iblk6_4_eq V c t) (iblk6_5_eq V c t))

/-- An entry of the slab array is in point t's slab iff each coordinate is in the slab's range on its axis. -/
theorem mem_blk6_7 (t : Fin cfg6.N) (i : S10x8x128.Idx) :
    i ∈ ((cfg6.win 7).blk t).view.set ↔ ∀ a : Fin 3, win6_7.index t a * S1x8x128.size a ≤ (i a).val
      ∧ (i a).val < win6_7.index t a * S1x8x128.size a + S1x8x128.size a := by
  show i ∈ ((View.whole main_v116_1).slice (win6_7.rect t)).set ↔ _
  rw [View.set_slice_whole, Rect.mem_set_unit]
  exact Iff.rfl

/-- Every entry of the slab array is in the slab of the point its first coordinate names. -/
theorem cover6_7 (i : S10x8x128.Idx) :
    ∃ t : Fin cfg6.N, (cfg6.win 7).flush t = true ∧ i ∈ ((cfg6.win 7).blk t).view.set := by
  have hi0 : (i 0).val < 10 := (i 0).isLt
  have hi1 : (i 1).val < 8 := (i 1).isLt
  have hi2 : (i 2).val < 128 := (i 2).isLt
  have hN : cfg6.N = 10 := N_6
  obtain ⟨t, ht⟩ : ∃ t : Fin cfg6.N, t.val = (i 0).val := ⟨⟨(i 0).val, by rw [hN]; omega⟩, rfl⟩
  obtain ⟨-, -, -, -, -, -, -, -, -, -, -, -, -, -, f0, f1, f2, -⟩ := idx6 t
  refine ⟨t, flush6_7 t, ?_⟩
  rw [mem_blk6_7]
  intro a
  match a with
  | ⟨0, _⟩ =>
    show win6_7.index t 0 * 1 ≤ (i 0).val ∧ (i 0).val < win6_7.index t 0 * 1 + 1
    rw [f0, ht]; omega
  | ⟨1, _⟩ =>
    show win6_7.index t 1 * 8 ≤ (i 1).val ∧ (i 1).val < win6_7.index t 1 * 8 + 8
    rw [f1]; omega
  | ⟨2, _⟩ =>
    show win6_7.index t 2 * 128 ≤ (i 2).val ∧ (i 2).val < win6_7.index t 2 * 128 + 128
    rw [f2]; omega

/-- The dense region leaves, in its slab array of sums, the per-tile column sums of the whole tables' dense part. -/
theorem mlpS6 : (dat6 (F := Ideal) V c).arrAt 7 cfg6.N = KSpec.tileSum (KSpec.mlpZ (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) :=
  (dat6 V c).arrAt_eq_of_cover 7 _ (fun t _ => flushed6_7_eq V c t) (cover6_7)

/-- What point t writes back to the slab array of column sums of squares is slab t of the whole tables' column sums of squares. -/
theorem flushed6_8_eq (t : Fin cfg6.N) :
    (dat6 (F := Ideal) V c).flushed 8 t = ((cfg6.win 8).blk t).view.read (Elt Ideal)
      (KSpec.tileSumSq (KSpec.mlpZ (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5)))) := by
  obtain ⟨-, -, -, -, -, -, -, -, -, -, -, -, -, -, -, -, -, f0, f1, f2⟩ := idx6 t
  show (cfg6.win 8).cut (grid6.coords t) ((dat6 V c).after 8 t) = _
  rw [after6_8]
  funext j
  have hj0 : (j 0).val < 1 := (j 0).isLt
  have hk0 : ((((cfg6.win 8).blk t).view.emb j : S10x8x128.Idx) 0).val = t.val := by
    show win6_8.index t 0 * 1 + 1 * (j 0).val = _
    rw [f0]; omega
  have hk1 : ((((cfg6.win 8).blk t).view.emb j : S10x8x128.Idx) 1).val = (j 1).val := by
    show win6_8.index t 1 * 8 + 1 * (j 1).val = _
    rw [f1]; omega
  have hk2 : ((((cfg6.win 8).blk t).view.emb j : S10x8x128.Idx) 2).val = (j 2).val := by
    show win6_8.index t 2 * 128 + 1 * (j 2).val = _
    rw [f2]; omega
  have hrow : ∀ r : Fin 5000, (KSpec.tileRow ((((cfg6.win 8).blk t).view.emb j : S10x8x128.Idx) 0) r).val = t.val * 5000 + r.val :=
    fun r => by show ((((cfg6.win 8).blk t).view.emb j : S10x8x128.Idx) 0).val * 5000 + r.val = _; rw [hk0]
  exact (congrFun (out6_8_eq (iblk6 V c 0 t) (iblk6 V c 1 t) (iblk6 V c 2 t) (iblk6 V c 3 t) (iblk6 V c 4 t) (iblk6 V c 5 t)) ((cfg6.win 8).xinj (grid6.coords t) j)).trans
    (mlpQ_tile6 _ _ _ _ _ _ (iblk6 V c 0 t) (iblk6 V c 1 t) (iblk6 V c 2 t) (iblk6 V c 3 t) (iblk6 V c 4 t) (iblk6 V c 5 t)
      ((cfg6.win 8).xinj (grid6.coords t) j) (((cfg6.win 8).blk t).view.emb j)
      (fun r k => iblk6_0_apply V c t (ix2 r k) (ix2 (KSpec.tileRow ((((cfg6.win 8).blk t).view.emb j : S10x8x128.Idx) 0) r) k) (hrow r) rfl)
      (fun r k => iblk6_1_apply V c t (ix2 r k) (ix2 (KSpec.tileRow ((((cfg6.win 8).blk t).view.emb j : S10x8x128.Idx) 0) r) k) (hrow r) rfl)
      hk1 hk2 (iblk6_2_eq V c t) (iblk6_3_eq V c t) (iblk6_4_eq V c t) (iblk6_5_eq V c t))

/-- An entry of the slab array is in point t's slab iff each coordinate is in the slab's range on its axis. -/
theorem mem_blk6_8 (t : Fin cfg6.N) (i : S10x8x128.Idx) :
    i ∈ ((cfg6.win 8).blk t).view.set ↔ ∀ a : Fin 3, win6_8.index t a * S1x8x128.size a ≤ (i a).val
      ∧ (i a).val < win6_8.index t a * S1x8x128.size a + S1x8x128.size a := by
  show i ∈ ((View.whole main_v116_2).slice (win6_8.rect t)).set ↔ _
  rw [View.set_slice_whole, Rect.mem_set_unit]
  exact Iff.rfl

/-- Every entry of the slab array is in the slab of the point its first coordinate names. -/
theorem cover6_8 (i : S10x8x128.Idx) :
    ∃ t : Fin cfg6.N, (cfg6.win 8).flush t = true ∧ i ∈ ((cfg6.win 8).blk t).view.set := by
  have hi0 : (i 0).val < 10 := (i 0).isLt
  have hi1 : (i 1).val < 8 := (i 1).isLt
  have hi2 : (i 2).val < 128 := (i 2).isLt
  have hN : cfg6.N = 10 := N_6
  obtain ⟨t, ht⟩ : ∃ t : Fin cfg6.N, t.val = (i 0).val := ⟨⟨(i 0).val, by rw [hN]; omega⟩, rfl⟩
  obtain ⟨-, -, -, -, -, -, -, -, -, -, -, -, -, -, -, -, -, f0, f1, f2⟩ := idx6 t
  refine ⟨t, flush6_8 t, ?_⟩
  rw [mem_blk6_8]
  intro a
  match a with
  | ⟨0, _⟩ =>
    show win6_8.index t 0 * 1 ≤ (i 0).val ∧ (i 0).val < win6_8.index t 0 * 1 + 1
    rw [f0, ht]; omega
  | ⟨1, _⟩ =>
    show win6_8.index t 1 * 8 ≤ (i 1).val ∧ (i 1).val < win6_8.index t 1 * 8 + 8
    rw [f1]; omega
  | ⟨2, _⟩ =>
    show win6_8.index t 2 * 128 ≤ (i 2).val ∧ (i 2).val < win6_8.index t 2 * 128 + 128
    rw [f2]; omega

/-- The dense region leaves, in its slab array of sums of squares, the per-tile column sums of squares. -/
theorem mlpQ6 : (dat6 (F := Ideal) V c).arrAt 8 cfg6.N = KSpec.tileSumSq (KSpec.mlpZ (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) :=
  (dat6 V c).arrAt_eq_of_cover 8 _ (fun t _ => flushed6_8_eq V c t) (cover6_8)

end Cert.KVal

end
-- ==== Proof.KRegionMlp.lean ====
/-
  The three dense regions' values, gathered: one module per region, each over the same reading of the payloads.
-/
import proofs.«157653_j15152644620445_2_alg».proof.Proof.KRegionMlp2
import proofs.«157653_j15152644620445_2_alg».proof.Proof.KRegionMlp4
import proofs.«157653_j15152644620445_2_alg».proof.Proof.KRegionMlp6
-- ==== Proof.KValue.lean ====
import proofs.«157653_j15152644620445_2_alg».proof.Proof.KWalk
import proofs.«157653_j15152644620445_2_alg».proof.Proof.KRegionLin
import proofs.«157653_j15152644620445_2_alg».proof.Proof.KRegionBn
import proofs.«157653_j15152644620445_2_alg».proof.Proof.BridgeLayer
import proofs.«157653_j15152644620445_2_alg».proof.Proof.KRegionMlp

/-! # The kernel program's result is the reference network of the launch arguments

The walk through the boundaries names what every region reads; the regions' values name what every region leaves as a
function of what it reads; the layer lemma turns one layer of the kernel program (dense region on the host's aggregate,
statistics from the per-tile sums, normalisation region) into the reference's layer when the layer's inputs are real.
Chaining: the two encoders give real tables, each layer maps real tables to real tables, so three applications of the
layer lemma and the shared readout head give the reference network. -/

set_option maxRecDepth 16384

noncomputable section

namespace Cert.KValue

open Idealize.ShloMosaic Idealize.ShloMosaic.TcCoe Cert.RealVals
open Cert.KernelIdeal Cert.KernelIdeal.Gen

/-- A function of three arguments respects equality in each. -/
theorem congr3 {α β γ δ : Type} (f : α → β → γ → δ) {a a' : α} {b b' : β} {c c' : γ}
    (ha : a = a') (hb : b = b') (hc : c = c') : f a b c = f a' b' c' := by
  subst ha hb hc; rfl
/-- A function of five arguments respects equality in each. -/
theorem congr5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl
/-- A function of six arguments respects equality in each. -/
theorem congr6 {α β γ δ ε ζ η : Type} (f : α → β → γ → δ → ε → ζ → η) {a a' : α} {b b' : β} {c c' : γ} {d d' : δ}
    {e e' : ε} {g g' : ζ} (ha : a = a') (hb : b = b') (hc : c = c') (hd : d = d') (he : e = e') (hg : g = g') :
    f a b c d e g = f a' b' c' d' e' g' := by
  subst ha hb hc hd he hg; rfl

/-- One layer, from the equations its two regions and its statistics line give: if Z, S, Q are the dense region's three
    output arrays on (h, the aggregate, the layer's weights) and Hn is the normalisation region's output on them, then Hn
    is the reference's layer of h, provided the inputs are real. -/
theorem layer_glue (h : FVec Ideal S50000x128 .f32) (ea : FVec Ideal S600000x128 .f32) (ei : IVec S2x600000 32)
    (w1 : FVec Ideal S128x128 .f32) (b1 : FVec Ideal S128 .f32) (w2 : FVec Ideal S128x128 .f32) (b2 : FVec Ideal S128 .f32)
    (ga be : FVec Ideal S128 .f32) (Z Hn : FVec Ideal S50000x128 .f32) (S Q : FVec Ideal S10x8x128 .f32)
    (eZ : Z = KSpec.mlpZ h (KHost.agg h ea ei) w1 (KHost.row b1) w2 (KHost.row b2))
    (eS : S = KSpec.tileSum (KSpec.mlpZ h (KHost.agg h ea ei) w1 (KHost.row b1) w2 (KHost.row b2)))
    (eQ : Q = KSpec.tileSumSq (KSpec.mlpZ h (KHost.agg h ea ei) w1 (KHost.row b1) w2 (KHost.row b2)))
    (eH : Hn = KSpec.bnG Z (KHost.row (KHost.meanOf S)) (KHost.row (KHost.invOf S Q)) (KHost.row ga) (KHost.row be))
    (hh : AllReal h) (hea : AllReal ea) (hw1 : AllReal w1) (hb1 : AllReal b1) (hw2 : AllReal w2) (hb2 : AllReal b2) :
    Hn = RefSpec.layer h ea (RefSpec.srcIdx ei) (RefSpec.dstIdx ei) w1 b1 w2 b2 ga be := by
  subst eZ eS eQ
  rw [eH]
  exact Bridge.layer_step h ea ei w1 b1 w2 b2 ga be hh hea hw1 hb1 hw2 hb2

/-- The composition over arbitrary arrays: from the equations the regions and the host lines give, the result is the
    reference network. -/
theorem compose (x : FVec Ideal S50000x64 .f32) (ei : IVec S2x600000 32) (eattr : FVec Ideal S600000x16 .f32) (batch : IVec S50000 32) (nw : FVec Ideal S64x128 .f32) (nb : FVec Ideal S128 .f32) (ew : FVec Ideal S16x128 .f32) (eb : FVec Ideal S128 .f32) (W1 : FVec Ideal S3x128x128 .f32) (B1 : FVec Ideal S3x128 .f32) (W2 : FVec Ideal S3x128x128 .f32) (B2 : FVec Ideal S3x128 .f32) (GA : FVec Ideal S3x128 .f32) (BE : FVec Ideal S3x128 .f32) (hw1 : FVec Ideal S128x128 .f32) (hb1 : FVec Ideal S128 .f32) (hw2 : FVec Ideal S128x2 .f32) (hb2 : FVec Ideal S2 .f32)
    (H0 H1 H2 H3 Z0 Z1 Z2 : FVec Ideal S50000x128 .f32) (EA : FVec Ideal S600000x128 .f32)
    (S0 S1 S2 Q0 Q1 Q2 : FVec Ideal S10x8x128 .f32) (R : FVec Ideal S256x2 .f32)
    (eH0 : H0 = KSpec.linG0 x nw (KHost.row nb)) (eEA : EA = KSpec.linG1 eattr ew (KHost.row eb))
    (eZ0 : Z0 = KSpec.mlpZ H0 (KHost.agg H0 EA ei) (KHost.mat0 W1) (KHost.row (KHost.vec0 B1)) (KHost.mat0 W2) (KHost.row (KHost.vec0 B2)))
    (eS0 : S0 = KSpec.tileSum (KSpec.mlpZ H0 (KHost.agg H0 EA ei) (KHost.mat0 W1) (KHost.row (KHost.vec0 B1)) (KHost.mat0 W2) (KHost.row (KHost.vec0 B2))))
    (eQ0 : Q0 = KSpec.tileSumSq (KSpec.mlpZ H0 (KHost.agg H0 EA ei) (KHost.mat0 W1) (KHost.row (KHost.vec0 B1)) (KHost.mat0 W2) (KHost.row (KHost.vec0 B2))))
    (eH1 : H1 = KSpec.bnG Z0 (KHost.row (KHost.meanOf S0)) (KHost.row (KHost.invOf S0 Q0)) (KHost.row (KHost.vec0 GA)) (KHost.row (KHost.vec0 BE)))
    (eZ1 : Z1 = KSpec.mlpZ H1 (KHost.agg H1 EA ei) (KHost.mat1 W1) (KHost.row (KHost.vec1 B1)) (KHost.mat1 W2) (KHost.row (KHost.vec1 B2)))
    (eS1 : S1 = KSpec.tileSum (KSpec.mlpZ H1 (KHost.agg H1 EA ei) (KHost.mat1 W1) (KHost.row (KHost.vec1 B1)) (KHost.mat1 W2) (KHost.row (KHost.vec1 B2))))
    (eQ1 : Q1 = KSpec.tileSumSq (KSpec.mlpZ H1 (KHost.agg H1 EA ei) (KHost.mat1 W1) (KHost.row (KHost.vec1 B1)) (KHost.mat1 W2) (KHost.row (KHost.vec1 B2))))
    (eH2 : H2 = KSpec.bnG Z1 (KHost.row (KHost.meanOf S1)) (KHost.row (KHost.invOf S1 Q1)) (KHost.row (KHost.vec1 GA)) (KHost.row (KHost.vec1 BE)))
    (eZ2 : Z2 = KSpec.mlpZ H2 (KHost.agg H2 EA ei) (KHost.mat2 W1) (KHost.row (KHost.vec2 B1)) (KHost.mat2 W2) (KHost.row (KHost.vec2 B2)))
    (eS2 : S2 = KSpec.tileSum (KSpec.mlpZ H2 (KHost.agg H2 EA ei) (KHost.mat2 W1) (KHost.row (KHost.vec2 B1)) (KHost.mat2 W2) (KHost.row (KHost.vec2 B2))))
    (eQ2 : Q2 = KSpec.tileSumSq (KSpec.mlpZ H2 (KHost.agg H2 EA ei) (KHost.mat2 W1) (KHost.row (KHost.vec2 B1)) (KHost.mat2 W2) (KHost.row (KHost.vec2 B2))))
    (eH3 : H3 = KSpec.bnG Z2 (KHost.row (KHost.meanOf S2)) (KHost.row (KHost.invOf S2 Q2)) (KHost.row (KHost.vec2 GA)) (KHost.row (KHost.vec2 BE)))
    (eR : R = KHost.head H3 batch hw1 hb1 hw2 hb2)
    (rx : AllReal x) (reattr : AllReal eattr) (rnw : AllReal nw) (rnb : AllReal nb) (rew : AllReal ew) (reb : AllReal eb) (rW1 : AllReal W1) (rB1 : AllReal B1) (rW2 : AllReal W2) (rB2 : AllReal B2) (rGA : AllReal GA) (rBE : AllReal BE) (rhw1 : AllReal hw1) (rhb1 : AllReal hb1) (rhw2 : AllReal hw2) (rhb2 : AllReal hb2) :
    R = RefSpec.forward x ei eattr batch nw nb ew eb W1 B1 W2 B2 GA BE hw1 hb1 hw2 hb2 := by
  have e0 : H0 = RefSpec.enc0 x nw nb := eH0.trans (Bridge.enc0_eq x nw nb _)
  have eA : EA = RefSpec.enc1 eattr ew eb := eEA.trans (Bridge.enc1_eq eattr ew eb _)
  have a0 : AllReal H0 := by rw [e0]; exact Bridge.allReal_enc0 x nw nb rx rnw rnb
  have aA : AllReal EA := by rw [eA]; exact Bridge.allReal_enc1 eattr ew eb reattr rew reb
  have m1_0 : AllReal (KHost.mat0 W1) := Bridge.allReal_mat0 W1 rW1
  have v1_0 : AllReal (KHost.vec0 B1) := Bridge.allReal_vec0 B1 rB1
  have m2_0 : AllReal (KHost.mat0 W2) := Bridge.allReal_mat0 W2 rW2
  have v2_0 : AllReal (KHost.vec0 B2) := Bridge.allReal_vec0 B2 rB2
  have vg_0 : AllReal (KHost.vec0 GA) := Bridge.allReal_vec0 GA rGA
  have vb_0 : AllReal (KHost.vec0 BE) := Bridge.allReal_vec0 BE rBE
  have l0 : H1 = RefSpec.layer H0 EA (RefSpec.srcIdx ei) (RefSpec.dstIdx ei) (KHost.mat0 W1) (KHost.vec0 B1) (KHost.mat0 W2) (KHost.vec0 B2) (KHost.vec0 GA) (KHost.vec0 BE) :=
    layer_glue H0 EA ei _ _ _ _ _ _ Z0 H1 S0 Q0 eZ0 eS0 eQ0 eH1 a0 aA m1_0 v1_0 m2_0 v2_0
  have a1 : AllReal H1 := by
    rw [l0]; exact Bridge.allReal_layer H0 EA _ _ _ _ _ _ _ _ a0 aA m1_0 v1_0 m2_0 v2_0 vg_0 vb_0
  have m1_1 : AllReal (KHost.mat1 W1) := Bridge.allReal_mat1 W1 rW1
  have v1_1 : AllReal (KHost.vec1 B1) := Bridge.allReal_vec1 B1 rB1
  have m2_1 : AllReal (KHost.mat1 W2) := Bridge.allReal_mat1 W2 rW2
  have v2_1 : AllReal (KHost.vec1 B2) := Bridge.allReal_vec1 B2 rB2
  have vg_1 : AllReal (KHost.vec1 GA) := Bridge.allReal_vec1 GA rGA
  have vb_1 : AllReal (KHost.vec1 BE) := Bridge.allReal_vec1 BE rBE
  have l1 : H2 = RefSpec.layer H1 EA (RefSpec.srcIdx ei) (RefSpec.dstIdx ei) (KHost.mat1 W1) (KHost.vec1 B1) (KHost.mat1 W2) (KHost.vec1 B2) (KHost.vec1 GA) (KHost.vec1 BE) :=
    layer_glue H1 EA ei _ _ _ _ _ _ Z1 H2 S1 Q1 eZ1 eS1 eQ1 eH2 a1 aA m1_1 v1_1 m2_1 v2_1
  have a2 : AllReal H2 := by
    rw [l1]; exact Bridge.allReal_layer H1 EA _ _ _ _ _ _ _ _ a1 aA m1_1 v1_1 m2_1 v2_1 vg_1 vb_1
  have m1_2 : AllReal (KHost.mat2 W1) := Bridge.allReal_mat2 W1 rW1
  have v1_2 : AllReal (KHost.vec2 B1) := Bridge.allReal_vec2 B1 rB1
  have m2_2 : AllReal (KHost.mat2 W2) := Bridge.allReal_mat2 W2 rW2
  have v2_2 : AllReal (KHost.vec2 B2) := Bridge.allReal_vec2 B2 rB2
  have vg_2 : AllReal (KHost.vec2 GA) := Bridge.allReal_vec2 GA rGA
  have vb_2 : AllReal (KHost.vec2 BE) := Bridge.allReal_vec2 BE rBE
  have l2 : H3 = RefSpec.layer H2 EA (RefSpec.srcIdx ei) (RefSpec.dstIdx ei) (KHost.mat2 W1) (KHost.vec2 B1) (KHost.mat2 W2) (KHost.vec2 B2) (KHost.vec2 GA) (KHost.vec2 BE) :=
    layer_glue H2 EA ei _ _ _ _ _ _ Z2 H3 S2 Q2 eZ2 eS2 eQ2 eH3 a2 aA m1_2 v1_2 m2_2 v2_2
  have a3 : AllReal H3 := by
    rw [l2]; exact Bridge.allReal_layer H2 EA _ _ _ _ _ _ _ _ a2 aA m1_2 v1_2 m2_2 v2_2 vg_2 vb_2
  rw [eR, Bridge.head_eq, l2, l1, l0, e0, eA]
  rfl

variable (m : (ℓ : Loc nD τ sig) → Buf (Elt Ideal) ℓ) (ρ : Dev nD → PrngReg) (c : Dev nD)

/-! ## The regions' arrays as functions of the launch arguments and of earlier regions' arrays -/

/-- The encoded node table is the node encoder of the launch arguments. -/
theorem eH0 : KWalk.H0 m ρ c = KSpec.linG0 (m ((c : Thread nD τ).loc main_arg0)) (m ((c : Thread nD τ).loc main_arg4)) (KHost.row (m ((c : Thread nD τ).loc main_arg5))) :=
  (KVal.lin0 (V1 m ρ) c).trans (congr3 KSpec.linG0 (KWalk.r0_w0 m ρ c) (KWalk.r0_w1 m ρ c) (KWalk.r0_w2 m ρ c))
/-- The encoded edge features are the edge encoder of the launch arguments. -/
theorem eEA : KWalk.EAe m ρ c = KSpec.linG1 (m ((c : Thread nD τ).loc main_arg2)) (m ((c : Thread nD τ).loc main_arg6)) (KHost.row (m ((c : Thread nD τ).loc main_arg7))) :=
  (KVal.lin1 (V3 m ρ) c).trans (congr3 KSpec.linG1 (KWalk.r1_w0 m ρ c) (KWalk.r1_w1 m ρ c) (KWalk.r1_w2 m ρ c))

/-- Layer 0's dense part on the region's entry arrays is the dense part on the named arrays. -/
theorem zarg0 : KSpec.mlpZ (V7 m ρ c (Pipeline.arrRef spec2 0)) (V7 m ρ c (Pipeline.arrRef spec2 1)) (V7 m ρ c (Pipeline.arrRef spec2 2)) (V7 m ρ c (Pipeline.arrRef spec2 3)) (V7 m ρ c (Pipeline.arrRef spec2 4)) (V7 m ρ c (Pipeline.arrRef spec2 5))
    = KSpec.mlpZ (KWalk.H0 m ρ c) (KHost.agg (KWalk.H0 m ρ c) (KWalk.EAe m ρ c) (m ((c : Thread nD τ).loc main_arg1))) (KHost.mat0 (m ((c : Thread nD τ).loc main_arg8))) (KHost.row (KHost.vec0 (m ((c : Thread nD τ).loc main_arg9)))) (KHost.mat0 (m ((c : Thread nD τ).loc main_arg10))) (KHost.row (KHost.vec0 (m ((c : Thread nD τ).loc main_arg11)))) :=
  congr6 KSpec.mlpZ (KWalk.r2_w0 m ρ c) (KWalk.r2_w1 m ρ c) (KWalk.r2_w2 m ρ c) (KWalk.r2_w3 m ρ c) (KWalk.r2_w4 m ρ c) (KWalk.r2_w5 m ρ c)
theorem eZ0 : KWalk.Z0 m ρ c = KSpec.mlpZ (KWalk.H0 m ρ c) (KHost.agg (KWalk.H0 m ρ c) (KWalk.EAe m ρ c) (m ((c : Thread nD τ).loc main_arg1))) (KHost.mat0 (m ((c : Thread nD τ).loc main_arg8))) (KHost.row (KHost.vec0 (m ((c : Thread nD τ).loc main_arg9)))) (KHost.mat0 (m ((c : Thread nD τ).loc main_arg10))) (KHost.row (KHost.vec0 (m ((c : Thread nD τ).loc main_arg11)))) :=
  (KVal.mlpZ2 (V7 m ρ) c).trans (zarg0 m ρ c)
theorem eS0 : KWalk.S0 m ρ c = KSpec.tileSum (KSpec.mlpZ (KWalk.H0 m ρ c) (KHost.agg (KWalk.H0 m ρ c) (KWalk.EAe m ρ c) (m ((c : Thread nD τ).loc main_arg1))) (KHost.mat0 (m ((c : Thread nD τ).loc main_arg8))) (KHost.row (KHost.vec0 (m ((c : Thread nD τ).loc main_arg9)))) (KHost.mat0 (m ((c : Thread nD τ).loc main_arg10))) (KHost.row (KHost.vec0 (m ((c : Thread nD τ).loc main_arg11))))) :=
  (KVal.mlpS2 (V7 m ρ) c).trans (congrArg KSpec.tileSum (zarg0 m ρ c))
theorem eQ0 : KWalk.Q0 m ρ c = KSpec.tileSumSq (KSpec.mlpZ (KWalk.H0 m ρ c) (KHost.agg (KWalk.H0 m ρ c) (KWalk.EAe m ρ c) (m ((c : Thread nD τ).loc main_arg1))) (KHost.mat0 (m ((c : Thread nD τ).loc main_arg8))) (KHost.row (KHost.vec0 (m ((c : Thread nD τ).loc main_arg9)))) (KHost.mat0 (m ((c : Thread nD τ).loc main_arg10))) (KHost.row (KHost.vec0 (m ((c : Thread nD τ).loc main_arg11))))) :=
  (KVal.mlpQ2 (V7 m ρ) c).trans (congrArg KSpec.tileSumSq (zarg0 m ρ c))
theorem eH1 : KWalk.H1 m ρ c = KSpec.bnG (KWalk.Z0 m ρ c) (KHost.row (KHost.meanOf (KWalk.S0 m ρ c)))
    (KHost.row (KHost.invOf (KWalk.S0 m ρ c) (KWalk.Q0 m ρ c))) (KHost.row (KHost.vec0 (m ((c : Thread nD τ).loc main_arg12)))) (KHost.row (KHost.vec0 (m ((c : Thread nD τ).loc main_arg13)))) :=
  (KVal.bn3 (V9 m ρ) c).trans (congr5 KSpec.bnG (KWalk.r3_w0 m ρ c) (KWalk.r3_w1 m ρ c) (KWalk.r3_w2 m ρ c) (KWalk.r3_w3 m ρ c) (KWalk.r3_w4 m ρ c))

/-- Layer 1's dense part on the region's entry arrays is the dense part on the named arrays. -/
theorem zarg1 : KSpec.mlpZ (V13 m ρ c (Pipeline.arrRef spec4 0)) (V13 m ρ c (Pipeline.arrRef spec4 1)) (V13 m ρ c (Pipeline.arrRef spec4 2)) (V13 m ρ c (Pipeline.arrRef spec4 3)) (V13 m ρ c (Pipeline.arrRef spec4 4)) (V13 m ρ c (Pipeline.arrRef spec4 5))
    = KSpec.mlpZ (KWalk.H1 m ρ c) (KHost.agg (KWalk.H1 m ρ c) (KWalk.EAe m ρ c) (m ((c : Thread nD τ).loc main_arg1))) (KHost.mat1 (m ((c : Thread nD τ).loc main_arg8))) (KHost.row (KHost.vec1 (m ((c : Thread nD τ).loc main_arg9)))) (KHost.mat1 (m ((c : Thread nD τ).loc main_arg10))) (KHost.row (KHost.vec1 (m ((c : Thread nD τ).loc main_arg11)))) :=
  congr6 KSpec.mlpZ (KWalk.r4_w0 m ρ c) (KWalk.r4_w1 m ρ c) (KWalk.r4_w2 m ρ c) (KWalk.r4_w3 m ρ c) (KWalk.r4_w4 m ρ c) (KWalk.r4_w5 m ρ c)
theorem eZ1 : KWalk.Z1 m ρ c = KSpec.mlpZ (KWalk.H1 m ρ c) (KHost.agg (KWalk.H1 m ρ c) (KWalk.EAe m ρ c) (m ((c : Thread nD τ).loc main_arg1))) (KHost.mat1 (m ((c : Thread nD τ).loc main_arg8))) (KHost.row (KHost.vec1 (m ((c : Thread nD τ).loc main_arg9)))) (KHost.mat1 (m ((c : Thread nD τ).loc main_arg10))) (KHost.row (KHost.vec1 (m ((c : Thread nD τ).loc main_arg11)))) :=
  (KVal.mlpZ4 (V13 m ρ) c).trans (zarg1 m ρ c)
theorem eS1 : KWalk.S1 m ρ c = KSpec.tileSum (KSpec.mlpZ (KWalk.H1 m ρ c) (KHost.agg (KWalk.H1 m ρ c) (KWalk.EAe m ρ c) (m ((c : Thread nD τ).loc main_arg1))) (KHost.mat1 (m ((c : Thread nD τ).loc main_arg8))) (KHost.row (KHost.vec1 (m ((c : Thread nD τ).loc main_arg9)))) (KHost.mat1 (m ((c : Thread nD τ).loc main_arg10))) (KHost.row (KHost.vec1 (m ((c : Thread nD τ).loc main_arg11))))) :=
  (KVal.mlpS4 (V13 m ρ) c).trans (congrArg KSpec.tileSum (zarg1 m ρ c))
theorem eQ1 : KWalk.Q1 m ρ c = KSpec.tileSumSq (KSpec.mlpZ (KWalk.H1 m ρ c) (KHost.agg (KWalk.H1 m ρ c) (KWalk.EAe m ρ c) (m ((c : Thread nD τ).loc main_arg1))) (KHost.mat1 (m ((c : Thread nD τ).loc main_arg8))) (KHost.row (KHost.vec1 (m ((c : Thread nD τ).loc main_arg9)))) (KHost.mat1 (m ((c : Thread nD τ).loc main_arg10))) (KHost.row (KHost.vec1 (m ((c : Thread nD τ).loc main_arg11))))) :=
  (KVal.mlpQ4 (V13 m ρ) c).trans (congrArg KSpec.tileSumSq (zarg1 m ρ c))
theorem eH2 : KWalk.H2 m ρ c = KSpec.bnG (KWalk.Z1 m ρ c) (KHost.row (KHost.meanOf (KWalk.S1 m ρ c)))
    (KHost.row (KHost.invOf (KWalk.S1 m ρ c) (KWalk.Q1 m ρ c))) (KHost.row (KHost.vec1 (m ((c : Thread nD τ).loc main_arg12)))) (KHost.row (KHost.vec1 (m ((c : Thread nD τ).loc main_arg13)))) :=
  (KVal.bn5 (V15 m ρ) c).trans (congr5 KSpec.bnG (KWalk.r5_w0 m ρ c) (KWalk.r5_w1 m ρ c) (KWalk.r5_w2 m ρ c) (KWalk.r5_w3 m ρ c) (KWalk.r5_w4 m ρ c))

/-- Layer 2's dense part on the region's entry arrays is the dense part on the named arrays. -/
theorem zarg2 : KSpec.mlpZ (V19 m ρ c (Pipeline.arrRef spec6 0)) (V19 m ρ c (Pipeline.arrRef spec6 1)) (V19 m ρ c (Pipeline.arrRef spec6 2)) (V19 m ρ c (Pipeline.arrRef spec6 3)) (V19 m ρ c (Pipeline.arrRef spec6 4)) (V19 m ρ c (Pipeline.arrRef spec6 5))
    = KSpec.mlpZ (KWalk.H2 m ρ c) (KHost.agg (KWalk.H2 m ρ c) (KWalk.EAe m ρ c) (m ((c : Thread nD τ).loc main_arg1))) (KHost.mat2 (m ((c : Thread nD τ).loc main_arg8))) (KHost.row (KHost.vec2 (m ((c : Thread nD τ).loc main_arg9)))) (KHost.mat2 (m ((c : Thread nD τ).loc main_arg10))) (KHost.row (KHost.vec2 (m ((c : Thread nD τ).loc main_arg11)))) :=
  congr6 KSpec.mlpZ (KWalk.r6_w0 m ρ c) (KWalk.r6_w1 m ρ c) (KWalk.r6_w2 m ρ c) (KWalk.r6_w3 m ρ c) (KWalk.r6_w4 m ρ c) (KWalk.r6_w5 m ρ c)
theorem eZ2 : KWalk.Z2 m ρ c = KSpec.mlpZ (KWalk.H2 m ρ c) (KHost.agg (KWalk.H2 m ρ c) (KWalk.EAe m ρ c) (m ((c : Thread nD τ).loc main_arg1))) (KHost.mat2 (m ((c : Thread nD τ).loc main_arg8))) (KHost.row (KHost.vec2 (m ((c : Thread nD τ).loc main_arg9)))) (KHost.mat2 (m ((c : Thread nD τ).loc main_arg10))) (KHost.row (KHost.vec2 (m ((c : Thread nD τ).loc main_arg11)))) :=
  (KVal.mlpZ6 (V19 m ρ) c).trans (zarg2 m ρ c)
theorem eS2 : KWalk.S2 m ρ c = KSpec.tileSum (KSpec.mlpZ (KWalk.H2 m ρ c) (KHost.agg (KWalk.H2 m ρ c) (KWalk.EAe m ρ c) (m ((c : Thread nD τ).loc main_arg1))) (KHost.mat2 (m ((c : Thread nD τ).loc main_arg8))) (KHost.row (KHost.vec2 (m ((c : Thread nD τ).loc main_arg9)))) (KHost.mat2 (m ((c : Thread nD τ).loc main_arg10))) (KHost.row (KHost.vec2 (m ((c : Thread nD τ).loc main_arg11))))) :=
  (KVal.mlpS6 (V19 m ρ) c).trans (congrArg KSpec.tileSum (zarg2 m ρ c))
theorem eQ2 : KWalk.Q2 m ρ c = KSpec.tileSumSq (KSpec.mlpZ (KWalk.H2 m ρ c) (KHost.agg (KWalk.H2 m ρ c) (KWalk.EAe m ρ c) (m ((c : Thread nD τ).loc main_arg1))) (KHost.mat2 (m ((c : Thread nD τ).loc main_arg8))) (KHost.row (KHost.vec2 (m ((c : Thread nD τ).loc main_arg9)))) (KHost.mat2 (m ((c : Thread nD τ).loc main_arg10))) (KHost.row (KHost.vec2 (m ((c : Thread nD τ).loc main_arg11))))) :=
  (KVal.mlpQ6 (V19 m ρ) c).trans (congrArg KSpec.tileSumSq (zarg2 m ρ c))
theorem eH3 : KWalk.H3 m ρ c = KSpec.bnG (KWalk.Z2 m ρ c) (KHost.row (KHost.meanOf (KWalk.S2 m ρ c)))
    (KHost.row (KHost.invOf (KWalk.S2 m ρ c) (KWalk.Q2 m ρ c))) (KHost.row (KHost.vec2 (m ((c : Thread nD τ).loc main_arg12)))) (KHost.row (KHost.vec2 (m ((c : Thread nD τ).loc main_arg13)))) :=
  (KVal.bn7 (V21 m ρ) c).trans (congr5 KSpec.bnG (KWalk.r7_w0 m ρ c) (KWalk.r7_w1 m ρ c) (KWalk.r7_w2 m ρ c) (KWalk.r7_w3 m ρ c) (KWalk.r7_w4 m ρ c))

/-- The result buffer at the last boundary is the reference network of the launch memory's arguments, when the float
    arguments are real. -/
theorem result_eq
    (h0 : AllReal ((m ((c : Thread nD τ).loc main_arg0)) : FVec Ideal S50000x64 .f32))
    (h2 : AllReal ((m ((c : Thread nD τ).loc main_arg2)) : FVec Ideal S600000x16 .f32))
    (h4 : AllReal ((m ((c : Thread nD τ).loc main_arg4)) : FVec Ideal S64x128 .f32))
    (h5 : AllReal ((m ((c : Thread nD τ).loc main_arg5)) : FVec Ideal S128 .f32))
    (h6 : AllReal ((m ((c : Thread nD τ).loc main_arg6)) : FVec Ideal S16x128 .f32))
    (h7 : AllReal ((m ((c : Thread nD τ).loc main_arg7)) : FVec Ideal S128 .f32))
    (h8 : AllReal ((m ((c : Thread nD τ).loc main_arg8)) : FVec Ideal S3x128x128 .f32))
    (h9 : AllReal ((m ((c : Thread nD τ).loc main_arg9)) : FVec Ideal S3x128 .f32))
    (h10 : AllReal ((m ((c : Thread nD τ).loc main_arg10)) : FVec Ideal S3x128x128 .f32))
    (h11 : AllReal ((m ((c : Thread nD τ).loc main_arg11)) : FVec Ideal S3x128 .f32))
    (h12 : AllReal ((m ((c : Thread nD τ).loc main_arg12)) : FVec Ideal S3x128 .f32))
    (h13 : AllReal ((m ((c : Thread nD τ).loc main_arg13)) : FVec Ideal S3x128 .f32))
    (h14 : AllReal ((m ((c : Thread nD τ).loc main_arg14)) : FVec Ideal S128x128 .f32))
    (h15 : AllReal ((m ((c : Thread nD τ).loc main_arg15)) : FVec Ideal S128 .f32))
    (h16 : AllReal ((m ((c : Thread nD τ).loc main_arg16)) : FVec Ideal S128x2 .f32))
    (h17 : AllReal ((m ((c : Thread nD τ).loc main_arg17)) : FVec Ideal S2 .f32)) :
    W25 (F := Ideal) m ρ c (Proc.devRef .tc main_v148)
      = RefSpec.forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  compose (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    (KWalk.H0 m ρ c) (KWalk.H1 m ρ c) (KWalk.H2 m ρ c) (KWalk.H3 m ρ c) (KWalk.Z0 m ρ c) (KWalk.Z1 m ρ c) (KWalk.Z2 m ρ c) (KWalk.EAe m ρ c)
    (KWalk.S0 m ρ c) (KWalk.S1 m ρ c) (KWalk.S2 m ρ c) (KWalk.Q0 m ρ c) (KWalk.Q1 m ρ c) (KWalk.Q2 m ρ c)
    (W25 (F := Ideal) m ρ c (Proc.devRef .tc main_v148))
    (eH0 m ρ c) (eEA m ρ c) (eZ0 m ρ c) (eS0 m ρ c) (eQ0 m ρ c) (eH1 m ρ c) (eZ1 m ρ c) (eS1 m ρ c) (eQ1 m ρ c) (eH2 m ρ c)
    (eZ2 m ρ c) (eS2 m ρ c) (eQ2 m ρ c) (eH3 m ρ c) (KWalk.result m ρ c)
    h0 h2 h4 h5 h6 h7 h8 h9 h10 h11 h12 h13 h14 h15 h16 h17

end Cert.KValue

end
-- ==== Proof.RefRunOps.lean ====
import proofs.«157653_j15152644620445_2_alg».proof.Proof.RefSpec
import Idealize.ShloMosaic.Lib.StableHlo.Run
import Idealize.ShloMosaic.Lib.Pipeline.Frame

/-!
# The reference program as a straight line of array operations

The program's main function is a sequence of array operations, each writing one buffer from the contents of
earlier ones; the small functions it calls (the rectifiers, the variance and its select) are written out at
their call sites over the buffers of that call. The line is cut into consecutive stretches, one per stage of the
network: the index rows, the two encoders, and per layer the message aggregation, the perceptron, the mean, the
variance and the normalisation (the last cut once more where the program's text is cut), then the read-out.
Running the program is running the stretches in order; what each stretch writes is listed beside it, so a
buffer outside the list keeps its contents through the stretch.
-/

noncomputable section

namespace Cert.RefRun

open Cert.ReferenceIdeal Cert.ReferenceIdeal.Gen Idealize.ShloMosaic Idealize.ShloMosaic.TcCoe Idealize.SL.Sem Idealize.ShloMosaic.StableHlo

/-! ## Stage functions over intermediate values -/

/-- The source column from the source row: a negative index counted from the end. -/
def srcIdxOf (r0 : IVec S600000 32) : IVec S600000x1 32 :=
  broadcastInDim S600000x1 ![0] bcast_S600000_S600000x1_0
    (select (cmpi .slt r0 (broadcastInDim S600000 ![] bcast_S_S600000 (constantI S_ 32 0#32)))
      (addi r0 (broadcastInDim S600000 ![] bcast_S_S600000 (constantI S_ 32 50000#32))) r0)

/-- The target column from the target row. -/
def dstIdxOf (r1 : IVec S600000 32) : IVec S600000x1 32 :=
  broadcastInDim S600000x1 ![0] bcast_S600000_S600000x1_0 r1

/-- The layer's perceptron on its summed input. -/
def mlpZ (z : FVec Ideal S50000x128 .f32) (w1 : FVec Ideal S128x128 .f32) (b1 : FVec Ideal S128 .f32)
    (w2 : FVec Ideal S128x128 .f32) (b2 : FVec Ideal S128 .f32) : FVec Ideal S50000x128 .f32 :=
  RefSpec.lin (RefSpec.relu (RefSpec.lin z w1 b1)) w2 b2

variable {F : FTy → Type} [FloatOps F]

/-! ## The stretches -/

/-- Stretch `sIdx`: 4 operations, the last writing `main_v3`. -/
abbrev sIdx : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000 ]
/-- The buffers stretch `sIdx` writes. -/
abbrev sIdx_W : List (Ref sig .tc) := [main_v0, main_v1, main_v2, main_v3]
theorem sIdx_sub : (sIdx : List (HloOp τ sig (Elt F))).Forall fun op => op.bufs ⊆ tcRefs τ sig :=
  ⟨unary_bufs_sub .., reshape_bufs_sub .., unary_bufs_sub .., reshape_bufs_sub ..⟩
theorem sIdx_writes : (sIdx : List (HloOp τ sig (Elt F))).Forall fun op => op.writes ⊆ (sIdx_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sIdx_fresh : ∀ op ∈ (sIdx : List (HloOp τ sig (Elt F))), op.fresh = ∅ := by
  intro _ h; (repeat (cases h with | head => rfl | tail _ h => ?_)); exact nomatch h
/-- A buffer the stretch does not write keeps its contents through it. -/
theorem sIdx_keep (W : Valuation τ sig (Elt F)) (r : Ref sig .tc) (h : r ∉ sIdx_W) :
    after sIdx W (Proc.devRef .tc r) = W (Proc.devRef .tc r) :=
  after_of_writes_sub sIdx W sIdx_writes h

/-- Stretch `sEnc0`: 4 operations, the last writing `main_v7`. -/
abbrev sEnc0 : List (HloOp τ sig (Elt F)) :=
  [ binary main_arg0 main_arg4 main_v4 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)) ]
/-- The buffers stretch `sEnc0` writes. -/
abbrev sEnc0_W : List (Ref sig .tc) := [main_v4, main_v5, main_v6, main_v7]
theorem sEnc0_sub : (sEnc0 : List (HloOp τ sig (Elt F))).Forall fun op => op.bufs ⊆ tcRefs τ sig :=
  ⟨binary_bufs_sub .., unary_bufs_sub .., unary_bufs_sub .., binary_bufs_sub ..⟩
theorem sEnc0_writes : (sEnc0 : List (HloOp τ sig (Elt F))).Forall fun op => op.writes ⊆ (sEnc0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sEnc0_fresh : ∀ op ∈ (sEnc0 : List (HloOp τ sig (Elt F))), op.fresh = ∅ := by
  intro _ h; (repeat (cases h with | head => rfl | tail _ h => ?_)); exact nomatch h
/-- A buffer the stretch does not write keeps its contents through it. -/
theorem sEnc0_keep (W : Valuation τ sig (Elt F)) (r : Ref sig .tc) (h : r ∉ sEnc0_W) :
    after sEnc0 W (Proc.devRef .tc r) = W (Proc.devRef .tc r) :=
  after_of_writes_sub sEnc0 W sEnc0_writes h

/-- Stretch `sEnc1`: 4 operations, the last writing `main_v11`. -/
abbrev sEnc1 : List (HloOp τ sig (Elt F)) :=
  [ binary main_arg2 main_arg6 main_v8 ((fun l r => Host.dotGeneral dot_S600000x16_S16x128_S600000x128_1_0_0_1_n_n none l r) : (⟨S600000x16, .f32⟩ : BufTy).Contents (Elt F) → (⟨S16x128, .f32⟩ : BufTy).Contents (Elt F) → (⟨S600000x128, .f32⟩ : BufTy).Contents (Elt F)),
    unary main_arg7 main_v9 (broadcastInDim S1x128 ![1] bcast_S128_S1x128_1 : (⟨S128, .f32⟩ : BufTy).Contents (Elt F) → (⟨S1x128, .f32⟩ : BufTy).Contents (Elt F)),
    unary main_v9 main_v10 (broadcastInDim S600000x128 ![0, 1] bcast_S1x128_S600000x128_0_1 : (⟨S1x128, .f32⟩ : BufTy).Contents (Elt F) → (⟨S600000x128, .f32⟩ : BufTy).Contents (Elt F)),
    binary main_v8 main_v10 main_v11 (addf : (⟨S600000x128, .f32⟩ : BufTy).Contents (Elt F) → (⟨S600000x128, .f32⟩ : BufTy).Contents (Elt F) → (⟨S600000x128, .f32⟩ : BufTy).Contents (Elt F)) ]
/-- The buffers stretch `sEnc1` writes. -/
abbrev sEnc1_W : List (Ref sig .tc) := [main_v8, main_v9, main_v10, main_v11]
theorem sEnc1_sub : (sEnc1 : List (HloOp τ sig (Elt F))).Forall fun op => op.bufs ⊆ tcRefs τ sig :=
  ⟨binary_bufs_sub .., unary_bufs_sub .., unary_bufs_sub .., binary_bufs_sub ..⟩
theorem sEnc1_writes : (sEnc1 : List (HloOp τ sig (Elt F))).Forall fun op => op.writes ⊆ (sEnc1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sEnc1_fresh : ∀ op ∈ (sEnc1 : List (HloOp τ sig (Elt F))), op.fresh = ∅ := by
  intro _ h; (repeat (cases h with | head => rfl | tail _ h => ?_)); exact nomatch h
/-- A buffer the stretch does not write keeps its contents through it. -/
theorem sEnc1_keep (W : Valuation τ sig (Elt F)) (r : Ref sig .tc) (h : r ∉ sEnc1_W) :
    after sEnc1 W (Proc.devRef .tc r) = W (Proc.devRef .tc r) :=
  after_of_writes_sub sEnc1 W sEnc1_writes h

/-- Stretch `sA1`: 18 operations, the last writing `main_v24`. -/
abbrev sA1 : List (HloOp τ sig (Elt F)) :=
  [ nullary main_c (constantI S_ 32 0#32),
    unary main_c main_v12 (broadcastInDim S600000 ![] bcast_S_S600000 : (⟨S_, .i32⟩ : BufTy).Contents (Elt F) → (⟨S600000, .i32⟩ : BufTy).Contents (Elt F)),
    binary main_v1 main_v12 main_v13 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v14 (broadcastInDim S600000 ![] bcast_S_S600000 : (⟨S_, .i32⟩ : BufTy).Contents (Elt F) → (⟨S600000, .i32⟩ : BufTy).Contents (Elt F)),
    binary main_v1 main_v14 main_v15 (addi : (⟨S600000, .i32⟩ : BufTy).Contents (Elt F) → (⟨S600000, .i32⟩ : BufTy).Contents (Elt F) → (⟨S600000, .i32⟩ : BufTy).Contents (Elt F)),
    ternary main_v13 main_v15 main_v1 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v16 main_v17 (broadcastInDim S600000x1 ![0] bcast_S600000_S600000x1_0 : (⟨S600000, .i32⟩ : BufTy).Contents (Elt F) → (⟨S600000x1, .i32⟩ : BufTy).Contents (Elt F)),
    binary main_v7 main_v17 main_v18 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v18 main_v11 main_v19 (addf : (⟨S600000x128, .f32⟩ : BufTy).Contents (Elt F) → (⟨S600000x128, .f32⟩ : BufTy).Contents (Elt F) → (⟨S600000x128, .f32⟩ : BufTy).Contents (Elt F)),
    TRef.nullary main_call0.cst (constant S_ .f32 0x00000000#32),
    TRef.unary main_call0.cst main_call0.v0 (broadcastInDim S600000x128 ![] bcast_S_S600000x128),
    TRef.binary (.of main_v19 : StableHlo.TRef sig ⟨S600000x128, .f32⟩) main_call0.v0 main_call0.v1 maximumf,
    nullary main_cst (constant S_ .f32 0x00000000#32),
    unary main_cst main_v21 (broadcastInDim S50000x128 ![] bcast_S_S50000x128 : (⟨S_, .f32⟩ : BufTy).Contents (Elt F) → (⟨S50000x128, .f32⟩ : BufTy).Contents (Elt F)),
    unary main_v3 main_v22 (broadcastInDim S600000x1 ![0] bcast_S600000_S600000x1_0 : (⟨S600000, .i32⟩ : BufTy).Contents (Elt F) → (⟨S600000x1, .i32⟩ : BufTy).Contents (Elt F)),
    ternary main_v21 main_v22 main_v20 main_v23 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v7 main_v23 main_v24 (addf : (⟨S50000x128, .f32⟩ : BufTy).Contents (Elt F) → (⟨S50000x128, .f32⟩ : BufTy).Contents (Elt F) → (⟨S50000x128, .f32⟩ : BufTy).Contents (Elt F)) ]
/-- The buffers stretch `sA1` writes. -/
abbrev sA1_W : List (Ref sig .tc) := [main_c, main_v12, main_v13, main_c_0, main_v14, main_v15, main_v16, main_v17, main_v18, main_v19, main_call0_cst, main_call0_v0, main_v20, main_cst, main_v21, main_v22, main_v23, main_v24]
theorem sA1_sub : (sA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub ..⟩
theorem sA1_writes : (sA1 : List (HloOp τ sig (Elt F))).Forall fun op => op.writes ⊆ (sA1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sA1_fresh : ∀ op ∈ (sA1 : List (HloOp τ sig (Elt F))), op.fresh = ∅ := by
  intro _ h; (repeat (cases h with | head => rfl | tail _ h => ?_)); exact nomatch h
/-- A buffer the stretch does not write keeps its contents through it. -/
theorem sA1_keep (W : Valuation τ sig (Elt F)) (r : Ref sig .tc) (h : r ∉ sA1_W) :
    after sA1 W (Proc.devRef .tc r) = W (Proc.devRef .tc r) :=
  after_of_writes_sub sA1 W sA1_writes h

/-- Stretch `sB1`: 19 operations, the last writing `main_v41`. -/
abbrev sB1 : List (HloOp τ sig (Elt F)) :=
  [ unary main_arg8 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v25 main_v26 rfl shapeCasts_S1x128x128_S128x128,
    binary main_v24 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v28 ((extractStridedSlice S1x128 ![0, 0] · slices_S3x128_S1x128_0_0) : (⟨S3x128, .f32⟩ : BufTy).Contents (Elt F) → (⟨S1x128, .f32⟩ : BufTy).Contents (Elt F)),
    reshape main_v28 main_v29 rfl shapeCasts_S1x128_S128,
    unary main_v29 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v27 main_v31 main_v32 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v32 : StableHlo.TRef sig ⟨S50000x128, .f32⟩) main_call1.v0 main_call1.v1 maximumf,
    unary main_arg10 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v34 main_v35 rfl shapeCasts_S1x128x128_S128x128,
    binary main_v33 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v37 ((extractStridedSlice S1x128 ![0, 0] · slices_S3x128_S1x128_0_0) : (⟨S3x128, .f32⟩ : BufTy).Contents (Elt F) → (⟨S1x128, .f32⟩ : BufTy).Contents (Elt F)),
    reshape main_v37 main_v38 rfl shapeCasts_S1x128_S128,
    unary main_v38 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v36 main_v40 main_v41 (addf : (⟨S50000x128, .f32⟩ : BufTy).Contents (Elt F) → (⟨S50000x128, .f32⟩ : BufTy).Contents (Elt F) → (⟨S50000x128, .f32⟩ : BufTy).Contents (Elt F)) ]
/-- The buffers stretch `sB1` writes. -/
abbrev sB1_W : List (Ref sig .tc) := [main_v25, main_v26, main_v27, main_v28, main_v29, main_v30, main_v31, main_v32, main_call1_cst, main_call1_v0, main_v33, main_v34, main_v35, main_v36, main_v37, main_v38, main_v39, main_v40, main_v41]
theorem sB1_sub : (sB1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem sB1_writes : (sB1 : List (HloOp τ sig (Elt F))).Forall fun op => op.writes ⊆ (sB1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sB1_fresh : ∀ op ∈ (sB1 : List (HloOp τ sig (Elt F))), op.fresh = ∅ := by
  intro _ h; (repeat (cases h with | head => rfl | tail _ h => ?_)); exact nomatch h
/-- A buffer the stretch does not write keeps its contents through it. -/
theorem sB1_keep (W : Valuation τ sig (Elt F)) (r : Ref sig .tc) (h : r ∉ sB1_W) :
    after sB1 W (Proc.devRef .tc r) = W (Proc.devRef .tc r) :=
  after_of_writes_sub sB1 W sB1_writes h

/-- Stretch `sC1`: 5 operations, the last writing `main_v44`. -/
abbrev sC1 : List (HloOp τ sig (Elt F)) :=
  [ nullary main_cst_1 (constant S_ .f32 0x00000000#32),
    binary main_v41 main_cst_1 main_v42 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_2 (constant S_ .f32 0x47435000#32),
    unary main_cst_2 main_v43 (broadcastInDim S128 ![] bcast_S_S128 : (⟨S_, .f32⟩ : BufTy).Contents (Elt F) → (⟨S128, .f32⟩ : BufTy).Contents (Elt F)),
    binary main_v42 main_v43 main_v44 (Host.divf : (⟨S128, .f32⟩ : BufTy).Contents (Elt F) → (⟨S128, .f32⟩ : BufTy).Contents (Elt F) → (⟨S128, .f32⟩ : BufTy).Contents (Elt F)) ]
/-- The buffers stretch `sC1` writes. -/
abbrev sC1_W : List (Ref sig .tc) := [main_cst_1, main_v42, main_cst_2, main_v43, main_v44]
theorem sC1_sub : (sC1 : List (HloOp τ sig (Elt F))).Forall fun op => op.bufs ⊆ tcRefs τ sig :=
  ⟨nullary_bufs_sub .., binary_bufs_sub .., nullary_bufs_sub .., unary_bufs_sub .., binary_bufs_sub ..⟩
theorem sC1_writes : (sC1 : List (HloOp τ sig (Elt F))).Forall fun op => op.writes ⊆ (sC1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sC1_fresh : ∀ op ∈ (sC1 : List (HloOp τ sig (Elt F))), op.fresh = ∅ := by
  intro _ h; (repeat (cases h with | head => rfl | tail _ h => ?_)); exact nomatch h
/-- A buffer the stretch does not write keeps its contents through it. -/
theorem sC1_keep (W : Valuation τ sig (Elt F)) (r : Ref sig .tc) (h : r ∉ sC1_W) :
    after sC1 W (Proc.devRef .tc r) = W (Proc.devRef .tc r) :=
  after_of_writes_sub sC1 W sC1_writes h

/-- Stretch `sD1`: 23 operations, the last writing `main_v45`. -/
abbrev sD1 : List (HloOp τ sig (Elt F)) :=
  [ nullary main_c_3 (constantI S_ 32 0#32),
    TRef.nullary main_call2.cst (constant S_ .f32 0x00000000#32),
    TRef.binary (.of main_v41 : StableHlo.TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v41 : StableHlo.TRef sig ⟨S50000x128, .f32⟩) main_call2.v4 main_call2.v5 subf,
    TRef.binary main_call2.v5 main_call2.v5 main_call2.v6 mulf,
    TRef.unary (.of main_c_3 : StableHlo.TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]
/-- The buffers stretch `sD1` writes. -/
abbrev sD1_W : List (Ref sig .tc) := [main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v45]
theorem sD1_sub : (sD1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem sD1_writes : (sD1 : List (HloOp τ sig (Elt F))).Forall fun op => op.writes ⊆ (sD1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sD1_fresh : ∀ op ∈ (sD1 : List (HloOp τ sig (Elt F))), op.fresh = ∅ := by
  intro _ h; (repeat (cases h with | head => rfl | tail _ h => ?_)); exact nomatch h
/-- A buffer the stretch does not write keeps its contents through it. -/
theorem sD1_keep (W : Valuation τ sig (Elt F)) (r : Ref sig .tc) (h : r ∉ sD1_W) :
    after sD1 W (Proc.devRef .tc r) = W (Proc.devRef .tc r) :=
  after_of_writes_sub sD1 W sD1_writes h

/-- Stretch `sE1a`: 8 operations, the last writing `main_v53`. -/
abbrev sE1a : List (HloOp τ sig (Elt F)) :=
  [ unary main_arg12 main_v46 ((extractStridedSlice S1x128 ![0, 0] · slices_S3x128_S1x128_0_0) : (⟨S3x128, .f32⟩ : BufTy).Contents (Elt F) → (⟨S1x128, .f32⟩ : BufTy).Contents (Elt F)),
    reshape main_v46 main_v47 rfl shapeCasts_S1x128_S128,
    unary main_v44 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v41 main_v49 main_v50 (subf : (⟨S50000x128, .f32⟩ : BufTy).Contents (Elt F) → (⟨S50000x128, .f32⟩ : BufTy).Contents (Elt F) → (⟨S50000x128, .f32⟩ : BufTy).Contents (Elt F)),
    unary main_v47 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v52 main_v50 main_v53 (mulf : (⟨S50000x128, .f32⟩ : BufTy).Contents (Elt F) → (⟨S50000x128, .f32⟩ : BufTy).Contents (Elt F) → (⟨S50000x128, .f32⟩ : BufTy).Contents (Elt F)) ]
/-- The buffers stretch `sE1a` writes. -/
abbrev sE1a_W : List (Ref sig .tc) := [main_v46, main_v47, main_v48, main_v49, main_v50, main_v51, main_v52, main_v53]
theorem sE1a_sub : (sE1a : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub .., binary_bufs_sub ..⟩
theorem sE1a_writes : (sE1a : List (HloOp τ sig (Elt F))).Forall fun op => op.writes ⊆ (sE1a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sE1a_fresh : ∀ op ∈ (sE1a : List (HloOp τ sig (Elt F))), op.fresh = ∅ := by
  intro _ h; (repeat (cases h with | head => rfl | tail _ h => ?_)); exact nomatch h
/-- A buffer the stretch does not write keeps its contents through it. -/
theorem sE1a_keep (W : Valuation τ sig (Elt F)) (r : Ref sig .tc) (h : r ∉ sE1a_W) :
    after sE1a W (Proc.devRef .tc r) = W (Proc.devRef .tc r) :=
  after_of_writes_sub sE1a W sE1a_writes h

/-- Stretch `sE1b`: 15 operations, the last writing `main_v65`. -/
abbrev sE1b : List (HloOp τ sig (Elt F)) :=
  [ nullary main_cst_4 (constant S_ .f32 0x3727C5AC#32),
    unary main_cst_4 main_v54 (broadcastInDim S128 ![] bcast_S_S128 : (⟨S_, .f32⟩ : BufTy).Contents (Elt F) → (⟨S128, .f32⟩ : BufTy).Contents (Elt F)),
    binary main_v45 main_v54 main_v55 (addf : (⟨S128, .f32⟩ : BufTy).Contents (Elt F) → (⟨S128, .f32⟩ : BufTy).Contents (Elt F) → (⟨S128, .f32⟩ : BufTy).Contents (Elt F)),
    unary main_v55 main_v56 (Host.rsqrt : (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v53 main_v58 main_v59 (mulf : (⟨S50000x128, .f32⟩ : BufTy).Contents (Elt F) → (⟨S50000x128, .f32⟩ : BufTy).Contents (Elt F) → (⟨S50000x128, .f32⟩ : BufTy).Contents (Elt F)),
    unary main_arg13 main_v60 ((extractStridedSlice S1x128 ![0, 0] · slices_S3x128_S1x128_0_0) : (⟨S3x128, .f32⟩ : BufTy).Contents (Elt F) → (⟨S1x128, .f32⟩ : BufTy).Contents (Elt F)),
    reshape main_v60 main_v61 rfl shapeCasts_S1x128_S128,
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v59 main_v63 main_v64 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v64 : StableHlo.TRef sig ⟨S50000x128, .f32⟩) main_call3.v0 main_call3.v1 maximumf ]
/-- The buffers stretch `sE1b` writes. -/
abbrev sE1b_W : List (Ref sig .tc) := [main_cst_4, main_v54, main_v55, main_v56, main_v57, main_v58, main_v59, main_v60, main_v61, main_v62, main_v63, main_v64, main_call3_cst, main_call3_v0, main_v65]
theorem sE1b_sub : (sE1b : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem sE1b_writes : (sE1b : List (HloOp τ sig (Elt F))).Forall fun op => op.writes ⊆ (sE1b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sE1b_fresh : ∀ op ∈ (sE1b : List (HloOp τ sig (Elt F))), op.fresh = ∅ := by
  intro _ h; (repeat (cases h with | head => rfl | tail _ h => ?_)); exact nomatch h
/-- A buffer the stretch does not write keeps its contents through it. -/
theorem sE1b_keep (W : Valuation τ sig (Elt F)) (r : Ref sig .tc) (h : r ∉ sE1b_W) :
    after sE1b W (Proc.devRef .tc r) = W (Proc.devRef .tc r) :=
  after_of_writes_sub sE1b W sE1b_writes h

/-- Stretch `sA2`: 18 operations, the last writing `main_v78`. -/
abbrev sA2 : List (HloOp τ sig (Elt F)) :=
  [ nullary main_c_5 (constantI S_ 32 0#32),
    unary main_c_5 main_v66 (broadcastInDim S600000 ![] bcast_S_S600000 : (⟨S_, .i32⟩ : BufTy).Contents (Elt F) → (⟨S600000, .i32⟩ : BufTy).Contents (Elt F)),
    binary main_v1 main_v66 main_v67 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v68 (broadcastInDim S600000 ![] bcast_S_S600000 : (⟨S_, .i32⟩ : BufTy).Contents (Elt F) → (⟨S600000, .i32⟩ : BufTy).Contents (Elt F)),
    binary main_v1 main_v68 main_v69 (addi : (⟨S600000, .i32⟩ : BufTy).Contents (Elt F) → (⟨S600000, .i32⟩ : BufTy).Contents (Elt F) → (⟨S600000, .i32⟩ : BufTy).Contents (Elt F)),
    ternary main_v67 main_v69 main_v1 main_v70 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v70 main_v71 (broadcastInDim S600000x1 ![0] bcast_S600000_S600000x1_0 : (⟨S600000, .i32⟩ : BufTy).Contents (Elt F) → (⟨S600000x1, .i32⟩ : BufTy).Contents (Elt F)),
    binary main_v65 main_v71 main_v72 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v72 main_v11 main_v73 (addf : (⟨S600000x128, .f32⟩ : BufTy).Contents (Elt F) → (⟨S600000x128, .f32⟩ : BufTy).Contents (Elt F) → (⟨S600000x128, .f32⟩ : BufTy).Contents (Elt F)),
    TRef.nullary main_call4.cst (constant S_ .f32 0x00000000#32),
    TRef.unary main_call4.cst main_call4.v0 (broadcastInDim S600000x128 ![] bcast_S_S600000x128),
    TRef.binary (.of main_v73 : StableHlo.TRef sig ⟨S600000x128, .f32⟩) main_call4.v0 main_call4.v1 maximumf,
    nullary main_cst_7 (constant S_ .f32 0x00000000#32),
    unary main_cst_7 main_v75 (broadcastInDim S50000x128 ![] bcast_S_S50000x128 : (⟨S_, .f32⟩ : BufTy).Contents (Elt F) → (⟨S50000x128, .f32⟩ : BufTy).Contents (Elt F)),
    unary main_v3 main_v76 (broadcastInDim S600000x1 ![0] bcast_S600000_S600000x1_0 : (⟨S600000, .i32⟩ : BufTy).Contents (Elt F) → (⟨S600000x1, .i32⟩ : BufTy).Contents (Elt F)),
    ternary main_v75 main_v76 main_v74 main_v77 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v65 main_v77 main_v78 (addf : (⟨S50000x128, .f32⟩ : BufTy).Contents (Elt F) → (⟨S50000x128, .f32⟩ : BufTy).Contents (Elt F) → (⟨S50000x128, .f32⟩ : BufTy).Contents (Elt F)) ]
/-- The buffers stretch `sA2` writes. -/
abbrev sA2_W : List (Ref sig .tc) := [main_c_5, main_v66, main_v67, main_c_6, main_v68, main_v69, main_v70, main_v71, main_v72, main_v73, main_call4_cst, main_call4_v0, main_v74, main_cst_7, main_v75, main_v76, main_v77, main_v78]
theorem sA2_sub : (sA2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub ..⟩
theorem sA2_writes : (sA2 : List (HloOp τ sig (Elt F))).Forall fun op => op.writes ⊆ (sA2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sA2_fresh : ∀ op ∈ (sA2 : List (HloOp τ sig (Elt F))), op.fresh = ∅ := by
  intro _ h; (repeat (cases h with | head => rfl | tail _ h => ?_)); exact nomatch h
/-- A buffer the stretch does not write keeps its contents through it. -/
theorem sA2_keep (W : Valuation τ sig (Elt F)) (r : Ref sig .tc) (h : r ∉ sA2_W) :
    after sA2 W (Proc.devRef .tc r) = W (Proc.devRef .tc r) :=
  after_of_writes_sub sA2 W sA2_writes h

/-- Stretch `sB2`: 19 operations, the last writing `main_v95`. -/
abbrev sB2 : List (HloOp τ sig (Elt F)) :=
  [ unary main_arg8 main_v79 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v79 main_v80 rfl shapeCasts_S1x128x128_S128x128,
    binary main_v78 main_v80 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v82 ((extractStridedSlice S1x128 ![1, 0] · slices_S3x128_S1x128_1_0) : (⟨S3x128, .f32⟩ : BufTy).Contents (Elt F) → (⟨S1x128, .f32⟩ : BufTy).Contents (Elt F)),
    reshape main_v82 main_v83 rfl shapeCasts_S1x128_S128,
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v81 main_v85 main_v86 (addf : (⟨S50000x128, .f32⟩ : BufTy).Contents (Elt F) → (⟨S50000x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (.of main_v86 : StableHlo.TRef sig ⟨S50000x128, .f32⟩) main_call5.v0 main_call5.v1 maximumf,
    unary main_arg10 main_v88 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v88 main_v89 rfl shapeCasts_S1x128x128_S128x128,
    binary main_v87 main_v89 main_v90 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v91 ((extractStridedSlice S1x128 ![1, 0] · slices_S3x128_S1x128_1_0) : (⟨S3x128, .f32⟩ : BufTy).Contents (Elt F) → (⟨S1x128, .f32⟩ : BufTy).Contents (Elt F)),
    reshape main_v91 main_v92 rfl shapeCasts_S1x128_S128,
    unary main_v92 main_v93 (broadcastInDim S1x128 ![1] bcast_S128_S1x128_1 : (⟨S128, .f32⟩ : BufTy).Contents (Elt F) → (⟨S1x128, .f32⟩ : BufTy).Contents (Elt F)),
    unary main_v93 main_v94 (broadcastInDim S50000x128 ![0, 1] bcast_S1x128_S50000x128_0_1 : (⟨S1x128, .f32⟩ : BufTy).Contents (Elt F) → (⟨S50000x128, .f32⟩ : BufTy).Contents (Elt F)),
    binary main_v90 main_v94 main_v95 (addf : (⟨S50000x128, .f32⟩ : BufTy).Contents (Elt F) → (⟨S50000x128, .f32⟩ : BufTy).Contents (Elt F) → (⟨S50000x128, .f32⟩ : BufTy).Contents (Elt F)) ]
/-- The buffers stretch `sB2` writes. -/
abbrev sB2_W : List (Ref sig .tc) := [main_v79, main_v80, main_v81, main_v82, main_v83, main_v84, main_v85, main_v86, main_call5_cst, main_call5_v0, main_v87, main_v88, main_v89, main_v90, main_v91, main_v92, main_v93, main_v94, main_v95]
theorem sB2_sub : (sB2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem sB2_writes : (sB2 : List (HloOp τ sig (Elt F))).Forall fun op => op.writes ⊆ (sB2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sB2_fresh : ∀ op ∈ (sB2 : List (HloOp τ sig (Elt F))), op.fresh = ∅ := by
  intro _ h; (repeat (cases h with | head => rfl | tail _ h => ?_)); exact nomatch h
/-- A buffer the stretch does not write keeps its contents through it. -/
theorem sB2_keep (W : Valuation τ sig (Elt F)) (r : Ref sig .tc) (h : r ∉ sB2_W) :
    after sB2 W (Proc.devRef .tc r) = W (Proc.devRef .tc r) :=
  after_of_writes_sub sB2 W sB2_writes h

/-- Stretch `sC2`: 5 operations, the last writing `main_v98`. -/
abbrev sC2 : List (HloOp τ sig (Elt F)) :=
  [ nullary main_cst_8 (constant S_ .f32 0x00000000#32),
    binary main_v95 main_cst_8 main_v96 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_9 (constant S_ .f32 0x47435000#32),
    unary main_cst_9 main_v97 (broadcastInDim S128 ![] bcast_S_S128 : (⟨S_, .f32⟩ : BufTy).Contents (Elt F) → (⟨S128, .f32⟩ : BufTy).Contents (Elt F)),
    binary main_v96 main_v97 main_v98 (Host.divf : (⟨S128, .f32⟩ : BufTy).Contents (Elt F) → (⟨S128, .f32⟩ : BufTy).Contents (Elt F) → (⟨S128, .f32⟩ : BufTy).Contents (Elt F)) ]
/-- The buffers stretch `sC2` writes. -/
abbrev sC2_W : List (Ref sig .tc) := [main_cst_8, main_v96, main_cst_9, main_v97, main_v98]
theorem sC2_sub : (sC2 : List (HloOp τ sig (Elt F))).Forall fun op => op.bufs ⊆ tcRefs τ sig :=
  ⟨nullary_bufs_sub .., binary_bufs_sub .., nullary_bufs_sub .., unary_bufs_sub .., binary_bufs_sub ..⟩
theorem sC2_writes : (sC2 : List (HloOp τ sig (Elt F))).Forall fun op => op.writes ⊆ (sC2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sC2_fresh : ∀ op ∈ (sC2 : List (HloOp τ sig (Elt F))), op.fresh = ∅ := by
  intro _ h; (repeat (cases h with | head => rfl | tail _ h => ?_)); exact nomatch h
/-- A buffer the stretch does not write keeps its contents through it. -/
theorem sC2_keep (W : Valuation τ sig (Elt F)) (r : Ref sig .tc) (h : r ∉ sC2_W) :
    after sC2 W (Proc.devRef .tc r) = W (Proc.devRef .tc r) :=
  after_of_writes_sub sC2 W sC2_writes h

/-- Stretch `sD2`: 23 operations, the last writing `main_v99`. -/
abbrev sD2 : List (HloOp τ sig (Elt F)) :=
  [ nullary main_c_10 (constantI S_ 32 0#32),
    TRef.nullary main_call6.cst (constant S_ .f32 0x00000000#32),
    TRef.binary (.of main_v95 : StableHlo.TRef sig ⟨S50000x128, .f32⟩) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (.of main_v95 : StableHlo.TRef sig ⟨S50000x128, .f32⟩) main_call6.v4 main_call6.v5 subf,
    TRef.binary main_call6.v5 main_call6.v5 main_call6.v6 mulf,
    TRef.unary (.of main_c_10 : StableHlo.TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b) ]
/-- The buffers stretch `sD2` writes. -/
abbrev sD2_W : List (Ref sig .tc) := [main_c_10, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v99]
theorem sD2_sub : (sD2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem sD2_writes : (sD2 : List (HloOp τ sig (Elt F))).Forall fun op => op.writes ⊆ (sD2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sD2_fresh : ∀ op ∈ (sD2 : List (HloOp τ sig (Elt F))), op.fresh = ∅ := by
  intro _ h; (repeat (cases h with | head => rfl | tail _ h => ?_)); exact nomatch h
/-- A buffer the stretch does not write keeps its contents through it. -/
theorem sD2_keep (W : Valuation τ sig (Elt F)) (r : Ref sig .tc) (h : r ∉ sD2_W) :
    after sD2 W (Proc.devRef .tc r) = W (Proc.devRef .tc r) :=
  after_of_writes_sub sD2 W sD2_writes h

/-- Stretch `sE2a`: 7 operations, the last writing `main_v106`. -/
abbrev sE2a : List (HloOp τ sig (Elt F)) :=
  [ unary main_arg12 main_v100 ((extractStridedSlice S1x128 ![1, 0] · slices_S3x128_S1x128_1_0) : (⟨S3x128, .f32⟩ : BufTy).Contents (Elt F) → (⟨S1x128, .f32⟩ : BufTy).Contents (Elt F)),
    reshape main_v100 main_v101 rfl shapeCasts_S1x128_S128,
    unary main_v98 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v95 main_v103 main_v104 (subf : (⟨S50000x128, .f32⟩ : BufTy).Contents (Elt F) → (⟨S50000x128, .f32⟩ : BufTy).Contents (Elt F) → (⟨S50000x128, .f32⟩ : BufTy).Contents (Elt F)),
    unary main_v101 main_v105 (broadcastInDim S1x128 ![1] bcast_S128_S1x128_1 : (⟨S128, .f32⟩ : BufTy).Contents (Elt F) → (⟨S1x128, .f32⟩ : BufTy).Contents (Elt F)),
    unary main_v105 main_v106 (broadcastInDim S50000x128 ![0, 1] bcast_S1x128_S50000x128_0_1 : (⟨S1x128, .f32⟩ : BufTy).Contents (Elt F) → (⟨S50000x128, .f32⟩ : BufTy).Contents (Elt F)) ]
/-- The buffers stretch `sE2a` writes. -/
abbrev sE2a_W : List (Ref sig .tc) := [main_v100, main_v101, main_v102, main_v103, main_v104, main_v105, main_v106]
theorem sE2a_sub : (sE2a : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub ..⟩
theorem sE2a_writes : (sE2a : List (HloOp τ sig (Elt F))).Forall fun op => op.writes ⊆ (sE2a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sE2a_fresh : ∀ op ∈ (sE2a : List (HloOp τ sig (Elt F))), op.fresh = ∅ := by
  intro _ h; (repeat (cases h with | head => rfl | tail _ h => ?_)); exact nomatch h
/-- A buffer the stretch does not write keeps its contents through it. -/
theorem sE2a_keep (W : Valuation τ sig (Elt F)) (r : Ref sig .tc) (h : r ∉ sE2a_W) :
    after sE2a W (Proc.devRef .tc r) = W (Proc.devRef .tc r) :=
  after_of_writes_sub sE2a W sE2a_writes h

/-- Stretch `sE2b`: 16 operations, the last writing `main_v119`. -/
abbrev sE2b : List (HloOp τ sig (Elt F)) :=
  [ binary main_v106 main_v104 main_v107 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x3727C5AC#32),
    unary main_cst_11 main_v108 (broadcastInDim S128 ![] bcast_S_S128 : (⟨S_, .f32⟩ : BufTy).Contents (Elt F) → (⟨S128, .f32⟩ : BufTy).Contents (Elt F)),
    binary main_v99 main_v108 main_v109 (addf : (⟨S128, .f32⟩ : BufTy).Contents (Elt F) → (⟨S128, .f32⟩ : BufTy).Contents (Elt F) → (⟨S128, .f32⟩ : BufTy).Contents (Elt F)),
    unary main_v109 main_v110 (Host.rsqrt : (⟨S128, .f32⟩ : BufTy).Contents (Elt F) → (⟨S128, .f32⟩ : BufTy).Contents (Elt F)),
    unary main_v110 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v107 main_v112 main_v113 (mulf : (⟨S50000x128, .f32⟩ : BufTy).Contents (Elt F) → (⟨S50000x128, .f32⟩ : BufTy).Contents (Elt F) → (⟨S50000x128, .f32⟩ : BufTy).Contents (Elt F)),
    unary main_arg13 main_v114 ((extractStridedSlice S1x128 ![1, 0] · slices_S3x128_S1x128_1_0) : (⟨S3x128, .f32⟩ : BufTy).Contents (Elt F) → (⟨S1x128, .f32⟩ : BufTy).Contents (Elt F)),
    reshape main_v114 main_v115 rfl shapeCasts_S1x128_S128,
    unary main_v115 main_v116 (broadcastInDim S1x128 ![1] bcast_S128_S1x128_1 : (⟨S128, .f32⟩ : BufTy).Contents (Elt F) → (⟨S1x128, .f32⟩ : BufTy).Contents (Elt F)),
    unary main_v116 main_v117 (broadcastInDim S50000x128 ![0, 1] bcast_S1x128_S50000x128_0_1 : (⟨S1x128, .f32⟩ : BufTy).Contents (Elt F) → (⟨S50000x128, .f32⟩ : BufTy).Contents (Elt F)),
    binary main_v113 main_v117 main_v118 (addf : (⟨S50000x128, .f32⟩ : BufTy).Contents (Elt F) → (⟨S50000x128, .f32⟩ : BufTy).Contents (Elt F) → (⟨S50000x128, .f32⟩ : BufTy).Contents (Elt F)),
    TRef.nullary main_call7.cst (constant S_ .f32 0x00000000#32),
    TRef.unary main_call7.cst main_call7.v0 (broadcastInDim S50000x128 ![] bcast_S_S50000x128),
    TRef.binary (.of main_v118 : StableHlo.TRef sig ⟨S50000x128, .f32⟩) main_call7.v0 main_call7.v1 maximumf ]
/-- The buffers stretch `sE2b` writes. -/
abbrev sE2b_W : List (Ref sig .tc) := [main_v107, main_cst_11, main_v108, main_v109, main_v110, main_v111, main_v112, main_v113, main_v114, main_v115, main_v116, main_v117, main_v118, main_call7_cst, main_call7_v0, main_v119]
theorem sE2b_sub : (sE2b : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem sE2b_writes : (sE2b : List (HloOp τ sig (Elt F))).Forall fun op => op.writes ⊆ (sE2b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sE2b_fresh : ∀ op ∈ (sE2b : List (HloOp τ sig (Elt F))), op.fresh = ∅ := by
  intro _ h; (repeat (cases h with | head => rfl | tail _ h => ?_)); exact nomatch h
/-- A buffer the stretch does not write keeps its contents through it. -/
theorem sE2b_keep (W : Valuation τ sig (Elt F)) (r : Ref sig .tc) (h : r ∉ sE2b_W) :
    after sE2b W (Proc.devRef .tc r) = W (Proc.devRef .tc r) :=
  after_of_writes_sub sE2b W sE2b_writes h

/-- Stretch `sA3`: 18 operations, the last writing `main_v132`. -/
abbrev sA3 : List (HloOp τ sig (Elt F)) :=
  [ nullary main_c_12 (constantI S_ 32 0#32),
    unary main_c_12 main_v120 (broadcastInDim S600000 ![] bcast_S_S600000 : (⟨S_, .i32⟩ : BufTy).Contents (Elt F) → (⟨S600000, .i32⟩ : BufTy).Contents (Elt F)),
    binary main_v1 main_v120 main_v121 (cmpi .slt : (⟨S600000, .i32⟩ : BufTy).Contents (Elt F) → (⟨S600000, .i32⟩ : BufTy).Contents (Elt F) → (⟨S600000, .i1⟩ : BufTy).Contents (Elt F)),
    nullary main_c_13 (constantI S_ 32 50000#32),
    unary main_c_13 main_v122 (broadcastInDim S600000 ![] bcast_S_S600000 : (⟨S_, .i32⟩ : BufTy).Contents (Elt F) → (⟨S600000, .i32⟩ : BufTy).Contents (Elt F)),
    binary main_v1 main_v122 main_v123 (addi : (⟨S600000, .i32⟩ : BufTy).Contents (Elt F) → (⟨S600000, .i32⟩ : BufTy).Contents (Elt F) → (⟨S600000, .i32⟩ : BufTy).Contents (Elt F)),
    ternary main_v121 main_v123 main_v1 main_v124 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v124 main_v125 (broadcastInDim S600000x1 ![0] bcast_S600000_S600000x1_0 : (⟨S600000, .i32⟩ : BufTy).Contents (Elt F) → (⟨S600000x1, .i32⟩ : BufTy).Contents (Elt F)),
    binary main_v119 main_v125 main_v126 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v126 main_v11 main_v127 (addf : (⟨S600000x128, .f32⟩ : BufTy).Contents (Elt F) → (⟨S600000x128, .f32⟩ : BufTy).Contents (Elt F) → (⟨S600000x128, .f32⟩ : BufTy).Contents (Elt F)),
    TRef.nullary main_call8.cst (constant S_ .f32 0x00000000#32),
    TRef.unary main_call8.cst main_call8.v0 (broadcastInDim S600000x128 ![] bcast_S_S600000x128),
    TRef.binary (.of main_v127 : StableHlo.TRef sig ⟨S600000x128, .f32⟩) main_call8.v0 main_call8.v1 maximumf,
    nullary main_cst_14 (constant S_ .f32 0x00000000#32),
    unary main_cst_14 main_v129 (broadcastInDim S50000x128 ![] bcast_S_S50000x128 : (⟨S_, .f32⟩ : BufTy).Contents (Elt F) → (⟨S50000x128, .f32⟩ : BufTy).Contents (Elt F)),
    unary main_v3 main_v130 (broadcastInDim S600000x1 ![0] bcast_S600000_S600000x1_0 : (⟨S600000, .i32⟩ : BufTy).Contents (Elt F) → (⟨S600000x1, .i32⟩ : BufTy).Contents (Elt F)),
    ternary main_v129 main_v130 main_v128 main_v131 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v119 main_v131 main_v132 (addf : (⟨S50000x128, .f32⟩ : BufTy).Contents (Elt F) → (⟨S50000x128, .f32⟩ : BufTy).Contents (Elt F) → (⟨S50000x128, .f32⟩ : BufTy).Contents (Elt F)) ]
/-- The buffers stretch `sA3` writes. -/
abbrev sA3_W : List (Ref sig .tc) := [main_c_12, main_v120, main_v121, main_c_13, main_v122, main_v123, main_v124, main_v125, main_v126, main_v127, main_call8_cst, main_call8_v0, main_v128, main_cst_14, main_v129, main_v130, main_v131, main_v132]
theorem sA3_sub : (sA3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub ..⟩
theorem sA3_writes : (sA3 : List (HloOp τ sig (Elt F))).Forall fun op => op.writes ⊆ (sA3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sA3_fresh : ∀ op ∈ (sA3 : List (HloOp τ sig (Elt F))), op.fresh = ∅ := by
  intro _ h; (repeat (cases h with | head => rfl | tail _ h => ?_)); exact nomatch h
/-- A buffer the stretch does not write keeps its contents through it. -/
theorem sA3_keep (W : Valuation τ sig (Elt F)) (r : Ref sig .tc) (h : r ∉ sA3_W) :
    after sA3 W (Proc.devRef .tc r) = W (Proc.devRef .tc r) :=
  after_of_writes_sub sA3 W sA3_writes h

/-- Stretch `sB3`: 19 operations, the last writing `main_v149`. -/
abbrev sB3 : List (HloOp τ sig (Elt F)) :=
  [ unary main_arg8 main_v133 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v133 main_v134 rfl shapeCasts_S1x128x128_S128x128,
    binary main_v132 main_v134 main_v135 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v136 ((extractStridedSlice S1x128 ![2, 0] · slices_S3x128_S1x128_2_0) : (⟨S3x128, .f32⟩ : BufTy).Contents (Elt F) → (⟨S1x128, .f32⟩ : BufTy).Contents (Elt F)),
    reshape main_v136 main_v137 rfl shapeCasts_S1x128_S128,
    unary main_v137 main_v138 (broadcastInDim S1x128 ![1] bcast_S128_S1x128_1 : (⟨S128, .f32⟩ : BufTy).Contents (Elt F) → (⟨S1x128, .f32⟩ : BufTy).Contents (Elt F)),
    unary main_v138 main_v139 (broadcastInDim S50000x128 ![0, 1] bcast_S1x128_S50000x128_0_1 : (⟨S1x128, .f32⟩ : BufTy).Contents (Elt F) → (⟨S50000x128, .f32⟩ : BufTy).Contents (Elt F)),
    binary main_v135 main_v139 main_v140 (addf : (⟨S50000x128, .f32⟩ : BufTy).Contents (Elt F) → (⟨S50000x128, .f32⟩ : BufTy).Contents (Elt F) → (⟨S50000x128, .f32⟩ : BufTy).Contents (Elt F)),
    TRef.nullary main_call9.cst (constant S_ .f32 0x00000000#32),
    TRef.unary main_call9.cst main_call9.v0 (broadcastInDim S50000x128 ![] bcast_S_S50000x128),
    TRef.binary (.of main_v140 : StableHlo.TRef sig ⟨S50000x128, .f32⟩) main_call9.v0 main_call9.v1 maximumf,
    unary main_arg10 main_v142 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v142 main_v143 rfl shapeCasts_S1x128x128_S128x128,
    binary main_v141 main_v143 main_v144 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v145 ((extractStridedSlice S1x128 ![2, 0] · slices_S3x128_S1x128_2_0) : (⟨S3x128, .f32⟩ : BufTy).Contents (Elt F) → (⟨S1x128, .f32⟩ : BufTy).Contents (Elt F)),
    reshape main_v145 main_v146 rfl shapeCasts_S1x128_S128,
    unary main_v146 main_v147 (broadcastInDim S1x128 ![1] bcast_S128_S1x128_1 : (⟨S128, .f32⟩ : BufTy).Contents (Elt F) → (⟨S1x128, .f32⟩ : BufTy).Contents (Elt F)),
    unary main_v147 main_v148 (broadcastInDim S50000x128 ![0, 1] bcast_S1x128_S50000x128_0_1 : (⟨S1x128, .f32⟩ : BufTy).Contents (Elt F) → (⟨S50000x128, .f32⟩ : BufTy).Contents (Elt F)),
    binary main_v144 main_v148 main_v149 (addf : (⟨S50000x128, .f32⟩ : BufTy).Contents (Elt F) → (⟨S50000x128, .f32⟩ : BufTy).Contents (Elt F) → (⟨S50000x128, .f32⟩ : BufTy).Contents (Elt F)) ]
/-- The buffers stretch `sB3` writes. -/
abbrev sB3_W : List (Ref sig .tc) := [main_v133, main_v134, main_v135, main_v136, main_v137, main_v138, main_v139, main_v140, main_call9_cst, main_call9_v0, main_v141, main_v142, main_v143, main_v144, main_v145, main_v146, main_v147, main_v148, main_v149]
theorem sB3_sub : (sB3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem sB3_writes : (sB3 : List (HloOp τ sig (Elt F))).Forall fun op => op.writes ⊆ (sB3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sB3_fresh : ∀ op ∈ (sB3 : List (HloOp τ sig (Elt F))), op.fresh = ∅ := by
  intro _ h; (repeat (cases h with | head => rfl | tail _ h => ?_)); exact nomatch h
/-- A buffer the stretch does not write keeps its contents through it. -/
theorem sB3_keep (W : Valuation τ sig (Elt F)) (r : Ref sig .tc) (h : r ∉ sB3_W) :
    after sB3 W (Proc.devRef .tc r) = W (Proc.devRef .tc r) :=
  after_of_writes_sub sB3 W sB3_writes h

/-- Stretch `sC3`: 5 operations, the last writing `main_v152`. -/
abbrev sC3 : List (HloOp τ sig (Elt F)) :=
  [ nullary main_cst_15 (constant S_ .f32 0x00000000#32),
    binary main_v149 main_cst_15 main_v150 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_16 (constant S_ .f32 0x47435000#32),
    unary main_cst_16 main_v151 (broadcastInDim S128 ![] bcast_S_S128 : (⟨S_, .f32⟩ : BufTy).Contents (Elt F) → (⟨S128, .f32⟩ : BufTy).Contents (Elt F)),
    binary main_v150 main_v151 main_v152 (Host.divf : (⟨S128, .f32⟩ : BufTy).Contents (Elt F) → (⟨S128, .f32⟩ : BufTy).Contents (Elt F) → (⟨S128, .f32⟩ : BufTy).Contents (Elt F)) ]
/-- The buffers stretch `sC3` writes. -/
abbrev sC3_W : List (Ref sig .tc) := [main_cst_15, main_v150, main_cst_16, main_v151, main_v152]
theorem sC3_sub : (sC3 : List (HloOp τ sig (Elt F))).Forall fun op => op.bufs ⊆ tcRefs τ sig :=
  ⟨nullary_bufs_sub .., binary_bufs_sub .., nullary_bufs_sub .., unary_bufs_sub .., binary_bufs_sub ..⟩
theorem sC3_writes : (sC3 : List (HloOp τ sig (Elt F))).Forall fun op => op.writes ⊆ (sC3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sC3_fresh : ∀ op ∈ (sC3 : List (HloOp τ sig (Elt F))), op.fresh = ∅ := by
  intro _ h; (repeat (cases h with | head => rfl | tail _ h => ?_)); exact nomatch h
/-- A buffer the stretch does not write keeps its contents through it. -/
theorem sC3_keep (W : Valuation τ sig (Elt F)) (r : Ref sig .tc) (h : r ∉ sC3_W) :
    after sC3 W (Proc.devRef .tc r) = W (Proc.devRef .tc r) :=
  after_of_writes_sub sC3 W sC3_writes h

/-- Stretch `sD3`: 23 operations, the last writing `main_v153`. -/
abbrev sD3 : List (HloOp τ sig (Elt F)) :=
  [ nullary main_c_17 (constantI S_ 32 0#32),
    TRef.nullary main_call10.cst (constant S_ .f32 0x00000000#32),
    TRef.binary (.of main_v149 : StableHlo.TRef sig ⟨S50000x128, .f32⟩) main_call10.cst main_call10.v0 (fun x v => Host.reduceAdd x v reducesTo_S50000x128_S128_d0 h_S_),
    TRef.unary main_call10.v0 main_call10.v1 (broadcastInDim S1x128 ![1] bcast_S128_S1x128_1),
    TRef.nullary main_call10.cst_0 (constant S_ .f32 0x47435000#32),
    TRef.unary main_call10.cst_0 main_call10.v2 (broadcastInDim S1x128 ![] bcast_S_S1x128),
    TRef.binary main_call10.v1 main_call10.v2 main_call10.v3 Host.divf,
    TRef.unary main_call10.v3 main_call10.v4 (broadcastInDim S50000x128 ![0, 1] bcast_S1x128_S50000x128_0_1),
    TRef.binary (.of main_v149 : StableHlo.TRef sig ⟨S50000x128, .f32⟩) main_call10.v4 main_call10.v5 subf,
    TRef.binary main_call10.v5 main_call10.v5 main_call10.v6 mulf,
    TRef.unary (.of main_c_17 : StableHlo.TRef sig ⟨S_, .i32⟩) main_call10.v7 (sitofp .f32),
    TRef.nullary main_call10.cst_1 (constant S_ .f32 0x47435000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S50000x128_S128_d0 h_S_),
    TRef.unary main_call10.v8 main_call10.v10 (broadcastInDim S128 ![] bcast_S_S128),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10.call0.v0 id,
    TRef.unary main_call10.call0.v0 main_call10.call0.v1 (broadcastInDim S128 ![] bcast_S_S128),
    TRef.ternary main_call10.v12 main_call10.v11 main_call10.call0.v1 main_call10.call0.v2 (fun p a b => select (broadcastInDim S128 ![] bcast_S_S128 p) a b) ]
/-- The buffers stretch `sD3` writes. -/
abbrev sD3_W : List (Ref sig .tc) := [main_c_17, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v153]
theorem sD3_sub : (sD3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem sD3_writes : (sD3 : List (HloOp τ sig (Elt F))).Forall fun op => op.writes ⊆ (sD3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sD3_fresh : ∀ op ∈ (sD3 : List (HloOp τ sig (Elt F))), op.fresh = ∅ := by
  intro _ h; (repeat (cases h with | head => rfl | tail _ h => ?_)); exact nomatch h
/-- A buffer the stretch does not write keeps its contents through it. -/
theorem sD3_keep (W : Valuation τ sig (Elt F)) (r : Ref sig .tc) (h : r ∉ sD3_W) :
    after sD3 W (Proc.devRef .tc r) = W (Proc.devRef .tc r) :=
  after_of_writes_sub sD3 W sD3_writes h

/-- Stretch `sE3a`: 6 operations, the last writing `main_v159`. -/
abbrev sE3a : List (HloOp τ sig (Elt F)) :=
  [ unary main_arg12 main_v154 ((extractStridedSlice S1x128 ![2, 0] · slices_S3x128_S1x128_2_0) : (⟨S3x128, .f32⟩ : BufTy).Contents (Elt F) → (⟨S1x128, .f32⟩ : BufTy).Contents (Elt F)),
    reshape main_v154 main_v155 rfl shapeCasts_S1x128_S128,
    unary main_v152 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v149 main_v157 main_v158 (subf : (⟨S50000x128, .f32⟩ : BufTy).Contents (Elt F) → (⟨S50000x128, .f32⟩ : BufTy).Contents (Elt F) → (⟨S50000x128, .f32⟩ : BufTy).Contents (Elt F)),
    unary main_v155 main_v159 (broadcastInDim S1x128 ![1] bcast_S128_S1x128_1 : (⟨S128, .f32⟩ : BufTy).Contents (Elt F) → (⟨S1x128, .f32⟩ : BufTy).Contents (Elt F)) ]
/-- The buffers stretch `sE3a` writes. -/
abbrev sE3a_W : List (Ref sig .tc) := [main_v154, main_v155, main_v156, main_v157, main_v158, main_v159]
theorem sE3a_sub : (sE3a : List (HloOp τ sig (Elt F))).Forall fun op => op.bufs ⊆ tcRefs τ sig :=
  ⟨unary_bufs_sub .., reshape_bufs_sub .., unary_bufs_sub .., unary_bufs_sub .., binary_bufs_sub .., unary_bufs_sub ..⟩
theorem sE3a_writes : (sE3a : List (HloOp τ sig (Elt F))).Forall fun op => op.writes ⊆ (sE3a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sE3a_fresh : ∀ op ∈ (sE3a : List (HloOp τ sig (Elt F))), op.fresh = ∅ := by
  intro _ h; (repeat (cases h with | head => rfl | tail _ h => ?_)); exact nomatch h
/-- A buffer the stretch does not write keeps its contents through it. -/
theorem sE3a_keep (W : Valuation τ sig (Elt F)) (r : Ref sig .tc) (h : r ∉ sE3a_W) :
    after sE3a W (Proc.devRef .tc r) = W (Proc.devRef .tc r) :=
  after_of_writes_sub sE3a W sE3a_writes h

/-- Stretch `sE3b`: 17 operations, the last writing `main_v173`. -/
abbrev sE3b : List (HloOp τ sig (Elt F)) :=
  [ unary main_v159 main_v160 (broadcastInDim S50000x128 ![0, 1] bcast_S1x128_S50000x128_0_1 : (⟨S1x128, .f32⟩ : BufTy).Contents (Elt F) → (⟨S50000x128, .f32⟩ : BufTy).Contents (Elt F)),
    binary main_v160 main_v158 main_v161 (mulf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3727C5AC#32),
    unary main_cst_18 main_v162 (broadcastInDim S128 ![] bcast_S_S128 : (⟨S_, .f32⟩ : BufTy).Contents (Elt F) → (⟨S128, .f32⟩ : BufTy).Contents (Elt F)),
    binary main_v153 main_v162 main_v163 (addf : (⟨S128, .f32⟩ : BufTy).Contents (Elt F) → (⟨S128, .f32⟩ : BufTy).Contents (Elt F) → (⟨S128, .f32⟩ : BufTy).Contents (Elt F)),
    unary main_v163 main_v164 (Host.rsqrt : (⟨S128, .f32⟩ : BufTy).Contents (Elt F) → (⟨S128, .f32⟩ : BufTy).Contents (Elt F)),
    unary main_v164 main_v165 (broadcastInDim S1x128 ![1] bcast_S128_S1x128_1 : (⟨S128, .f32⟩ : BufTy).Contents (Elt F) → (⟨S1x128, .f32⟩ : BufTy).Contents (Elt F)),
    unary main_v165 main_v166 (broadcastInDim S50000x128 ![0, 1] bcast_S1x128_S50000x128_0_1 : (⟨S1x128, .f32⟩ : BufTy).Contents (Elt F) → (⟨S50000x128, .f32⟩ : BufTy).Contents (Elt F)),
    binary main_v161 main_v166 main_v167 (mulf : (⟨S50000x128, .f32⟩ : BufTy).Contents (Elt F) → (⟨S50000x128, .f32⟩ : BufTy).Contents (Elt F) → (⟨S50000x128, .f32⟩ : BufTy).Contents (Elt F)),
    unary main_arg13 main_v168 ((extractStridedSlice S1x128 ![2, 0] · slices_S3x128_S1x128_2_0) : (⟨S3x128, .f32⟩ : BufTy).Contents (Elt F) → (⟨S1x128, .f32⟩ : BufTy).Contents (Elt F)),
    reshape main_v168 main_v169 rfl shapeCasts_S1x128_S128,
    unary main_v169 main_v170 (broadcastInDim S1x128 ![1] bcast_S128_S1x128_1 : (⟨S128, .f32⟩ : BufTy).Contents (Elt F) → (⟨S1x128, .f32⟩ : BufTy).Contents (Elt F)),
    unary main_v170 main_v171 (broadcastInDim S50000x128 ![0, 1] bcast_S1x128_S50000x128_0_1 : (⟨S1x128, .f32⟩ : BufTy).Contents (Elt F) → (⟨S50000x128, .f32⟩ : BufTy).Contents (Elt F)),
    binary main_v167 main_v171 main_v172 (addf : (⟨S50000x128, .f32⟩ : BufTy).Contents (Elt F) → (⟨S50000x128, .f32⟩ : BufTy).Contents (Elt F) → (⟨S50000x128, .f32⟩ : BufTy).Contents (Elt F)),
    TRef.nullary main_call11.cst (constant S_ .f32 0x00000000#32),
    TRef.unary main_call11.cst main_call11.v0 (broadcastInDim S50000x128 ![] bcast_S_S50000x128),
    TRef.binary (.of main_v172 : StableHlo.TRef sig ⟨S50000x128, .f32⟩) main_call11.v0 main_call11.v1 maximumf ]
/-- The buffers stretch `sE3b` writes. -/
abbrev sE3b_W : List (Ref sig .tc) := [main_v160, main_v161, main_cst_18, main_v162, main_v163, main_v164, main_v165, main_v166, main_v167, main_v168, main_v169, main_v170, main_v171, main_v172, main_call11_cst, main_call11_v0, main_v173]
theorem sE3b_sub : (sE3b : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem sE3b_writes : (sE3b : List (HloOp τ sig (Elt F))).Forall fun op => op.writes ⊆ (sE3b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sE3b_fresh : ∀ op ∈ (sE3b : List (HloOp τ sig (Elt F))), op.fresh = ∅ := by
  intro _ h; (repeat (cases h with | head => rfl | tail _ h => ?_)); exact nomatch h
/-- A buffer the stretch does not write keeps its contents through it. -/
theorem sE3b_keep (W : Valuation τ sig (Elt F)) (r : Ref sig .tc) (h : r ∉ sE3b_W) :
    after sE3b W (Proc.devRef .tc r) = W (Proc.devRef .tc r) :=
  after_of_writes_sub sE3b W sE3b_writes h

/-- Stretch `sHead`: 15 operations, the last writing `main_v185`. -/
abbrev sHead : List (HloOp τ sig (Elt F)) :=
  [ nullary main_cst_19 (constant S_ .f32 0x00000000#32),
    unary main_cst_19 main_v174 (broadcastInDim S256x128 ![] bcast_S_S256x128 : (⟨S_, .f32⟩ : BufTy).Contents (Elt F) → (⟨S256x128, .f32⟩ : BufTy).Contents (Elt F)),
    unary main_arg3 main_v175 (broadcastInDim S50000x1 ![0] bcast_S50000_S50000x1_0 : (⟨S50000, .i32⟩ : BufTy).Contents (Elt F) → (⟨S50000x1, .i32⟩ : BufTy).Contents (Elt F)),
    ternary main_v174 main_v175 main_v173 main_v176 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    binary main_v176 main_arg14 main_v177 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    unary main_arg15 main_v178 (broadcastInDim S1x128 ![1] bcast_S128_S1x128_1 : (⟨S128, .f32⟩ : BufTy).Contents (Elt F) → (⟨S1x128, .f32⟩ : BufTy).Contents (Elt F)),
    unary main_v178 main_v179 (broadcastInDim S256x128 ![0, 1] bcast_S1x128_S256x128_0_1 : (⟨S1x128, .f32⟩ : BufTy).Contents (Elt F) → (⟨S256x128, .f32⟩ : BufTy).Contents (Elt F)),
    binary main_v177 main_v179 main_v180 (addf : (⟨S256x128, .f32⟩ : BufTy).Contents (Elt F) → (⟨S256x128, .f32⟩ : BufTy).Contents (Elt F) → (⟨S256x128, .f32⟩ : BufTy).Contents (Elt F)),
    TRef.nullary main_call12.cst (constant S_ .f32 0x00000000#32),
    TRef.unary main_call12.cst main_call12.v0 (broadcastInDim S256x128 ![] bcast_S_S256x128),
    TRef.binary (.of main_v180 : StableHlo.TRef sig ⟨S256x128, .f32⟩) main_call12.v0 main_call12.v1 maximumf,
    binary main_v181 main_arg16 main_v182 ((fun l r => Host.dotGeneral dot_S256x128_S128x2_S256x2_1_0_0_1_n_n none l r) : (⟨S256x128, .f32⟩ : BufTy).Contents (Elt F) → (⟨S128x2, .f32⟩ : BufTy).Contents (Elt F) → (⟨S256x2, .f32⟩ : BufTy).Contents (Elt F)),
    unary main_arg17 main_v183 (broadcastInDim S1x2 ![1] bcast_S2_S1x2_1 : (⟨S2, .f32⟩ : BufTy).Contents (Elt F) → (⟨S1x2, .f32⟩ : BufTy).Contents (Elt F)),
    unary main_v183 main_v184 (broadcastInDim S256x2 ![0, 1] bcast_S1x2_S256x2_0_1 : (⟨S1x2, .f32⟩ : BufTy).Contents (Elt F) → (⟨S256x2, .f32⟩ : BufTy).Contents (Elt F)),
    binary main_v182 main_v184 main_v185 (addf : (⟨S256x2, .f32⟩ : BufTy).Contents (Elt F) → (⟨S256x2, .f32⟩ : BufTy).Contents (Elt F) → (⟨S256x2, .f32⟩ : BufTy).Contents (Elt F)) ]
/-- The buffers stretch `sHead` writes. -/
abbrev sHead_W : List (Ref sig .tc) := [main_cst_19, main_v174, main_v175, main_v176, main_v177, main_v178, main_v179, main_v180, main_call12_cst, main_call12_v0, main_v181, main_v182, main_v183, main_v184, main_v185]
theorem sHead_sub : (sHead : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem sHead_writes : (sHead : List (HloOp τ sig (Elt F))).Forall fun op => op.writes ⊆ (sHead_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem sHead_fresh : ∀ op ∈ (sHead : List (HloOp τ sig (Elt F))), op.fresh = ∅ := by
  intro _ h; (repeat (cases h with | head => rfl | tail _ h => ?_)); exact nomatch h
/-- A buffer the stretch does not write keeps its contents through it. -/
theorem sHead_keep (W : Valuation τ sig (Elt F)) (r : Ref sig .tc) (h : r ∉ sHead_W) :
    after sHead W (Proc.devRef .tc r) = W (Proc.devRef .tc r) :=
  after_of_writes_sub sHead W sHead_writes h

/-! ## The program is the stretches in order -/

/-- The operations of the program's window 0. -/
abbrev part0 : List (HloOp τ sig (Elt F)) := sIdx ++ (sEnc0 ++ (sEnc1 ++ (sA1 ++ (sB1 ++ (sC1 ++ (sD1 ++ (sE1a)))))))
set_option maxRecDepth 8192 in
set_option maxHeartbeats 4000000 in
theorem main_part0_eq (c : Dev nD) : main_part0 (F := F) c = seq part0 := by
  simp only [main_part0, fn_relu.body, fn_relu_0.body, fn_relu_1.body, fn_var.body, fn_where.body, part0, sIdx, sEnc0, sEnc1, sA1, sB1, sC1, sD1, sE1a,
    List.cons_append, List.nil_append, seq, bind_assoc, pure_bind]
  rfl

/-- The operations of the program's window 1. -/
abbrev part1 : List (HloOp τ sig (Elt F)) := sE1b ++ (sA2 ++ (sB2 ++ (sC2 ++ (sD2 ++ (sE2a)))))
set_option maxRecDepth 8192 in
set_option maxHeartbeats 4000000 in
theorem main_part1_eq (c : Dev nD) : main_part1 (F := F) c = seq part1 := by
  simp only [main_part1, fn_relu.body, fn_relu_0.body, fn_relu_1.body, fn_var.body, fn_where.body, part1, sE1b, sA2, sB2, sC2, sD2, sE2a,
    List.cons_append, List.nil_append, seq, bind_assoc, pure_bind]
  rfl

/-- The operations of the program's window 2. -/
abbrev part2 : List (HloOp τ sig (Elt F)) := sE2b ++ (sA3 ++ (sB3 ++ (sC3 ++ (sD3 ++ (sE3a)))))
set_option maxRecDepth 8192 in
set_option maxHeartbeats 4000000 in
theorem main_part2_eq (c : Dev nD) : main_part2 (F := F) c = seq part2 := by
  simp only [main_part2, fn_relu.body, fn_relu_0.body, fn_relu_1.body, fn_var.body, fn_where.body, part2, sE2b, sA3, sB3, sC3, sD3, sE3a,
    List.cons_append, List.nil_append, seq, bind_assoc, pure_bind]
  rfl

/-- The operations of the program's window 3. -/
abbrev part3 : List (HloOp τ sig (Elt F)) := sE3b ++ (sHead)
set_option maxRecDepth 8192 in
set_option maxHeartbeats 4000000 in
theorem main_part3_eq (c : Dev nD) : main_part3 (F := F) c = seq part3 := by
  simp only [main_part3, fn_relu.body, fn_relu_0.body, fn_relu_1.body, fn_var.body, fn_where.body, part3, sE3b, sHead,
    List.cons_append, List.nil_append, seq, bind_assoc, pure_bind]

/-- The whole line. -/
abbrev ops : List (HloOp τ sig (Elt F)) := part0 ++ (part1 ++ (part2 ++ part3))

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (sIdx : List (HloOp τ sig (Elt F))) ∨ op ∈ (sEnc0 : List (HloOp τ sig (Elt F))) ∨ op ∈ (sEnc1 : List (HloOp τ sig (Elt F))) ∨ op ∈ (sA1 : List (HloOp τ sig (Elt F))) ∨ op ∈ (sB1 : List (HloOp τ sig (Elt F))) ∨ op ∈ (sC1 : List (HloOp τ sig (Elt F))) ∨ op ∈ (sD1 : List (HloOp τ sig (Elt F))) ∨ op ∈ (sE1a : List (HloOp τ sig (Elt F))) ∨ op ∈ (sE1b : List (HloOp τ sig (Elt F))) ∨ op ∈ (sA2 : List (HloOp τ sig (Elt F))) ∨ op ∈ (sB2 : List (HloOp τ sig (Elt F))) ∨ op ∈ (sC2 : List (HloOp τ sig (Elt F))) ∨ op ∈ (sD2 : List (HloOp τ sig (Elt F))) ∨ op ∈ (sE2a : List (HloOp τ sig (Elt F))) ∨ op ∈ (sE2b : List (HloOp τ sig (Elt F))) ∨ op ∈ (sA3 : List (HloOp τ sig (Elt F))) ∨ op ∈ (sB3 : List (HloOp τ sig (Elt F))) ∨ op ∈ (sC3 : List (HloOp τ sig (Elt F))) ∨ op ∈ (sD3 : List (HloOp τ sig (Elt F))) ∨ op ∈ (sE3a : List (HloOp τ sig (Elt F))) ∨ op ∈ (sE3b : List (HloOp τ sig (Elt F))) ∨ op ∈ (sHead : List (HloOp τ sig (Elt F))) := by
  simpa only [ops, part0, part1, part2, part3, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h | h | h | h | h | h | h | h | h | h | h | h | h | h | h | h
    exacts [List.forall_iff_forall_mem.mp sIdx_sub op h, List.forall_iff_forall_mem.mp sEnc0_sub op h, List.forall_iff_forall_mem.mp sEnc1_sub op h, List.forall_iff_forall_mem.mp sA1_sub op h, List.forall_iff_forall_mem.mp sB1_sub op h, List.forall_iff_forall_mem.mp sC1_sub op h, List.forall_iff_forall_mem.mp sD1_sub op h, List.forall_iff_forall_mem.mp sE1a_sub op h, List.forall_iff_forall_mem.mp sE1b_sub op h, List.forall_iff_forall_mem.mp sA2_sub op h, List.forall_iff_forall_mem.mp sB2_sub op h, List.forall_iff_forall_mem.mp sC2_sub op h, List.forall_iff_forall_mem.mp sD2_sub op h, List.forall_iff_forall_mem.mp sE2a_sub op h, List.forall_iff_forall_mem.mp sE2b_sub op h, List.forall_iff_forall_mem.mp sA3_sub op h, List.forall_iff_forall_mem.mp sB3_sub op h, List.forall_iff_forall_mem.mp sC3_sub op h, List.forall_iff_forall_mem.mp sD3_sub op h, List.forall_iff_forall_mem.mp sE3a_sub op h, List.forall_iff_forall_mem.mp sE3b_sub op h, List.forall_iff_forall_mem.mp sHead_sub op h]

theorem ops_fresh : ∀ op ∈ (ops : List (HloOp τ sig (Elt F))), op.fresh = ∅ := by
  intro op h
  rcases mem_ops h with h | h | h | h | h | h | h | h | h | h | h | h | h | h | h | h | h | h | h | h | h | h
  exacts [sIdx_fresh op h, sEnc0_fresh op h, sEnc1_fresh op h, sA1_fresh op h, sB1_fresh op h, sC1_fresh op h, sD1_fresh op h, sE1a_fresh op h, sE1b_fresh op h, sA2_fresh op h, sB2_fresh op h, sC2_fresh op h, sD2_fresh op h, sE2a_fresh op h, sE2b_fresh op h, sA3_fresh op h, sB3_fresh op h, sC3_fresh op h, sD3_fresh op h, sE3a_fresh op h, sE3b_fresh op h, sHead_fresh op h]

end Cert.RefRun

end
-- ==== Proof.RefRunEnds.lean ====
import proofs.«157653_j15152644620445_2_alg».proof.Proof.RefRunOps

/-!
# The index rows, the encoders and the read-out, read off their stretches

Each stretch of the line, run from any contents of the buffers, leaves in its last buffer the stage function of
the contents of the buffers it reads: the operations' results composed, one after the other.
-/

noncomputable section

namespace Cert.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- What stretch sIdx leaves in `main_v1`, from any contents. -/
theorem sIdx_main_v1 (W : Valuation τ sig (Elt Ideal)) :
    after (sIdx (F := Ideal)) W (no_index (Proc.devRef .tc main_v1))
      = RefSpec.edgeRow0 (W (Proc.devRef .tc main_arg1) : IVec S2x600000 32) := by
  simp only [sIdx]
  after_results_simp
  try simp only [TRef.toBuf, TRef.ofBuf, cast_eq, id]
  rfl

set_option maxRecDepth 8192 in
set_option maxHeartbeats 4000000 in
/-- What stretch sIdx leaves in `main_v3`, from any contents. -/
theorem sIdx_main_v3 (W : Valuation τ sig (Elt Ideal)) :
    after (sIdx (F := Ideal)) W (no_index (Proc.devRef .tc main_v3))
      = RefSpec.edgeRow1 (W (Proc.devRef .tc main_arg1) : IVec S2x600000 32) := by
  simp only [sIdx]
  after_results_simp
  try simp only [TRef.toBuf, TRef.ofBuf, cast_eq, id]
  rfl

set_option maxRecDepth 8192 in
set_option maxHeartbeats 4000000 in
/-- What stretch sEnc0 leaves in `main_v7`, from any contents. -/
theorem sEnc0_main_v7 (W : Valuation τ sig (Elt Ideal)) :
    after (sEnc0 (F := Ideal)) W (no_index (Proc.devRef .tc main_v7))
      = RefSpec.enc0 (W (Proc.devRef .tc main_arg0) : FVec Ideal S50000x64 .f32) (W (Proc.devRef .tc main_arg4) : FVec Ideal S64x128 .f32) (W (Proc.devRef .tc main_arg5) : FVec Ideal S128 .f32) := by
  simp only [sEnc0]
  after_results_simp
  try simp only [TRef.toBuf, TRef.ofBuf, cast_eq, id]
  rfl

set_option maxRecDepth 8192 in
set_option maxHeartbeats 4000000 in
/-- What stretch sEnc1 leaves in `main_v11`, from any contents. -/
theorem sEnc1_main_v11 (W : Valuation τ sig (Elt Ideal)) :
    after (sEnc1 (F := Ideal)) W (no_index (Proc.devRef .tc main_v11))
      = RefSpec.enc1 (W (Proc.devRef .tc main_arg2) : FVec Ideal S600000x16 .f32) (W (Proc.devRef .tc main_arg6) : FVec Ideal S16x128 .f32) (W (Proc.devRef .tc main_arg7) : FVec Ideal S128 .f32) := by
  simp only [sEnc1]
  after_results_simp
  try simp only [TRef.toBuf, TRef.ofBuf, cast_eq, id]
  rfl

set_option maxRecDepth 8192 in
set_option maxHeartbeats 4000000 in
/-- What stretch sHead leaves in `main_v185`, from any contents. -/
theorem sHead_main_v185 (W : Valuation τ sig (Elt Ideal)) :
    after (sHead (F := Ideal)) W (no_index (Proc.devRef .tc main_v185))
      = RefSpec.head (W (Proc.devRef .tc main_v173) : FVec Ideal S50000x128 .f32) (W (Proc.devRef .tc main_arg3) : IVec S50000 32) (W (Proc.devRef .tc main_arg14) : FVec Ideal S128x128 .f32) (W (Proc.devRef .tc main_arg15) : FVec Ideal S128 .f32) (W (Proc.devRef .tc main_arg16) : FVec Ideal S128x2 .f32) (W (Proc.devRef .tc main_arg17) : FVec Ideal S2 .f32) := by
  simp only [sHead]
  after_results_simp
  try simp only [TRef.toBuf, TRef.ofBuf, cast_eq, id]
  rfl

end Cert.RefRun

end
-- ==== Proof.RefRunL1.lean ====
import proofs.«157653_j15152644620445_2_alg».proof.Proof.RefRunOps

/-!
# The first layer's stretches read off

Each stretch of the layer, run from any contents of the buffers, leaves in its last buffer the stage function of
the contents of the buffers it reads.
-/

noncomputable section

namespace Cert.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- What stretch sA1 leaves in `main_v24`, from any contents. -/
theorem sA1_main_v24 (W : Valuation τ sig (Elt Ideal)) :
    after (sA1 (F := Ideal)) W (no_index (Proc.devRef .tc main_v24))
      = addf (W (Proc.devRef .tc main_v7) : FVec Ideal S50000x128 .f32) (RefSpec.agg (W (Proc.devRef .tc main_v7) : FVec Ideal S50000x128 .f32) (W (Proc.devRef .tc main_v11) : FVec Ideal S600000x128 .f32) (srcIdxOf (W (Proc.devRef .tc main_v1) : IVec S600000 32)) (dstIdxOf (W (Proc.devRef .tc main_v3) : IVec S600000 32))) := by
  simp only [sA1]
  after_results_simp
  try simp only [TRef.toBuf, TRef.ofBuf, cast_eq, id]
  rfl

set_option maxRecDepth 8192 in
set_option maxHeartbeats 4000000 in
/-- What stretch sB1 leaves in `main_v41`, from any contents. -/
theorem sB1_main_v41 (W : Valuation τ sig (Elt Ideal)) :
    after (sB1 (F := Ideal)) W (no_index (Proc.devRef .tc main_v41))
      = mlpZ (W (Proc.devRef .tc main_v24) : FVec Ideal S50000x128 .f32) (RefSpec.mat0 (W (Proc.devRef .tc main_arg8) : FVec Ideal S3x128x128 .f32)) (RefSpec.vec0 (W (Proc.devRef .tc main_arg9) : FVec Ideal S3x128 .f32)) (RefSpec.mat0 (W (Proc.devRef .tc main_arg10) : FVec Ideal S3x128x128 .f32)) (RefSpec.vec0 (W (Proc.devRef .tc main_arg11) : FVec Ideal S3x128 .f32)) := by
  simp only [sB1]
  after_results_simp
  try simp only [TRef.toBuf, TRef.ofBuf, cast_eq, id]
  rfl

set_option maxRecDepth 8192 in
set_option maxHeartbeats 4000000 in
/-- What stretch sC1 leaves in `main_v44`, from any contents. -/
theorem sC1_main_v44 (W : Valuation τ sig (Elt Ideal)) :
    after (sC1 (F := Ideal)) W (no_index (Proc.devRef .tc main_v44))
      = RefSpec.mean (W (Proc.devRef .tc main_v41) : FVec Ideal S50000x128 .f32) := by
  simp only [sC1]
  after_results_simp
  try simp only [TRef.toBuf, TRef.ofBuf, cast_eq, id]
  rfl

set_option maxRecDepth 8192 in
set_option maxHeartbeats 4000000 in
/-- What stretch sD1 leaves in `main_v45`, from any contents. -/
theorem sD1_main_v45 (W : Valuation τ sig (Elt Ideal)) :
    after (sD1 (F := Ideal)) W (no_index (Proc.devRef .tc main_v45))
      = RefSpec.var (W (Proc.devRef .tc main_v41) : FVec Ideal S50000x128 .f32) := by
  simp only [sD1]
  after_results_simp
  try simp only [TRef.toBuf, TRef.ofBuf, cast_eq, id]
  rfl

set_option maxRecDepth 8192 in
set_option maxHeartbeats 4000000 in
/-- What stretch sE1a ++ sE1b leaves in `main_v65`, from any contents. -/
theorem sE1_main_v65 (W : Valuation τ sig (Elt Ideal)) :
    after ((sE1a (F := Ideal)) ++ sE1b) W (no_index (Proc.devRef .tc main_v65))
      = RefSpec.bn (W (Proc.devRef .tc main_v41) : FVec Ideal S50000x128 .f32) (W (Proc.devRef .tc main_v44) : FVec Ideal S128 .f32) (W (Proc.devRef .tc main_v45) : FVec Ideal S128 .f32) (RefSpec.vec0 (W (Proc.devRef .tc main_arg12) : FVec Ideal S3x128 .f32)) (RefSpec.vec0 (W (Proc.devRef .tc main_arg13) : FVec Ideal S3x128 .f32)) := by
  simp only [sE1a, sE1b, List.cons_append, List.nil_append]
  after_results_simp
  try simp only [TRef.toBuf, TRef.ofBuf, cast_eq, id]
  rfl

end Cert.RefRun

end
-- ==== Proof.RefRunL2.lean ====
import proofs.«157653_j15152644620445_2_alg».proof.Proof.RefRunOps

/-!
# The second layer's stretches read off

Each stretch of the layer, run from any contents of the buffers, leaves in its last buffer the stage function of
the contents of the buffers it reads.
-/

noncomputable section

namespace Cert.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- What stretch sA2 leaves in `main_v78`, from any contents. -/
theorem sA2_main_v78 (W : Valuation τ sig (Elt Ideal)) :
    after (sA2 (F := Ideal)) W (no_index (Proc.devRef .tc main_v78))
      = addf (W (Proc.devRef .tc main_v65) : FVec Ideal S50000x128 .f32) (RefSpec.agg (W (Proc.devRef .tc main_v65) : FVec Ideal S50000x128 .f32) (W (Proc.devRef .tc main_v11) : FVec Ideal S600000x128 .f32) (srcIdxOf (W (Proc.devRef .tc main_v1) : IVec S600000 32)) (dstIdxOf (W (Proc.devRef .tc main_v3) : IVec S600000 32))) := by
  simp only [sA2]
  after_results_simp
  try simp only [TRef.toBuf, TRef.ofBuf, cast_eq, id]
  rfl

set_option maxRecDepth 8192 in
set_option maxHeartbeats 4000000 in
/-- What stretch sB2 leaves in `main_v95`, from any contents. -/
theorem sB2_main_v95 (W : Valuation τ sig (Elt Ideal)) :
    after (sB2 (F := Ideal)) W (no_index (Proc.devRef .tc main_v95))
      = mlpZ (W (Proc.devRef .tc main_v78) : FVec Ideal S50000x128 .f32) (RefSpec.mat1 (W (Proc.devRef .tc main_arg8) : FVec Ideal S3x128x128 .f32)) (RefSpec.vec1 (W (Proc.devRef .tc main_arg9) : FVec Ideal S3x128 .f32)) (RefSpec.mat1 (W (Proc.devRef .tc main_arg10) : FVec Ideal S3x128x128 .f32)) (RefSpec.vec1 (W (Proc.devRef .tc main_arg11) : FVec Ideal S3x128 .f32)) := by
  simp only [sB2]
  after_results_simp
  try simp only [TRef.toBuf, TRef.ofBuf, cast_eq, id]
  rfl

set_option maxRecDepth 8192 in
set_option maxHeartbeats 4000000 in
/-- What stretch sC2 leaves in `main_v98`, from any contents. -/
theorem sC2_main_v98 (W : Valuation τ sig (Elt Ideal)) :
    after (sC2 (F := Ideal)) W (no_index (Proc.devRef .tc main_v98))
      = RefSpec.mean (W (Proc.devRef .tc main_v95) : FVec Ideal S50000x128 .f32) := by
  simp only [sC2]
  after_results_simp
  try simp only [TRef.toBuf, TRef.ofBuf, cast_eq, id]
  rfl

set_option maxRecDepth 8192 in
set_option maxHeartbeats 4000000 in
/-- What stretch sD2 leaves in `main_v99`, from any contents. -/
theorem sD2_main_v99 (W : Valuation τ sig (Elt Ideal)) :
    after (sD2 (F := Ideal)) W (no_index (Proc.devRef .tc main_v99))
      = RefSpec.var (W (Proc.devRef .tc main_v95) : FVec Ideal S50000x128 .f32) := by
  simp only [sD2]
  after_results_simp
  try simp only [TRef.toBuf, TRef.ofBuf, cast_eq, id]
  rfl

set_option maxRecDepth 8192 in
set_option maxHeartbeats 4000000 in
/-- What stretch sE2a ++ sE2b leaves in `main_v119`, from any contents. -/
theorem sE2_main_v119 (W : Valuation τ sig (Elt Ideal)) :
    after ((sE2a (F := Ideal)) ++ sE2b) W (no_index (Proc.devRef .tc main_v119))
      = RefSpec.bn (W (Proc.devRef .tc main_v95) : FVec Ideal S50000x128 .f32) (W (Proc.devRef .tc main_v98) : FVec Ideal S128 .f32) (W (Proc.devRef .tc main_v99) : FVec Ideal S128 .f32) (RefSpec.vec1 (W (Proc.devRef .tc main_arg12) : FVec Ideal S3x128 .f32)) (RefSpec.vec1 (W (Proc.devRef .tc main_arg13) : FVec Ideal S3x128 .f32)) := by
  simp only [sE2a, sE2b, List.cons_append, List.nil_append]
  after_results_simp
  try simp only [TRef.toBuf, TRef.ofBuf, cast_eq, id]
  rfl

end Cert.RefRun

end
-- ==== Proof.RefRunL3.lean ====
import proofs.«157653_j15152644620445_2_alg».proof.Proof.RefRunOps

/-!
# The third layer's stretches read off

Each stretch of the layer, run from any contents of the buffers, leaves in its last buffer the stage function of
the contents of the buffers it reads.
-/

noncomputable section

namespace Cert.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- What stretch sA3 leaves in `main_v132`, from any contents. -/
theorem sA3_main_v132 (W : Valuation τ sig (Elt Ideal)) :
    after (sA3 (F := Ideal)) W (no_index (Proc.devRef .tc main_v132))
      = addf (W (Proc.devRef .tc main_v119) : FVec Ideal S50000x128 .f32) (RefSpec.agg (W (Proc.devRef .tc main_v119) : FVec Ideal S50000x128 .f32) (W (Proc.devRef .tc main_v11) : FVec Ideal S600000x128 .f32) (srcIdxOf (W (Proc.devRef .tc main_v1) : IVec S600000 32)) (dstIdxOf (W (Proc.devRef .tc main_v3) : IVec S600000 32))) := by
  simp only [sA3]
  after_results_simp
  try simp only [TRef.toBuf, TRef.ofBuf, cast_eq, id]
  rfl

set_option maxRecDepth 8192 in
set_option maxHeartbeats 4000000 in
/-- What stretch sB3 leaves in `main_v149`, from any contents. -/
theorem sB3_main_v149 (W : Valuation τ sig (Elt Ideal)) :
    after (sB3 (F := Ideal)) W (no_index (Proc.devRef .tc main_v149))
      = mlpZ (W (Proc.devRef .tc main_v132) : FVec Ideal S50000x128 .f32) (RefSpec.mat2 (W (Proc.devRef .tc main_arg8) : FVec Ideal S3x128x128 .f32)) (RefSpec.vec2 (W (Proc.devRef .tc main_arg9) : FVec Ideal S3x128 .f32)) (RefSpec.mat2 (W (Proc.devRef .tc main_arg10) : FVec Ideal S3x128x128 .f32)) (RefSpec.vec2 (W (Proc.devRef .tc main_arg11) : FVec Ideal S3x128 .f32)) := by
  simp only [sB3]
  after_results_simp
  try simp only [TRef.toBuf, TRef.ofBuf, cast_eq, id]
  rfl

set_option maxRecDepth 8192 in
set_option maxHeartbeats 4000000 in
/-- What stretch sC3 leaves in `main_v152`, from any contents. -/
theorem sC3_main_v152 (W : Valuation τ sig (Elt Ideal)) :
    after (sC3 (F := Ideal)) W (no_index (Proc.devRef .tc main_v152))
      = RefSpec.mean (W (Proc.devRef .tc main_v149) : FVec Ideal S50000x128 .f32) := by
  simp only [sC3]
  after_results_simp
  try simp only [TRef.toBuf, TRef.ofBuf, cast_eq, id]
  rfl

set_option maxRecDepth 8192 in
set_option maxHeartbeats 4000000 in
/-- What stretch sD3 leaves in `main_v153`, from any contents. -/
theorem sD3_main_v153 (W : Valuation τ sig (Elt Ideal)) :
    after (sD3 (F := Ideal)) W (no_index (Proc.devRef .tc main_v153))
      = RefSpec.var (W (Proc.devRef .tc main_v149) : FVec Ideal S50000x128 .f32) := by
  simp only [sD3]
  after_results_simp
  try simp only [TRef.toBuf, TRef.ofBuf, cast_eq, id]
  rfl

set_option maxRecDepth 8192 in
set_option maxHeartbeats 4000000 in
/-- What stretch sE3a ++ sE3b leaves in `main_v173`, from any contents. -/
theorem sE3_main_v173 (W : Valuation τ sig (Elt Ideal)) :
    after ((sE3a (F := Ideal)) ++ sE3b) W (no_index (Proc.devRef .tc main_v173))
      = RefSpec.bn (W (Proc.devRef .tc main_v149) : FVec Ideal S50000x128 .f32) (W (Proc.devRef .tc main_v152) : FVec Ideal S128 .f32) (W (Proc.devRef .tc main_v153) : FVec Ideal S128 .f32) (RefSpec.vec2 (W (Proc.devRef .tc main_arg12) : FVec Ideal S3x128 .f32)) (RefSpec.vec2 (W (Proc.devRef .tc main_arg13) : FVec Ideal S3x128 .f32)) := by
  simp only [sE3a, sE3b, List.cons_append, List.nil_append]
  after_results_simp
  try simp only [TRef.toBuf, TRef.ofBuf, cast_eq, id]
  rfl

end Cert.RefRun

end
-- ==== Proof.RefRun.lean ====
import proofs.«157653_j15152644620445_2_alg».proof.Proof.RefRunEnds
import proofs.«157653_j15152644620445_2_alg».proof.Proof.RefRunL1
import proofs.«157653_j15152644620445_2_alg».proof.Proof.RefRunL2
import proofs.«157653_j15152644620445_2_alg».proof.Proof.RefRunL3

/-!
# The run of the reference program

The stretches of the line are run in order from the launch contents; after each, every buffer a later stretch still
reads is known as a stage function of the program's arguments: a stretch's last buffer by the stretch's own reading
applied to what the buffers it reads held before it, any other buffer by the fact that the stretch does not write
it. After the last stretch the result buffer holds the whole network applied to the arguments, and the arguments
are as they were. Every weakly fair execution of the program ends in that state.
-/

noncomputable section

namespace Cert.RefRun

open Cert.ReferenceIdeal Cert.ReferenceIdeal.Gen Idealize.ShloMosaic Idealize.ShloMosaic.TcCoe Idealize.SL.Sem Idealize.ShloMosaic.StableHlo

/-! ## The stage values, of the launch contents -/

variable (V0 : Valuation τ sig (Elt Ideal))

/-- The source row of the edge list. -/
def tR0 : IVec S600000 32 := RefSpec.edgeRow0 (V0 (Proc.devRef .tc main_arg1) : IVec S2x600000 32)
/-- The target row of the edge list. -/
def tR1 : IVec S600000 32 := RefSpec.edgeRow1 (V0 (Proc.devRef .tc main_arg1) : IVec S2x600000 32)
/-- The encoded node features. -/
def tH0 : FVec Ideal S50000x128 .f32 := RefSpec.enc0 (V0 (Proc.devRef .tc main_arg0) : FVec Ideal S50000x64 .f32) (V0 (Proc.devRef .tc main_arg4) : FVec Ideal S64x128 .f32) (V0 (Proc.devRef .tc main_arg5) : FVec Ideal S128 .f32)
/-- The encoded edge features. -/
def tEa : FVec Ideal S600000x128 .f32 := RefSpec.enc1 (V0 (Proc.devRef .tc main_arg2) : FVec Ideal S600000x16 .f32) (V0 (Proc.devRef .tc main_arg6) : FVec Ideal S16x128 .f32) (V0 (Proc.devRef .tc main_arg7) : FVec Ideal S128 .f32)

/-- Layer 1: the features plus the aggregated messages. -/
def tPre1 : FVec Ideal S50000x128 .f32 := addf (tH0 V0) (RefSpec.agg (tH0 V0) (tEa V0) (RefSpec.srcIdx (V0 (Proc.devRef .tc main_arg1) : IVec S2x600000 32)) (RefSpec.dstIdx (V0 (Proc.devRef .tc main_arg1) : IVec S2x600000 32)))
/-- Layer 1: the perceptron's output, before the normalisation. -/
def tZ1 : FVec Ideal S50000x128 .f32 := RefSpec.mlp (tH0 V0) (RefSpec.agg (tH0 V0) (tEa V0) (RefSpec.srcIdx (V0 (Proc.devRef .tc main_arg1) : IVec S2x600000 32)) (RefSpec.dstIdx (V0 (Proc.devRef .tc main_arg1) : IVec S2x600000 32))) (RefSpec.mat0 (V0 (Proc.devRef .tc main_arg8) : FVec Ideal S3x128x128 .f32)) (RefSpec.vec0 (V0 (Proc.devRef .tc main_arg9) : FVec Ideal S3x128 .f32)) (RefSpec.mat0 (V0 (Proc.devRef .tc main_arg10) : FVec Ideal S3x128x128 .f32)) (RefSpec.vec0 (V0 (Proc.devRef .tc main_arg11) : FVec Ideal S3x128 .f32))
/-- Layer 1: the layer's output. -/
def tH1 : FVec Ideal S50000x128 .f32 :=
  RefSpec.layer (tH0 V0) (tEa V0) (RefSpec.srcIdx (V0 (Proc.devRef .tc main_arg1) : IVec S2x600000 32)) (RefSpec.dstIdx (V0 (Proc.devRef .tc main_arg1) : IVec S2x600000 32)) (RefSpec.mat0 (V0 (Proc.devRef .tc main_arg8) : FVec Ideal S3x128x128 .f32)) (RefSpec.vec0 (V0 (Proc.devRef .tc main_arg9) : FVec Ideal S3x128 .f32)) (RefSpec.mat0 (V0 (Proc.devRef .tc main_arg10) : FVec Ideal S3x128x128 .f32)) (RefSpec.vec0 (V0 (Proc.devRef .tc main_arg11) : FVec Ideal S3x128 .f32)) (RefSpec.vec0 (V0 (Proc.devRef .tc main_arg12) : FVec Ideal S3x128 .f32)) (RefSpec.vec0 (V0 (Proc.devRef .tc main_arg13) : FVec Ideal S3x128 .f32))

/-- Layer 2: the features plus the aggregated messages. -/
def tPre2 : FVec Ideal S50000x128 .f32 := addf (tH1 V0) (RefSpec.agg (tH1 V0) (tEa V0) (RefSpec.srcIdx (V0 (Proc.devRef .tc main_arg1) : IVec S2x600000 32)) (RefSpec.dstIdx (V0 (Proc.devRef .tc main_arg1) : IVec S2x600000 32)))
/-- Layer 2: the perceptron's output, before the normalisation. -/
def tZ2 : FVec Ideal S50000x128 .f32 := RefSpec.mlp (tH1 V0) (RefSpec.agg (tH1 V0) (tEa V0) (RefSpec.srcIdx (V0 (Proc.devRef .tc main_arg1) : IVec S2x600000 32)) (RefSpec.dstIdx (V0 (Proc.devRef .tc main_arg1) : IVec S2x600000 32))) (RefSpec.mat1 (V0 (Proc.devRef .tc main_arg8) : FVec Ideal S3x128x128 .f32)) (RefSpec.vec1 (V0 (Proc.devRef .tc main_arg9) : FVec Ideal S3x128 .f32)) (RefSpec.mat1 (V0 (Proc.devRef .tc main_arg10) : FVec Ideal S3x128x128 .f32)) (RefSpec.vec1 (V0 (Proc.devRef .tc main_arg11) : FVec Ideal S3x128 .f32))
/-- Layer 2: the layer's output. -/
def tH2 : FVec Ideal S50000x128 .f32 :=
  RefSpec.layer (tH1 V0) (tEa V0) (RefSpec.srcIdx (V0 (Proc.devRef .tc main_arg1) : IVec S2x600000 32)) (RefSpec.dstIdx (V0 (Proc.devRef .tc main_arg1) : IVec S2x600000 32)) (RefSpec.mat1 (V0 (Proc.devRef .tc main_arg8) : FVec Ideal S3x128x128 .f32)) (RefSpec.vec1 (V0 (Proc.devRef .tc main_arg9) : FVec Ideal S3x128 .f32)) (RefSpec.mat1 (V0 (Proc.devRef .tc main_arg10) : FVec Ideal S3x128x128 .f32)) (RefSpec.vec1 (V0 (Proc.devRef .tc main_arg11) : FVec Ideal S3x128 .f32)) (RefSpec.vec1 (V0 (Proc.devRef .tc main_arg12) : FVec Ideal S3x128 .f32)) (RefSpec.vec1 (V0 (Proc.devRef .tc main_arg13) : FVec Ideal S3x128 .f32))

/-- Layer 3: the features plus the aggregated messages. -/
def tPre3 : FVec Ideal S50000x128 .f32 := addf (tH2 V0) (RefSpec.agg (tH2 V0) (tEa V0) (RefSpec.srcIdx (V0 (Proc.devRef .tc main_arg1) : IVec S2x600000 32)) (RefSpec.dstIdx (V0 (Proc.devRef .tc main_arg1) : IVec S2x600000 32)))
/-- Layer 3: the perceptron's output, before the normalisation. -/
def tZ3 : FVec Ideal S50000x128 .f32 := RefSpec.mlp (tH2 V0) (RefSpec.agg (tH2 V0) (tEa V0) (RefSpec.srcIdx (V0 (Proc.devRef .tc main_arg1) : IVec S2x600000 32)) (RefSpec.dstIdx (V0 (Proc.devRef .tc main_arg1) : IVec S2x600000 32))) (RefSpec.mat2 (V0 (Proc.devRef .tc main_arg8) : FVec Ideal S3x128x128 .f32)) (RefSpec.vec2 (V0 (Proc.devRef .tc main_arg9) : FVec Ideal S3x128 .f32)) (RefSpec.mat2 (V0 (Proc.devRef .tc main_arg10) : FVec Ideal S3x128x128 .f32)) (RefSpec.vec2 (V0 (Proc.devRef .tc main_arg11) : FVec Ideal S3x128 .f32))
/-- Layer 3: the layer's output. -/
def tH3 : FVec Ideal S50000x128 .f32 :=
  RefSpec.layer (tH2 V0) (tEa V0) (RefSpec.srcIdx (V0 (Proc.devRef .tc main_arg1) : IVec S2x600000 32)) (RefSpec.dstIdx (V0 (Proc.devRef .tc main_arg1) : IVec S2x600000 32)) (RefSpec.mat2 (V0 (Proc.devRef .tc main_arg8) : FVec Ideal S3x128x128 .f32)) (RefSpec.vec2 (V0 (Proc.devRef .tc main_arg9) : FVec Ideal S3x128 .f32)) (RefSpec.mat2 (V0 (Proc.devRef .tc main_arg10) : FVec Ideal S3x128x128 .f32)) (RefSpec.vec2 (V0 (Proc.devRef .tc main_arg11) : FVec Ideal S3x128 .f32)) (RefSpec.vec2 (V0 (Proc.devRef .tc main_arg12) : FVec Ideal S3x128 .f32)) (RefSpec.vec2 (V0 (Proc.devRef .tc main_arg13) : FVec Ideal S3x128 .f32))

/-! ## The contents after each stretch -/

/-- The contents at launch. -/
def val0 : Valuation τ sig (Elt Ideal) := V0
theorem val0_main_arg0 : val0 V0 (no_index (Proc.devRef .tc main_arg0)) = V0 (Proc.devRef .tc main_arg0) := rfl
theorem val0_main_arg1 : val0 V0 (no_index (Proc.devRef .tc main_arg1)) = V0 (Proc.devRef .tc main_arg1) := rfl
theorem val0_main_arg2 : val0 V0 (no_index (Proc.devRef .tc main_arg2)) = V0 (Proc.devRef .tc main_arg2) := rfl
theorem val0_main_arg3 : val0 V0 (no_index (Proc.devRef .tc main_arg3)) = V0 (Proc.devRef .tc main_arg3) := rfl
theorem val0_main_arg4 : val0 V0 (no_index (Proc.devRef .tc main_arg4)) = V0 (Proc.devRef .tc main_arg4) := rfl
theorem val0_main_arg5 : val0 V0 (no_index (Proc.devRef .tc main_arg5)) = V0 (Proc.devRef .tc main_arg5) := rfl
theorem val0_main_arg6 : val0 V0 (no_index (Proc.devRef .tc main_arg6)) = V0 (Proc.devRef .tc main_arg6) := rfl
theorem val0_main_arg7 : val0 V0 (no_index (Proc.devRef .tc main_arg7)) = V0 (Proc.devRef .tc main_arg7) := rfl
theorem val0_main_arg8 : val0 V0 (no_index (Proc.devRef .tc main_arg8)) = V0 (Proc.devRef .tc main_arg8) := rfl
theorem val0_main_arg9 : val0 V0 (no_index (Proc.devRef .tc main_arg9)) = V0 (Proc.devRef .tc main_arg9) := rfl
theorem val0_main_arg10 : val0 V0 (no_index (Proc.devRef .tc main_arg10)) = V0 (Proc.devRef .tc main_arg10) := rfl
theorem val0_main_arg11 : val0 V0 (no_index (Proc.devRef .tc main_arg11)) = V0 (Proc.devRef .tc main_arg11) := rfl
theorem val0_main_arg12 : val0 V0 (no_index (Proc.devRef .tc main_arg12)) = V0 (Proc.devRef .tc main_arg12) := rfl
theorem val0_main_arg13 : val0 V0 (no_index (Proc.devRef .tc main_arg13)) = V0 (Proc.devRef .tc main_arg13) := rfl
theorem val0_main_arg14 : val0 V0 (no_index (Proc.devRef .tc main_arg14)) = V0 (Proc.devRef .tc main_arg14) := rfl
theorem val0_main_arg15 : val0 V0 (no_index (Proc.devRef .tc main_arg15)) = V0 (Proc.devRef .tc main_arg15) := rfl
theorem val0_main_arg16 : val0 V0 (no_index (Proc.devRef .tc main_arg16)) = V0 (Proc.devRef .tc main_arg16) := rfl
theorem val0_main_arg17 : val0 V0 (no_index (Proc.devRef .tc main_arg17)) = V0 (Proc.devRef .tc main_arg17) := rfl

/-- The contents after the stretches up to sIdx. -/
def val1 : Valuation τ sig (Elt Ideal) := after (sIdx (F := Ideal)) (val0 V0)
theorem val1_main_arg0 : val1 V0 (no_index (Proc.devRef .tc main_arg0)) = V0 (Proc.devRef .tc main_arg0) :=
  (sIdx_keep (val0 V0) main_arg0 (by decide)).trans (val0_main_arg0 V0)
theorem val1_main_arg1 : val1 V0 (no_index (Proc.devRef .tc main_arg1)) = V0 (Proc.devRef .tc main_arg1) :=
  (sIdx_keep (val0 V0) main_arg1 (by decide)).trans (val0_main_arg1 V0)
theorem val1_main_arg2 : val1 V0 (no_index (Proc.devRef .tc main_arg2)) = V0 (Proc.devRef .tc main_arg2) :=
  (sIdx_keep (val0 V0) main_arg2 (by decide)).trans (val0_main_arg2 V0)
theorem val1_main_arg3 : val1 V0 (no_index (Proc.devRef .tc main_arg3)) = V0 (Proc.devRef .tc main_arg3) :=
  (sIdx_keep (val0 V0) main_arg3 (by decide)).trans (val0_main_arg3 V0)
theorem val1_main_arg4 : val1 V0 (no_index (Proc.devRef .tc main_arg4)) = V0 (Proc.devRef .tc main_arg4) :=
  (sIdx_keep (val0 V0) main_arg4 (by decide)).trans (val0_main_arg4 V0)
theorem val1_main_arg5 : val1 V0 (no_index (Proc.devRef .tc main_arg5)) = V0 (Proc.devRef .tc main_arg5) :=
  (sIdx_keep (val0 V0) main_arg5 (by decide)).trans (val0_main_arg5 V0)
theorem val1_main_arg6 : val1 V0 (no_index (Proc.devRef .tc main_arg6)) = V0 (Proc.devRef .tc main_arg6) :=
  (sIdx_keep (val0 V0) main_arg6 (by decide)).trans (val0_main_arg6 V0)
theorem val1_main_arg7 : val1 V0 (no_index (Proc.devRef .tc main_arg7)) = V0 (Proc.devRef .tc main_arg7) :=
  (sIdx_keep (val0 V0) main_arg7 (by decide)).trans (val0_main_arg7 V0)
theorem val1_main_arg8 : val1 V0 (no_index (Proc.devRef .tc main_arg8)) = V0 (Proc.devRef .tc main_arg8) :=
  (sIdx_keep (val0 V0) main_arg8 (by decide)).trans (val0_main_arg8 V0)
theorem val1_main_arg9 : val1 V0 (no_index (Proc.devRef .tc main_arg9)) = V0 (Proc.devRef .tc main_arg9) :=
  (sIdx_keep (val0 V0) main_arg9 (by decide)).trans (val0_main_arg9 V0)
theorem val1_main_arg10 : val1 V0 (no_index (Proc.devRef .tc main_arg10)) = V0 (Proc.devRef .tc main_arg10) :=
  (sIdx_keep (val0 V0) main_arg10 (by decide)).trans (val0_main_arg10 V0)
theorem val1_main_arg11 : val1 V0 (no_index (Proc.devRef .tc main_arg11)) = V0 (Proc.devRef .tc main_arg11) :=
  (sIdx_keep (val0 V0) main_arg11 (by decide)).trans (val0_main_arg11 V0)
theorem val1_main_arg12 : val1 V0 (no_index (Proc.devRef .tc main_arg12)) = V0 (Proc.devRef .tc main_arg12) :=
  (sIdx_keep (val0 V0) main_arg12 (by decide)).trans (val0_main_arg12 V0)
theorem val1_main_arg13 : val1 V0 (no_index (Proc.devRef .tc main_arg13)) = V0 (Proc.devRef .tc main_arg13) :=
  (sIdx_keep (val0 V0) main_arg13 (by decide)).trans (val0_main_arg13 V0)
theorem val1_main_arg14 : val1 V0 (no_index (Proc.devRef .tc main_arg14)) = V0 (Proc.devRef .tc main_arg14) :=
  (sIdx_keep (val0 V0) main_arg14 (by decide)).trans (val0_main_arg14 V0)
theorem val1_main_arg15 : val1 V0 (no_index (Proc.devRef .tc main_arg15)) = V0 (Proc.devRef .tc main_arg15) :=
  (sIdx_keep (val0 V0) main_arg15 (by decide)).trans (val0_main_arg15 V0)
theorem val1_main_arg16 : val1 V0 (no_index (Proc.devRef .tc main_arg16)) = V0 (Proc.devRef .tc main_arg16) :=
  (sIdx_keep (val0 V0) main_arg16 (by decide)).trans (val0_main_arg16 V0)
theorem val1_main_arg17 : val1 V0 (no_index (Proc.devRef .tc main_arg17)) = V0 (Proc.devRef .tc main_arg17) :=
  (sIdx_keep (val0 V0) main_arg17 (by decide)).trans (val0_main_arg17 V0)
set_option maxRecDepth 8192 in
theorem val1_main_v1 : val1 V0 (no_index (Proc.devRef .tc main_v1)) = tR0 V0 := by
  unfold val1
  simp only [sIdx_main_v1, val0_main_arg1]
  rfl
set_option maxRecDepth 8192 in
theorem val1_main_v3 : val1 V0 (no_index (Proc.devRef .tc main_v3)) = tR1 V0 := by
  unfold val1
  simp only [sIdx_main_v3, val0_main_arg1]
  rfl

/-- The contents after the stretches up to sEnc0. -/
def val2 : Valuation τ sig (Elt Ideal) := after (sEnc0 (F := Ideal)) (val1 V0)
theorem val2_main_arg0 : val2 V0 (no_index (Proc.devRef .tc main_arg0)) = V0 (Proc.devRef .tc main_arg0) :=
  (sEnc0_keep (val1 V0) main_arg0 (by decide)).trans (val1_main_arg0 V0)
theorem val2_main_arg1 : val2 V0 (no_index (Proc.devRef .tc main_arg1)) = V0 (Proc.devRef .tc main_arg1) :=
  (sEnc0_keep (val1 V0) main_arg1 (by decide)).trans (val1_main_arg1 V0)
theorem val2_main_arg2 : val2 V0 (no_index (Proc.devRef .tc main_arg2)) = V0 (Proc.devRef .tc main_arg2) :=
  (sEnc0_keep (val1 V0) main_arg2 (by decide)).trans (val1_main_arg2 V0)
theorem val2_main_arg3 : val2 V0 (no_index (Proc.devRef .tc main_arg3)) = V0 (Proc.devRef .tc main_arg3) :=
  (sEnc0_keep (val1 V0) main_arg3 (by decide)).trans (val1_main_arg3 V0)
theorem val2_main_arg4 : val2 V0 (no_index (Proc.devRef .tc main_arg4)) = V0 (Proc.devRef .tc main_arg4) :=
  (sEnc0_keep (val1 V0) main_arg4 (by decide)).trans (val1_main_arg4 V0)
theorem val2_main_arg5 : val2 V0 (no_index (Proc.devRef .tc main_arg5)) = V0 (Proc.devRef .tc main_arg5) :=
  (sEnc0_keep (val1 V0) main_arg5 (by decide)).trans (val1_main_arg5 V0)
theorem val2_main_arg6 : val2 V0 (no_index (Proc.devRef .tc main_arg6)) = V0 (Proc.devRef .tc main_arg6) :=
  (sEnc0_keep (val1 V0) main_arg6 (by decide)).trans (val1_main_arg6 V0)
theorem val2_main_arg7 : val2 V0 (no_index (Proc.devRef .tc main_arg7)) = V0 (Proc.devRef .tc main_arg7) :=
  (sEnc0_keep (val1 V0) main_arg7 (by decide)).trans (val1_main_arg7 V0)
theorem val2_main_arg8 : val2 V0 (no_index (Proc.devRef .tc main_arg8)) = V0 (Proc.devRef .tc main_arg8) :=
  (sEnc0_keep (val1 V0) main_arg8 (by decide)).trans (val1_main_arg8 V0)
theorem val2_main_arg9 : val2 V0 (no_index (Proc.devRef .tc main_arg9)) = V0 (Proc.devRef .tc main_arg9) :=
  (sEnc0_keep (val1 V0) main_arg9 (by decide)).trans (val1_main_arg9 V0)
theorem val2_main_arg10 : val2 V0 (no_index (Proc.devRef .tc main_arg10)) = V0 (Proc.devRef .tc main_arg10) :=
  (sEnc0_keep (val1 V0) main_arg10 (by decide)).trans (val1_main_arg10 V0)
theorem val2_main_arg11 : val2 V0 (no_index (Proc.devRef .tc main_arg11)) = V0 (Proc.devRef .tc main_arg11) :=
  (sEnc0_keep (val1 V0) main_arg11 (by decide)).trans (val1_main_arg11 V0)
theorem val2_main_arg12 : val2 V0 (no_index (Proc.devRef .tc main_arg12)) = V0 (Proc.devRef .tc main_arg12) :=
  (sEnc0_keep (val1 V0) main_arg12 (by decide)).trans (val1_main_arg12 V0)
theorem val2_main_arg13 : val2 V0 (no_index (Proc.devRef .tc main_arg13)) = V0 (Proc.devRef .tc main_arg13) :=
  (sEnc0_keep (val1 V0) main_arg13 (by decide)).trans (val1_main_arg13 V0)
theorem val2_main_arg14 : val2 V0 (no_index (Proc.devRef .tc main_arg14)) = V0 (Proc.devRef .tc main_arg14) :=
  (sEnc0_keep (val1 V0) main_arg14 (by decide)).trans (val1_main_arg14 V0)
theorem val2_main_arg15 : val2 V0 (no_index (Proc.devRef .tc main_arg15)) = V0 (Proc.devRef .tc main_arg15) :=
  (sEnc0_keep (val1 V0) main_arg15 (by decide)).trans (val1_main_arg15 V0)
theorem val2_main_arg16 : val2 V0 (no_index (Proc.devRef .tc main_arg16)) = V0 (Proc.devRef .tc main_arg16) :=
  (sEnc0_keep (val1 V0) main_arg16 (by decide)).trans (val1_main_arg16 V0)
theorem val2_main_arg17 : val2 V0 (no_index (Proc.devRef .tc main_arg17)) = V0 (Proc.devRef .tc main_arg17) :=
  (sEnc0_keep (val1 V0) main_arg17 (by decide)).trans (val1_main_arg17 V0)
theorem val2_main_v1 : val2 V0 (no_index (Proc.devRef .tc main_v1)) = tR0 V0 :=
  (sEnc0_keep (val1 V0) main_v1 (by decide)).trans (val1_main_v1 V0)
theorem val2_main_v3 : val2 V0 (no_index (Proc.devRef .tc main_v3)) = tR1 V0 :=
  (sEnc0_keep (val1 V0) main_v3 (by decide)).trans (val1_main_v3 V0)
set_option maxRecDepth 8192 in
theorem val2_main_v7 : val2 V0 (no_index (Proc.devRef .tc main_v7)) = tH0 V0 := by
  unfold val2
  simp only [sEnc0_main_v7, val1_main_arg0, val1_main_arg4, val1_main_arg5]
  rfl

/-- The contents after the stretches up to sEnc1. -/
def val3 : Valuation τ sig (Elt Ideal) := after (sEnc1 (F := Ideal)) (val2 V0)
theorem val3_main_arg0 : val3 V0 (no_index (Proc.devRef .tc main_arg0)) = V0 (Proc.devRef .tc main_arg0) :=
  (sEnc1_keep (val2 V0) main_arg0 (by decide)).trans (val2_main_arg0 V0)
theorem val3_main_arg1 : val3 V0 (no_index (Proc.devRef .tc main_arg1)) = V0 (Proc.devRef .tc main_arg1) :=
  (sEnc1_keep (val2 V0) main_arg1 (by decide)).trans (val2_main_arg1 V0)
theorem val3_main_arg2 : val3 V0 (no_index (Proc.devRef .tc main_arg2)) = V0 (Proc.devRef .tc main_arg2) :=
  (sEnc1_keep (val2 V0) main_arg2 (by decide)).trans (val2_main_arg2 V0)
theorem val3_main_arg3 : val3 V0 (no_index (Proc.devRef .tc main_arg3)) = V0 (Proc.devRef .tc main_arg3) :=
  (sEnc1_keep (val2 V0) main_arg3 (by decide)).trans (val2_main_arg3 V0)
theorem val3_main_arg4 : val3 V0 (no_index (Proc.devRef .tc main_arg4)) = V0 (Proc.devRef .tc main_arg4) :=
  (sEnc1_keep (val2 V0) main_arg4 (by decide)).trans (val2_main_arg4 V0)
theorem val3_main_arg5 : val3 V0 (no_index (Proc.devRef .tc main_arg5)) = V0 (Proc.devRef .tc main_arg5) :=
  (sEnc1_keep (val2 V0) main_arg5 (by decide)).trans (val2_main_arg5 V0)
theorem val3_main_arg6 : val3 V0 (no_index (Proc.devRef .tc main_arg6)) = V0 (Proc.devRef .tc main_arg6) :=
  (sEnc1_keep (val2 V0) main_arg6 (by decide)).trans (val2_main_arg6 V0)
theorem val3_main_arg7 : val3 V0 (no_index (Proc.devRef .tc main_arg7)) = V0 (Proc.devRef .tc main_arg7) :=
  (sEnc1_keep (val2 V0) main_arg7 (by decide)).trans (val2_main_arg7 V0)
theorem val3_main_arg8 : val3 V0 (no_index (Proc.devRef .tc main_arg8)) = V0 (Proc.devRef .tc main_arg8) :=
  (sEnc1_keep (val2 V0) main_arg8 (by decide)).trans (val2_main_arg8 V0)
theorem val3_main_arg9 : val3 V0 (no_index (Proc.devRef .tc main_arg9)) = V0 (Proc.devRef .tc main_arg9) :=
  (sEnc1_keep (val2 V0) main_arg9 (by decide)).trans (val2_main_arg9 V0)
theorem val3_main_arg10 : val3 V0 (no_index (Proc.devRef .tc main_arg10)) = V0 (Proc.devRef .tc main_arg10) :=
  (sEnc1_keep (val2 V0) main_arg10 (by decide)).trans (val2_main_arg10 V0)
theorem val3_main_arg11 : val3 V0 (no_index (Proc.devRef .tc main_arg11)) = V0 (Proc.devRef .tc main_arg11) :=
  (sEnc1_keep (val2 V0) main_arg11 (by decide)).trans (val2_main_arg11 V0)
theorem val3_main_arg12 : val3 V0 (no_index (Proc.devRef .tc main_arg12)) = V0 (Proc.devRef .tc main_arg12) :=
  (sEnc1_keep (val2 V0) main_arg12 (by decide)).trans (val2_main_arg12 V0)
theorem val3_main_arg13 : val3 V0 (no_index (Proc.devRef .tc main_arg13)) = V0 (Proc.devRef .tc main_arg13) :=
  (sEnc1_keep (val2 V0) main_arg13 (by decide)).trans (val2_main_arg13 V0)
theorem val3_main_arg14 : val3 V0 (no_index (Proc.devRef .tc main_arg14)) = V0 (Proc.devRef .tc main_arg14) :=
  (sEnc1_keep (val2 V0) main_arg14 (by decide)).trans (val2_main_arg14 V0)
theorem val3_main_arg15 : val3 V0 (no_index (Proc.devRef .tc main_arg15)) = V0 (Proc.devRef .tc main_arg15) :=
  (sEnc1_keep (val2 V0) main_arg15 (by decide)).trans (val2_main_arg15 V0)
theorem val3_main_arg16 : val3 V0 (no_index (Proc.devRef .tc main_arg16)) = V0 (Proc.devRef .tc main_arg16) :=
  (sEnc1_keep (val2 V0) main_arg16 (by decide)).trans (val2_main_arg16 V0)
theorem val3_main_arg17 : val3 V0 (no_index (Proc.devRef .tc main_arg17)) = V0 (Proc.devRef .tc main_arg17) :=
  (sEnc1_keep (val2 V0) main_arg17 (by decide)).trans (val2_main_arg17 V0)
theorem val3_main_v1 : val3 V0 (no_index (Proc.devRef .tc main_v1)) = tR0 V0 :=
  (sEnc1_keep (val2 V0) main_v1 (by decide)).trans (val2_main_v1 V0)
theorem val3_main_v3 : val3 V0 (no_index (Proc.devRef .tc main_v3)) = tR1 V0 :=
  (sEnc1_keep (val2 V0) main_v3 (by decide)).trans (val2_main_v3 V0)
theorem val3_main_v7 : val3 V0 (no_index (Proc.devRef .tc main_v7)) = tH0 V0 :=
  (sEnc1_keep (val2 V0) main_v7 (by decide)).trans (val2_main_v7 V0)
set_option maxRecDepth 8192 in
theorem val3_main_v11 : val3 V0 (no_index (Proc.devRef .tc main_v11)) = tEa V0 := by
  unfold val3
  simp only [sEnc1_main_v11, val2_main_arg2, val2_main_arg6, val2_main_arg7]
  rfl

/-- The contents after the stretches up to sA1. -/
def val4 : Valuation τ sig (Elt Ideal) := after (sA1 (F := Ideal)) (val3 V0)
theorem val4_main_arg0 : val4 V0 (no_index (Proc.devRef .tc main_arg0)) = V0 (Proc.devRef .tc main_arg0) :=
  (sA1_keep (val3 V0) main_arg0 (by decide)).trans (val3_main_arg0 V0)
theorem val4_main_arg1 : val4 V0 (no_index (Proc.devRef .tc main_arg1)) = V0 (Proc.devRef .tc main_arg1) :=
  (sA1_keep (val3 V0) main_arg1 (by decide)).trans (val3_main_arg1 V0)
theorem val4_main_arg2 : val4 V0 (no_index (Proc.devRef .tc main_arg2)) = V0 (Proc.devRef .tc main_arg2) :=
  (sA1_keep (val3 V0) main_arg2 (by decide)).trans (val3_main_arg2 V0)
theorem val4_main_arg3 : val4 V0 (no_index (Proc.devRef .tc main_arg3)) = V0 (Proc.devRef .tc main_arg3) :=
  (sA1_keep (val3 V0) main_arg3 (by decide)).trans (val3_main_arg3 V0)
theorem val4_main_arg4 : val4 V0 (no_index (Proc.devRef .tc main_arg4)) = V0 (Proc.devRef .tc main_arg4) :=
  (sA1_keep (val3 V0) main_arg4 (by decide)).trans (val3_main_arg4 V0)
theorem val4_main_arg5 : val4 V0 (no_index (Proc.devRef .tc main_arg5)) = V0 (Proc.devRef .tc main_arg5) :=
  (sA1_keep (val3 V0) main_arg5 (by decide)).trans (val3_main_arg5 V0)
theorem val4_main_arg6 : val4 V0 (no_index (Proc.devRef .tc main_arg6)) = V0 (Proc.devRef .tc main_arg6) :=
  (sA1_keep (val3 V0) main_arg6 (by decide)).trans (val3_main_arg6 V0)
theorem val4_main_arg7 : val4 V0 (no_index (Proc.devRef .tc main_arg7)) = V0 (Proc.devRef .tc main_arg7) :=
  (sA1_keep (val3 V0) main_arg7 (by decide)).trans (val3_main_arg7 V0)
theorem val4_main_arg8 : val4 V0 (no_index (Proc.devRef .tc main_arg8)) = V0 (Proc.devRef .tc main_arg8) :=
  (sA1_keep (val3 V0) main_arg8 (by decide)).trans (val3_main_arg8 V0)
theorem val4_main_arg9 : val4 V0 (no_index (Proc.devRef .tc main_arg9)) = V0 (Proc.devRef .tc main_arg9) :=
  (sA1_keep (val3 V0) main_arg9 (by decide)).trans (val3_main_arg9 V0)
theorem val4_main_arg10 : val4 V0 (no_index (Proc.devRef .tc main_arg10)) = V0 (Proc.devRef .tc main_arg10) :=
  (sA1_keep (val3 V0) main_arg10 (by decide)).trans (val3_main_arg10 V0)
theorem val4_main_arg11 : val4 V0 (no_index (Proc.devRef .tc main_arg11)) = V0 (Proc.devRef .tc main_arg11) :=
  (sA1_keep (val3 V0) main_arg11 (by decide)).trans (val3_main_arg11 V0)
theorem val4_main_arg12 : val4 V0 (no_index (Proc.devRef .tc main_arg12)) = V0 (Proc.devRef .tc main_arg12) :=
  (sA1_keep (val3 V0) main_arg12 (by decide)).trans (val3_main_arg12 V0)
theorem val4_main_arg13 : val4 V0 (no_index (Proc.devRef .tc main_arg13)) = V0 (Proc.devRef .tc main_arg13) :=
  (sA1_keep (val3 V0) main_arg13 (by decide)).trans (val3_main_arg13 V0)
theorem val4_main_arg14 : val4 V0 (no_index (Proc.devRef .tc main_arg14)) = V0 (Proc.devRef .tc main_arg14) :=
  (sA1_keep (val3 V0) main_arg14 (by decide)).trans (val3_main_arg14 V0)
theorem val4_main_arg15 : val4 V0 (no_index (Proc.devRef .tc main_arg15)) = V0 (Proc.devRef .tc main_arg15) :=
  (sA1_keep (val3 V0) main_arg15 (by decide)).trans (val3_main_arg15 V0)
theorem val4_main_arg16 : val4 V0 (no_index (Proc.devRef .tc main_arg16)) = V0 (Proc.devRef .tc main_arg16) :=
  (sA1_keep (val3 V0) main_arg16 (by decide)).trans (val3_main_arg16 V0)
theorem val4_main_arg17 : val4 V0 (no_index (Proc.devRef .tc main_arg17)) = V0 (Proc.devRef .tc main_arg17) :=
  (sA1_keep (val3 V0) main_arg17 (by decide)).trans (val3_main_arg17 V0)
theorem val4_main_v1 : val4 V0 (no_index (Proc.devRef .tc main_v1)) = tR0 V0 :=
  (sA1_keep (val3 V0) main_v1 (by decide)).trans (val3_main_v1 V0)
theorem val4_main_v3 : val4 V0 (no_index (Proc.devRef .tc main_v3)) = tR1 V0 :=
  (sA1_keep (val3 V0) main_v3 (by decide)).trans (val3_main_v3 V0)
theorem val4_main_v11 : val4 V0 (no_index (Proc.devRef .tc main_v11)) = tEa V0 :=
  (sA1_keep (val3 V0) main_v11 (by decide)).trans (val3_main_v11 V0)
set_option maxRecDepth 8192 in
theorem val4_main_v24 : val4 V0 (no_index (Proc.devRef .tc main_v24)) = tPre1 V0 := by
  unfold val4
  simp only [sA1_main_v24, val3_main_v1, val3_main_v7, val3_main_v11, val3_main_v3]
  rfl

/-- The contents after the stretches up to sB1. -/
def val5 : Valuation τ sig (Elt Ideal) := after (sB1 (F := Ideal)) (val4 V0)
theorem val5_main_arg0 : val5 V0 (no_index (Proc.devRef .tc main_arg0)) = V0 (Proc.devRef .tc main_arg0) :=
  (sB1_keep (val4 V0) main_arg0 (by decide)).trans (val4_main_arg0 V0)
theorem val5_main_arg1 : val5 V0 (no_index (Proc.devRef .tc main_arg1)) = V0 (Proc.devRef .tc main_arg1) :=
  (sB1_keep (val4 V0) main_arg1 (by decide)).trans (val4_main_arg1 V0)
theorem val5_main_arg2 : val5 V0 (no_index (Proc.devRef .tc main_arg2)) = V0 (Proc.devRef .tc main_arg2) :=
  (sB1_keep (val4 V0) main_arg2 (by decide)).trans (val4_main_arg2 V0)
theorem val5_main_arg3 : val5 V0 (no_index (Proc.devRef .tc main_arg3)) = V0 (Proc.devRef .tc main_arg3) :=
  (sB1_keep (val4 V0) main_arg3 (by decide)).trans (val4_main_arg3 V0)
theorem val5_main_arg4 : val5 V0 (no_index (Proc.devRef .tc main_arg4)) = V0 (Proc.devRef .tc main_arg4) :=
  (sB1_keep (val4 V0) main_arg4 (by decide)).trans (val4_main_arg4 V0)
theorem val5_main_arg5 : val5 V0 (no_index (Proc.devRef .tc main_arg5)) = V0 (Proc.devRef .tc main_arg5) :=
  (sB1_keep (val4 V0) main_arg5 (by decide)).trans (val4_main_arg5 V0)
theorem val5_main_arg6 : val5 V0 (no_index (Proc.devRef .tc main_arg6)) = V0 (Proc.devRef .tc main_arg6) :=
  (sB1_keep (val4 V0) main_arg6 (by decide)).trans (val4_main_arg6 V0)
theorem val5_main_arg7 : val5 V0 (no_index (Proc.devRef .tc main_arg7)) = V0 (Proc.devRef .tc main_arg7) :=
  (sB1_keep (val4 V0) main_arg7 (by decide)).trans (val4_main_arg7 V0)
theorem val5_main_arg8 : val5 V0 (no_index (Proc.devRef .tc main_arg8)) = V0 (Proc.devRef .tc main_arg8) :=
  (sB1_keep (val4 V0) main_arg8 (by decide)).trans (val4_main_arg8 V0)
theorem val5_main_arg9 : val5 V0 (no_index (Proc.devRef .tc main_arg9)) = V0 (Proc.devRef .tc main_arg9) :=
  (sB1_keep (val4 V0) main_arg9 (by decide)).trans (val4_main_arg9 V0)
theorem val5_main_arg10 : val5 V0 (no_index (Proc.devRef .tc main_arg10)) = V0 (Proc.devRef .tc main_arg10) :=
  (sB1_keep (val4 V0) main_arg10 (by decide)).trans (val4_main_arg10 V0)
theorem val5_main_arg11 : val5 V0 (no_index (Proc.devRef .tc main_arg11)) = V0 (Proc.devRef .tc main_arg11) :=
  (sB1_keep (val4 V0) main_arg11 (by decide)).trans (val4_main_arg11 V0)
theorem val5_main_arg12 : val5 V0 (no_index (Proc.devRef .tc main_arg12)) = V0 (Proc.devRef .tc main_arg12) :=
  (sB1_keep (val4 V0) main_arg12 (by decide)).trans (val4_main_arg12 V0)
theorem val5_main_arg13 : val5 V0 (no_index (Proc.devRef .tc main_arg13)) = V0 (Proc.devRef .tc main_arg13) :=
  (sB1_keep (val4 V0) main_arg13 (by decide)).trans (val4_main_arg13 V0)
theorem val5_main_arg14 : val5 V0 (no_index (Proc.devRef .tc main_arg14)) = V0 (Proc.devRef .tc main_arg14) :=
  (sB1_keep (val4 V0) main_arg14 (by decide)).trans (val4_main_arg14 V0)
theorem val5_main_arg15 : val5 V0 (no_index (Proc.devRef .tc main_arg15)) = V0 (Proc.devRef .tc main_arg15) :=
  (sB1_keep (val4 V0) main_arg15 (by decide)).trans (val4_main_arg15 V0)
theorem val5_main_arg16 : val5 V0 (no_index (Proc.devRef .tc main_arg16)) = V0 (Proc.devRef .tc main_arg16) :=
  (sB1_keep (val4 V0) main_arg16 (by decide)).trans (val4_main_arg16 V0)
theorem val5_main_arg17 : val5 V0 (no_index (Proc.devRef .tc main_arg17)) = V0 (Proc.devRef .tc main_arg17) :=
  (sB1_keep (val4 V0) main_arg17 (by decide)).trans (val4_main_arg17 V0)
theorem val5_main_v1 : val5 V0 (no_index (Proc.devRef .tc main_v1)) = tR0 V0 :=
  (sB1_keep (val4 V0) main_v1 (by decide)).trans (val4_main_v1 V0)
theorem val5_main_v3 : val5 V0 (no_index (Proc.devRef .tc main_v3)) = tR1 V0 :=
  (sB1_keep (val4 V0) main_v3 (by decide)).trans (val4_main_v3 V0)
theorem val5_main_v11 : val5 V0 (no_index (Proc.devRef .tc main_v11)) = tEa V0 :=
  (sB1_keep (val4 V0) main_v11 (by decide)).trans (val4_main_v11 V0)
set_option maxRecDepth 8192 in
theorem val5_main_v41 : val5 V0 (no_index (Proc.devRef .tc main_v41)) = tZ1 V0 := by
  unfold val5
  simp only [sB1_main_v41, val4_main_arg8, val4_main_v24, val4_main_arg9, val4_main_arg10, val4_main_arg11]
  rfl

/-- The contents after the stretches up to sC1. -/
def val6 : Valuation τ sig (Elt Ideal) := after (sC1 (F := Ideal)) (val5 V0)
theorem val6_main_arg0 : val6 V0 (no_index (Proc.devRef .tc main_arg0)) = V0 (Proc.devRef .tc main_arg0) :=
  (sC1_keep (val5 V0) main_arg0 (by decide)).trans (val5_main_arg0 V0)
theorem val6_main_arg1 : val6 V0 (no_index (Proc.devRef .tc main_arg1)) = V0 (Proc.devRef .tc main_arg1) :=
  (sC1_keep (val5 V0) main_arg1 (by decide)).trans (val5_main_arg1 V0)
theorem val6_main_arg2 : val6 V0 (no_index (Proc.devRef .tc main_arg2)) = V0 (Proc.devRef .tc main_arg2) :=
  (sC1_keep (val5 V0) main_arg2 (by decide)).trans (val5_main_arg2 V0)
theorem val6_main_arg3 : val6 V0 (no_index (Proc.devRef .tc main_arg3)) = V0 (Proc.devRef .tc main_arg3) :=
  (sC1_keep (val5 V0) main_arg3 (by decide)).trans (val5_main_arg3 V0)
theorem val6_main_arg4 : val6 V0 (no_index (Proc.devRef .tc main_arg4)) = V0 (Proc.devRef .tc main_arg4) :=
  (sC1_keep (val5 V0) main_arg4 (by decide)).trans (val5_main_arg4 V0)
theorem val6_main_arg5 : val6 V0 (no_index (Proc.devRef .tc main_arg5)) = V0 (Proc.devRef .tc main_arg5) :=
  (sC1_keep (val5 V0) main_arg5 (by decide)).trans (val5_main_arg5 V0)
theorem val6_main_arg6 : val6 V0 (no_index (Proc.devRef .tc main_arg6)) = V0 (Proc.devRef .tc main_arg6) :=
  (sC1_keep (val5 V0) main_arg6 (by decide)).trans (val5_main_arg6 V0)
theorem val6_main_arg7 : val6 V0 (no_index (Proc.devRef .tc main_arg7)) = V0 (Proc.devRef .tc main_arg7) :=
  (sC1_keep (val5 V0) main_arg7 (by decide)).trans (val5_main_arg7 V0)
theorem val6_main_arg8 : val6 V0 (no_index (Proc.devRef .tc main_arg8)) = V0 (Proc.devRef .tc main_arg8) :=
  (sC1_keep (val5 V0) main_arg8 (by decide)).trans (val5_main_arg8 V0)
theorem val6_main_arg9 : val6 V0 (no_index (Proc.devRef .tc main_arg9)) = V0 (Proc.devRef .tc main_arg9) :=
  (sC1_keep (val5 V0) main_arg9 (by decide)).trans (val5_main_arg9 V0)
theorem val6_main_arg10 : val6 V0 (no_index (Proc.devRef .tc main_arg10)) = V0 (Proc.devRef .tc main_arg10) :=
  (sC1_keep (val5 V0) main_arg10 (by decide)).trans (val5_main_arg10 V0)
theorem val6_main_arg11 : val6 V0 (no_index (Proc.devRef .tc main_arg11)) = V0 (Proc.devRef .tc main_arg11) :=
  (sC1_keep (val5 V0) main_arg11 (by decide)).trans (val5_main_arg11 V0)
theorem val6_main_arg12 : val6 V0 (no_index (Proc.devRef .tc main_arg12)) = V0 (Proc.devRef .tc main_arg12) :=
  (sC1_keep (val5 V0) main_arg12 (by decide)).trans (val5_main_arg12 V0)
theorem val6_main_arg13 : val6 V0 (no_index (Proc.devRef .tc main_arg13)) = V0 (Proc.devRef .tc main_arg13) :=
  (sC1_keep (val5 V0) main_arg13 (by decide)).trans (val5_main_arg13 V0)
theorem val6_main_arg14 : val6 V0 (no_index (Proc.devRef .tc main_arg14)) = V0 (Proc.devRef .tc main_arg14) :=
  (sC1_keep (val5 V0) main_arg14 (by decide)).trans (val5_main_arg14 V0)
theorem val6_main_arg15 : val6 V0 (no_index (Proc.devRef .tc main_arg15)) = V0 (Proc.devRef .tc main_arg15) :=
  (sC1_keep (val5 V0) main_arg15 (by decide)).trans (val5_main_arg15 V0)
theorem val6_main_arg16 : val6 V0 (no_index (Proc.devRef .tc main_arg16)) = V0 (Proc.devRef .tc main_arg16) :=
  (sC1_keep (val5 V0) main_arg16 (by decide)).trans (val5_main_arg16 V0)
theorem val6_main_arg17 : val6 V0 (no_index (Proc.devRef .tc main_arg17)) = V0 (Proc.devRef .tc main_arg17) :=
  (sC1_keep (val5 V0) main_arg17 (by decide)).trans (val5_main_arg17 V0)
theorem val6_main_v1 : val6 V0 (no_index (Proc.devRef .tc main_v1)) = tR0 V0 :=
  (sC1_keep (val5 V0) main_v1 (by decide)).trans (val5_main_v1 V0)
theorem val6_main_v3 : val6 V0 (no_index (Proc.devRef .tc main_v3)) = tR1 V0 :=
  (sC1_keep (val5 V0) main_v3 (by decide)).trans (val5_main_v3 V0)
theorem val6_main_v11 : val6 V0 (no_index (Proc.devRef .tc main_v11)) = tEa V0 :=
  (sC1_keep (val5 V0) main_v11 (by decide)).trans (val5_main_v11 V0)
theorem val6_main_v41 : val6 V0 (no_index (Proc.devRef .tc main_v41)) = tZ1 V0 :=
  (sC1_keep (val5 V0) main_v41 (by decide)).trans (val5_main_v41 V0)
set_option maxRecDepth 8192 in
theorem val6_main_v44 : val6 V0 (no_index (Proc.devRef .tc main_v44)) = RefSpec.mean (tZ1 V0) := by
  unfold val6
  simp only [sC1_main_v44, val5_main_v41]

/-- The contents after the stretches up to sD1. -/
def val7 : Valuation τ sig (Elt Ideal) := after (sD1 (F := Ideal)) (val6 V0)
theorem val7_main_arg0 : val7 V0 (no_index (Proc.devRef .tc main_arg0)) = V0 (Proc.devRef .tc main_arg0) :=
  (sD1_keep (val6 V0) main_arg0 (by decide)).trans (val6_main_arg0 V0)
theorem val7_main_arg1 : val7 V0 (no_index (Proc.devRef .tc main_arg1)) = V0 (Proc.devRef .tc main_arg1) :=
  (sD1_keep (val6 V0) main_arg1 (by decide)).trans (val6_main_arg1 V0)
theorem val7_main_arg2 : val7 V0 (no_index (Proc.devRef .tc main_arg2)) = V0 (Proc.devRef .tc main_arg2) :=
  (sD1_keep (val6 V0) main_arg2 (by decide)).trans (val6_main_arg2 V0)
theorem val7_main_arg3 : val7 V0 (no_index (Proc.devRef .tc main_arg3)) = V0 (Proc.devRef .tc main_arg3) :=
  (sD1_keep (val6 V0) main_arg3 (by decide)).trans (val6_main_arg3 V0)
theorem val7_main_arg4 : val7 V0 (no_index (Proc.devRef .tc main_arg4)) = V0 (Proc.devRef .tc main_arg4) :=
  (sD1_keep (val6 V0) main_arg4 (by decide)).trans (val6_main_arg4 V0)
theorem val7_main_arg5 : val7 V0 (no_index (Proc.devRef .tc main_arg5)) = V0 (Proc.devRef .tc main_arg5) :=
  (sD1_keep (val6 V0) main_arg5 (by decide)).trans (val6_main_arg5 V0)
theorem val7_main_arg6 : val7 V0 (no_index (Proc.devRef .tc main_arg6)) = V0 (Proc.devRef .tc main_arg6) :=
  (sD1_keep (val6 V0) main_arg6 (by decide)).trans (val6_main_arg6 V0)
theorem val7_main_arg7 : val7 V0 (no_index (Proc.devRef .tc main_arg7)) = V0 (Proc.devRef .tc main_arg7) :=
  (sD1_keep (val6 V0) main_arg7 (by decide)).trans (val6_main_arg7 V0)
theorem val7_main_arg8 : val7 V0 (no_index (Proc.devRef .tc main_arg8)) = V0 (Proc.devRef .tc main_arg8) :=
  (sD1_keep (val6 V0) main_arg8 (by decide)).trans (val6_main_arg8 V0)
theorem val7_main_arg9 : val7 V0 (no_index (Proc.devRef .tc main_arg9)) = V0 (Proc.devRef .tc main_arg9) :=
  (sD1_keep (val6 V0) main_arg9 (by decide)).trans (val6_main_arg9 V0)
theorem val7_main_arg10 : val7 V0 (no_index (Proc.devRef .tc main_arg10)) = V0 (Proc.devRef .tc main_arg10) :=
  (sD1_keep (val6 V0) main_arg10 (by decide)).trans (val6_main_arg10 V0)
theorem val7_main_arg11 : val7 V0 (no_index (Proc.devRef .tc main_arg11)) = V0 (Proc.devRef .tc main_arg11) :=
  (sD1_keep (val6 V0) main_arg11 (by decide)).trans (val6_main_arg11 V0)
theorem val7_main_arg12 : val7 V0 (no_index (Proc.devRef .tc main_arg12)) = V0 (Proc.devRef .tc main_arg12) :=
  (sD1_keep (val6 V0) main_arg12 (by decide)).trans (val6_main_arg12 V0)
theorem val7_main_arg13 : val7 V0 (no_index (Proc.devRef .tc main_arg13)) = V0 (Proc.devRef .tc main_arg13) :=
  (sD1_keep (val6 V0) main_arg13 (by decide)).trans (val6_main_arg13 V0)
theorem val7_main_arg14 : val7 V0 (no_index (Proc.devRef .tc main_arg14)) = V0 (Proc.devRef .tc main_arg14) :=
  (sD1_keep (val6 V0) main_arg14 (by decide)).trans (val6_main_arg14 V0)
theorem val7_main_arg15 : val7 V0 (no_index (Proc.devRef .tc main_arg15)) = V0 (Proc.devRef .tc main_arg15) :=
  (sD1_keep (val6 V0) main_arg15 (by decide)).trans (val6_main_arg15 V0)
theorem val7_main_arg16 : val7 V0 (no_index (Proc.devRef .tc main_arg16)) = V0 (Proc.devRef .tc main_arg16) :=
  (sD1_keep (val6 V0) main_arg16 (by decide)).trans (val6_main_arg16 V0)
theorem val7_main_arg17 : val7 V0 (no_index (Proc.devRef .tc main_arg17)) = V0 (Proc.devRef .tc main_arg17) :=
  (sD1_keep (val6 V0) main_arg17 (by decide)).trans (val6_main_arg17 V0)
theorem val7_main_v1 : val7 V0 (no_index (Proc.devRef .tc main_v1)) = tR0 V0 :=
  (sD1_keep (val6 V0) main_v1 (by decide)).trans (val6_main_v1 V0)
theorem val7_main_v3 : val7 V0 (no_index (Proc.devRef .tc main_v3)) = tR1 V0 :=
  (sD1_keep (val6 V0) main_v3 (by decide)).trans (val6_main_v3 V0)
theorem val7_main_v11 : val7 V0 (no_index (Proc.devRef .tc main_v11)) = tEa V0 :=
  (sD1_keep (val6 V0) main_v11 (by decide)).trans (val6_main_v11 V0)
theorem val7_main_v41 : val7 V0 (no_index (Proc.devRef .tc main_v41)) = tZ1 V0 :=
  (sD1_keep (val6 V0) main_v41 (by decide)).trans (val6_main_v41 V0)
theorem val7_main_v44 : val7 V0 (no_index (Proc.devRef .tc main_v44)) = RefSpec.mean (tZ1 V0) :=
  (sD1_keep (val6 V0) main_v44 (by decide)).trans (val6_main_v44 V0)
set_option maxRecDepth 8192 in
theorem val7_main_v45 : val7 V0 (no_index (Proc.devRef .tc main_v45)) = RefSpec.var (tZ1 V0) := by
  unfold val7
  simp only [sD1_main_v45, val6_main_v41]

/-- The contents after the stretches up to sE1a, sE1b. -/
def val8 : Valuation τ sig (Elt Ideal) := after (sE1b (F := Ideal)) (after (sE1a (F := Ideal)) (val7 V0))
theorem val8_main_arg0 : val8 V0 (no_index (Proc.devRef .tc main_arg0)) = V0 (Proc.devRef .tc main_arg0) :=
  ((sE1b_keep _ main_arg0 (by decide)).trans (sE1a_keep (val7 V0) main_arg0 (by decide))).trans (val7_main_arg0 V0)
theorem val8_main_arg1 : val8 V0 (no_index (Proc.devRef .tc main_arg1)) = V0 (Proc.devRef .tc main_arg1) :=
  ((sE1b_keep _ main_arg1 (by decide)).trans (sE1a_keep (val7 V0) main_arg1 (by decide))).trans (val7_main_arg1 V0)
theorem val8_main_arg2 : val8 V0 (no_index (Proc.devRef .tc main_arg2)) = V0 (Proc.devRef .tc main_arg2) :=
  ((sE1b_keep _ main_arg2 (by decide)).trans (sE1a_keep (val7 V0) main_arg2 (by decide))).trans (val7_main_arg2 V0)
theorem val8_main_arg3 : val8 V0 (no_index (Proc.devRef .tc main_arg3)) = V0 (Proc.devRef .tc main_arg3) :=
  ((sE1b_keep _ main_arg3 (by decide)).trans (sE1a_keep (val7 V0) main_arg3 (by decide))).trans (val7_main_arg3 V0)
theorem val8_main_arg4 : val8 V0 (no_index (Proc.devRef .tc main_arg4)) = V0 (Proc.devRef .tc main_arg4) :=
  ((sE1b_keep _ main_arg4 (by decide)).trans (sE1a_keep (val7 V0) main_arg4 (by decide))).trans (val7_main_arg4 V0)
theorem val8_main_arg5 : val8 V0 (no_index (Proc.devRef .tc main_arg5)) = V0 (Proc.devRef .tc main_arg5) :=
  ((sE1b_keep _ main_arg5 (by decide)).trans (sE1a_keep (val7 V0) main_arg5 (by decide))).trans (val7_main_arg5 V0)
theorem val8_main_arg6 : val8 V0 (no_index (Proc.devRef .tc main_arg6)) = V0 (Proc.devRef .tc main_arg6) :=
  ((sE1b_keep _ main_arg6 (by decide)).trans (sE1a_keep (val7 V0) main_arg6 (by decide))).trans (val7_main_arg6 V0)
theorem val8_main_arg7 : val8 V0 (no_index (Proc.devRef .tc main_arg7)) = V0 (Proc.devRef .tc main_arg7) :=
  ((sE1b_keep _ main_arg7 (by decide)).trans (sE1a_keep (val7 V0) main_arg7 (by decide))).trans (val7_main_arg7 V0)
theorem val8_main_arg8 : val8 V0 (no_index (Proc.devRef .tc main_arg8)) = V0 (Proc.devRef .tc main_arg8) :=
  ((sE1b_keep _ main_arg8 (by decide)).trans (sE1a_keep (val7 V0) main_arg8 (by decide))).trans (val7_main_arg8 V0)
theorem val8_main_arg9 : val8 V0 (no_index (Proc.devRef .tc main_arg9)) = V0 (Proc.devRef .tc main_arg9) :=
  ((sE1b_keep _ main_arg9 (by decide)).trans (sE1a_keep (val7 V0) main_arg9 (by decide))).trans (val7_main_arg9 V0)
theorem val8_main_arg10 : val8 V0 (no_index (Proc.devRef .tc main_arg10)) = V0 (Proc.devRef .tc main_arg10) :=
  ((sE1b_keep _ main_arg10 (by decide)).trans (sE1a_keep (val7 V0) main_arg10 (by decide))).trans (val7_main_arg10 V0)
theorem val8_main_arg11 : val8 V0 (no_index (Proc.devRef .tc main_arg11)) = V0 (Proc.devRef .tc main_arg11) :=
  ((sE1b_keep _ main_arg11 (by decide)).trans (sE1a_keep (val7 V0) main_arg11 (by decide))).trans (val7_main_arg11 V0)
theorem val8_main_arg12 : val8 V0 (no_index (Proc.devRef .tc main_arg12)) = V0 (Proc.devRef .tc main_arg12) :=
  ((sE1b_keep _ main_arg12 (by decide)).trans (sE1a_keep (val7 V0) main_arg12 (by decide))).trans (val7_main_arg12 V0)
theorem val8_main_arg13 : val8 V0 (no_index (Proc.devRef .tc main_arg13)) = V0 (Proc.devRef .tc main_arg13) :=
  ((sE1b_keep _ main_arg13 (by decide)).trans (sE1a_keep (val7 V0) main_arg13 (by decide))).trans (val7_main_arg13 V0)
theorem val8_main_arg14 : val8 V0 (no_index (Proc.devRef .tc main_arg14)) = V0 (Proc.devRef .tc main_arg14) :=
  ((sE1b_keep _ main_arg14 (by decide)).trans (sE1a_keep (val7 V0) main_arg14 (by decide))).trans (val7_main_arg14 V0)
theorem val8_main_arg15 : val8 V0 (no_index (Proc.devRef .tc main_arg15)) = V0 (Proc.devRef .tc main_arg15) :=
  ((sE1b_keep _ main_arg15 (by decide)).trans (sE1a_keep (val7 V0) main_arg15 (by decide))).trans (val7_main_arg15 V0)
theorem val8_main_arg16 : val8 V0 (no_index (Proc.devRef .tc main_arg16)) = V0 (Proc.devRef .tc main_arg16) :=
  ((sE1b_keep _ main_arg16 (by decide)).trans (sE1a_keep (val7 V0) main_arg16 (by decide))).trans (val7_main_arg16 V0)
theorem val8_main_arg17 : val8 V0 (no_index (Proc.devRef .tc main_arg17)) = V0 (Proc.devRef .tc main_arg17) :=
  ((sE1b_keep _ main_arg17 (by decide)).trans (sE1a_keep (val7 V0) main_arg17 (by decide))).trans (val7_main_arg17 V0)
theorem val8_main_v1 : val8 V0 (no_index (Proc.devRef .tc main_v1)) = tR0 V0 :=
  ((sE1b_keep _ main_v1 (by decide)).trans (sE1a_keep (val7 V0) main_v1 (by decide))).trans (val7_main_v1 V0)
theorem val8_main_v3 : val8 V0 (no_index (Proc.devRef .tc main_v3)) = tR1 V0 :=
  ((sE1b_keep _ main_v3 (by decide)).trans (sE1a_keep (val7 V0) main_v3 (by decide))).trans (val7_main_v3 V0)
theorem val8_main_v11 : val8 V0 (no_index (Proc.devRef .tc main_v11)) = tEa V0 :=
  ((sE1b_keep _ main_v11 (by decide)).trans (sE1a_keep (val7 V0) main_v11 (by decide))).trans (val7_main_v11 V0)
set_option maxRecDepth 8192 in
theorem val8_main_v65 : val8 V0 (no_index (Proc.devRef .tc main_v65)) = tH1 V0 := by
  unfold val8
  rw [← after_append]
  simp only [sE1_main_v65, val7_main_arg12, val7_main_v44, val7_main_v41, val7_main_v45, val7_main_arg13]
  rfl

/-- The contents after the stretches up to sA2. -/
def val9 : Valuation τ sig (Elt Ideal) := after (sA2 (F := Ideal)) (val8 V0)
theorem val9_main_arg0 : val9 V0 (no_index (Proc.devRef .tc main_arg0)) = V0 (Proc.devRef .tc main_arg0) :=
  (sA2_keep (val8 V0) main_arg0 (by decide)).trans (val8_main_arg0 V0)
theorem val9_main_arg1 : val9 V0 (no_index (Proc.devRef .tc main_arg1)) = V0 (Proc.devRef .tc main_arg1) :=
  (sA2_keep (val8 V0) main_arg1 (by decide)).trans (val8_main_arg1 V0)
theorem val9_main_arg2 : val9 V0 (no_index (Proc.devRef .tc main_arg2)) = V0 (Proc.devRef .tc main_arg2) :=
  (sA2_keep (val8 V0) main_arg2 (by decide)).trans (val8_main_arg2 V0)
theorem val9_main_arg3 : val9 V0 (no_index (Proc.devRef .tc main_arg3)) = V0 (Proc.devRef .tc main_arg3) :=
  (sA2_keep (val8 V0) main_arg3 (by decide)).trans (val8_main_arg3 V0)
theorem val9_main_arg4 : val9 V0 (no_index (Proc.devRef .tc main_arg4)) = V0 (Proc.devRef .tc main_arg4) :=
  (sA2_keep (val8 V0) main_arg4 (by decide)).trans (val8_main_arg4 V0)
theorem val9_main_arg5 : val9 V0 (no_index (Proc.devRef .tc main_arg5)) = V0 (Proc.devRef .tc main_arg5) :=
  (sA2_keep (val8 V0) main_arg5 (by decide)).trans (val8_main_arg5 V0)
theorem val9_main_arg6 : val9 V0 (no_index (Proc.devRef .tc main_arg6)) = V0 (Proc.devRef .tc main_arg6) :=
  (sA2_keep (val8 V0) main_arg6 (by decide)).trans (val8_main_arg6 V0)
theorem val9_main_arg7 : val9 V0 (no_index (Proc.devRef .tc main_arg7)) = V0 (Proc.devRef .tc main_arg7) :=
  (sA2_keep (val8 V0) main_arg7 (by decide)).trans (val8_main_arg7 V0)
theorem val9_main_arg8 : val9 V0 (no_index (Proc.devRef .tc main_arg8)) = V0 (Proc.devRef .tc main_arg8) :=
  (sA2_keep (val8 V0) main_arg8 (by decide)).trans (val8_main_arg8 V0)
theorem val9_main_arg9 : val9 V0 (no_index (Proc.devRef .tc main_arg9)) = V0 (Proc.devRef .tc main_arg9) :=
  (sA2_keep (val8 V0) main_arg9 (by decide)).trans (val8_main_arg9 V0)
theorem val9_main_arg10 : val9 V0 (no_index (Proc.devRef .tc main_arg10)) = V0 (Proc.devRef .tc main_arg10) :=
  (sA2_keep (val8 V0) main_arg10 (by decide)).trans (val8_main_arg10 V0)
theorem val9_main_arg11 : val9 V0 (no_index (Proc.devRef .tc main_arg11)) = V0 (Proc.devRef .tc main_arg11) :=
  (sA2_keep (val8 V0) main_arg11 (by decide)).trans (val8_main_arg11 V0)
theorem val9_main_arg12 : val9 V0 (no_index (Proc.devRef .tc main_arg12)) = V0 (Proc.devRef .tc main_arg12) :=
  (sA2_keep (val8 V0) main_arg12 (by decide)).trans (val8_main_arg12 V0)
theorem val9_main_arg13 : val9 V0 (no_index (Proc.devRef .tc main_arg13)) = V0 (Proc.devRef .tc main_arg13) :=
  (sA2_keep (val8 V0) main_arg13 (by decide)).trans (val8_main_arg13 V0)
theorem val9_main_arg14 : val9 V0 (no_index (Proc.devRef .tc main_arg14)) = V0 (Proc.devRef .tc main_arg14) :=
  (sA2_keep (val8 V0) main_arg14 (by decide)).trans (val8_main_arg14 V0)
theorem val9_main_arg15 : val9 V0 (no_index (Proc.devRef .tc main_arg15)) = V0 (Proc.devRef .tc main_arg15) :=
  (sA2_keep (val8 V0) main_arg15 (by decide)).trans (val8_main_arg15 V0)
theorem val9_main_arg16 : val9 V0 (no_index (Proc.devRef .tc main_arg16)) = V0 (Proc.devRef .tc main_arg16) :=
  (sA2_keep (val8 V0) main_arg16 (by decide)).trans (val8_main_arg16 V0)
theorem val9_main_arg17 : val9 V0 (no_index (Proc.devRef .tc main_arg17)) = V0 (Proc.devRef .tc main_arg17) :=
  (sA2_keep (val8 V0) main_arg17 (by decide)).trans (val8_main_arg17 V0)
theorem val9_main_v1 : val9 V0 (no_index (Proc.devRef .tc main_v1)) = tR0 V0 :=
  (sA2_keep (val8 V0) main_v1 (by decide)).trans (val8_main_v1 V0)
theorem val9_main_v3 : val9 V0 (no_index (Proc.devRef .tc main_v3)) = tR1 V0 :=
  (sA2_keep (val8 V0) main_v3 (by decide)).trans (val8_main_v3 V0)
theorem val9_main_v11 : val9 V0 (no_index (Proc.devRef .tc main_v11)) = tEa V0 :=
  (sA2_keep (val8 V0) main_v11 (by decide)).trans (val8_main_v11 V0)
set_option maxRecDepth 8192 in
theorem val9_main_v78 : val9 V0 (no_index (Proc.devRef .tc main_v78)) = tPre2 V0 := by
  unfold val9
  simp only [sA2_main_v78, val8_main_v1, val8_main_v65, val8_main_v11, val8_main_v3]
  rfl

/-- The contents after the stretches up to sB2. -/
def val10 : Valuation τ sig (Elt Ideal) := after (sB2 (F := Ideal)) (val9 V0)
theorem val10_main_arg0 : val10 V0 (no_index (Proc.devRef .tc main_arg0)) = V0 (Proc.devRef .tc main_arg0) :=
  (sB2_keep (val9 V0) main_arg0 (by decide)).trans (val9_main_arg0 V0)
theorem val10_main_arg1 : val10 V0 (no_index (Proc.devRef .tc main_arg1)) = V0 (Proc.devRef .tc main_arg1) :=
  (sB2_keep (val9 V0) main_arg1 (by decide)).trans (val9_main_arg1 V0)
theorem val10_main_arg2 : val10 V0 (no_index (Proc.devRef .tc main_arg2)) = V0 (Proc.devRef .tc main_arg2) :=
  (sB2_keep (val9 V0) main_arg2 (by decide)).trans (val9_main_arg2 V0)
theorem val10_main_arg3 : val10 V0 (no_index (Proc.devRef .tc main_arg3)) = V0 (Proc.devRef .tc main_arg3) :=
  (sB2_keep (val9 V0) main_arg3 (by decide)).trans (val9_main_arg3 V0)
theorem val10_main_arg4 : val10 V0 (no_index (Proc.devRef .tc main_arg4)) = V0 (Proc.devRef .tc main_arg4) :=
  (sB2_keep (val9 V0) main_arg4 (by decide)).trans (val9_main_arg4 V0)
theorem val10_main_arg5 : val10 V0 (no_index (Proc.devRef .tc main_arg5)) = V0 (Proc.devRef .tc main_arg5) :=
  (sB2_keep (val9 V0) main_arg5 (by decide)).trans (val9_main_arg5 V0)
theorem val10_main_arg6 : val10 V0 (no_index (Proc.devRef .tc main_arg6)) = V0 (Proc.devRef .tc main_arg6) :=
  (sB2_keep (val9 V0) main_arg6 (by decide)).trans (val9_main_arg6 V0)
theorem val10_main_arg7 : val10 V0 (no_index (Proc.devRef .tc main_arg7)) = V0 (Proc.devRef .tc main_arg7) :=
  (sB2_keep (val9 V0) main_arg7 (by decide)).trans (val9_main_arg7 V0)
theorem val10_main_arg8 : val10 V0 (no_index (Proc.devRef .tc main_arg8)) = V0 (Proc.devRef .tc main_arg8) :=
  (sB2_keep (val9 V0) main_arg8 (by decide)).trans (val9_main_arg8 V0)
theorem val10_main_arg9 : val10 V0 (no_index (Proc.devRef .tc main_arg9)) = V0 (Proc.devRef .tc main_arg9) :=
  (sB2_keep (val9 V0) main_arg9 (by decide)).trans (val9_main_arg9 V0)
theorem val10_main_arg10 : val10 V0 (no_index (Proc.devRef .tc main_arg10)) = V0 (Proc.devRef .tc main_arg10) :=
  (sB2_keep (val9 V0) main_arg10 (by decide)).trans (val9_main_arg10 V0)
theorem val10_main_arg11 : val10 V0 (no_index (Proc.devRef .tc main_arg11)) = V0 (Proc.devRef .tc main_arg11) :=
  (sB2_keep (val9 V0) main_arg11 (by decide)).trans (val9_main_arg11 V0)
theorem val10_main_arg12 : val10 V0 (no_index (Proc.devRef .tc main_arg12)) = V0 (Proc.devRef .tc main_arg12) :=
  (sB2_keep (val9 V0) main_arg12 (by decide)).trans (val9_main_arg12 V0)
theorem val10_main_arg13 : val10 V0 (no_index (Proc.devRef .tc main_arg13)) = V0 (Proc.devRef .tc main_arg13) :=
  (sB2_keep (val9 V0) main_arg13 (by decide)).trans (val9_main_arg13 V0)
theorem val10_main_arg14 : val10 V0 (no_index (Proc.devRef .tc main_arg14)) = V0 (Proc.devRef .tc main_arg14) :=
  (sB2_keep (val9 V0) main_arg14 (by decide)).trans (val9_main_arg14 V0)
theorem val10_main_arg15 : val10 V0 (no_index (Proc.devRef .tc main_arg15)) = V0 (Proc.devRef .tc main_arg15) :=
  (sB2_keep (val9 V0) main_arg15 (by decide)).trans (val9_main_arg15 V0)
theorem val10_main_arg16 : val10 V0 (no_index (Proc.devRef .tc main_arg16)) = V0 (Proc.devRef .tc main_arg16) :=
  (sB2_keep (val9 V0) main_arg16 (by decide)).trans (val9_main_arg16 V0)
theorem val10_main_arg17 : val10 V0 (no_index (Proc.devRef .tc main_arg17)) = V0 (Proc.devRef .tc main_arg17) :=
  (sB2_keep (val9 V0) main_arg17 (by decide)).trans (val9_main_arg17 V0)
theorem val10_main_v1 : val10 V0 (no_index (Proc.devRef .tc main_v1)) = tR0 V0 :=
  (sB2_keep (val9 V0) main_v1 (by decide)).trans (val9_main_v1 V0)
theorem val10_main_v3 : val10 V0 (no_index (Proc.devRef .tc main_v3)) = tR1 V0 :=
  (sB2_keep (val9 V0) main_v3 (by decide)).trans (val9_main_v3 V0)
theorem val10_main_v11 : val10 V0 (no_index (Proc.devRef .tc main_v11)) = tEa V0 :=
  (sB2_keep (val9 V0) main_v11 (by decide)).trans (val9_main_v11 V0)
set_option maxRecDepth 8192 in
theorem val10_main_v95 : val10 V0 (no_index (Proc.devRef .tc main_v95)) = tZ2 V0 := by
  unfold val10
  simp only [sB2_main_v95, val9_main_arg8, val9_main_v78, val9_main_arg9, val9_main_arg10, val9_main_arg11]
  rfl

/-- The contents after the stretches up to sC2. -/
def val11 : Valuation τ sig (Elt Ideal) := after (sC2 (F := Ideal)) (val10 V0)
theorem val11_main_arg0 : val11 V0 (no_index (Proc.devRef .tc main_arg0)) = V0 (Proc.devRef .tc main_arg0) :=
  (sC2_keep (val10 V0) main_arg0 (by decide)).trans (val10_main_arg0 V0)
theorem val11_main_arg1 : val11 V0 (no_index (Proc.devRef .tc main_arg1)) = V0 (Proc.devRef .tc main_arg1) :=
  (sC2_keep (val10 V0) main_arg1 (by decide)).trans (val10_main_arg1 V0)
theorem val11_main_arg2 : val11 V0 (no_index (Proc.devRef .tc main_arg2)) = V0 (Proc.devRef .tc main_arg2) :=
  (sC2_keep (val10 V0) main_arg2 (by decide)).trans (val10_main_arg2 V0)
theorem val11_main_arg3 : val11 V0 (no_index (Proc.devRef .tc main_arg3)) = V0 (Proc.devRef .tc main_arg3) :=
  (sC2_keep (val10 V0) main_arg3 (by decide)).trans (val10_main_arg3 V0)
theorem val11_main_arg4 : val11 V0 (no_index (Proc.devRef .tc main_arg4)) = V0 (Proc.devRef .tc main_arg4) :=
  (sC2_keep (val10 V0) main_arg4 (by decide)).trans (val10_main_arg4 V0)
theorem val11_main_arg5 : val11 V0 (no_index (Proc.devRef .tc main_arg5)) = V0 (Proc.devRef .tc main_arg5) :=
  (sC2_keep (val10 V0) main_arg5 (by decide)).trans (val10_main_arg5 V0)
theorem val11_main_arg6 : val11 V0 (no_index (Proc.devRef .tc main_arg6)) = V0 (Proc.devRef .tc main_arg6) :=
  (sC2_keep (val10 V0) main_arg6 (by decide)).trans (val10_main_arg6 V0)
theorem val11_main_arg7 : val11 V0 (no_index (Proc.devRef .tc main_arg7)) = V0 (Proc.devRef .tc main_arg7) :=
  (sC2_keep (val10 V0) main_arg7 (by decide)).trans (val10_main_arg7 V0)
theorem val11_main_arg8 : val11 V0 (no_index (Proc.devRef .tc main_arg8)) = V0 (Proc.devRef .tc main_arg8) :=
  (sC2_keep (val10 V0) main_arg8 (by decide)).trans (val10_main_arg8 V0)
theorem val11_main_arg9 : val11 V0 (no_index (Proc.devRef .tc main_arg9)) = V0 (Proc.devRef .tc main_arg9) :=
  (sC2_keep (val10 V0) main_arg9 (by decide)).trans (val10_main_arg9 V0)
theorem val11_main_arg10 : val11 V0 (no_index (Proc.devRef .tc main_arg10)) = V0 (Proc.devRef .tc main_arg10) :=
  (sC2_keep (val10 V0) main_arg10 (by decide)).trans (val10_main_arg10 V0)
theorem val11_main_arg11 : val11 V0 (no_index (Proc.devRef .tc main_arg11)) = V0 (Proc.devRef .tc main_arg11) :=
  (sC2_keep (val10 V0) main_arg11 (by decide)).trans (val10_main_arg11 V0)
theorem val11_main_arg12 : val11 V0 (no_index (Proc.devRef .tc main_arg12)) = V0 (Proc.devRef .tc main_arg12) :=
  (sC2_keep (val10 V0) main_arg12 (by decide)).trans (val10_main_arg12 V0)
theorem val11_main_arg13 : val11 V0 (no_index (Proc.devRef .tc main_arg13)) = V0 (Proc.devRef .tc main_arg13) :=
  (sC2_keep (val10 V0) main_arg13 (by decide)).trans (val10_main_arg13 V0)
theorem val11_main_arg14 : val11 V0 (no_index (Proc.devRef .tc main_arg14)) = V0 (Proc.devRef .tc main_arg14) :=
  (sC2_keep (val10 V0) main_arg14 (by decide)).trans (val10_main_arg14 V0)
theorem val11_main_arg15 : val11 V0 (no_index (Proc.devRef .tc main_arg15)) = V0 (Proc.devRef .tc main_arg15) :=
  (sC2_keep (val10 V0) main_arg15 (by decide)).trans (val10_main_arg15 V0)
theorem val11_main_arg16 : val11 V0 (no_index (Proc.devRef .tc main_arg16)) = V0 (Proc.devRef .tc main_arg16) :=
  (sC2_keep (val10 V0) main_arg16 (by decide)).trans (val10_main_arg16 V0)
theorem val11_main_arg17 : val11 V0 (no_index (Proc.devRef .tc main_arg17)) = V0 (Proc.devRef .tc main_arg17) :=
  (sC2_keep (val10 V0) main_arg17 (by decide)).trans (val10_main_arg17 V0)
theorem val11_main_v1 : val11 V0 (no_index (Proc.devRef .tc main_v1)) = tR0 V0 :=
  (sC2_keep (val10 V0) main_v1 (by decide)).trans (val10_main_v1 V0)
theorem val11_main_v3 : val11 V0 (no_index (Proc.devRef .tc main_v3)) = tR1 V0 :=
  (sC2_keep (val10 V0) main_v3 (by decide)).trans (val10_main_v3 V0)
theorem val11_main_v11 : val11 V0 (no_index (Proc.devRef .tc main_v11)) = tEa V0 :=
  (sC2_keep (val10 V0) main_v11 (by decide)).trans (val10_main_v11 V0)
theorem val11_main_v95 : val11 V0 (no_index (Proc.devRef .tc main_v95)) = tZ2 V0 :=
  (sC2_keep (val10 V0) main_v95 (by decide)).trans (val10_main_v95 V0)
set_option maxRecDepth 8192 in
theorem val11_main_v98 : val11 V0 (no_index (Proc.devRef .tc main_v98)) = RefSpec.mean (tZ2 V0) := by
  unfold val11
  simp only [sC2_main_v98, val10_main_v95]

/-- The contents after the stretches up to sD2. -/
def val12 : Valuation τ sig (Elt Ideal) := after (sD2 (F := Ideal)) (val11 V0)
theorem val12_main_arg0 : val12 V0 (no_index (Proc.devRef .tc main_arg0)) = V0 (Proc.devRef .tc main_arg0) :=
  (sD2_keep (val11 V0) main_arg0 (by decide)).trans (val11_main_arg0 V0)
theorem val12_main_arg1 : val12 V0 (no_index (Proc.devRef .tc main_arg1)) = V0 (Proc.devRef .tc main_arg1) :=
  (sD2_keep (val11 V0) main_arg1 (by decide)).trans (val11_main_arg1 V0)
theorem val12_main_arg2 : val12 V0 (no_index (Proc.devRef .tc main_arg2)) = V0 (Proc.devRef .tc main_arg2) :=
  (sD2_keep (val11 V0) main_arg2 (by decide)).trans (val11_main_arg2 V0)
theorem val12_main_arg3 : val12 V0 (no_index (Proc.devRef .tc main_arg3)) = V0 (Proc.devRef .tc main_arg3) :=
  (sD2_keep (val11 V0) main_arg3 (by decide)).trans (val11_main_arg3 V0)
theorem val12_main_arg4 : val12 V0 (no_index (Proc.devRef .tc main_arg4)) = V0 (Proc.devRef .tc main_arg4) :=
  (sD2_keep (val11 V0) main_arg4 (by decide)).trans (val11_main_arg4 V0)
theorem val12_main_arg5 : val12 V0 (no_index (Proc.devRef .tc main_arg5)) = V0 (Proc.devRef .tc main_arg5) :=
  (sD2_keep (val11 V0) main_arg5 (by decide)).trans (val11_main_arg5 V0)
theorem val12_main_arg6 : val12 V0 (no_index (Proc.devRef .tc main_arg6)) = V0 (Proc.devRef .tc main_arg6) :=
  (sD2_keep (val11 V0) main_arg6 (by decide)).trans (val11_main_arg6 V0)
theorem val12_main_arg7 : val12 V0 (no_index (Proc.devRef .tc main_arg7)) = V0 (Proc.devRef .tc main_arg7) :=
  (sD2_keep (val11 V0) main_arg7 (by decide)).trans (val11_main_arg7 V0)
theorem val12_main_arg8 : val12 V0 (no_index (Proc.devRef .tc main_arg8)) = V0 (Proc.devRef .tc main_arg8) :=
  (sD2_keep (val11 V0) main_arg8 (by decide)).trans (val11_main_arg8 V0)
theorem val12_main_arg9 : val12 V0 (no_index (Proc.devRef .tc main_arg9)) = V0 (Proc.devRef .tc main_arg9) :=
  (sD2_keep (val11 V0) main_arg9 (by decide)).trans (val11_main_arg9 V0)
theorem val12_main_arg10 : val12 V0 (no_index (Proc.devRef .tc main_arg10)) = V0 (Proc.devRef .tc main_arg10) :=
  (sD2_keep (val11 V0) main_arg10 (by decide)).trans (val11_main_arg10 V0)
theorem val12_main_arg11 : val12 V0 (no_index (Proc.devRef .tc main_arg11)) = V0 (Proc.devRef .tc main_arg11) :=
  (sD2_keep (val11 V0) main_arg11 (by decide)).trans (val11_main_arg11 V0)
theorem val12_main_arg12 : val12 V0 (no_index (Proc.devRef .tc main_arg12)) = V0 (Proc.devRef .tc main_arg12) :=
  (sD2_keep (val11 V0) main_arg12 (by decide)).trans (val11_main_arg12 V0)
theorem val12_main_arg13 : val12 V0 (no_index (Proc.devRef .tc main_arg13)) = V0 (Proc.devRef .tc main_arg13) :=
  (sD2_keep (val11 V0) main_arg13 (by decide)).trans (val11_main_arg13 V0)
theorem val12_main_arg14 : val12 V0 (no_index (Proc.devRef .tc main_arg14)) = V0 (Proc.devRef .tc main_arg14) :=
  (sD2_keep (val11 V0) main_arg14 (by decide)).trans (val11_main_arg14 V0)
theorem val12_main_arg15 : val12 V0 (no_index (Proc.devRef .tc main_arg15)) = V0 (Proc.devRef .tc main_arg15) :=
  (sD2_keep (val11 V0) main_arg15 (by decide)).trans (val11_main_arg15 V0)
theorem val12_main_arg16 : val12 V0 (no_index (Proc.devRef .tc main_arg16)) = V0 (Proc.devRef .tc main_arg16) :=
  (sD2_keep (val11 V0) main_arg16 (by decide)).trans (val11_main_arg16 V0)
theorem val12_main_arg17 : val12 V0 (no_index (Proc.devRef .tc main_arg17)) = V0 (Proc.devRef .tc main_arg17) :=
  (sD2_keep (val11 V0) main_arg17 (by decide)).trans (val11_main_arg17 V0)
theorem val12_main_v1 : val12 V0 (no_index (Proc.devRef .tc main_v1)) = tR0 V0 :=
  (sD2_keep (val11 V0) main_v1 (by decide)).trans (val11_main_v1 V0)
theorem val12_main_v3 : val12 V0 (no_index (Proc.devRef .tc main_v3)) = tR1 V0 :=
  (sD2_keep (val11 V0) main_v3 (by decide)).trans (val11_main_v3 V0)
theorem val12_main_v11 : val12 V0 (no_index (Proc.devRef .tc main_v11)) = tEa V0 :=
  (sD2_keep (val11 V0) main_v11 (by decide)).trans (val11_main_v11 V0)
theorem val12_main_v95 : val12 V0 (no_index (Proc.devRef .tc main_v95)) = tZ2 V0 :=
  (sD2_keep (val11 V0) main_v95 (by decide)).trans (val11_main_v95 V0)
theorem val12_main_v98 : val12 V0 (no_index (Proc.devRef .tc main_v98)) = RefSpec.mean (tZ2 V0) :=
  (sD2_keep (val11 V0) main_v98 (by decide)).trans (val11_main_v98 V0)
set_option maxRecDepth 8192 in
theorem val12_main_v99 : val12 V0 (no_index (Proc.devRef .tc main_v99)) = RefSpec.var (tZ2 V0) := by
  unfold val12
  simp only [sD2_main_v99, val11_main_v95]

/-- The contents after the stretches up to sE2a, sE2b. -/
def val13 : Valuation τ sig (Elt Ideal) := after (sE2b (F := Ideal)) (after (sE2a (F := Ideal)) (val12 V0))
theorem val13_main_arg0 : val13 V0 (no_index (Proc.devRef .tc main_arg0)) = V0 (Proc.devRef .tc main_arg0) :=
  ((sE2b_keep _ main_arg0 (by decide)).trans (sE2a_keep (val12 V0) main_arg0 (by decide))).trans (val12_main_arg0 V0)
theorem val13_main_arg1 : val13 V0 (no_index (Proc.devRef .tc main_arg1)) = V0 (Proc.devRef .tc main_arg1) :=
  ((sE2b_keep _ main_arg1 (by decide)).trans (sE2a_keep (val12 V0) main_arg1 (by decide))).trans (val12_main_arg1 V0)
theorem val13_main_arg2 : val13 V0 (no_index (Proc.devRef .tc main_arg2)) = V0 (Proc.devRef .tc main_arg2) :=
  ((sE2b_keep _ main_arg2 (by decide)).trans (sE2a_keep (val12 V0) main_arg2 (by decide))).trans (val12_main_arg2 V0)
theorem val13_main_arg3 : val13 V0 (no_index (Proc.devRef .tc main_arg3)) = V0 (Proc.devRef .tc main_arg3) :=
  ((sE2b_keep _ main_arg3 (by decide)).trans (sE2a_keep (val12 V0) main_arg3 (by decide))).trans (val12_main_arg3 V0)
theorem val13_main_arg4 : val13 V0 (no_index (Proc.devRef .tc main_arg4)) = V0 (Proc.devRef .tc main_arg4) :=
  ((sE2b_keep _ main_arg4 (by decide)).trans (sE2a_keep (val12 V0) main_arg4 (by decide))).trans (val12_main_arg4 V0)
theorem val13_main_arg5 : val13 V0 (no_index (Proc.devRef .tc main_arg5)) = V0 (Proc.devRef .tc main_arg5) :=
  ((sE2b_keep _ main_arg5 (by decide)).trans (sE2a_keep (val12 V0) main_arg5 (by decide))).trans (val12_main_arg5 V0)
theorem val13_main_arg6 : val13 V0 (no_index (Proc.devRef .tc main_arg6)) = V0 (Proc.devRef .tc main_arg6) :=
  ((sE2b_keep _ main_arg6 (by decide)).trans (sE2a_keep (val12 V0) main_arg6 (by decide))).trans (val12_main_arg6 V0)
theorem val13_main_arg7 : val13 V0 (no_index (Proc.devRef .tc main_arg7)) = V0 (Proc.devRef .tc main_arg7) :=
  ((sE2b_keep _ main_arg7 (by decide)).trans (sE2a_keep (val12 V0) main_arg7 (by decide))).trans (val12_main_arg7 V0)
theorem val13_main_arg8 : val13 V0 (no_index (Proc.devRef .tc main_arg8)) = V0 (Proc.devRef .tc main_arg8) :=
  ((sE2b_keep _ main_arg8 (by decide)).trans (sE2a_keep (val12 V0) main_arg8 (by decide))).trans (val12_main_arg8 V0)
theorem val13_main_arg9 : val13 V0 (no_index (Proc.devRef .tc main_arg9)) = V0 (Proc.devRef .tc main_arg9) :=
  ((sE2b_keep _ main_arg9 (by decide)).trans (sE2a_keep (val12 V0) main_arg9 (by decide))).trans (val12_main_arg9 V0)
theorem val13_main_arg10 : val13 V0 (no_index (Proc.devRef .tc main_arg10)) = V0 (Proc.devRef .tc main_arg10) :=
  ((sE2b_keep _ main_arg10 (by decide)).trans (sE2a_keep (val12 V0) main_arg10 (by decide))).trans (val12_main_arg10 V0)
theorem val13_main_arg11 : val13 V0 (no_index (Proc.devRef .tc main_arg11)) = V0 (Proc.devRef .tc main_arg11) :=
  ((sE2b_keep _ main_arg11 (by decide)).trans (sE2a_keep (val12 V0) main_arg11 (by decide))).trans (val12_main_arg11 V0)
theorem val13_main_arg12 : val13 V0 (no_index (Proc.devRef .tc main_arg12)) = V0 (Proc.devRef .tc main_arg12) :=
  ((sE2b_keep _ main_arg12 (by decide)).trans (sE2a_keep (val12 V0) main_arg12 (by decide))).trans (val12_main_arg12 V0)
theorem val13_main_arg13 : val13 V0 (no_index (Proc.devRef .tc main_arg13)) = V0 (Proc.devRef .tc main_arg13) :=
  ((sE2b_keep _ main_arg13 (by decide)).trans (sE2a_keep (val12 V0) main_arg13 (by decide))).trans (val12_main_arg13 V0)
theorem val13_main_arg14 : val13 V0 (no_index (Proc.devRef .tc main_arg14)) = V0 (Proc.devRef .tc main_arg14) :=
  ((sE2b_keep _ main_arg14 (by decide)).trans (sE2a_keep (val12 V0) main_arg14 (by decide))).trans (val12_main_arg14 V0)
theorem val13_main_arg15 : val13 V0 (no_index (Proc.devRef .tc main_arg15)) = V0 (Proc.devRef .tc main_arg15) :=
  ((sE2b_keep _ main_arg15 (by decide)).trans (sE2a_keep (val12 V0) main_arg15 (by decide))).trans (val12_main_arg15 V0)
theorem val13_main_arg16 : val13 V0 (no_index (Proc.devRef .tc main_arg16)) = V0 (Proc.devRef .tc main_arg16) :=
  ((sE2b_keep _ main_arg16 (by decide)).trans (sE2a_keep (val12 V0) main_arg16 (by decide))).trans (val12_main_arg16 V0)
theorem val13_main_arg17 : val13 V0 (no_index (Proc.devRef .tc main_arg17)) = V0 (Proc.devRef .tc main_arg17) :=
  ((sE2b_keep _ main_arg17 (by decide)).trans (sE2a_keep (val12 V0) main_arg17 (by decide))).trans (val12_main_arg17 V0)
theorem val13_main_v1 : val13 V0 (no_index (Proc.devRef .tc main_v1)) = tR0 V0 :=
  ((sE2b_keep _ main_v1 (by decide)).trans (sE2a_keep (val12 V0) main_v1 (by decide))).trans (val12_main_v1 V0)
theorem val13_main_v3 : val13 V0 (no_index (Proc.devRef .tc main_v3)) = tR1 V0 :=
  ((sE2b_keep _ main_v3 (by decide)).trans (sE2a_keep (val12 V0) main_v3 (by decide))).trans (val12_main_v3 V0)
theorem val13_main_v11 : val13 V0 (no_index (Proc.devRef .tc main_v11)) = tEa V0 :=
  ((sE2b_keep _ main_v11 (by decide)).trans (sE2a_keep (val12 V0) main_v11 (by decide))).trans (val12_main_v11 V0)
set_option maxRecDepth 8192 in
theorem val13_main_v119 : val13 V0 (no_index (Proc.devRef .tc main_v119)) = tH2 V0 := by
  unfold val13
  rw [← after_append]
  simp only [sE2_main_v119, val12_main_arg12, val12_main_v98, val12_main_v95, val12_main_v99, val12_main_arg13]
  rfl

/-- The contents after the stretches up to sA3. -/
def val14 : Valuation τ sig (Elt Ideal) := after (sA3 (F := Ideal)) (val13 V0)
theorem val14_main_arg0 : val14 V0 (no_index (Proc.devRef .tc main_arg0)) = V0 (Proc.devRef .tc main_arg0) :=
  (sA3_keep (val13 V0) main_arg0 (by decide)).trans (val13_main_arg0 V0)
theorem val14_main_arg1 : val14 V0 (no_index (Proc.devRef .tc main_arg1)) = V0 (Proc.devRef .tc main_arg1) :=
  (sA3_keep (val13 V0) main_arg1 (by decide)).trans (val13_main_arg1 V0)
theorem val14_main_arg2 : val14 V0 (no_index (Proc.devRef .tc main_arg2)) = V0 (Proc.devRef .tc main_arg2) :=
  (sA3_keep (val13 V0) main_arg2 (by decide)).trans (val13_main_arg2 V0)
theorem val14_main_arg3 : val14 V0 (no_index (Proc.devRef .tc main_arg3)) = V0 (Proc.devRef .tc main_arg3) :=
  (sA3_keep (val13 V0) main_arg3 (by decide)).trans (val13_main_arg3 V0)
theorem val14_main_arg4 : val14 V0 (no_index (Proc.devRef .tc main_arg4)) = V0 (Proc.devRef .tc main_arg4) :=
  (sA3_keep (val13 V0) main_arg4 (by decide)).trans (val13_main_arg4 V0)
theorem val14_main_arg5 : val14 V0 (no_index (Proc.devRef .tc main_arg5)) = V0 (Proc.devRef .tc main_arg5) :=
  (sA3_keep (val13 V0) main_arg5 (by decide)).trans (val13_main_arg5 V0)
theorem val14_main_arg6 : val14 V0 (no_index (Proc.devRef .tc main_arg6)) = V0 (Proc.devRef .tc main_arg6) :=
  (sA3_keep (val13 V0) main_arg6 (by decide)).trans (val13_main_arg6 V0)
theorem val14_main_arg7 : val14 V0 (no_index (Proc.devRef .tc main_arg7)) = V0 (Proc.devRef .tc main_arg7) :=
  (sA3_keep (val13 V0) main_arg7 (by decide)).trans (val13_main_arg7 V0)
theorem val14_main_arg8 : val14 V0 (no_index (Proc.devRef .tc main_arg8)) = V0 (Proc.devRef .tc main_arg8) :=
  (sA3_keep (val13 V0) main_arg8 (by decide)).trans (val13_main_arg8 V0)
theorem val14_main_arg9 : val14 V0 (no_index (Proc.devRef .tc main_arg9)) = V0 (Proc.devRef .tc main_arg9) :=
  (sA3_keep (val13 V0) main_arg9 (by decide)).trans (val13_main_arg9 V0)
theorem val14_main_arg10 : val14 V0 (no_index (Proc.devRef .tc main_arg10)) = V0 (Proc.devRef .tc main_arg10) :=
  (sA3_keep (val13 V0) main_arg10 (by decide)).trans (val13_main_arg10 V0)
theorem val14_main_arg11 : val14 V0 (no_index (Proc.devRef .tc main_arg11)) = V0 (Proc.devRef .tc main_arg11) :=
  (sA3_keep (val13 V0) main_arg11 (by decide)).trans (val13_main_arg11 V0)
theorem val14_main_arg12 : val14 V0 (no_index (Proc.devRef .tc main_arg12)) = V0 (Proc.devRef .tc main_arg12) :=
  (sA3_keep (val13 V0) main_arg12 (by decide)).trans (val13_main_arg12 V0)
theorem val14_main_arg13 : val14 V0 (no_index (Proc.devRef .tc main_arg13)) = V0 (Proc.devRef .tc main_arg13) :=
  (sA3_keep (val13 V0) main_arg13 (by decide)).trans (val13_main_arg13 V0)
theorem val14_main_arg14 : val14 V0 (no_index (Proc.devRef .tc main_arg14)) = V0 (Proc.devRef .tc main_arg14) :=
  (sA3_keep (val13 V0) main_arg14 (by decide)).trans (val13_main_arg14 V0)
theorem val14_main_arg15 : val14 V0 (no_index (Proc.devRef .tc main_arg15)) = V0 (Proc.devRef .tc main_arg15) :=
  (sA3_keep (val13 V0) main_arg15 (by decide)).trans (val13_main_arg15 V0)
theorem val14_main_arg16 : val14 V0 (no_index (Proc.devRef .tc main_arg16)) = V0 (Proc.devRef .tc main_arg16) :=
  (sA3_keep (val13 V0) main_arg16 (by decide)).trans (val13_main_arg16 V0)
theorem val14_main_arg17 : val14 V0 (no_index (Proc.devRef .tc main_arg17)) = V0 (Proc.devRef .tc main_arg17) :=
  (sA3_keep (val13 V0) main_arg17 (by decide)).trans (val13_main_arg17 V0)
set_option maxRecDepth 8192 in
theorem val14_main_v132 : val14 V0 (no_index (Proc.devRef .tc main_v132)) = tPre3 V0 := by
  unfold val14
  simp only [sA3_main_v132, val13_main_v1, val13_main_v119, val13_main_v11, val13_main_v3]
  rfl

/-- The contents after the stretches up to sB3. -/
def val15 : Valuation τ sig (Elt Ideal) := after (sB3 (F := Ideal)) (val14 V0)
theorem val15_main_arg0 : val15 V0 (no_index (Proc.devRef .tc main_arg0)) = V0 (Proc.devRef .tc main_arg0) :=
  (sB3_keep (val14 V0) main_arg0 (by decide)).trans (val14_main_arg0 V0)
theorem val15_main_arg1 : val15 V0 (no_index (Proc.devRef .tc main_arg1)) = V0 (Proc.devRef .tc main_arg1) :=
  (sB3_keep (val14 V0) main_arg1 (by decide)).trans (val14_main_arg1 V0)
theorem val15_main_arg2 : val15 V0 (no_index (Proc.devRef .tc main_arg2)) = V0 (Proc.devRef .tc main_arg2) :=
  (sB3_keep (val14 V0) main_arg2 (by decide)).trans (val14_main_arg2 V0)
theorem val15_main_arg3 : val15 V0 (no_index (Proc.devRef .tc main_arg3)) = V0 (Proc.devRef .tc main_arg3) :=
  (sB3_keep (val14 V0) main_arg3 (by decide)).trans (val14_main_arg3 V0)
theorem val15_main_arg4 : val15 V0 (no_index (Proc.devRef .tc main_arg4)) = V0 (Proc.devRef .tc main_arg4) :=
  (sB3_keep (val14 V0) main_arg4 (by decide)).trans (val14_main_arg4 V0)
theorem val15_main_arg5 : val15 V0 (no_index (Proc.devRef .tc main_arg5)) = V0 (Proc.devRef .tc main_arg5) :=
  (sB3_keep (val14 V0) main_arg5 (by decide)).trans (val14_main_arg5 V0)
theorem val15_main_arg6 : val15 V0 (no_index (Proc.devRef .tc main_arg6)) = V0 (Proc.devRef .tc main_arg6) :=
  (sB3_keep (val14 V0) main_arg6 (by decide)).trans (val14_main_arg6 V0)
theorem val15_main_arg7 : val15 V0 (no_index (Proc.devRef .tc main_arg7)) = V0 (Proc.devRef .tc main_arg7) :=
  (sB3_keep (val14 V0) main_arg7 (by decide)).trans (val14_main_arg7 V0)
theorem val15_main_arg8 : val15 V0 (no_index (Proc.devRef .tc main_arg8)) = V0 (Proc.devRef .tc main_arg8) :=
  (sB3_keep (val14 V0) main_arg8 (by decide)).trans (val14_main_arg8 V0)
theorem val15_main_arg9 : val15 V0 (no_index (Proc.devRef .tc main_arg9)) = V0 (Proc.devRef .tc main_arg9) :=
  (sB3_keep (val14 V0) main_arg9 (by decide)).trans (val14_main_arg9 V0)
theorem val15_main_arg10 : val15 V0 (no_index (Proc.devRef .tc main_arg10)) = V0 (Proc.devRef .tc main_arg10) :=
  (sB3_keep (val14 V0) main_arg10 (by decide)).trans (val14_main_arg10 V0)
theorem val15_main_arg11 : val15 V0 (no_index (Proc.devRef .tc main_arg11)) = V0 (Proc.devRef .tc main_arg11) :=
  (sB3_keep (val14 V0) main_arg11 (by decide)).trans (val14_main_arg11 V0)
theorem val15_main_arg12 : val15 V0 (no_index (Proc.devRef .tc main_arg12)) = V0 (Proc.devRef .tc main_arg12) :=
  (sB3_keep (val14 V0) main_arg12 (by decide)).trans (val14_main_arg12 V0)
theorem val15_main_arg13 : val15 V0 (no_index (Proc.devRef .tc main_arg13)) = V0 (Proc.devRef .tc main_arg13) :=
  (sB3_keep (val14 V0) main_arg13 (by decide)).trans (val14_main_arg13 V0)
theorem val15_main_arg14 : val15 V0 (no_index (Proc.devRef .tc main_arg14)) = V0 (Proc.devRef .tc main_arg14) :=
  (sB3_keep (val14 V0) main_arg14 (by decide)).trans (val14_main_arg14 V0)
theorem val15_main_arg15 : val15 V0 (no_index (Proc.devRef .tc main_arg15)) = V0 (Proc.devRef .tc main_arg15) :=
  (sB3_keep (val14 V0) main_arg15 (by decide)).trans (val14_main_arg15 V0)
theorem val15_main_arg16 : val15 V0 (no_index (Proc.devRef .tc main_arg16)) = V0 (Proc.devRef .tc main_arg16) :=
  (sB3_keep (val14 V0) main_arg16 (by decide)).trans (val14_main_arg16 V0)
theorem val15_main_arg17 : val15 V0 (no_index (Proc.devRef .tc main_arg17)) = V0 (Proc.devRef .tc main_arg17) :=
  (sB3_keep (val14 V0) main_arg17 (by decide)).trans (val14_main_arg17 V0)
set_option maxRecDepth 8192 in
theorem val15_main_v149 : val15 V0 (no_index (Proc.devRef .tc main_v149)) = tZ3 V0 := by
  unfold val15
  simp only [sB3_main_v149, val14_main_arg8, val14_main_v132, val14_main_arg9, val14_main_arg10, val14_main_arg11]
  rfl

/-- The contents after the stretches up to sC3. -/
def val16 : Valuation τ sig (Elt Ideal) := after (sC3 (F := Ideal)) (val15 V0)
theorem val16_main_arg0 : val16 V0 (no_index (Proc.devRef .tc main_arg0)) = V0 (Proc.devRef .tc main_arg0) :=
  (sC3_keep (val15 V0) main_arg0 (by decide)).trans (val15_main_arg0 V0)
theorem val16_main_arg1 : val16 V0 (no_index (Proc.devRef .tc main_arg1)) = V0 (Proc.devRef .tc main_arg1) :=
  (sC3_keep (val15 V0) main_arg1 (by decide)).trans (val15_main_arg1 V0)
theorem val16_main_arg2 : val16 V0 (no_index (Proc.devRef .tc main_arg2)) = V0 (Proc.devRef .tc main_arg2) :=
  (sC3_keep (val15 V0) main_arg2 (by decide)).trans (val15_main_arg2 V0)
theorem val16_main_arg3 : val16 V0 (no_index (Proc.devRef .tc main_arg3)) = V0 (Proc.devRef .tc main_arg3) :=
  (sC3_keep (val15 V0) main_arg3 (by decide)).trans (val15_main_arg3 V0)
theorem val16_main_arg4 : val16 V0 (no_index (Proc.devRef .tc main_arg4)) = V0 (Proc.devRef .tc main_arg4) :=
  (sC3_keep (val15 V0) main_arg4 (by decide)).trans (val15_main_arg4 V0)
theorem val16_main_arg5 : val16 V0 (no_index (Proc.devRef .tc main_arg5)) = V0 (Proc.devRef .tc main_arg5) :=
  (sC3_keep (val15 V0) main_arg5 (by decide)).trans (val15_main_arg5 V0)
theorem val16_main_arg6 : val16 V0 (no_index (Proc.devRef .tc main_arg6)) = V0 (Proc.devRef .tc main_arg6) :=
  (sC3_keep (val15 V0) main_arg6 (by decide)).trans (val15_main_arg6 V0)
theorem val16_main_arg7 : val16 V0 (no_index (Proc.devRef .tc main_arg7)) = V0 (Proc.devRef .tc main_arg7) :=
  (sC3_keep (val15 V0) main_arg7 (by decide)).trans (val15_main_arg7 V0)
theorem val16_main_arg8 : val16 V0 (no_index (Proc.devRef .tc main_arg8)) = V0 (Proc.devRef .tc main_arg8) :=
  (sC3_keep (val15 V0) main_arg8 (by decide)).trans (val15_main_arg8 V0)
theorem val16_main_arg9 : val16 V0 (no_index (Proc.devRef .tc main_arg9)) = V0 (Proc.devRef .tc main_arg9) :=
  (sC3_keep (val15 V0) main_arg9 (by decide)).trans (val15_main_arg9 V0)
theorem val16_main_arg10 : val16 V0 (no_index (Proc.devRef .tc main_arg10)) = V0 (Proc.devRef .tc main_arg10) :=
  (sC3_keep (val15 V0) main_arg10 (by decide)).trans (val15_main_arg10 V0)
theorem val16_main_arg11 : val16 V0 (no_index (Proc.devRef .tc main_arg11)) = V0 (Proc.devRef .tc main_arg11) :=
  (sC3_keep (val15 V0) main_arg11 (by decide)).trans (val15_main_arg11 V0)
theorem val16_main_arg12 : val16 V0 (no_index (Proc.devRef .tc main_arg12)) = V0 (Proc.devRef .tc main_arg12) :=
  (sC3_keep (val15 V0) main_arg12 (by decide)).trans (val15_main_arg12 V0)
theorem val16_main_arg13 : val16 V0 (no_index (Proc.devRef .tc main_arg13)) = V0 (Proc.devRef .tc main_arg13) :=
  (sC3_keep (val15 V0) main_arg13 (by decide)).trans (val15_main_arg13 V0)
theorem val16_main_arg14 : val16 V0 (no_index (Proc.devRef .tc main_arg14)) = V0 (Proc.devRef .tc main_arg14) :=
  (sC3_keep (val15 V0) main_arg14 (by decide)).trans (val15_main_arg14 V0)
theorem val16_main_arg15 : val16 V0 (no_index (Proc.devRef .tc main_arg15)) = V0 (Proc.devRef .tc main_arg15) :=
  (sC3_keep (val15 V0) main_arg15 (by decide)).trans (val15_main_arg15 V0)
theorem val16_main_arg16 : val16 V0 (no_index (Proc.devRef .tc main_arg16)) = V0 (Proc.devRef .tc main_arg16) :=
  (sC3_keep (val15 V0) main_arg16 (by decide)).trans (val15_main_arg16 V0)
theorem val16_main_arg17 : val16 V0 (no_index (Proc.devRef .tc main_arg17)) = V0 (Proc.devRef .tc main_arg17) :=
  (sC3_keep (val15 V0) main_arg17 (by decide)).trans (val15_main_arg17 V0)
theorem val16_main_v149 : val16 V0 (no_index (Proc.devRef .tc main_v149)) = tZ3 V0 :=
  (sC3_keep (val15 V0) main_v149 (by decide)).trans (val15_main_v149 V0)
set_option maxRecDepth 8192 in
theorem val16_main_v152 : val16 V0 (no_index (Proc.devRef .tc main_v152)) = RefSpec.mean (tZ3 V0) := by
  unfold val16
  simp only [sC3_main_v152, val15_main_v149]

/-- The contents after the stretches up to sD3. -/
def val17 : Valuation τ sig (Elt Ideal) := after (sD3 (F := Ideal)) (val16 V0)
theorem val17_main_arg0 : val17 V0 (no_index (Proc.devRef .tc main_arg0)) = V0 (Proc.devRef .tc main_arg0) :=
  (sD3_keep (val16 V0) main_arg0 (by decide)).trans (val16_main_arg0 V0)
theorem val17_main_arg1 : val17 V0 (no_index (Proc.devRef .tc main_arg1)) = V0 (Proc.devRef .tc main_arg1) :=
  (sD3_keep (val16 V0) main_arg1 (by decide)).trans (val16_main_arg1 V0)
theorem val17_main_arg2 : val17 V0 (no_index (Proc.devRef .tc main_arg2)) = V0 (Proc.devRef .tc main_arg2) :=
  (sD3_keep (val16 V0) main_arg2 (by decide)).trans (val16_main_arg2 V0)
theorem val17_main_arg3 : val17 V0 (no_index (Proc.devRef .tc main_arg3)) = V0 (Proc.devRef .tc main_arg3) :=
  (sD3_keep (val16 V0) main_arg3 (by decide)).trans (val16_main_arg3 V0)
theorem val17_main_arg4 : val17 V0 (no_index (Proc.devRef .tc main_arg4)) = V0 (Proc.devRef .tc main_arg4) :=
  (sD3_keep (val16 V0) main_arg4 (by decide)).trans (val16_main_arg4 V0)
theorem val17_main_arg5 : val17 V0 (no_index (Proc.devRef .tc main_arg5)) = V0 (Proc.devRef .tc main_arg5) :=
  (sD3_keep (val16 V0) main_arg5 (by decide)).trans (val16_main_arg5 V0)
theorem val17_main_arg6 : val17 V0 (no_index (Proc.devRef .tc main_arg6)) = V0 (Proc.devRef .tc main_arg6) :=
  (sD3_keep (val16 V0) main_arg6 (by decide)).trans (val16_main_arg6 V0)
theorem val17_main_arg7 : val17 V0 (no_index (Proc.devRef .tc main_arg7)) = V0 (Proc.devRef .tc main_arg7) :=
  (sD3_keep (val16 V0) main_arg7 (by decide)).trans (val16_main_arg7 V0)
theorem val17_main_arg8 : val17 V0 (no_index (Proc.devRef .tc main_arg8)) = V0 (Proc.devRef .tc main_arg8) :=
  (sD3_keep (val16 V0) main_arg8 (by decide)).trans (val16_main_arg8 V0)
theorem val17_main_arg9 : val17 V0 (no_index (Proc.devRef .tc main_arg9)) = V0 (Proc.devRef .tc main_arg9) :=
  (sD3_keep (val16 V0) main_arg9 (by decide)).trans (val16_main_arg9 V0)
theorem val17_main_arg10 : val17 V0 (no_index (Proc.devRef .tc main_arg10)) = V0 (Proc.devRef .tc main_arg10) :=
  (sD3_keep (val16 V0) main_arg10 (by decide)).trans (val16_main_arg10 V0)
theorem val17_main_arg11 : val17 V0 (no_index (Proc.devRef .tc main_arg11)) = V0 (Proc.devRef .tc main_arg11) :=
  (sD3_keep (val16 V0) main_arg11 (by decide)).trans (val16_main_arg11 V0)
theorem val17_main_arg12 : val17 V0 (no_index (Proc.devRef .tc main_arg12)) = V0 (Proc.devRef .tc main_arg12) :=
  (sD3_keep (val16 V0) main_arg12 (by decide)).trans (val16_main_arg12 V0)
theorem val17_main_arg13 : val17 V0 (no_index (Proc.devRef .tc main_arg13)) = V0 (Proc.devRef .tc main_arg13) :=
  (sD3_keep (val16 V0) main_arg13 (by decide)).trans (val16_main_arg13 V0)
theorem val17_main_arg14 : val17 V0 (no_index (Proc.devRef .tc main_arg14)) = V0 (Proc.devRef .tc main_arg14) :=
  (sD3_keep (val16 V0) main_arg14 (by decide)).trans (val16_main_arg14 V0)
theorem val17_main_arg15 : val17 V0 (no_index (Proc.devRef .tc main_arg15)) = V0 (Proc.devRef .tc main_arg15) :=
  (sD3_keep (val16 V0) main_arg15 (by decide)).trans (val16_main_arg15 V0)
theorem val17_main_arg16 : val17 V0 (no_index (Proc.devRef .tc main_arg16)) = V0 (Proc.devRef .tc main_arg16) :=
  (sD3_keep (val16 V0) main_arg16 (by decide)).trans (val16_main_arg16 V0)
theorem val17_main_arg17 : val17 V0 (no_index (Proc.devRef .tc main_arg17)) = V0 (Proc.devRef .tc main_arg17) :=
  (sD3_keep (val16 V0) main_arg17 (by decide)).trans (val16_main_arg17 V0)
theorem val17_main_v149 : val17 V0 (no_index (Proc.devRef .tc main_v149)) = tZ3 V0 :=
  (sD3_keep (val16 V0) main_v149 (by decide)).trans (val16_main_v149 V0)
theorem val17_main_v152 : val17 V0 (no_index (Proc.devRef .tc main_v152)) = RefSpec.mean (tZ3 V0) :=
  (sD3_keep (val16 V0) main_v152 (by decide)).trans (val16_main_v152 V0)
set_option maxRecDepth 8192 in
theorem val17_main_v153 : val17 V0 (no_index (Proc.devRef .tc main_v153)) = RefSpec.var (tZ3 V0) := by
  unfold val17
  simp only [sD3_main_v153, val16_main_v149]

/-- The contents after the stretches up to sE3a, sE3b. -/
def val18 : Valuation τ sig (Elt Ideal) := after (sE3b (F := Ideal)) (after (sE3a (F := Ideal)) (val17 V0))
theorem val18_main_arg0 : val18 V0 (no_index (Proc.devRef .tc main_arg0)) = V0 (Proc.devRef .tc main_arg0) :=
  ((sE3b_keep _ main_arg0 (by decide)).trans (sE3a_keep (val17 V0) main_arg0 (by decide))).trans (val17_main_arg0 V0)
theorem val18_main_arg1 : val18 V0 (no_index (Proc.devRef .tc main_arg1)) = V0 (Proc.devRef .tc main_arg1) :=
  ((sE3b_keep _ main_arg1 (by decide)).trans (sE3a_keep (val17 V0) main_arg1 (by decide))).trans (val17_main_arg1 V0)
theorem val18_main_arg2 : val18 V0 (no_index (Proc.devRef .tc main_arg2)) = V0 (Proc.devRef .tc main_arg2) :=
  ((sE3b_keep _ main_arg2 (by decide)).trans (sE3a_keep (val17 V0) main_arg2 (by decide))).trans (val17_main_arg2 V0)
theorem val18_main_arg3 : val18 V0 (no_index (Proc.devRef .tc main_arg3)) = V0 (Proc.devRef .tc main_arg3) :=
  ((sE3b_keep _ main_arg3 (by decide)).trans (sE3a_keep (val17 V0) main_arg3 (by decide))).trans (val17_main_arg3 V0)
theorem val18_main_arg4 : val18 V0 (no_index (Proc.devRef .tc main_arg4)) = V0 (Proc.devRef .tc main_arg4) :=
  ((sE3b_keep _ main_arg4 (by decide)).trans (sE3a_keep (val17 V0) main_arg4 (by decide))).trans (val17_main_arg4 V0)
theorem val18_main_arg5 : val18 V0 (no_index (Proc.devRef .tc main_arg5)) = V0 (Proc.devRef .tc main_arg5) :=
  ((sE3b_keep _ main_arg5 (by decide)).trans (sE3a_keep (val17 V0) main_arg5 (by decide))).trans (val17_main_arg5 V0)
theorem val18_main_arg6 : val18 V0 (no_index (Proc.devRef .tc main_arg6)) = V0 (Proc.devRef .tc main_arg6) :=
  ((sE3b_keep _ main_arg6 (by decide)).trans (sE3a_keep (val17 V0) main_arg6 (by decide))).trans (val17_main_arg6 V0)
theorem val18_main_arg7 : val18 V0 (no_index (Proc.devRef .tc main_arg7)) = V0 (Proc.devRef .tc main_arg7) :=
  ((sE3b_keep _ main_arg7 (by decide)).trans (sE3a_keep (val17 V0) main_arg7 (by decide))).trans (val17_main_arg7 V0)
theorem val18_main_arg8 : val18 V0 (no_index (Proc.devRef .tc main_arg8)) = V0 (Proc.devRef .tc main_arg8) :=
  ((sE3b_keep _ main_arg8 (by decide)).trans (sE3a_keep (val17 V0) main_arg8 (by decide))).trans (val17_main_arg8 V0)
theorem val18_main_arg9 : val18 V0 (no_index (Proc.devRef .tc main_arg9)) = V0 (Proc.devRef .tc main_arg9) :=
  ((sE3b_keep _ main_arg9 (by decide)).trans (sE3a_keep (val17 V0) main_arg9 (by decide))).trans (val17_main_arg9 V0)
theorem val18_main_arg10 : val18 V0 (no_index (Proc.devRef .tc main_arg10)) = V0 (Proc.devRef .tc main_arg10) :=
  ((sE3b_keep _ main_arg10 (by decide)).trans (sE3a_keep (val17 V0) main_arg10 (by decide))).trans (val17_main_arg10 V0)
theorem val18_main_arg11 : val18 V0 (no_index (Proc.devRef .tc main_arg11)) = V0 (Proc.devRef .tc main_arg11) :=
  ((sE3b_keep _ main_arg11 (by decide)).trans (sE3a_keep (val17 V0) main_arg11 (by decide))).trans (val17_main_arg11 V0)
theorem val18_main_arg12 : val18 V0 (no_index (Proc.devRef .tc main_arg12)) = V0 (Proc.devRef .tc main_arg12) :=
  ((sE3b_keep _ main_arg12 (by decide)).trans (sE3a_keep (val17 V0) main_arg12 (by decide))).trans (val17_main_arg12 V0)
theorem val18_main_arg13 : val18 V0 (no_index (Proc.devRef .tc main_arg13)) = V0 (Proc.devRef .tc main_arg13) :=
  ((sE3b_keep _ main_arg13 (by decide)).trans (sE3a_keep (val17 V0) main_arg13 (by decide))).trans (val17_main_arg13 V0)
theorem val18_main_arg14 : val18 V0 (no_index (Proc.devRef .tc main_arg14)) = V0 (Proc.devRef .tc main_arg14) :=
  ((sE3b_keep _ main_arg14 (by decide)).trans (sE3a_keep (val17 V0) main_arg14 (by decide))).trans (val17_main_arg14 V0)
theorem val18_main_arg15 : val18 V0 (no_index (Proc.devRef .tc main_arg15)) = V0 (Proc.devRef .tc main_arg15) :=
  ((sE3b_keep _ main_arg15 (by decide)).trans (sE3a_keep (val17 V0) main_arg15 (by decide))).trans (val17_main_arg15 V0)
theorem val18_main_arg16 : val18 V0 (no_index (Proc.devRef .tc main_arg16)) = V0 (Proc.devRef .tc main_arg16) :=
  ((sE3b_keep _ main_arg16 (by decide)).trans (sE3a_keep (val17 V0) main_arg16 (by decide))).trans (val17_main_arg16 V0)
theorem val18_main_arg17 : val18 V0 (no_index (Proc.devRef .tc main_arg17)) = V0 (Proc.devRef .tc main_arg17) :=
  ((sE3b_keep _ main_arg17 (by decide)).trans (sE3a_keep (val17 V0) main_arg17 (by decide))).trans (val17_main_arg17 V0)
set_option maxRecDepth 8192 in
theorem val18_main_v173 : val18 V0 (no_index (Proc.devRef .tc main_v173)) = tH3 V0 := by
  unfold val18
  rw [← after_append]
  simp only [sE3_main_v173, val17_main_arg12, val17_main_v152, val17_main_v149, val17_main_v153, val17_main_arg13]
  rfl

/-- The contents after the stretches up to sHead. -/
def val19 : Valuation τ sig (Elt Ideal) := after (sHead (F := Ideal)) (val18 V0)
theorem val19_main_arg0 : val19 V0 (no_index (Proc.devRef .tc main_arg0)) = V0 (Proc.devRef .tc main_arg0) :=
  (sHead_keep (val18 V0) main_arg0 (by decide)).trans (val18_main_arg0 V0)
theorem val19_main_arg1 : val19 V0 (no_index (Proc.devRef .tc main_arg1)) = V0 (Proc.devRef .tc main_arg1) :=
  (sHead_keep (val18 V0) main_arg1 (by decide)).trans (val18_main_arg1 V0)
theorem val19_main_arg2 : val19 V0 (no_index (Proc.devRef .tc main_arg2)) = V0 (Proc.devRef .tc main_arg2) :=
  (sHead_keep (val18 V0) main_arg2 (by decide)).trans (val18_main_arg2 V0)
theorem val19_main_arg3 : val19 V0 (no_index (Proc.devRef .tc main_arg3)) = V0 (Proc.devRef .tc main_arg3) :=
  (sHead_keep (val18 V0) main_arg3 (by decide)).trans (val18_main_arg3 V0)
theorem val19_main_arg4 : val19 V0 (no_index (Proc.devRef .tc main_arg4)) = V0 (Proc.devRef .tc main_arg4) :=
  (sHead_keep (val18 V0) main_arg4 (by decide)).trans (val18_main_arg4 V0)
theorem val19_main_arg5 : val19 V0 (no_index (Proc.devRef .tc main_arg5)) = V0 (Proc.devRef .tc main_arg5) :=
  (sHead_keep (val18 V0) main_arg5 (by decide)).trans (val18_main_arg5 V0)
theorem val19_main_arg6 : val19 V0 (no_index (Proc.devRef .tc main_arg6)) = V0 (Proc.devRef .tc main_arg6) :=
  (sHead_keep (val18 V0) main_arg6 (by decide)).trans (val18_main_arg6 V0)
theorem val19_main_arg7 : val19 V0 (no_index (Proc.devRef .tc main_arg7)) = V0 (Proc.devRef .tc main_arg7) :=
  (sHead_keep (val18 V0) main_arg7 (by decide)).trans (val18_main_arg7 V0)
theorem val19_main_arg8 : val19 V0 (no_index (Proc.devRef .tc main_arg8)) = V0 (Proc.devRef .tc main_arg8) :=
  (sHead_keep (val18 V0) main_arg8 (by decide)).trans (val18_main_arg8 V0)
theorem val19_main_arg9 : val19 V0 (no_index (Proc.devRef .tc main_arg9)) = V0 (Proc.devRef .tc main_arg9) :=
  (sHead_keep (val18 V0) main_arg9 (by decide)).trans (val18_main_arg9 V0)
theorem val19_main_arg10 : val19 V0 (no_index (Proc.devRef .tc main_arg10)) = V0 (Proc.devRef .tc main_arg10) :=
  (sHead_keep (val18 V0) main_arg10 (by decide)).trans (val18_main_arg10 V0)
theorem val19_main_arg11 : val19 V0 (no_index (Proc.devRef .tc main_arg11)) = V0 (Proc.devRef .tc main_arg11) :=
  (sHead_keep (val18 V0) main_arg11 (by decide)).trans (val18_main_arg11 V0)
theorem val19_main_arg12 : val19 V0 (no_index (Proc.devRef .tc main_arg12)) = V0 (Proc.devRef .tc main_arg12) :=
  (sHead_keep (val18 V0) main_arg12 (by decide)).trans (val18_main_arg12 V0)
theorem val19_main_arg13 : val19 V0 (no_index (Proc.devRef .tc main_arg13)) = V0 (Proc.devRef .tc main_arg13) :=
  (sHead_keep (val18 V0) main_arg13 (by decide)).trans (val18_main_arg13 V0)
theorem val19_main_arg14 : val19 V0 (no_index (Proc.devRef .tc main_arg14)) = V0 (Proc.devRef .tc main_arg14) :=
  (sHead_keep (val18 V0) main_arg14 (by decide)).trans (val18_main_arg14 V0)
theorem val19_main_arg15 : val19 V0 (no_index (Proc.devRef .tc main_arg15)) = V0 (Proc.devRef .tc main_arg15) :=
  (sHead_keep (val18 V0) main_arg15 (by decide)).trans (val18_main_arg15 V0)
theorem val19_main_arg16 : val19 V0 (no_index (Proc.devRef .tc main_arg16)) = V0 (Proc.devRef .tc main_arg16) :=
  (sHead_keep (val18 V0) main_arg16 (by decide)).trans (val18_main_arg16 V0)
theorem val19_main_arg17 : val19 V0 (no_index (Proc.devRef .tc main_arg17)) = V0 (Proc.devRef .tc main_arg17) :=
  (sHead_keep (val18 V0) main_arg17 (by decide)).trans (val18_main_arg17 V0)
set_option maxRecDepth 8192 in
theorem val19_main_v185 : val19 V0 (no_index (Proc.devRef .tc main_v185)) = RefSpec.head (tH3 V0) (V0 (Proc.devRef .tc main_arg3) : IVec S50000 32) (V0 (Proc.devRef .tc main_arg14) : FVec Ideal S128x128 .f32) (V0 (Proc.devRef .tc main_arg15) : FVec Ideal S128 .f32) (V0 (Proc.devRef .tc main_arg16) : FVec Ideal S128x2 .f32) (V0 (Proc.devRef .tc main_arg17) : FVec Ideal S2 .f32) := by
  unfold val19
  simp only [sHead_main_v185, val18_main_arg3, val18_main_v173, val18_main_arg14, val18_main_arg15, val18_main_arg16, val18_main_arg17]

/-! ## The whole line -/

theorem after_ops : after (ops (F := Ideal)) V0 = val19 V0 := by
  simp only [ops, part0, part1, part2, part3, after_append]
  rfl

/-- The result buffer after the line: the network applied to the arguments. -/
theorem out_eq : after (ops (F := Ideal)) V0 (Proc.devRef .tc main_v185)
    = RefSpec.forward (V0 (Proc.devRef .tc main_arg0) : FVec Ideal S50000x64 .f32) (V0 (Proc.devRef .tc main_arg1) : IVec S2x600000 32) (V0 (Proc.devRef .tc main_arg2) : FVec Ideal S600000x16 .f32) (V0 (Proc.devRef .tc main_arg3) : IVec S50000 32) (V0 (Proc.devRef .tc main_arg4) : FVec Ideal S64x128 .f32) (V0 (Proc.devRef .tc main_arg5) : FVec Ideal S128 .f32) (V0 (Proc.devRef .tc main_arg6) : FVec Ideal S16x128 .f32) (V0 (Proc.devRef .tc main_arg7) : FVec Ideal S128 .f32) (V0 (Proc.devRef .tc main_arg8) : FVec Ideal S3x128x128 .f32) (V0 (Proc.devRef .tc main_arg9) : FVec Ideal S3x128 .f32) (V0 (Proc.devRef .tc main_arg10) : FVec Ideal S3x128x128 .f32) (V0 (Proc.devRef .tc main_arg11) : FVec Ideal S3x128 .f32) (V0 (Proc.devRef .tc main_arg12) : FVec Ideal S3x128 .f32) (V0 (Proc.devRef .tc main_arg13) : FVec Ideal S3x128 .f32) (V0 (Proc.devRef .tc main_arg14) : FVec Ideal S128x128 .f32) (V0 (Proc.devRef .tc main_arg15) : FVec Ideal S128 .f32) (V0 (Proc.devRef .tc main_arg16) : FVec Ideal S128x2 .f32) (V0 (Proc.devRef .tc main_arg17) : FVec Ideal S2 .f32) := by
  rw [after_ops]
  exact (val19_main_v185 V0).trans rfl
theorem main_arg0_eq : after (ops (F := Ideal)) V0 (Proc.devRef .tc main_arg0) = V0 (Proc.devRef .tc main_arg0) := by
  rw [after_ops]; exact val19_main_arg0 V0
theorem main_arg1_eq : after (ops (F := Ideal)) V0 (Proc.devRef .tc main_arg1) = V0 (Proc.devRef .tc main_arg1) := by
  rw [after_ops]; exact val19_main_arg1 V0
theorem main_arg2_eq : after (ops (F := Ideal)) V0 (Proc.devRef .tc main_arg2) = V0 (Proc.devRef .tc main_arg2) := by
  rw [after_ops]; exact val19_main_arg2 V0
theorem main_arg3_eq : after (ops (F := Ideal)) V0 (Proc.devRef .tc main_arg3) = V0 (Proc.devRef .tc main_arg3) := by
  rw [after_ops]; exact val19_main_arg3 V0
theorem main_arg4_eq : after (ops (F := Ideal)) V0 (Proc.devRef .tc main_arg4) = V0 (Proc.devRef .tc main_arg4) := by
  rw [after_ops]; exact val19_main_arg4 V0
theorem main_arg5_eq : after (ops (F := Ideal)) V0 (Proc.devRef .tc main_arg5) = V0 (Proc.devRef .tc main_arg5) := by
  rw [after_ops]; exact val19_main_arg5 V0
theorem main_arg6_eq : after (ops (F := Ideal)) V0 (Proc.devRef .tc main_arg6) = V0 (Proc.devRef .tc main_arg6) := by
  rw [after_ops]; exact val19_main_arg6 V0
theorem main_arg7_eq : after (ops (F := Ideal)) V0 (Proc.devRef .tc main_arg7) = V0 (Proc.devRef .tc main_arg7) := by
  rw [after_ops]; exact val19_main_arg7 V0
theorem main_arg8_eq : after (ops (F := Ideal)) V0 (Proc.devRef .tc main_arg8) = V0 (Proc.devRef .tc main_arg8) := by
  rw [after_ops]; exact val19_main_arg8 V0
theorem main_arg9_eq : after (ops (F := Ideal)) V0 (Proc.devRef .tc main_arg9) = V0 (Proc.devRef .tc main_arg9) := by
  rw [after_ops]; exact val19_main_arg9 V0
theorem main_arg10_eq : after (ops (F := Ideal)) V0 (Proc.devRef .tc main_arg10) = V0 (Proc.devRef .tc main_arg10) := by
  rw [after_ops]; exact val19_main_arg10 V0
theorem main_arg11_eq : after (ops (F := Ideal)) V0 (Proc.devRef .tc main_arg11) = V0 (Proc.devRef .tc main_arg11) := by
  rw [after_ops]; exact val19_main_arg11 V0
theorem main_arg12_eq : after (ops (F := Ideal)) V0 (Proc.devRef .tc main_arg12) = V0 (Proc.devRef .tc main_arg12) := by
  rw [after_ops]; exact val19_main_arg12 V0
theorem main_arg13_eq : after (ops (F := Ideal)) V0 (Proc.devRef .tc main_arg13) = V0 (Proc.devRef .tc main_arg13) := by
  rw [after_ops]; exact val19_main_arg13 V0
theorem main_arg14_eq : after (ops (F := Ideal)) V0 (Proc.devRef .tc main_arg14) = V0 (Proc.devRef .tc main_arg14) := by
  rw [after_ops]; exact val19_main_arg14 V0
theorem main_arg15_eq : after (ops (F := Ideal)) V0 (Proc.devRef .tc main_arg15) = V0 (Proc.devRef .tc main_arg15) := by
  rw [after_ops]; exact val19_main_arg15 V0
theorem main_arg16_eq : after (ops (F := Ideal)) V0 (Proc.devRef .tc main_arg16) = V0 (Proc.devRef .tc main_arg16) := by
  rw [after_ops]; exact val19_main_arg16 V0
theorem main_arg17_eq : after (ops (F := Ideal)) V0 (Proc.devRef .tc main_arg17) = V0 (Proc.devRef .tc main_arg17) := by
  rw [after_ops]; exact val19_main_arg17 V0

/-- On every device, from any memory with zero counters: every weakly fair execution of the program terminates
    with the result buffer at the network applied to the arguments' launch contents, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v185) = Cert.RefSpec.forward (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)) :=
  (θ_run defs _ _).mono (fun _ h c => ⟨(h c main_v185).trans (out_eq (launchContents m c)),
      (h c main_arg0).trans (main_arg0_eq (launchContents m c)),
      (h c main_arg1).trans (main_arg1_eq (launchContents m c)),
      (h c main_arg2).trans (main_arg2_eq (launchContents m c)),
      (h c main_arg3).trans (main_arg3_eq (launchContents m c)),
      (h c main_arg4).trans (main_arg4_eq (launchContents m c)),
      (h c main_arg5).trans (main_arg5_eq (launchContents m c)),
      (h c main_arg6).trans (main_arg6_eq (launchContents m c)),
      (h c main_arg7).trans (main_arg7_eq (launchContents m c)),
      (h c main_arg8).trans (main_arg8_eq (launchContents m c)),
      (h c main_arg9).trans (main_arg9_eq (launchContents m c)),
      (h c main_arg10).trans (main_arg10_eq (launchContents m c)),
      (h c main_arg11).trans (main_arg11_eq (launchContents m c)),
      (h c main_arg12).trans (main_arg12_eq (launchContents m c)),
      (h c main_arg13).trans (main_arg13_eq (launchContents m c)),
      (h c main_arg14).trans (main_arg14_eq (launchContents m c)),
      (h c main_arg15).trans (main_arg15_eq (launchContents m c)),
      (h c main_arg16).trans (main_arg16_eq (launchContents m c)),
      (h c main_arg17).trans (main_arg17_eq (launchContents m c))⟩)
    (run_seq scopedRefs_eq scopedSems_eq defs main (fun _ => ops) main_eq (fun _ => ops_sub) m ρ (fun _ => ops_fresh))

end Cert.RefRun

end
-- ==== Proof.PreFinite.lean ====
/-
  From the printed precondition "every float input is finite" to "every entry is a real number".  The precondition
  compares each entry's absolute value with +infinity and takes the conjunction over the array: an extended real
  whose absolute value is below +infinity is neither infinity, so it is a real number.
-/
import proofs.«157653_j15152644620445_2_alg».proof.Proof.RealVals
import Idealize.ShloMosaic.Lib.ReduceAll
import Idealize.ShloMosaic.Lib.ValueIdx
import proofs.«157653_j15152644620445_2_alg».proof.Proof.Gen.Pre_finite_inputs

noncomputable section

namespace Cert.PreFinite

open Idealize.ShloMosaic Cert.RealVals

/-- The word 0x7F800000 denotes +infinity. -/
theorem ofBits_inf : Ideal.ofBits .f32 0x7F800000#32 = (⊤ : EReal) := by
  simp [Ideal.ofBits, Ideal.ieee]

/-- An extended real whose absolute value is below +infinity is a real number. -/
theorem isReal_of_abs_lt_top (x : EReal) (h : max x (-x) < ⊤) : IsReal x := by
  induction x using EReal.rec with
  | bot => simp at h
  | coe r => exact ⟨r, rfl⟩
  | top => simp at h

instance : Subsingleton (⟨0, ![]⟩ : Shape).Idx := ⟨fun a b => funext fun d => d.elim0⟩

/-- One conjunct of the precondition: the conjunction over an array of "absolute value below +infinity" is true only
    if every entry is a real number. -/
theorem allReal_of_all {s : Shape} {axes : List (Fin s.rank)} (x : FVec Ideal s .f32)
    (hb : (⟨0, ![]⟩ : Shape).BroadcastsInDim s (![] : Fin 0 → Fin s.rank))
    (hred : s.ReducesTo axes ⟨0, ![]⟩) (hu : 0 < (⟨0, ![]⟩ : Shape).numel) (j : (⟨0, ![]⟩ : Shape).Idx)
    (e : Host.reduce IntOp.andi (cmpf .olt (Host.absf x)
          (broadcastInDim s ![] hb (constant (F := Ideal) ⟨0, ![]⟩ .f32 0x7F800000#32)))
          (constantI ⟨0, ![]⟩ 1 1#1) hred hu j = 1#1) : AllReal x := by
  intro i
  have h := Host.reduce_andi_all _ _ hred hu j e i
  apply isReal_of_abs_lt_top
  have h' : BitVec.ofBool (decide (max (x i) (-(x i)) < Ideal.ofBits .f32 0x7F800000#32)) = 1#1 := h
  rw [ofBits_inf] at h'
  by_contra hc
  rw [decide_eq_false hc] at h'
  exact absurd h' (by decide)

open Cert.Pre_finite_inputs in
/-- The whole precondition: each of the sixteen float arguments has only real entries. -/
theorem allReal_of_pre (a0 : FVec Ideal S50000x64 .f32) (a1 : IVec S2x600000 32) (a2 : FVec Ideal S600000x16 .f32) (a3 : IVec S50000 32) (a4 : FVec Ideal S64x128 .f32) (a5 : FVec Ideal S128 .f32) (a6 : FVec Ideal S16x128 .f32) (a7 : FVec Ideal S128 .f32) (a8 : FVec Ideal S3x128x128 .f32) (a9 : FVec Ideal S3x128 .f32) (a10 : FVec Ideal S3x128x128 .f32) (a11 : FVec Ideal S3x128 .f32) (a12 : FVec Ideal S3x128 .f32) (a13 : FVec Ideal S3x128 .f32) (a14 : FVec Ideal S128x128 .f32) (a15 : FVec Ideal S128 .f32) (a16 : FVec Ideal S128x2 .f32) (a17 : FVec Ideal S2 .f32)
    (h : Cert.Pre_finite_inputs.fn (F := Ideal) a0 a1 a2 a3 a4 a5 a6 a7 a8 a9 a10 a11 a12 a13 a14 a15 a16 a17 = fun _ => 1#1) :
    AllReal a0 ∧ AllReal a2 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 := by
  have h0 := congrFun h ValueIdx.ix0
  dsimp only [Cert.Pre_finite_inputs.fn, fn_part1, fn_part2, fn_part3, fn_part4, andi] at h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e2⟩ := IntOp.andi_eq_one.1 h0
  exact ⟨allReal_of_all a0 _ _ _ _ h0, allReal_of_all a2 _ _ _ _ e2, allReal_of_all a4 _ _ _ _ e4, allReal_of_all a5 _ _ _ _ e5, allReal_of_all a6 _ _ _ _ e6, allReal_of_all a7 _ _ _ _ e7, allReal_of_all a8 _ _ _ _ e8, allReal_of_all a9 _ _ _ _ e9, allReal_of_all a10 _ _ _ _ e10, allReal_of_all a11 _ _ _ _ e11, allReal_of_all a12 _ _ _ _ e12, allReal_of_all a13 _ _ _ _ e13, allReal_of_all a14 _ _ _ _ e14, allReal_of_all a15 _ _ _ _ e15, allReal_of_all a16 _ _ _ _ e16, allReal_of_all a17 _ _ _ _ e17⟩

end Cert.PreFinite

end
-- ==== Proof.lean ====
/-
  The certificate of a three-layer message-passing network (two linear encoders; per layer a gather-add-rectify
  message summed over incoming edges, a two-layer perceptron, a normalisation over the 50000 nodes by the batch mean
  and variance, a rectifier; a sum over the graphs and a two-layer head) computed by eight tiled regions among host
  operations, against the same network written with whole-array operations.

  At the extended reals the two programs differ in three ways only.  The regions multiply tiles of rows, the
  reference whole arrays: the same finite sums, entry by entry.  The regions pass the per-tile column sums of the
  perceptron's output and of its squares, which the host adds up: the column sums over all rows.  And the kernel's
  variance is the mean of the squares minus the squared mean, the reference's the mean of the squared deviations:
  equal for real numbers, by distributivity - which is where the precondition is used: finite inputs make every entry
  of every stage a real number (the stages are finite sums, products, maxima and a normalisation whose inverse
  deviation is real because a variance of reals plus a positive stabiliser is positive), layer after layer.

  The frames of the two kernel programs are the generated ones; the reference's frame is its run with the result
  dropped; the idealization rewrote nothing, so there is nothing to preserve.
-/
import proofs.«157653_j15152644620445_2_alg».proof.Defs
import proofs.«157653_j15152644620445_2_alg».proof.Proof.Gen.Kernel
import proofs.«157653_j15152644620445_2_alg».proof.Proof.Gen.Kernel.Skeleton
import proofs.«157653_j15152644620445_2_alg».proof.Proof.Gen.Kernel.Launch
import proofs.«157653_j15152644620445_2_alg».proof.Proof.Gen.Kernel.Points
import proofs.«157653_j15152644620445_2_alg».proof.Proof.Gen.Kernel.Frame
import proofs.«157653_j15152644620445_2_alg».proof.Proof.Gen.KernelIdeal
import proofs.«157653_j15152644620445_2_alg».proof.Proof.Gen.KernelIdeal.Skeleton
import proofs.«157653_j15152644620445_2_alg».proof.Proof.Gen.KernelIdeal.Launch
import proofs.«157653_j15152644620445_2_alg».proof.Proof.Gen.KernelIdeal.Points
import proofs.«157653_j15152644620445_2_alg».proof.Proof.Gen.KernelIdeal.Frame
import proofs.«157653_j15152644620445_2_alg».proof.Proof.Gen.ReferenceIdeal
import proofs.«157653_j15152644620445_2_alg».proof.Proof.Gen.Pre_finite_inputs
import proofs.«157653_j15152644620445_2_alg».proof.Proof.KRun
import proofs.«157653_j15152644620445_2_alg».proof.Proof.KValue
import proofs.«157653_j15152644620445_2_alg».proof.Proof.RefRun
import proofs.«157653_j15152644620445_2_alg».proof.Proof.PreFinite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result forgotten. -/
theorem frame_ri : Cert.frame_ReferenceIdeal := fun m ρ _ =>
  (θ_run Cert.ReferenceIdeal.defs _ _).mono (fun _ h c => (h c).2) (Cert.RefRun.run m ρ)

/-- Both programs end with the network's value at the (agreeing) arguments: the kernel's run ends at its last boundary's
    contents, which is that value wherever the float arguments are real, as the precondition makes them; the reference's
    run ends at it by its operations. -/
theorem algebraic : Cert.algebraic_KernelIdeal_ReferenceIdeal := by
  intro m ρ m' ρ' hpre hagree
  refine ⟨fun c => Cert.RefSpec.forward
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · refine (θ_run Cert.KernelIdeal.defs _ _).mono (fun r h c => ⟨(h c).1.trans ?_, (h c).2⟩) (Cert.KRun.run m ρ)
    obtain ⟨r0, r2, r4, r5, r6, r7, r8, r9, r10, r11, r12, r13, r14, r15, r16, r17⟩ := Cert.PreFinite.allReal_of_pre _ _ _ _ _ _ _ _ _ _ _ _ _ _ _ _ _ _ (hpre c)
    exact Cert.KValue.result_eq m ρ c r0 r2 r4 r5 r6 r7 r8 r9 r10 r11 r12 r13 r14 r15 r16 r17
  · refine (θ_run Cert.ReferenceIdeal.defs _ _).mono (fun r h c => ⟨(h c).1.trans ?_, (h c).2⟩) (Cert.RefRun.run m' ρ')
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
